-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1x28x28 : Shape := ⟨4, ![256, 1, 28, 28]⟩
abbrev S25x32 : Shape := ⟨2, ![25, 32]⟩
abbrev S1x32 : Shape := ⟨2, ![1, 32]⟩
abbrev S800x32 : Shape := ⟨2, ![800, 32]⟩
abbrev S800x64 : Shape := ⟨2, ![800, 64]⟩
abbrev S1x64 : Shape := ⟨2, ![1, 64]⟩
abbrev S16384x256 : Shape := ⟨2, ![16384, 256]⟩
abbrev S1x256 : Shape := ⟨2, ![1, 256]⟩
abbrev S256x10 : Shape := ⟨2, ![256, 10]⟩
abbrev S1x10 : Shape := ⟨2, ![1, 10]⟩
abbrev S_ : Shape := ⟨0, ![]⟩

class Facts : Prop where
  bcast_S_S256x1x28x28 : S_.BroadcastsInDim S256x1x28x28 (![] : Fin 0 → Fin S256x1x28x28.rank)
  reducesTo_S256x1x28x28_S_d0_1_2_3 : S256x1x28x28.ReducesTo [0, 1, 2, 3] S_
  h_S_ : 0 < S_.numel
  bcast_S_S25x32 : S_.BroadcastsInDim S25x32 (![] : Fin 0 → Fin S25x32.rank)
  reducesTo_S25x32_S_d0_1 : S25x32.ReducesTo [0, 1] S_
  bcast_S_S1x32 : S_.BroadcastsInDim S1x32 (![] : Fin 0 → Fin S1x32.rank)
  reducesTo_S1x32_S_d0_1 : S1x32.ReducesTo [0, 1] S_
  bcast_S_S800x32 : S_.BroadcastsInDim S800x32 (![] : Fin 0 → Fin S800x32.rank)
  reducesTo_S800x32_S_d0_1 : S800x32.ReducesTo [0, 1] S_
  bcast_S_S800x64 : S_.BroadcastsInDim S800x64 (![] : Fin 0 → Fin S800x64.rank)
  reducesTo_S800x64_S_d0_1 : S800x64.ReducesTo [0, 1] S_
  bcast_S_S1x64 : S_.BroadcastsInDim S1x64 (![] : Fin 0 → Fin S1x64.rank)
  reducesTo_S1x64_S_d0_1 : S1x64.ReducesTo [0, 1] S_
  bcast_S_S16384x256 : S_.BroadcastsInDim S16384x256 (![] : Fin 0 → Fin S16384x256.rank)
  reducesTo_S16384x256_S_d0_1 : S16384x256.ReducesTo [0, 1] S_
  bcast_S_S1x256 : S_.BroadcastsInDim S1x256 (![] : Fin 0 → Fin S1x256.rank)
  reducesTo_S1x256_S_d0_1 : S1x256.ReducesTo [0, 1] S_
  bcast_S_S256x10 : S_.BroadcastsInDim S256x10 (![] : Fin 0 → Fin S256x10.rank)
  reducesTo_S256x10_S_d0_1 : S256x10.ReducesTo [0, 1] S_
  bcast_S_S1x10 : S_.BroadcastsInDim S1x10 (![] : Fin 0 → Fin S1x10.rank)
  reducesTo_S1x10_S_d0_1 : S1x10.ReducesTo [0, 1] S_

variable [Facts]

def fn_part3 {F : FTy → Type} [FloatOps F] (main_v48 : IVec S_ 1) (main_v49 : FVec F S1x10 .f32) (main_v50 : FVec F S1x10 .f32) : IVec S_ 1 :=
  let main_v51 : IVec S1x10 1 := cmpf .olt main_v49 main_v50
  let main_c_19 : IVec S_ 1 := constantI S_ 1 1#1
  let main_v52 : IVec S_ 1 := (fun x v => Host.reduce IntOp.andi x v reducesTo_S1x10_S_d0_1 h_S_) main_v51 main_c_19
  let main_v53 : IVec S_ 1 := andi main_v48 main_v52
  main_v53

def fn_part2 {F : FTy → Type} [FloatOps F] (main_arg7 : FVec F S16384x256 .f32) (main_arg8 : FVec F S1x256 .f32) (main_arg9 : FVec F S256x10 .f32) (main_arg10 : FVec F S1x10 .f32) (main_v33 : IVec S_ 1) : IVec S_ 1 :=
  let main_v34 : FVec F S16384x256 .f32 := Host.absf main_arg7
  let main_cst_12 : FVec F S_ .f32 := constant S_ .f32 0x7F800000#32
  let main_v35 : FVec F S16384x256 .f32 := broadcastInDim S16384x256 ![] bcast_S_S16384x256 main_cst_12
  let main_v36 : IVec S16384x256 1 := cmpf .olt main_v34 main_v35
  let main_c_13 : IVec S_ 1 := constantI S_ 1 1#1
  let main_v37 : IVec S_ 1 := (fun x v => Host.reduce IntOp.andi x v reducesTo_S16384x256_S_d0_1 h_S_) main_v36 main_c_13
  let main_v38 : IVec S_ 1 := andi main_v33 main_v37
  let main_v39 : FVec F S1x256 .f32 := Host.absf main_arg8
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S256x10 .f32 := Host.absf main_arg9
  let main_cst_16 : FVec F S_ .f32 := constant S_ .f32 0x7F800000#32
  let main_v45 : FVec F S256x10 .f32 := broadcastInDim S256x10 ![] bcast_S_S256x10 main_cst_16
  let main_v46 : IVec S256x10 1 := cmpf .olt main_v44 main_v45
  let main_c_17 : IVec S_ 1 := constantI S_ 1 1#1
  let main_v47 : IVec S_ 1 := (fun x v => Host.reduce IntOp.andi x v reducesTo_S256x10_S_d0_1 h_S_) main_v46 main_c_17
  let main_v48 : IVec S_ 1 := andi main_v43 main_v47
  let main_v49 : FVec F S1x10 .f32 := Host.absf main_arg10
  let main_cst_18 : FVec F S_ .f32 := constant S_ .f32 0x7F800000#32
  let main_v50 : FVec F S1x10 .f32 := broadcastInDim S1x10 ![] bcast_S_S1x10 main_cst_18
  fn_part3 (F := F) main_v48 main_v49 main_v50

def fn_part1 {F : FTy → Type} [FloatOps F] (main_arg4 : FVec F S1x32 .f32) (main_arg5 : FVec F S800x64 .f32) (main_arg6 : FVec F S1x64 .f32) (main_arg7 : FVec F S16384x256 .f32) (main_arg8 : FVec F S1x256 .f32) (main_arg9 : FVec F S256x10 .f32) (main_arg10 : FVec F S1x10 .f32) (main_v13 : IVec S_ 1) (main_v16 : IVec S800x32 1) : IVec S_ 1 :=
  let main_c_5 : IVec S_ 1 := constantI S_ 1 1#1
  let main_v17 : IVec S_ 1 := (fun x v => Host.reduce IntOp.andi x v reducesTo_S800x32_S_d0_1 h_S_) main_v16 main_c_5
  let main_v18 : IVec S_ 1 := andi main_v13 main_v17
  let main_v19 : FVec F S1x32 .f32 := Host.absf main_arg4
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S800x64 .f32 := Host.absf main_arg5
  let main_cst_8 : FVec F S_ .f32 := constant S_ .f32 0x7F800000#32
  let main_v25 : FVec F S800x64 .f32 := broadcastInDim S800x64 ![] bcast_S_S800x64 main_cst_8
  let main_v26 : IVec S800x64 1 := cmpf .olt main_v24 main_v25
  let main_c_9 : IVec S_ 1 := constantI S_ 1 1#1
  let main_v27 : IVec S_ 1 := (fun x v => Host.reduce IntOp.andi x v reducesTo_S800x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S256x1x28x28 .f32) (main_arg1 : FVec F S25x32 .f32) (main_arg2 : FVec F S1x32 .f32) (main_arg3 : FVec F S800x32 .f32) (main_arg4 : FVec F S1x32 .f32) (main_arg5 : FVec F S800x64 .f32) (main_arg6 : FVec F S1x64 .f32) (main_arg7 : FVec F S16384x256 .f32) (main_arg8 : FVec F S1x256 .f32) (main_arg9 : FVec F S256x10 .f32) (main_arg10 : FVec F S1x10 .f32) : IVec S_ 1 :=
  let main_v0 : FVec F S256x1x28x28 .f32 := Host.absf main_arg0
  let main_cst : FVec F S_ .f32 := constant S_ .f32 0x7F800000#32
  let main_v1 : FVec F S256x1x28x28 .f32 := broadcastInDim S256x1x28x28 ![] bcast_S_S256x1x28x28 main_cst
  let main_v2 : IVec S256x1x28x28 1 := cmpf .olt main_v0 main_v1
  let main_c : IVec S_ 1 := constantI S_ 1 1#1
  let main_v3 : IVec S_ 1 := (fun x v => Host.reduce IntOp.andi x v reducesTo_S256x1x28x28_S_d0_1_2_3 h_S_) main_v2 main_c
  let main_v4 : FVec F S25x32 .f32 := Host.absf main_arg1
  let main_cst_0 : FVec F S_ .f32 := constant S_ .f32 0x7F800000#32
  let main_v5 : FVec F S25x32 .f32 := broadcastInDim S25x32 ![] bcast_S_S25x32 main_cst_0
  let main_v6 : IVec S25x32 1 := cmpf .olt main_v4 main_v5
  let main_c_1 : IVec S_ 1 := constantI S_ 1 1#1
  let main_v7 : IVec S_ 1 := (fun x v => Host.reduce IntOp.andi x v reducesTo_S25x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S800x32 .f32 := Host.absf main_arg3
  let main_cst_4 : FVec F S_ .f32 := constant S_ .f32 0x7F800000#32
  let main_v15 : FVec F S800x32 .f32 := broadcastInDim S800x32 ![] bcast_S_S800x32 main_cst_4
  let main_v16 : IVec S800x32 1 := cmpf .olt main_v14 main_v15
  fn_part1 (F := F) main_arg4 main_arg5 main_arg6 main_arg7 main_arg8 main_arg9 main_arg10 main_v13 main_v16
-- ==== Kernel.lean ====
abbrev S256x1x28x28 : Shape := ⟨4, ![256, 1, 28, 28]⟩
abbrev S25x32 : Shape := ⟨2, ![25, 32]⟩
abbrev S1x32 : Shape := ⟨2, ![1, 32]⟩
abbrev S800x32 : Shape := ⟨2, ![800, 32]⟩
abbrev S800x64 : Shape := ⟨2, ![800, 64]⟩
abbrev S1x64 : Shape := ⟨2, ![1, 64]⟩
abbrev S16384x256 : Shape := ⟨2, ![16384, 256]⟩
abbrev S1x256 : Shape := ⟨2, ![1, 256]⟩
abbrev S256x10 : Shape := ⟨2, ![256, 10]⟩
abbrev S1x10 : Shape := ⟨2, ![1, 10]⟩
abbrev S5x5x1x32 : Shape := ⟨4, ![5, 5, 1, 32]⟩
abbrev S_ : Shape := ⟨0, ![]⟩
abbrev S5x24x1x32 : Shape := ⟨4, ![5, 24, 1, 32]⟩
abbrev S5x29x1x32 : Shape := ⟨4, ![5, 29, 1, 32]⟩
abbrev S5x1x29x1x32 : Shape := ⟨5, ![5, 1, 29, 1, 32]⟩
abbrev S5x24x29x1x32 : Shape := ⟨5, ![5, 24, 29, 1, 32]⟩
abbrev S5x696x1x32 : Shape := ⟨4, ![5, 696, 1, 32]⟩
abbrev S5x672x1x32 : Shape := ⟨4, ![5, 672, 1, 32]⟩
abbrev S5x24x28x1x32 : Shape := ⟨5, ![5, 24, 28, 1, 32]⟩
abbrev S5x28x1x24x32 : Shape := ⟨5, ![5, 28, 1, 24, 32]⟩
abbrev S5x28x768 : Shape := ⟨3, ![5, 28, 768]⟩
abbrev S140x768 : Shape := ⟨2, ![140, 768]⟩
abbrev S5x5x32x32 : Shape := ⟨4, ![5, 5, 32, 32]⟩
abbrev S5x20x32x32 : Shape := ⟨4, ![5, 20, 32, 32]⟩
abbrev S5x25x32x32 : Shape := ⟨4, ![5, 25, 32, 32]⟩
abbrev S5x1x25x32x32 : Shape := ⟨5, ![5, 1, 25, 32, 32]⟩
abbrev S5x20x25x32x32 : Shape := ⟨5, ![5, 20, 25, 32, 32]⟩
abbrev S5x500x32x32 : Shape := ⟨4, ![5, 500, 32, 32]⟩
abbrev S5x480x32x32 : Shape := ⟨4, ![5, 480, 32, 32]⟩
abbrev S5x20x24x32x32 : Shape := ⟨5, ![5, 20, 24, 32, 32]⟩
abbrev S5x24x32x20x32 : Shape := ⟨5, ![5, 24, 32, 20, 32]⟩
abbrev S5x768x640 : Shape := ⟨3, ![5, 768, 640]⟩
abbrev S5x5x32x64 : Shape := ⟨4, ![5, 5, 32, 64]⟩
abbrev S5x16x32x64 : Shape := ⟨4, ![5, 16, 32, 64]⟩
abbrev S5x21x32x64 : Shape := ⟨4, ![5, 21, 32, 64]⟩
abbrev S5x1x21x32x64 : Shape := ⟨5, ![5, 1, 21, 32, 64]⟩
abbrev S5x16x21x32x64 : Shape := ⟨5, ![5, 16, 21, 32, 64]⟩
abbrev S5x336x32x64 : Shape := ⟨4, ![5, 336, 32, 64]⟩
abbrev S5x320x32x64 : Shape := ⟨4, ![5, 320, 32, 64]⟩
abbrev S5x16x20x32x64 : Shape := ⟨5, ![5, 16, 20, 32, 64]⟩
abbrev S5x20x32x16x64 : Shape := ⟨5, ![5, 20, 32, 16, 64]⟩
abbrev S5x640x1024 : Shape := ⟨3, ![5, 640, 1024]⟩
abbrev S1x1x1x32 : Shape := ⟨4, ![1, 1, 1, 32]⟩
abbrev S1x1x24x32 : Shape := ⟨4, ![1, 1, 24, 32]⟩
abbrev S1x768 : Shape := ⟨2, ![1, 768]⟩
abbrev S1x1x20x32 : Shape := ⟨4, ![1, 1, 20, 32]⟩
abbrev S1x640 : Shape := ⟨2, ![1, 640]⟩
abbrev S1x1x1x64 : Shape := ⟨4, ![1, 1, 1, 64]⟩
abbrev S1x1x16x64 : Shape := ⟨4, ![1, 1, 16, 64]⟩
abbrev S1x1024 : Shape := ⟨2, ![1, 1024]⟩
abbrev S16x1024x256 : Shape := ⟨3, ![16, 1024, 256]⟩
abbrev S256x28x28 : Shape := ⟨3, ![256, 28, 28]⟩
abbrev S28x256x28 : Shape := ⟨3, ![28, 256, 28]⟩
abbrev S28x32x28 : Shape := ⟨3, ![28, 32, 28]⟩
abbrev S32x10 : Shape := ⟨2, ![32, 10]⟩
abbrev S896x28 : Shape := ⟨2, ![896, 28]⟩
abbrev S768x28 : Shape := ⟨2, ![768, 28]⟩
abbrev S768x140 : Shape := ⟨2, ![768, 140]⟩
abbrev S768x768 : Shape := ⟨2, ![768, 768]⟩
abbrev S640x768 : Shape := ⟨2, ![640, 768]⟩
abbrev S1x768x640 : Shape := ⟨3, ![1, 768, 640]⟩
abbrev S768x640 : Shape := ⟨2, ![768, 640]⟩
abbrev S640x640 : Shape := ⟨2, ![640, 640]⟩
abbrev S512x640 : Shape := ⟨2, ![512, 640]⟩
abbrev S1x640x1024 : Shape := ⟨3, ![1, 640, 1024]⟩
abbrev S640x1024 : Shape := ⟨2, ![640, 1024]⟩
abbrev S512x1024 : Shape := ⟨2, ![512, 1024]⟩
abbrev S32x1024 : Shape := ⟨2, ![32, 1024]⟩
abbrev S1x1024x256 : Shape := ⟨3, ![1, 1024, 256]⟩
abbrev S1024x256 : Shape := ⟨2, ![1024, 256]⟩
abbrev S32x256 : Shape := ⟨2, ![32, 256]⟩
abbrev S32 : Shape := ⟨1, ![32]⟩
abbrev S32x1 : Shape := ⟨2, ![32, 1]⟩

abbrev nBuf : Space → Nat
  | .hbm => 64
  | .vmem => 14
  | .smem => 0
  | _ => 0

abbrev bufTy : (tb : Table) → Fin (tcTables nBuf tb) → BufTy
  | .hbm, ⟨0, _⟩ => ⟨S256x1x28x28, .f32⟩
  | .hbm, ⟨1, _⟩ => ⟨S25x32, .f32⟩
  | .hbm, ⟨2, _⟩ => ⟨S1x32, .f32⟩
  | .hbm, ⟨3, _⟩ => ⟨S800x32, .f32⟩
  | .hbm, ⟨4, _⟩ => ⟨S1x32, .f32⟩
  | .hbm, ⟨5, _⟩ => ⟨S800x64, .f32⟩
  | .hbm, ⟨6, _⟩ => ⟨S1x64, .f32⟩
  | .hbm, ⟨7, _⟩ => ⟨S16384x256, .f32⟩
  | .hbm, ⟨8, _⟩ => ⟨S1x256, .f32⟩
  | .hbm, ⟨9, _⟩ => ⟨S256x10, .f32⟩
  | .hbm, ⟨10, _⟩ => ⟨S1x10, .f32⟩
  | .hbm, ⟨11, _⟩ => ⟨S5x5x1x32, .f32⟩
  | .hbm, ⟨12, _⟩ => ⟨S5x5x1x32, .bf16⟩
  | .hbm, ⟨13, _⟩ => ⟨S_, .bf16⟩
  | .hbm, ⟨14, _⟩ => ⟨S5x24x1x32, .bf16⟩
  | .hbm, ⟨15, _⟩ => ⟨S5x29x1x32, .bf16⟩
  | .hbm, ⟨16, _⟩ => ⟨S5x1x29x1x32, .bf16⟩
  | .hbm, ⟨17, _⟩ => ⟨S5x24x29x1x32, .bf16⟩
  | .hbm, ⟨18, _⟩ => ⟨S5x696x1x32, .bf16⟩
  | .hbm, ⟨19, _⟩ => ⟨S5x672x1x32, .bf16⟩
  | .hbm, ⟨20, _⟩ => ⟨S5x24x28x1x32, .bf16⟩
  | .hbm, ⟨21, _⟩ => ⟨S5x28x1x24x32, .bf16⟩
  | .hbm, ⟨22, _⟩ => ⟨S5x28x768, .bf16⟩
  | .hbm, ⟨23, _⟩ => ⟨S140x768, .bf16⟩
  | .hbm, ⟨24, _⟩ => ⟨S5x5x32x32, .f32⟩
  | .hbm, ⟨25, _⟩ => ⟨S5x5x32x32, .bf16⟩
  | .hbm, ⟨26, _⟩ => ⟨S_, .bf16⟩
  | .hbm, ⟨27, _⟩ => ⟨S5x20x32x32, .bf16⟩
  | .hbm, ⟨28, _⟩ => ⟨S5x25x32x32, .bf16⟩
  | .hbm, ⟨29, _⟩ => ⟨S5x1x25x32x32, .bf16⟩
  | .hbm, ⟨30, _⟩ => ⟨S5x20x25x32x32, .bf16⟩
  | .hbm, ⟨31, _⟩ => ⟨S5x500x32x32, .bf16⟩
  | .hbm, ⟨32, _⟩ => ⟨S5x480x32x32, .bf16⟩
  | .hbm, ⟨33, _⟩ => ⟨S5x20x24x32x32, .bf16⟩
  | .hbm, ⟨34, _⟩ => ⟨S5x24x32x20x32, .bf16⟩
  | .hbm, ⟨35, _⟩ => ⟨S5x768x640, .bf16⟩
  | .hbm, ⟨36, _⟩ => ⟨S5x5x32x64, .f32⟩
  | .hbm, ⟨37, _⟩ => ⟨S5x5x32x64, .bf16⟩
  | .hbm, ⟨38, _⟩ => ⟨S_, .bf16⟩
  | .hbm, ⟨39, _⟩ => ⟨S5x16x32x64, .bf16⟩
  | .hbm, ⟨40, _⟩ => ⟨S5x21x32x64, .bf16⟩
  | .hbm, ⟨41, _⟩ => ⟨S5x1x21x32x64, .bf16⟩
  | .hbm, ⟨42, _⟩ => ⟨S5x16x21x32x64, .bf16⟩
  | .hbm, ⟨43, _⟩ => ⟨S5x336x32x64, .bf16⟩
  | .hbm, ⟨44, _⟩ => ⟨S5x320x32x64, .bf16⟩
  | .hbm, ⟨45, _⟩ => ⟨S5x16x20x32x64, .bf16⟩
  | .hbm, ⟨46, _⟩ => ⟨S5x20x32x16x64, .bf16⟩
  | .hbm, ⟨47, _⟩ => ⟨S5x640x1024, .bf16⟩
  | .hbm, ⟨48, _⟩ => ⟨S1x1x1x32, .f32⟩
  | .hbm, ⟨49, _⟩ => ⟨S1x1x24x32, .f32⟩
  | .hbm, ⟨50, _⟩ => ⟨S1x768, .f32⟩
  | .hbm, ⟨51, _⟩ => ⟨S1x1x1x32, .f32⟩
  | .hbm, ⟨52, _⟩ => ⟨S1x1x20x32, .f32⟩
  | .hbm, ⟨53, _⟩ => ⟨S1x640, .f32⟩
  | .hbm, ⟨54, _⟩ => ⟨S1x1x1x64, .f32⟩
  | .hbm, ⟨55, _⟩ => ⟨S1x1x16x64, .f32⟩
  | .hbm, ⟨56, _⟩ => ⟨S1x1024, .f32⟩
  | .hbm, ⟨57, _⟩ => ⟨S16x1024x256, .f32⟩
  | .hbm, ⟨58, _⟩ => ⟨S16x1024x256, .bf16⟩
  | .hbm, ⟨59, _⟩ => ⟨S256x10, .bf16⟩
  | .hbm, ⟨60, _⟩ => ⟨S256x28x28, .f32⟩
  | .hbm, ⟨61, _⟩ => ⟨S28x256x28, .f32⟩
  | .hbm, ⟨62, _⟩ => ⟨S28x256x28, .bf16⟩
  | .hbm, ⟨63, _⟩ => ⟨S256x10, .f32⟩
  | .local _ .vmem, ⟨0, _⟩ => ⟨S28x32x28, .bf16⟩
  | .local _ .vmem, ⟨1, _⟩ => ⟨S28x32x28, .bf16⟩
  | .local _ .vmem, ⟨2, _⟩ => ⟨S140x768, .bf16⟩
  | .local _ .vmem, ⟨3, _⟩ => ⟨S1x768, .f32⟩
  | .local _ .vmem, ⟨4, _⟩ => ⟨S5x768x640, .bf16⟩
  | .local _ .vmem, ⟨5, _⟩ => ⟨S1x640, .f32⟩
  | .local _ .vmem, ⟨6, _⟩ => ⟨S5x640x1024, .bf16⟩
  | .local _ .vmem, ⟨7, _⟩ => ⟨S1x1024, .f32⟩
  | .local _ .vmem, ⟨8, _⟩ => ⟨S16x1024x256, .bf16⟩
  | .local _ .vmem, ⟨9, _⟩ => ⟨S1x256, .f32⟩
  | .local _ .vmem, ⟨10, _⟩ => ⟨S256x10, .bf16⟩
  | .local _ .vmem, ⟨11, _⟩ => ⟨S1x10, .f32⟩
  | .local _ .vmem, ⟨12, _⟩ => ⟨S32x10, .f32⟩
  | .local _ .vmem, ⟨13, _⟩ => ⟨S32x10, .f32⟩
  | _, _ => ⟨S256x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S28x32x28 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S140x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x768x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x640x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S25x32_S5x5x1x32 : S25x32.ShapeCasts S5x5x1x32
  bitsLt_bf16_f32 : FTy.bits .bf16 < FTy.bits .f32
  bcast_S_S5x24x1x32 : S_.BroadcastsInDim S5x24x1x32 (![] : Fin 0 → Fin S5x24x1x32.rank)
  concatenates_S5x5x1x32_S5x24x1x32_S5x29x1x32_d1 : Shape.Concatenates [S5x5x1x32, S5x24x1x32] S5x29x1x32 1
  bcast_S5x29x1x32_S5x1x29x1x32_0_2_3_4 : S5x29x1x32.BroadcastsInDim S5x1x29x1x32 (![0, 2, 3, 4] : Fin 4 → Fin S5x1x29x1x32.rank)
  bcast_S5x1x29x1x32_S5x24x29x1x32_0_1_2_3_4 : S5x1x29x1x32.BroadcastsInDim S5x24x29x1x32 (![0, 1, 2, 3, 4] : Fin 5 → Fin S5x24x29x1x32.rank)
  shapeCasts_S5x24x29x1x32_S5x696x1x32 : S5x24x29x1x32.ShapeCasts S5x696x1x32
  slices_S5x696x1x32_S5x672x1x32_0_0_0_0 : S5x696x1x32.Slices ![0, 0, 0, 0] S5x672x1x32
  shapeCasts_S5x672x1x32_S5x24x28x1x32 : S5x672x1x32.ShapeCasts S5x24x28x1x32
  transposes_S5x24x28x1x32_S5x28x1x24x32_0_2_3_1_4 : S5x24x28x1x32.Transposes [0, 2, 3, 1, 4] S5x28x1x24x32
  shapeCasts_S5x28x1x24x32_S5x28x768 : S5x28x1x24x32.ShapeCasts S5x28x768
  shapeCasts_S5x28x768_S140x768 : S5x28x768.ShapeCasts S140x768
  shapeCasts_S800x32_S5x5x32x32 : S800x32.ShapeCasts S5x5x32x32
  bcast_S_S5x20x32x32 : S_.BroadcastsInDim S5x20x32x32 (![] : Fin 0 → Fin S5x20x32x32.rank)
  concatenates_S5x5x32x32_S5x20x32x32_S5x25x32x32_d1 : Shape.Concatenates [S5x5x32x32, S5x20x32x32] S5x25x32x32 1
  bcast_S5x25x32x32_S5x1x25x32x32_0_2_3_4 : S5x25x32x32.BroadcastsInDim S5x1x25x32x32 (![0, 2, 3, 4] : Fin 4 → Fin S5x1x25x32x32.rank)
  bcast_S5x1x25x32x32_S5x20x25x32x32_0_1_2_3_4 : S5x1x25x32x32.BroadcastsInDim S5x20x25x32x32 (![0, 1, 2, 3, 4] : Fin 5 → Fin S5x20x25x32x32.rank)
  shapeCasts_S5x20x25x32x32_S5x500x32x32 : S5x20x25x32x32.ShapeCasts S5x500x32x32
  slices_S5x500x32x32_S5x480x32x32_0_0_0_0 : S5x500x32x32.Slices ![0, 0, 0, 0] S5x480x32x32
  shapeCasts_S5x480x32x32_S5x20x24x32x32 : S5x480x32x32.ShapeCasts S5x20x24x32x32
  transposes_S5x20x24x32x32_S5x24x32x20x32_0_2_3_1_4 : S5x20x24x32x32.Transposes [0, 2, 3, 1, 4] S5x24x32x20x32
  shapeCasts_S5x24x32x20x32_S5x768x640 : S5x24x32x20x32.ShapeCasts S5x768x640
  shapeCasts_S800x64_S5x5x32x64 : S800x64.ShapeCasts S5x5x32x64
  bcast_S_S5x16x32x64 : S_.BroadcastsInDim S5x16x32x64 (![] : Fin 0 → Fin S5x16x32x64.rank)
  concatenates_S5x5x32x64_S5x16x32x64_S5x21x32x64_d1 : Shape.Concatenates [S5x5x32x64, S5x16x32x64] S5x21x32x64 1
  bcast_S5x21x32x64_S5x1x21x32x64_0_2_3_4 : S5x21x32x64.BroadcastsInDim S5x1x21x32x64 (![0, 2, 3, 4] : Fin 4 → Fin S5x1x21x32x64.rank)
  bcast_S5x1x21x32x64_S5x16x21x32x64_0_1_2_3_4 : S5x1x21x32x64.BroadcastsInDim S5x16x21x32x64 (![0, 1, 2, 3, 4] : Fin 5 → Fin S5x16x21x32x64.rank)
  shapeCasts_S5x16x21x32x64_S5x336x32x64 : S5x16x21x32x64.ShapeCasts S5x336x32x64
  slices_S5x336x32x64_S5x320x32x64_0_0_0_0 : S5x336x32x64.Slices ![0, 0, 0, 0] S5x320x32x64
  shapeCasts_S5x320x32x64_S5x16x20x32x64 : S5x320x32x64.ShapeCasts S5x16x20x32x64
  transposes_S5x16x20x32x64_S5x20x32x16x64_0_2_3_1_4 : S5x16x20x32x64.Transposes [0, 2, 3, 1, 4] S5x20x32x16x64
  shapeCasts_S5x20x32x16x64_S5x640x1024 : S5x20x32x16x64.ShapeCasts S5x640x1024
  shapeCasts_S1x32_S1x1x1x32 : S1x32.ShapeCasts S1x1x1x32
  bcast_S1x1x1x32_S1x1x24x32_0_1_2_3 : S1x1x1x32.BroadcastsInDim S1x1x24x32 (![0, 1, 2, 3] : Fin 4 → Fin S1x1x24x32.rank)
  shapeCasts_S1x1x24x32_S1x768 : S1x1x24x32.ShapeCasts S1x768
  bcast_S1x1x1x32_S1x1x20x32_0_1_2_3 : S1x1x1x32.BroadcastsInDim S1x1x20x32 (![0, 1, 2, 3] : Fin 4 → Fin S1x1x20x32.rank)
  shapeCasts_S1x1x20x32_S1x640 : S1x1x20x32.ShapeCasts S1x640
  shapeCasts_S1x64_S1x1x1x64 : S1x64.ShapeCasts S1x1x1x64
  bcast_S1x1x1x64_S1x1x16x64_0_1_2_3 : S1x1x1x64.BroadcastsInDim S1x1x16x64 (![0, 1, 2, 3] : Fin 4 → Fin S1x1x16x64.rank)
  shapeCasts_S1x1x16x64_S1x1024 : S1x1x16x64.ShapeCasts S1x1024
  shapeCasts_S16384x256_S16x1024x256 : S16384x256.ShapeCasts S16x1024x256
  shapeCasts_S256x1x28x28_S256x28x28 : S256x1x28x28.ShapeCasts S256x28x28
  transposes_S256x28x28_S28x256x28_1_0_2 : S256x28x28.Transposes [1, 0, 2] S28x256x28
  inb_S28x32x28_S28x32x28_0_0_0 : ∀ a, (![0, 0, 0] : Fin 3 → Nat) a + S28x32x28.size a ≤ S28x32x28.size a
  h_S28x32x28 : 0 < S28x32x28.numel
  shapeCasts_S28x32x28_S28x32x28 : S28x32x28.ShapeCasts S28x32x28
  shapeCasts_S28x32x28_S896x28 : S28x32x28.ShapeCasts S896x28
  slices_S896x28_o0_0_S768x28 : S896x28.Slices ![0, 0] S768x28
  slices_S896x28_o32_0_S768x28 : S896x28.Slices ![32, 0] S768x28
  slices_S896x28_o64_0_S768x28 : S896x28.Slices ![64, 0] S768x28
  slices_S896x28_o96_0_S768x28 : S896x28.Slices ![96, 0] S768x28
  slices_S896x28_o128_0_S768x28 : S896x28.Slices ![128, 0] S768x28
  concatenates_S768x28_S768x28_S768x28_S768x28_S768x28_S768x140_d1 : Shape.Concatenates [S768x28, S768x28, S768x28, S768x28, S768x28] S768x140 1
  inb_S140x768_S140x768_0_0 : ∀ a, (![0, 0] : Fin 2 → Nat) a + S140x768.size a ≤ S140x768.size a
  h_S140x768 : 0 < S140x768.numel
  shapeCasts_S140x768_S140x768 : S140x768.ShapeCasts S140x768
  inb_S1x768_S1x768_0_0 : ∀ a, (![0, 0] : Fin 2 → Nat) a + S1x768.size a ≤ S1x768.size a
  h_S1x768 : 0 < S1x768.numel
  broadcasts_S1x768_S768x768 : S1x768.Broadcasts S768x768
  slices_S768x768_o0_0_S640x768 : S768x768.Slices ![0, 0] S640x768
  inb_S5x768x640_S1x768x640_0_0_0 : ∀ a, (![0, 0, 0] : Fin 3 → Nat) a + S1x768x640.size a ≤ S5x768x640.size a
  h_S1x768x640 : 0 < S1x768x640.numel
  shapeCasts_S1x768x640_S768x640 : S1x768x640.ShapeCasts S768x640
  slices_S768x768_o32_0_S640x768 : S768x768.Slices ![32, 0] S640x768
  inb_S5x768x640_S1x768x640_1_0_0 : ∀ a, (![1, 0, 0] : Fin 3 → Nat) a + S1x768x640.size a ≤ S5x768x640.size a
  slices_S768x768_o64_0_S640x768 : S768x768.Slices ![64, 0] S640x768
  inb_S5x768x640_S1x768x640_2_0_0 : ∀ a, (![2, 0, 0] : Fin 3 → Nat) a + S1x768x640.size a ≤ S5x768x640.size a
  slices_S768x768_o96_0_S640x768 : S768x768.Slices ![96, 0] S640x768
  inb_S5x768x640_S1x768x640_3_0_0 : ∀ a, (![3, 0, 0] : Fin 3 → Nat) a + S1x768x640.size a ≤ S5x768x640.size a
  slices_S768x768_o128_0_S640x768 : S768x768.Slices ![128, 0] S640x768
  inb_S5x768x640_S1x768x640_4_0_0 : ∀ a, (![4, 0, 0] : Fin 3 → Nat) a + S1x768x640.size a ≤ S5x768x640.size a
  inb_S1x640_S1x640_0_0 : ∀ a, (![0, 0] : Fin 2 → Nat) a + S1x640.size a ≤ S1x640.size a
  h_S1x640 : 0 < S1x640.numel
  broadcasts_S1x640_S640x640 : S1x640.Broadcasts S640x640
  slices_S640x640_o0_0_S512x640 : S640x640.Slices ![0, 0] S512x640
  inb_S5x640x1024_S1x640x1024_0_0_0 : ∀ a, (![0, 0, 0] : Fin 3 → Nat) a + S1x640x1024.size a ≤ S5x640x1024.size a
  h_S1x640x1024 : 0 < S1x640x1024.numel
  shapeCasts_S1x640x1024_S640x1024 : S1x640x1024.ShapeCasts S640x1024
  slices_S640x640_o32_0_S512x640 : S640x640.Slices ![32, 0] S512x640
  inb_S5x640x1024_S1x640x1024_1_0_0 : ∀ a, (![1, 0, 0] : Fin 3 → Nat) a + S1x640x1024.size a ≤ S5x640x1024.size a
  slices_S640x640_o64_0_S512x640 : S640x640.Slices ![64, 0] S512x640
  inb_S5x640x1024_S1x640x1024_2_0_0 : ∀ a, (![2, 0, 0] : Fin 3 → Nat) a + S1x640x1024.size a ≤ S5x640x1024.size a
  slices_S640x640_o96_0_S512x640 : S640x640.Slices ![96, 0] S512x640
  inb_S5x640x1024_S1x640x1024_3_0_0 : ∀ a, (![3, 0, 0] : Fin 3 → Nat) a + S1x640x1024.size a ≤ S5x640x1024.size a
  slices_S640x640_o128_0_S512x640 : S640x640.Slices ![128, 0] S512x640
  inb_S5x640x1024_S1x640x1024_4_0_0 : ∀ a, (![4, 0, 0] : Fin 3 → Nat) a + S1x640x1024.size a ≤ S5x640x1024.size a
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  slices_S512x1024_o0_0_S32x1024 : S512x1024.Slices ![0, 0] S32x1024
  inb_S16x1024x256_S1x1024x256_0_0_0 : ∀ a, (![0, 0, 0] : Fin 3 → Nat) a + S1x1024x256.size a ≤ S16x1024x256.size a
  h_S1x1024x256 : 0 < S1x1024x256.numel
  shapeCasts_S1x1024x256_S1024x256 : S1x1024x256.ShapeCasts S1024x256
  slices_S512x1024_o32_0_S32x1024 : S512x1024.Slices ![32, 0] S32x1024
  inb_S16x1024x256_S1x1024x256_1_0_0 : ∀ a, (![1, 0, 0] : Fin 3 → Nat) a + S1x1024x256.size a ≤ S16x1024x256.size a
  slices_S512x1024_o64_0_S32x1024 : S512x1024.Slices ![64, 0] S32x1024
  inb_S16x1024x256_S1x1024x256_2_0_0 : ∀ a, (![2, 0, 0] : Fin 3 → Nat) a + S1x1024x256.size a ≤ S16x1024x256.size a
  slices_S512x1024_o96_0_S32x1024 : S512x1024.Slices ![96, 0] S32x1024
  inb_S16x1024x256_S1x1024x256_3_0_0 : ∀ a, (![3, 0, 0] : Fin 3 → Nat) a + S1x1024x256.size a ≤ S16x1024x256.size a
  slices_S512x1024_o128_0_S32x1024 : S512x1024.Slices ![128, 0] S32x1024
  inb_S16x1024x256_S1x1024x256_4_0_0 : ∀ a, (![4, 0, 0] : Fin 3 → Nat) a + S1x1024x256.size a ≤ S16x1024x256.size a
  slices_S512x1024_o160_0_S32x1024 : S512x1024.Slices ![160, 0] S32x1024
  inb_S16x1024x256_S1x1024x256_5_0_0 : ∀ a, (![5, 0, 0] : Fin 3 → Nat) a + S1x1024x256.size a ≤ S16x1024x256.size a
  slices_S512x1024_o192_0_S32x1024 : S512x1024.Slices ![192, 0] S32x1024
  inb_S16x1024x256_S1x1024x256_6_0_0 : ∀ a, (![6, 0, 0] : Fin 3 → Nat) a + S1x1024x256.size a ≤ S16x1024x256.size a
  slices_S512x1024_o224_0_S32x1024 : S512x1024.Slices ![224, 0] S32x1024
  inb_S16x1024x256_S1x1024x256_7_0_0 : ∀ a, (![7, 0, 0] : Fin 3 → Nat) a + S1x1024x256.size a ≤ S16x1024x256.size a
  slices_S512x1024_o256_0_S32x1024 : S512x1024.Slices ![256, 0] S32x1024
  inb_S16x1024x256_S1x1024x256_8_0_0 : ∀ a, (![8, 0, 0] : Fin 3 → Nat) a + S1x1024x256.size a ≤ S16x1024x256.size a
  slices_S512x1024_o288_0_S32x1024 : S512x1024.Slices ![288, 0] S32x1024
  inb_S16x1024x256_S1x1024x256_9_0_0 : ∀ a, (![9, 0, 0] : Fin 3 → Nat) a + S1x1024x256.size a ≤ S16x1024x256.size a
  slices_S512x1024_o320_0_S32x1024 : S512x1024.Slices ![320, 0] S32x1024
  inb_S16x1024x256_S1x1024x256_10_0_0 : ∀ a, (![10, 0, 0] : Fin 3 → Nat) a + S1x1024x256.size a ≤ S16x1024x256.size a
  slices_S512x1024_o352_0_S32x1024 : S512x1024.Slices ![352, 0] S32x1024
  inb_S16x1024x256_S1x1024x256_11_0_0 : ∀ a, (![11, 0, 0] : Fin 3 → Nat) a + S1x1024x256.size a ≤ S16x1024x256.size a
  slices_S512x1024_o384_0_S32x1024 : S512x1024.Slices ![384, 0] S32x1024
  inb_S16x1024x256_S1x1024x256_12_0_0 : ∀ a, (![12, 0, 0] : Fin 3 → Nat) a + S1x1024x256.size a ≤ S16x1024x256.size a
  slices_S512x1024_o416_0_S32x1024 : S512x1024.Slices ![416, 0] S32x1024
  inb_S16x1024x256_S1x1024x256_13_0_0 : ∀ a, (![13, 0, 0] : Fin 3 → Nat) a + S1x1024x256.size a ≤ S16x1024x256.size a
  slices_S512x1024_o448_0_S32x1024 : S512x1024.Slices ![448, 0] S32x1024
  inb_S16x1024x256_S1x1024x256_14_0_0 : ∀ a, (![14, 0, 0] : Fin 3 → Nat) a + S1x1024x256.size a ≤ S16x1024x256.size a
  slices_S512x1024_o480_0_S32x1024 : S512x1024.Slices ![480, 0] S32x1024
  inb_S16x1024x256_S1x1024x256_15_0_0 : ∀ a, (![15, 0, 0] : Fin 3 → Nat) a + S1x1024x256.size a ≤ S16x1024x256.size a
  inb_S1x256_S1x256_0_0 : ∀ a, (![0, 0] : Fin 2 → Nat) a + S1x256.size a ≤ S1x256.size a
  h_S1x256 : 0 < S1x256.numel
  broadcasts_S1x256_S32x256 : S1x256.Broadcasts S32x256
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S1x10_S1x10_0_0 : ∀ a, (![0, 0] : Fin 2 → Nat) a + S1x10.size a ≤ S1x10.size a
  h_S1x10 : 0 < S1x10.numel
  broadcasts_S1x10_S32x10 : S1x10.Broadcasts S32x10
  reduces_S32x10_S32 : S32x10.Reduces [1] S32
  shapeCasts_S32_S32x1 : S32.ShapeCasts S32x1
  broadcasts_S32x1_S32x10 : S32x1.Broadcasts S32x10
  inb_S32x10_S32x10_0_0 : ∀ a, (![0, 0] : Fin 2 → Nat) a + S32x10.size a ≤ S32x10.size a
  h_S32x10 : 0 < S32x10.numel
  dot_S768x140_S140x768_S768x768_1_0_0_1_n_n_wf : DotDims.WF S768x140 S140x768 S768x768 [1] [0] [0] [1] [] []
  dot_S640x768_S768x640_S640x640_1_0_0_1_n_n_wf : DotDims.WF S640x768 S768x640 S640x640 [1] [0] [0] [1] [] []
  dot_S512x640_S640x1024_S512x1024_1_0_0_1_n_n_wf : DotDims.WF S512x640 S640x1024 S512x1024 [1] [0] [0] [1] [] []
  dot_S32x1024_S1024x256_S32x256_1_0_0_1_n_n_wf : DotDims.WF S32x1024 S1024x256 S32x256 [1] [0] [0] [1] [] []
  dot_S32x256_S256x10_S32x10_1_0_0_1_n_n_wf : DotDims.WF S32x256 S256x10 S32x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S28x32x28.size a ≤ S28x256x28.size a
  hwx0_0 : ∀ i : grid0.Coords, EltTy.bits .bf16 = 32 ∨ (Rect.block (s := S28x256x28) S28x32x28.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S140x768.size a ≤ S140x768.size a
  hwx0_1 : ∀ i : grid0.Coords, EltTy.bits .bf16 = 32 ∨ (Rect.block (s := S140x768) S140x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x768x640.size a ≤ S5x768x640.size a
  hwx0_3 : ∀ i : grid0.Coords, EltTy.bits .bf16 = 32 ∨ (Rect.block (s := S5x768x640) S5x768x640.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x640.size a ≤ S1x640.size a
  hwx0_4 : ∀ i : grid0.Coords, EltTy.bits .f32 = 32 ∨ (Rect.block (s := S1x640) S1x640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x640x1024.size a ≤ S5x640x1024.size a
  hwx0_5 : ∀ i : grid0.Coords, EltTy.bits .bf16 = 32 ∨ (Rect.block (s := S5x640x1024) S5x640x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1024x256.size a ≤ S16x1024x256.size a
  hwx0_7 : ∀ i : grid0.Coords, EltTy.bits .bf16 = 32 ∨ (Rect.block (s := S16x1024x256) S16x1024x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x10.size a ≤ S256x10.size a
  hwx0_9 : ∀ i : grid0.Coords, EltTy.bits .bf16 = 32 ∨ (Rect.block (s := S256x10) S256x10.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x10.size a ≤ S256x10.size a
  hwx0_11 : ∀ i : grid0.Coords, EltTy.bits .f32 = 32 ∨ (Rect.block (s := S256x10) S32x10.size (cc0_transform_11 i) (hinb0_11 i)).WholeWords (EltTy.packing .f32)

variable [Facts₀]

def dot_S768x140_S140x768_S768x768_1_0_0_1_n_n : DotDims S768x140 S140x768 S768x768 where
  lhsContracting := [1]
  rhsContracting := [0]
  lhsNonContracting := [0]
  rhsNonContracting := [1]
  lhsBatch := []
  rhsBatch := []
  wf := dot_S768x140_S140x768_S768x768_1_0_0_1_n_n_wf
def dot_S640x768_S768x640_S640x640_1_0_0_1_n_n : DotDims S640x768 S768x640 S640x640 where
  lhsContracting := [1]
  rhsContracting := [0]
  lhsNonContracting := [0]
  rhsNonContracting := [1]
  lhsBatch := []
  rhsBatch := []
  wf := dot_S640x768_S768x640_S640x640_1_0_0_1_n_n_wf
def dot_S512x640_S640x1024_S512x1024_1_0_0_1_n_n : DotDims S512x640 S640x1024 S512x1024 where
  lhsContracting := [1]
  rhsContracting := [0]
  lhsNonContracting := [0]
  rhsNonContracting := [1]
  lhsBatch := []
  rhsBatch := []
  wf := dot_S512x640_S640x1024_S512x1024_1_0_0_1_n_n_wf
def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf
def dot_S32x256_S256x10_S32x10_1_0_0_1_n_n : DotDims S32x256 S256x10 S32x10 where
  lhsContracting := [1]
  rhsContracting := [0]
  lhsNonContracting := [0]
  rhsNonContracting := [1]
  lhsBatch := []
  rhsBatch := []
  wf := dot_S32x256_S256x10_S32x10_1_0_0_1_n_n_wf

abbrev win0_0 : Pipeline.Window sig grid0 :=
  Pipeline.Window.ofSpec (Memref.whole main_v48) S28x32x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S140x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5x768x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5x640x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S16x1024x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S256x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v49) S32x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S256x1x28x28 : Shape := ⟨4, ![256, 1, 28, 28]⟩
abbrev S25x32 : Shape := ⟨2, ![25, 32]⟩
abbrev S1x32 : Shape := ⟨2, ![1, 32]⟩
abbrev S800x32 : Shape := ⟨2, ![800, 32]⟩
abbrev S800x64 : Shape := ⟨2, ![800, 64]⟩
abbrev S1x64 : Shape := ⟨2, ![1, 64]⟩
abbrev S16384x256 : Shape := ⟨2, ![16384, 256]⟩
abbrev S1x256 : Shape := ⟨2, ![1, 256]⟩
abbrev S256x10 : Shape := ⟨2, ![256, 10]⟩
abbrev S1x10 : Shape := ⟨2, ![1, 10]⟩
abbrev S256x28x28x1 : Shape := ⟨4, ![256, 28, 28, 1]⟩
abbrev S256x24x24x1 : Shape := ⟨4, ![256, 24, 24, 1]⟩
abbrev S256x24x24x1x1 : Shape := ⟨5, ![256, 24, 24, 1, 1]⟩
abbrev S256x24x24x16x1 : Shape := ⟨5, ![256, 24, 24, 16, 1]⟩
abbrev S256x24x24x9x1 : Shape := ⟨5, ![256, 24, 24, 9, 1]⟩
abbrev S256x24x24x25x1 : Shape := ⟨5, ![256, 24, 24, 25, 1]⟩
abbrev S147456x25 : Shape := ⟨2, ![147456, 25]⟩
abbrev S147456x32 : Shape := ⟨2, ![147456, 32]⟩
abbrev S384x25 : Shape := ⟨2, ![384, 25]⟩
abbrev S384x32 : Shape := ⟨2, ![384, 32]⟩
abbrev S256x24x24x32 : Shape := ⟨4, ![256, 24, 24, 32]⟩
abbrev S256x20x20x32 : Shape := ⟨4, ![256, 20, 20, 32]⟩
abbrev S256x20x20x1x32 : Shape := ⟨5, ![256, 20, 20, 1, 32]⟩
abbrev S256x20x20x16x32 : Shape := ⟨5, ![256, 20, 20, 16, 32]⟩
abbrev S256x20x20x9x32 : Shape := ⟨5, ![256, 20, 20, 9, 32]⟩
abbrev S256x20x20x25x32 : Shape := ⟨5, ![256, 20, 20, 25, 32]⟩
abbrev S102400x800 : Shape := ⟨2, ![102400, 800]⟩
abbrev S102400x32 : Shape := ⟨2, ![102400, 32]⟩
abbrev S320x800 : Shape := ⟨2, ![320, 800]⟩
abbrev S320x32 : Shape := ⟨2, ![320, 32]⟩
abbrev S256x16x16x32 : Shape := ⟨4, ![256, 16, 16, 32]⟩
abbrev S256x16x16x1x32 : Shape := ⟨5, ![256, 16, 16, 1, 32]⟩
abbrev S256x16x16x16x32 : Shape := ⟨5, ![256, 16, 16, 16, 32]⟩
abbrev S256x16x16x9x32 : Shape := ⟨5, ![256, 16, 16, 9, 32]⟩
abbrev S256x16x16x25x32 : Shape := ⟨5, ![256, 16, 16, 25, 32]⟩
abbrev S65536x800 : Shape := ⟨2, ![65536, 800]⟩
abbrev S65536x64 : Shape := ⟨2, ![65536, 64]⟩
abbrev S256x800 : Shape := ⟨2, ![256, 800]⟩
abbrev S256x64 : Shape := ⟨2, ![256, 64]⟩
abbrev S256x16x16x64 : Shape := ⟨4, ![256, 16, 16, 64]⟩
abbrev S256x16384 : Shape := ⟨2, ![256, 16384]⟩
abbrev S256x4096 : Shape := ⟨2, ![256, 4096]⟩
abbrev S4096x256 : Shape := ⟨2, ![4096, 256]⟩
abbrev S256x256 : Shape := ⟨2, ![256, 256]⟩
abbrev S256 : Shape := ⟨1, ![256]⟩
abbrev S256x1 : Shape := ⟨2, ![256, 1]⟩

abbrev nBuf : Space → Nat
  | .hbm => 182
  | .vmem => 27
  | .smem => 0
  | _ => 0

abbrev hbmTy0_0 (i : Nat) : BufTy := match i % 128 with
  | 0 => ⟨S256x1x28x28, .f32⟩
  | 1 => ⟨S25x32, .f32⟩
  | 2 => ⟨S1x32, .f32⟩
  | 3 => ⟨S800x32, .f32⟩
  | 4 => ⟨S1x32, .f32⟩
  | 5 => ⟨S800x64, .f32⟩
  | 6 => ⟨S1x64, .f32⟩
  | 7 => ⟨S16384x256, .f32⟩
  | 8 => ⟨S1x256, .f32⟩
  | 9 => ⟨S256x10, .f32⟩
  | 10 => ⟨S1x10, .f32⟩
  | 11 => ⟨S256x28x28x1, .f32⟩
  | 12 => ⟨S256x24x24x1, .f32⟩
  | 13 => ⟨S256x24x24x1, .f32⟩
  | 14 => ⟨S256x24x24x1, .f32⟩
  | 15 => ⟨S256x24x24x1, .f32⟩
  | 16 => ⟨S256x24x24x1, .f32⟩
  | 17 => ⟨S256x24x24x1, .f32⟩
  | 18 => ⟨S256x24x24x1, .f32⟩
  | 19 => ⟨S256x24x24x1, .f32⟩
  | 20 => ⟨S256x24x24x1, .f32⟩
  | 21 => ⟨S256x24x24x1, .f32⟩
  | 22 => ⟨S256x24x24x1, .f32⟩
  | 23 => ⟨S256x24x24x1, .f32⟩
  | 24 => ⟨S256x24x24x1, .f32⟩
  | 25 => ⟨S256x24x24x1, .f32⟩
  | 26 => ⟨S256x24x24x1, .f32⟩
  | 27 => ⟨S256x24x24x1, .f32⟩
  | 28 => ⟨S256x24x24x1, .f32⟩
  | 29 => ⟨S256x24x24x1, .f32⟩
  | 30 => ⟨S256x24x24x1, .f32⟩
  | 31 => ⟨S256x24x24x1, .f32⟩
  | 32 => ⟨S256x24x24x1, .f32⟩
  | 33 => ⟨S256x24x24x1, .f32⟩
  | 34 => ⟨S256x24x24x1, .f32⟩
  | 35 => ⟨S256x24x24x1, .f32⟩
  | 36 => ⟨S256x24x24x1, .f32⟩
  | 37 => ⟨S256x24x24x1x1, .f32⟩
  | 38 => ⟨S256x24x24x1x1, .f32⟩
  | 39 => ⟨S256x24x24x1x1, .f32⟩
  | 40 => ⟨S256x24x24x1x1, .f32⟩
  | 41 => ⟨S256x24x24x1x1, .f32⟩
  | 42 => ⟨S256x24x24x1x1, .f32⟩
  | 43 => ⟨S256x24x24x1x1, .f32⟩
  | 44 => ⟨S256x24x24x1x1, .f32⟩
  | 45 => ⟨S256x24x24x1x1, .f32⟩
  | 46 => ⟨S256x24x24x1x1, .f32⟩
  | 47 => ⟨S256x24x24x1x1, .f32⟩
  | 48 => ⟨S256x24x24x1x1, .f32⟩
  | 49 => ⟨S256x24x24x1x1, .f32⟩
  | 50 => ⟨S256x24x24x1x1, .f32⟩
  | 51 => ⟨S256x24x24x1x1, .f32⟩
  | 52 => ⟨S256x24x24x1x1, .f32⟩
  | 53 => ⟨S256x24x24x1x1, .f32⟩
  | 54 => ⟨S256x24x24x1x1, .f32⟩
  | 55 => ⟨S256x24x24x1x1, .f32⟩
  | 56 => ⟨S256x24x24x1x1, .f32⟩
  | 57 => ⟨S256x24x24x1x1, .f32⟩
  | 58 => ⟨S256x24x24x1x1, .f32⟩
  | 59 => ⟨S256x24x24x1x1, .f32⟩
  | 60 => ⟨S256x24x24x1x1, .f32⟩
  | 61 => ⟨S256x24x24x1x1, .f32⟩
  | 62 => ⟨S256x24x24x16x1, .f32⟩
  | 63 => ⟨S256x24x24x9x1, .f32⟩
  | 64 => ⟨S256x24x24x25x1, .f32⟩
  | 65 => ⟨S147456x25, .f32⟩
  | 66 => ⟨S147456x32, .f32⟩
  | 67 => ⟨S256x24x24x32, .f32⟩
  | 68 => ⟨S256x20x20x32, .f32⟩
  | 69 => ⟨S256x20x20x32, .f32⟩
  | 70 => ⟨S256x20x20x32, .f32⟩
  | 71 => ⟨S256x20x20x32, .f32⟩
  | 72 => ⟨S256x20x20x32, .f32⟩
  | 73 => ⟨S256x20x20x32, .f32⟩
  | 74 => ⟨S256x20x20x32, .f32⟩
  | 75 => ⟨S256x20x20x32, .f32⟩
  | 76 => ⟨S256x20x20x32, .f32⟩
  | 77 => ⟨S256x20x20x32, .f32⟩
  | 78 => ⟨S256x20x20x32, .f32⟩
  | 79 => ⟨S256x20x20x32, .f32⟩
  | 80 => ⟨S256x20x20x32, .f32⟩
  | 81 => ⟨S256x20x20x32, .f32⟩
  | 82 => ⟨S256x20x20x32, .f32⟩
  | 83 => ⟨S256x20x20x32, .f32⟩
  | 84 => ⟨S256x20x20x32, .f32⟩
  | 85 => ⟨S256x20x20x32, .f32⟩
  | 86 => ⟨S256x20x20x32, .f32⟩
  | 87 => ⟨S256x20x20x32, .f32⟩
  | 88 => ⟨S256x20x20x32, .f32⟩
  | 89 => ⟨S256x20x20x32, .f32⟩
  | 90 => ⟨S256x20x20x32, .f32⟩
  | 91 => ⟨S256x20x20x32, .f32⟩
  | 92 => ⟨S256x20x20x32, .f32⟩
  | 93 => ⟨S256x20x20x1x32, .f32⟩
  | 94 => ⟨S256x20x20x1x32, .f32⟩
  | 95 => ⟨S256x20x20x1x32, .f32⟩
  | 96 => ⟨S256x20x20x1x32, .f32⟩
  | 97 => ⟨S256x20x20x1x32, .f32⟩
  | 98 => ⟨S256x20x20x1x32, .f32⟩
  | 99 => ⟨S256x20x20x1x32, .f32⟩
  | 100 => ⟨S256x20x20x1x32, .f32⟩
  | 101 => ⟨S256x20x20x1x32, .f32⟩
  | 102 => ⟨S256x20x20x1x32, .f32⟩
  | 103 => ⟨S256x20x20x1x32, .f32⟩
  | 104 => ⟨S256x20x20x1x32, .f32⟩
  | 105 => ⟨S256x20x20x1x32, .f32⟩
  | 106 => ⟨S256x20x20x1x32, .f32⟩
  | 107 => ⟨S256x20x20x1x32, .f32⟩
  | 108 => ⟨S256x20x20x1x32, .f32⟩
  | 109 => ⟨S256x20x20x1x32, .f32⟩
  | 110 => ⟨S256x20x20x1x32, .f32⟩
  | 111 => ⟨S256x20x20x1x32, .f32⟩
  | 112 => ⟨S256x20x20x1x32, .f32⟩
  | 113 => ⟨S256x20x20x1x32, .f32⟩
  | 114 => ⟨S256x20x20x1x32, .f32⟩
  | 115 => ⟨S256x20x20x1x32, .f32⟩
  | 116 => ⟨S256x20x20x1x32, .f32⟩
  | 117 => ⟨S256x20x20x1x32, .f32⟩
  | 118 => ⟨S256x20x20x16x32, .f32⟩
  | 119 => ⟨S256x20x20x9x32, .f32⟩
  | 120 => ⟨S256x20x20x25x32, .f32⟩
  | 121 => ⟨S102400x800, .f32⟩
  | 122 => ⟨S102400x32, .f32⟩
  | 123 => ⟨S256x20x20x32, .f32⟩
  | 124 => ⟨S256x16x16x32, .f32⟩
  | 125 => ⟨S256x16x16x32, .f32⟩
  | 126 => ⟨S256x16x16x32, .f32⟩
  | 127 => ⟨S256x16x16x32, .f32⟩
  | _ => ⟨S256x1x28x28, .f32⟩

abbrev hbmTy0_1 (i : Nat) : BufTy := match i % 128 with
  | 0 => ⟨S256x16x16x32, .f32⟩
  | 1 => ⟨S256x16x16x32, .f32⟩
  | 2 => ⟨S256x16x16x32, .f32⟩
  | 3 => ⟨S256x16x16x32, .f32⟩
  | 4 => ⟨S256x16x16x32, .f32⟩
  | 5 => ⟨S256x16x16x32, .f32⟩
  | 6 => ⟨S256x16x16x32, .f32⟩
  | 7 => ⟨S256x16x16x32, .f32⟩
  | 8 => ⟨S256x16x16x32, .f32⟩
  | 9 => ⟨S256x16x16x32, .f32⟩
  | 10 => ⟨S256x16x16x32, .f32⟩
  | 11 => ⟨S256x16x16x32, .f32⟩
  | 12 => ⟨S256x16x16x32, .f32⟩
  | 13 => ⟨S256x16x16x32, .f32⟩
  | 14 => ⟨S256x16x16x32, .f32⟩
  | 15 => ⟨S256x16x16x32, .f32⟩
  | 16 => ⟨S256x16x16x32, .f32⟩
  | 17 => ⟨S256x16x16x32, .f32⟩
  | 18 => ⟨S256x16x16x32, .f32⟩
  | 19 => ⟨S256x16x16x32, .f32⟩
  | 20 => ⟨S256x16x16x32, .f32⟩
  | 21 => ⟨S256x16x16x1x32, .f32⟩
  | 22 => ⟨S256x16x16x1x32, .f32⟩
  | 23 => ⟨S256x16x16x1x32, .f32⟩
  | 24 => ⟨S256x16x16x1x32, .f32⟩
  | 25 => ⟨S256x16x16x1x32, .f32⟩
  | 26 => ⟨S256x16x16x1x32, .f32⟩
  | 27 => ⟨S256x16x16x1x32, .f32⟩
  | 28 => ⟨S256x16x16x1x32, .f32⟩
  | 29 => ⟨S256x16x16x1x32, .f32⟩
  | 30 => ⟨S256x16x16x1x32, .f32⟩
  | 31 => ⟨S256x16x16x1x32, .f32⟩
  | 32 => ⟨S256x16x16x1x32, .f32⟩
  | 33 => ⟨S256x16x16x1x32, .f32⟩
  | 34 => ⟨S256x16x16x1x32, .f32⟩
  | 35 => ⟨S256x16x16x1x32, .f32⟩
  | 36 => ⟨S256x16x16x1x32, .f32⟩
  | 37 => ⟨S256x16x16x1x32, .f32⟩
  | 38 => ⟨S256x16x16x1x32, .f32⟩
  | 39 => ⟨S256x16x16x1x32, .f32⟩
  | 40 => ⟨S256x16x16x1x32, .f32⟩
  | 41 => ⟨S256x16x16x1x32, .f32⟩
  | 42 => ⟨S256x16x16x1x32, .f32⟩
  | 43 => ⟨S256x16x16x1x32, .f32⟩
  | 44 => ⟨S256x16x16x1x32, .f32⟩
  | 45 => ⟨S256x16x16x1x32, .f32⟩
  | 46 => ⟨S256x16x16x16x32, .f32⟩
  | 47 => ⟨S256x16x16x9x32, .f32⟩
  | 48 => ⟨S256x16x16x25x32, .f32⟩
  | 49 => ⟨S65536x800, .f32⟩
  | 50 => ⟨S65536x64, .f32⟩
  | 51 => ⟨S256x16x16x64, .f32⟩
  | 52 => ⟨S256x16384, .f32⟩
  | 53 => ⟨S256x10, .f32⟩
  | _ => ⟨S256x1x28x28, .f32⟩

abbrev hbmTy (i : Nat) : BufTy := match i / 128 with
  | 0 => hbmTy0_0 i
  | 1 => hbmTy0_1 i
  | _ => ⟨S256x1x28x28, .f32⟩

abbrev bufTy : (tb : Table) → Fin (tcTables nBuf tb) → BufTy
  | .hbm, ⟨i, _⟩ => hbmTy i
  | .local _ .vmem, ⟨0, _⟩ => ⟨S384x25, .f32⟩
  | .local _ .vmem, ⟨1, _⟩ => ⟨S384x25, .f32⟩
  | .local _ .vmem, ⟨2, _⟩ => ⟨S25x32, .f32⟩
  | .local _ .vmem, ⟨3, _⟩ => ⟨S1x32, .f32⟩
  | .local _ .vmem, ⟨4, _⟩ => ⟨S384x32, .f32⟩
  | .local _ .vmem, ⟨5, _⟩ => ⟨S384x32, .f32⟩
  | .local _ .vmem, ⟨6, _⟩ => ⟨S320x800, .f32⟩
  | .local _ .vmem, ⟨7, _⟩ => ⟨S320x800, .f32⟩
  | .local _ .vmem, ⟨8, _⟩ => ⟨S800x32, .f32⟩
  | .local _ .vmem, ⟨9, _⟩ => ⟨S1x32, .f32⟩
  | .local _ .vmem, ⟨10, _⟩ => ⟨S320x32, .f32⟩
  | .local _ .vmem, ⟨11, _⟩ => ⟨S320x32, .f32⟩
  | .local _ .vmem, ⟨12, _⟩ => ⟨S256x800, .f32⟩
  | .local _ .vmem, ⟨13, _⟩ => ⟨S256x800, .f32⟩
  | .local _ .vmem, ⟨14, _⟩ => ⟨S800x64, .f32⟩
  | .local _ .vmem, ⟨15, _⟩ => ⟨S1x64, .f32⟩
  | .local _ .vmem, ⟨16, _⟩ => ⟨S256x64, .f32⟩
  | .local _ .vmem, ⟨17, _⟩ => ⟨S256x64, .f32⟩
  | .local _ .vmem, ⟨18, _⟩ => ⟨S256x4096, .f32⟩
  | .local _ .vmem, ⟨19, _⟩ => ⟨S256x4096, .f32⟩
  | .local _ .vmem, ⟨20, _⟩ => ⟨S4096x256, .f32⟩
  | .local _ .vmem, ⟨21, _⟩ => ⟨S4096x256, .f32⟩
  | .local _ .vmem, ⟨22, _⟩ => ⟨S1x256, .f32⟩
  | .local _ .vmem, ⟨23, _⟩ => ⟨S256x10, .f32⟩
  | .local _ .vmem, ⟨24, _⟩ => ⟨S1x10, .f32⟩
  | .local _ .vmem, ⟨25, _⟩ => ⟨S256x10, .f32⟩
  | .local _ .vmem, ⟨26, _⟩ => ⟨S256x256, .f32⟩
  | _, _ => ⟨S256x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25

abbrev nD : Nat := 1
abbrev τ : Topo := Topo.v7x

variable {F : FTy → Type} [FloatOps F]

abbrev grid0 : Pipeline.Grid := ⟨1, ![384], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![320], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S320x800 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S800x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S320x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![256], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x800 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S800x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def k3_cond2 (i : grid3.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_8 : BitVec 32 := 0#32
  let v14 : BitVec 1 := Scalar.cmpi .ne v13 c0_i32_8
  v14

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  transposes_S256x1x28x28_S256x28x28x1_0_2_3_1 : S256x1x28x28.Transposes [0, 2, 3, 1] S256x28x28x1
  slices_S256x28x28x1_S256x24x24x1_0_0_0_0 : S256x28x28x1.Slices ![0, 0, 0, 0] S256x24x24x1
  slices_S256x28x28x1_S256x24x24x1_0_0_1_0 : S256x28x28x1.Slices ![0, 0, 1, 0] S256x24x24x1
  slices_S256x28x28x1_S256x24x24x1_0_0_2_0 : S256x28x28x1.Slices ![0, 0, 2, 0] S256x24x24x1
  slices_S256x28x28x1_S256x24x24x1_0_0_3_0 : S256x28x28x1.Slices ![0, 0, 3, 0] S256x24x24x1
  slices_S256x28x28x1_S256x24x24x1_0_0_4_0 : S256x28x28x1.Slices ![0, 0, 4, 0] S256x24x24x1
  slices_S256x28x28x1_S256x24x24x1_0_1_0_0 : S256x28x28x1.Slices ![0, 1, 0, 0] S256x24x24x1
  slices_S256x28x28x1_S256x24x24x1_0_1_1_0 : S256x28x28x1.Slices ![0, 1, 1, 0] S256x24x24x1
  slices_S256x28x28x1_S256x24x24x1_0_1_2_0 : S256x28x28x1.Slices ![0, 1, 2, 0] S256x24x24x1
  slices_S256x28x28x1_S256x24x24x1_0_1_3_0 : S256x28x28x1.Slices ![0, 1, 3, 0] S256x24x24x1
  slices_S256x28x28x1_S256x24x24x1_0_1_4_0 : S256x28x28x1.Slices ![0, 1, 4, 0] S256x24x24x1
  slices_S256x28x28x1_S256x24x24x1_0_2_0_0 : S256x28x28x1.Slices ![0, 2, 0, 0] S256x24x24x1
  slices_S256x28x28x1_S256x24x24x1_0_2_1_0 : S256x28x28x1.Slices ![0, 2, 1, 0] S256x24x24x1
  slices_S256x28x28x1_S256x24x24x1_0_2_2_0 : S256x28x28x1.Slices ![0, 2, 2, 0] S256x24x24x1
  slices_S256x28x28x1_S256x24x24x1_0_2_3_0 : S256x28x28x1.Slices ![0, 2, 3, 0] S256x24x24x1
  slices_S256x28x28x1_S256x24x24x1_0_2_4_0 : S256x28x28x1.Slices ![0, 2, 4, 0] S256x24x24x1
  slices_S256x28x28x1_S256x24x24x1_0_3_0_0 : S256x28x28x1.Slices ![0, 3, 0, 0] S256x24x24x1
  slices_S256x28x28x1_S256x24x24x1_0_3_1_0 : S256x28x28x1.Slices ![0, 3, 1, 0] S256x24x24x1
  slices_S256x28x28x1_S256x24x24x1_0_3_2_0 : S256x28x28x1.Slices ![0, 3, 2, 0] S256x24x24x1
  slices_S256x28x28x1_S256x24x24x1_0_3_3_0 : S256x28x28x1.Slices ![0, 3, 3, 0] S256x24x24x1
  slices_S256x28x28x1_S256x24x24x1_0_3_4_0 : S256x28x28x1.Slices ![0, 3, 4, 0] S256x24x24x1
  slices_S256x28x28x1_S256x24x24x1_0_4_0_0 : S256x28x28x1.Slices ![0, 4, 0, 0] S256x24x24x1
  slices_S256x28x28x1_S256x24x24x1_0_4_1_0 : S256x28x28x1.Slices ![0, 4, 1, 0] S256x24x24x1
  slices_S256x28x28x1_S256x24x24x1_0_4_2_0 : S256x28x28x1.Slices ![0, 4, 2, 0] S256x24x24x1
  slices_S256x28x28x1_S256x24x24x1_0_4_3_0 : S256x28x28x1.Slices ![0, 4, 3, 0] S256x24x24x1
  slices_S256x28x28x1_S256x24x24x1_0_4_4_0 : S256x28x28x1.Slices ![0, 4, 4, 0] S256x24x24x1
  bcast_S256x24x24x1_S256x24x24x1x1_0_1_2_4 : S256x24x24x1.BroadcastsInDim S256x24x24x1x1 (![0, 1, 2, 4] : Fin 4 → Fin S256x24x24x1x1.rank)
  concatenates_S256x24x24x1x1_S256x24x24x1x1_S256x24x24x1x1_S256x24x24x1x1_S256x24x24x1x1_S256x24x24x1x1_S256x24x24x1x1_S256x24x24x1x1_S256x24x24x1x1_S256x24x24x1x1_S256x24x24x1x1_S256x24x24x1x1_S256x24x24x1x1_S256x24x24x1x1_S256x24x24x1x1_S256x24x24x1x1_S256x24x24x16x1_d3 : Shape.Concatenates [S256x24x24x1x1, S256x24x24x1x1, S256x24x24x1x1, S256x24x24x1x1, S256x24x24x1x1, S256x24x24x1x1, S256x24x24x1x1, S256x24x24x1x1, S256x24x24x1x1, S256x24x24x1x1, S256x24x24x1x1, S256x24x24x1x1, S256x24x24x1x1, S256x24x24x1x1, S256x24x24x1x1, S256x24x24x1x1] S256x24x24x16x1 3
  concatenates_S256x24x24x1x1_S256x24x24x1x1_S256x24x24x1x1_S256x24x24x1x1_S256x24x24x1x1_S256x24x24x1x1_S256x24x24x1x1_S256x24x24x1x1_S256x24x24x1x1_S256x24x24x9x1_d3 : Shape.Concatenates [S256x24x24x1x1, S256x24x24x1x1, S256x24x24x1x1, S256x24x24x1x1, S256x24x24x1x1, S256x24x24x1x1, S256x24x24x1x1, S256x24x24x1x1, S256x24x24x1x1] S256x24x24x9x1 3
  concatenates_S256x24x24x16x1_S256x24x24x9x1_S256x24x24x25x1_d3 : Shape.Concatenates [S256x24x24x16x1, S256x24x24x9x1] S256x24x24x25x1 3
  shapeCasts_S256x24x24x25x1_S147456x25 : S256x24x24x25x1.ShapeCasts S147456x25
  inb_S384x25_S384x25_0_0 : ∀ a, (![0, 0] : Fin 2 → Nat) a + S384x25.size a ≤ S384x25.size a
  h_S384x25 : 0 < S384x25.numel
  shapeCasts_S384x25_S384x25 : S384x25.ShapeCasts S384x25
  inb_S25x32_S25x32_0_0 : ∀ a, (![0, 0] : Fin 2 → Nat) a + S25x32.size a ≤ S25x32.size a
  h_S25x32 : 0 < S25x32.numel
  inb_S1x32_S1x32_0_0 : ∀ a, (![0, 0] : Fin 2 → Nat) a + S1x32.size a ≤ S1x32.size a
  h_S1x32 : 0 < S1x32.numel
  broadcasts_S1x32_S384x32 : S1x32.Broadcasts S384x32
  inb_S384x32_S384x32_0_0 : ∀ a, (![0, 0] : Fin 2 → Nat) a + S384x32.size a ≤ S384x32.size a
  h_S384x32 : 0 < S384x32.numel
  shapeCasts_S147456x32_S256x24x24x32 : S147456x32.ShapeCasts S256x24x24x32
  slices_S256x24x24x32_S256x20x20x32_0_0_0_0 : S256x24x24x32.Slices ![0, 0, 0, 0] S256x20x20x32
  slices_S256x24x24x32_S256x20x20x32_0_0_1_0 : S256x24x24x32.Slices ![0, 0, 1, 0] S256x20x20x32
  slices_S256x24x24x32_S256x20x20x32_0_0_2_0 : S256x24x24x32.Slices ![0, 0, 2, 0] S256x20x20x32
  slices_S256x24x24x32_S256x20x20x32_0_0_3_0 : S256x24x24x32.Slices ![0, 0, 3, 0] S256x20x20x32
  slices_S256x24x24x32_S256x20x20x32_0_0_4_0 : S256x24x24x32.Slices ![0, 0, 4, 0] S256x20x20x32
  slices_S256x24x24x32_S256x20x20x32_0_1_0_0 : S256x24x24x32.Slices ![0, 1, 0, 0] S256x20x20x32
  slices_S256x24x24x32_S256x20x20x32_0_1_1_0 : S256x24x24x32.Slices ![0, 1, 1, 0] S256x20x20x32
  slices_S256x24x24x32_S256x20x20x32_0_1_2_0 : S256x24x24x32.Slices ![0, 1, 2, 0] S256x20x20x32
  slices_S256x24x24x32_S256x20x20x32_0_1_3_0 : S256x24x24x32.Slices ![0, 1, 3, 0] S256x20x20x32
  slices_S256x24x24x32_S256x20x20x32_0_1_4_0 : S256x24x24x32.Slices ![0, 1, 4, 0] S256x20x20x32
  slices_S256x24x24x32_S256x20x20x32_0_2_0_0 : S256x24x24x32.Slices ![0, 2, 0, 0] S256x20x20x32
  slices_S256x24x24x32_S256x20x20x32_0_2_1_0 : S256x24x24x32.Slices ![0, 2, 1, 0] S256x20x20x32
  slices_S256x24x24x32_S256x20x20x32_0_2_2_0 : S256x24x24x32.Slices ![0, 2, 2, 0] S256x20x20x32
  slices_S256x24x24x32_S256x20x20x32_0_2_3_0 : S256x24x24x32.Slices ![0, 2, 3, 0] S256x20x20x32
  slices_S256x24x24x32_S256x20x20x32_0_2_4_0 : S256x24x24x32.Slices ![0, 2, 4, 0] S256x20x20x32
  slices_S256x24x24x32_S256x20x20x32_0_3_0_0 : S256x24x24x32.Slices ![0, 3, 0, 0] S256x20x20x32
  slices_S256x24x24x32_S256x20x20x32_0_3_1_0 : S256x24x24x32.Slices ![0, 3, 1, 0] S256x20x20x32
  slices_S256x24x24x32_S256x20x20x32_0_3_2_0 : S256x24x24x32.Slices ![0, 3, 2, 0] S256x20x20x32
  slices_S256x24x24x32_S256x20x20x32_0_3_3_0 : S256x24x24x32.Slices ![0, 3, 3, 0] S256x20x20x32
  slices_S256x24x24x32_S256x20x20x32_0_3_4_0 : S256x24x24x32.Slices ![0, 3, 4, 0] S256x20x20x32
  slices_S256x24x24x32_S256x20x20x32_0_4_0_0 : S256x24x24x32.Slices ![0, 4, 0, 0] S256x20x20x32
  slices_S256x24x24x32_S256x20x20x32_0_4_1_0 : S256x24x24x32.Slices ![0, 4, 1, 0] S256x20x20x32
  slices_S256x24x24x32_S256x20x20x32_0_4_2_0 : S256x24x24x32.Slices ![0, 4, 2, 0] S256x20x20x32
  slices_S256x24x24x32_S256x20x20x32_0_4_3_0 : S256x24x24x32.Slices ![0, 4, 3, 0] S256x20x20x32
  slices_S256x24x24x32_S256x20x20x32_0_4_4_0 : S256x24x24x32.Slices ![0, 4, 4, 0] S256x20x20x32
  bcast_S256x20x20x32_S256x20x20x1x32_0_1_2_4 : S256x20x20x32.BroadcastsInDim S256x20x20x1x32 (![0, 1, 2, 4] : Fin 4 → Fin S256x20x20x1x32.rank)
  concatenates_S256x20x20x1x32_S256x20x20x1x32_S256x20x20x1x32_S256x20x20x1x32_S256x20x20x1x32_S256x20x20x1x32_S256x20x20x1x32_S256x20x20x1x32_S256x20x20x1x32_S256x20x20x1x32_S256x20x20x1x32_S256x20x20x1x32_S256x20x20x1x32_S256x20x20x1x32_S256x20x20x1x32_S256x20x20x1x32_S256x20x20x16x32_d3 : Shape.Concatenates [S256x20x20x1x32, S256x20x20x1x32, S256x20x20x1x32, S256x20x20x1x32, S256x20x20x1x32, S256x20x20x1x32, S256x20x20x1x32, S256x20x20x1x32, S256x20x20x1x32, S256x20x20x1x32, S256x20x20x1x32, S256x20x20x1x32, S256x20x20x1x32, S256x20x20x1x32, S256x20x20x1x32, S256x20x20x1x32] S256x20x20x16x32 3
  concatenates_S256x20x20x1x32_S256x20x20x1x32_S256x20x20x1x32_S256x20x20x1x32_S256x20x20x1x32_S256x20x20x1x32_S256x20x20x1x32_S256x20x20x1x32_S256x20x20x1x32_S256x20x20x9x32_d3 : Shape.Concatenates [S256x20x20x1x32, S256x20x20x1x32, S256x20x20x1x32, S256x20x20x1x32, S256x20x20x1x32, S256x20x20x1x32, S256x20x20x1x32, S256x20x20x1x32, S256x20x20x1x32] S256x20x20x9x32 3
  concatenates_S256x20x20x16x32_S256x20x20x9x32_S256x20x20x25x32_d3 : Shape.Concatenates [S256x20x20x16x32, S256x20x20x9x32] S256x20x20x25x32 3
  shapeCasts_S256x20x20x25x32_S102400x800 : S256x20x20x25x32.ShapeCasts S102400x800
  inb_S320x800_S320x800_0_0 : ∀ a, (![0, 0] : Fin 2 → Nat) a + S320x800.size a ≤ S320x800.size a
  h_S320x800 : 0 < S320x800.numel
  shapeCasts_S320x800_S320x800 : S320x800.ShapeCasts S320x800
  inb_S800x32_S800x32_0_0 : ∀ a, (![0, 0] : Fin 2 → Nat) a + S800x32.size a ≤ S800x32.size a
  h_S800x32 : 0 < S800x32.numel
  broadcasts_S1x32_S320x32 : S1x32.Broadcasts S320x32
  inb_S320x32_S320x32_0_0 : ∀ a, (![0, 0] : Fin 2 → Nat) a + S320x32.size a ≤ S320x32.size a
  h_S320x32 : 0 < S320x32.numel
  shapeCasts_S102400x32_S256x20x20x32 : S102400x32.ShapeCasts S256x20x20x32
  slices_S256x20x20x32_S256x16x16x32_0_0_0_0 : S256x20x20x32.Slices ![0, 0, 0, 0] S256x16x16x32
  slices_S256x20x20x32_S256x16x16x32_0_0_1_0 : S256x20x20x32.Slices ![0, 0, 1, 0] S256x16x16x32
  slices_S256x20x20x32_S256x16x16x32_0_0_2_0 : S256x20x20x32.Slices ![0, 0, 2, 0] S256x16x16x32
  slices_S256x20x20x32_S256x16x16x32_0_0_3_0 : S256x20x20x32.Slices ![0, 0, 3, 0] S256x16x16x32
  slices_S256x20x20x32_S256x16x16x32_0_0_4_0 : S256x20x20x32.Slices ![0, 0, 4, 0] S256x16x16x32
  slices_S256x20x20x32_S256x16x16x32_0_1_0_0 : S256x20x20x32.Slices ![0, 1, 0, 0] S256x16x16x32
  slices_S256x20x20x32_S256x16x16x32_0_1_1_0 : S256x20x20x32.Slices ![0, 1, 1, 0] S256x16x16x32
  slices_S256x20x20x32_S256x16x16x32_0_1_2_0 : S256x20x20x32.Slices ![0, 1, 2, 0] S256x16x16x32
  slices_S256x20x20x32_S256x16x16x32_0_1_3_0 : S256x20x20x32.Slices ![0, 1, 3, 0] S256x16x16x32
  slices_S256x20x20x32_S256x16x16x32_0_1_4_0 : S256x20x20x32.Slices ![0, 1, 4, 0] S256x16x16x32
  slices_S256x20x20x32_S256x16x16x32_0_2_0_0 : S256x20x20x32.Slices ![0, 2, 0, 0] S256x16x16x32
  slices_S256x20x20x32_S256x16x16x32_0_2_1_0 : S256x20x20x32.Slices ![0, 2, 1, 0] S256x16x16x32
  slices_S256x20x20x32_S256x16x16x32_0_2_2_0 : S256x20x20x32.Slices ![0, 2, 2, 0] S256x16x16x32
  slices_S256x20x20x32_S256x16x16x32_0_2_3_0 : S256x20x20x32.Slices ![0, 2, 3, 0] S256x16x16x32
  slices_S256x20x20x32_S256x16x16x32_0_2_4_0 : S256x20x20x32.Slices ![0, 2, 4, 0] S256x16x16x32
  slices_S256x20x20x32_S256x16x16x32_0_3_0_0 : S256x20x20x32.Slices ![0, 3, 0, 0] S256x16x16x32
  slices_S256x20x20x32_S256x16x16x32_0_3_1_0 : S256x20x20x32.Slices ![0, 3, 1, 0] S256x16x16x32
  slices_S256x20x20x32_S256x16x16x32_0_3_2_0 : S256x20x20x32.Slices ![0, 3, 2, 0] S256x16x16x32
  slices_S256x20x20x32_S256x16x16x32_0_3_3_0 : S256x20x20x32.Slices ![0, 3, 3, 0] S256x16x16x32
  slices_S256x20x20x32_S256x16x16x32_0_3_4_0 : S256x20x20x32.Slices ![0, 3, 4, 0] S256x16x16x32
  slices_S256x20x20x32_S256x16x16x32_0_4_0_0 : S256x20x20x32.Slices ![0, 4, 0, 0] S256x16x16x32
  slices_S256x20x20x32_S256x16x16x32_0_4_1_0 : S256x20x20x32.Slices ![0, 4, 1, 0] S256x16x16x32
  slices_S256x20x20x32_S256x16x16x32_0_4_2_0 : S256x20x20x32.Slices ![0, 4, 2, 0] S256x16x16x32
  slices_S256x20x20x32_S256x16x16x32_0_4_3_0 : S256x20x20x32.Slices ![0, 4, 3, 0] S256x16x16x32
  slices_S256x20x20x32_S256x16x16x32_0_4_4_0 : S256x20x20x32.Slices ![0, 4, 4, 0] S256x16x16x32
  bcast_S256x16x16x32_S256x16x16x1x32_0_1_2_4 : S256x16x16x32.BroadcastsInDim S256x16x16x1x32 (![0, 1, 2, 4] : Fin 4 → Fin S256x16x16x1x32.rank)
  concatenates_S256x16x16x1x32_S256x16x16x1x32_S256x16x16x1x32_S256x16x16x1x32_S256x16x16x1x32_S256x16x16x1x32_S256x16x16x1x32_S256x16x16x1x32_S256x16x16x1x32_S256x16x16x1x32_S256x16x16x1x32_S256x16x16x1x32_S256x16x16x1x32_S256x16x16x1x32_S256x16x16x1x32_S256x16x16x1x32_S256x16x16x16x32_d3 : Shape.Concatenates [S256x16x16x1x32, S256x16x16x1x32, S256x16x16x1x32, S256x16x16x1x32, S256x16x16x1x32, S256x16x16x1x32, S256x16x16x1x32, S256x16x16x1x32, S256x16x16x1x32, S256x16x16x1x32, S256x16x16x1x32, S256x16x16x1x32, S256x16x16x1x32, S256x16x16x1x32, S256x16x16x1x32, S256x16x16x1x32] S256x16x16x16x32 3
  concatenates_S256x16x16x1x32_S256x16x16x1x32_S256x16x16x1x32_S256x16x16x1x32_S256x16x16x1x32_S256x16x16x1x32_S256x16x16x1x32_S256x16x16x1x32_S256x16x16x1x32_S256x16x16x9x32_d3 : Shape.Concatenates [S256x16x16x1x32, S256x16x16x1x32, S256x16x16x1x32, S256x16x16x1x32, S256x16x16x1x32, S256x16x16x1x32, S256x16x16x1x32, S256x16x16x1x32, S256x16x16x1x32] S256x16x16x9x32 3
  concatenates_S256x16x16x16x32_S256x16x16x9x32_S256x16x16x25x32_d3 : Shape.Concatenates [S256x16x16x16x32, S256x16x16x9x32] S256x16x16x25x32 3
  shapeCasts_S256x16x16x25x32_S65536x800 : S256x16x16x25x32.ShapeCasts S65536x800
  inb_S256x800_S256x800_0_0 : ∀ a, (![0, 0] : Fin 2 → Nat) a + S256x800.size a ≤ S256x800.size a
  h_S256x800 : 0 < S256x800.numel
  shapeCasts_S256x800_S256x800 : S256x800.ShapeCasts S256x800
  inb_S800x64_S800x64_0_0 : ∀ a, (![0, 0] : Fin 2 → Nat) a + S800x64.size a ≤ S800x64.size a
  h_S800x64 : 0 < S800x64.numel
  inb_S1x64_S1x64_0_0 : ∀ a, (![0, 0] : Fin 2 → Nat) a + S1x64.size a ≤ S1x64.size a
  h_S1x64 : 0 < S1x64.numel
  broadcasts_S1x64_S256x64 : S1x64.Broadcasts S256x64
  inb_S256x64_S256x64_0_0 : ∀ a, (![0, 0] : Fin 2 → Nat) a + S256x64.size a ≤ S256x64.size a
  h_S256x64 : 0 < S256x64.numel
  shapeCasts_S65536x64_S256x16x16x64 : S65536x64.ShapeCasts S256x16x16x64
  shapeCasts_S256x16x16x64_S256x16384 : S256x16x16x64.ShapeCasts S256x16384
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  broadcasts_S1x256_S256x256 : S1x256.Broadcasts S256x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  dot_S384x25_S25x32_S384x32_1_0_0_1_n_n_wf : DotDims.WF S384x25 S25x32 S384x32 [1] [0] [0] [1] [] []
  dot_S320x800_S800x32_S320x32_1_0_0_1_n_n_wf : DotDims.WF S320x800 S800x32 S320x32 [1] [0] [0] [1] [] []
  dot_S256x800_S800x64_S256x64_1_0_0_1_n_n_wf : DotDims.WF S256x800 S800x64 S256x64 [1] [0] [0] [1] [] []
  dot_S256x4096_S4096x256_S256x256_1_0_0_1_n_n_wf : DotDims.WF S256x4096 S4096x256 S256x256 [1] [0] [0] [1] [] []
  dot_S256x256_S256x10_S256x10_1_0_0_1_n_n_wf : DotDims.WF S256x256 S256x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x25.size a ≤ S147456x25.size a
  hwx0_0 : ∀ i : grid0.Coords, EltTy.bits .f32 = 32 ∨ (Rect.block (s := S147456x25) S384x25.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x32.size a ≤ S25x32.size a
  hwx0_1 : ∀ i : grid0.Coords, EltTy.bits .f32 = 32 ∨ (Rect.block (s := S25x32) S25x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S384x32.size a ≤ S147456x32.size a
  hwx0_3 : ∀ i : grid0.Coords, EltTy.bits .f32 = 32 ∨ (Rect.block (s := S147456x32) S384x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S320x800.size a ≤ S102400x800.size a
  hwx1_0 : ∀ i : grid1.Coords, EltTy.bits .f32 = 32 ∨ (Rect.block (s := S102400x800) S320x800.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S800x32.size a ≤ S800x32.size a
  hwx1_1 : ∀ i : grid1.Coords, EltTy.bits .f32 = 32 ∨ (Rect.block (s := S800x32) S800x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S320x32.size a ≤ S102400x32.size a
  hwx1_3 : ∀ i : grid1.Coords, EltTy.bits .f32 = 32 ∨ (Rect.block (s := S102400x32) S320x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x800.size a ≤ S65536x800.size a
  hwx2_0 : ∀ i : grid2.Coords, EltTy.bits .f32 = 32 ∨ (Rect.block (s := S65536x800) S256x800.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S800x64.size a ≤ S800x64.size a
  hwx2_1 : ∀ i : grid2.Coords, EltTy.bits .f32 = 32 ∨ (Rect.block (s := S800x64) S800x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S65536x64.size a
  hwx2_3 : ∀ i : grid2.Coords, EltTy.bits .f32 = 32 ∨ (Rect.block (s := S65536x64) S256x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S256x16384.size a
  hwx3_0 : ∀ i : grid3.Coords, EltTy.bits .f32 = 32 ∨ (Rect.block (s := S256x16384) S256x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x256.size a ≤ S16384x256.size a
  hwx3_1 : ∀ i : grid3.Coords, EltTy.bits .f32 = 32 ∨ (Rect.block (s := S16384x256) S4096x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x10.size a ≤ S256x10.size a
  hwx3_3 : ∀ i : grid3.Coords, EltTy.bits .f32 = 32 ∨ (Rect.block (s := S256x10) S256x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x10.size a ≤ S256x10.size a
  hwx3_5 : ∀ i : grid3.Coords, EltTy.bits .f32 = 32 ∨ (Rect.block (s := S256x10) S256x10.size (cc3_transform_5 i) (hinb3_5 i)).WholeWords (EltTy.packing .f32)

variable [Facts₀]

def dot_S384x25_S25x32_S384x32_1_0_0_1_n_n : DotDims S384x25 S25x32 S384x32 where
  lhsContracting := [1]
  rhsContracting := [0]
  lhsNonContracting := [0]
  rhsNonContracting := [1]
  lhsBatch := []
  rhsBatch := []
  wf := dot_S384x25_S25x32_S384x32_1_0_0_1_n_n_wf
def dot_S320x800_S800x32_S320x32_1_0_0_1_n_n : DotDims S320x800 S800x32 S320x32 where
  lhsContracting := [1]
  rhsContracting := [0]
  lhsNonContracting := [0]
  rhsNonContracting := [1]
  lhsBatch := []
  rhsBatch := []
  wf := dot_S320x800_S800x32_S320x32_1_0_0_1_n_n_wf
def dot_S256x800_S800x64_S256x64_1_0_0_1_n_n : DotDims S256x800 S800x64 S256x64 where
  lhsContracting := [1]
  rhsContracting := [0]
  lhsNonContracting := [0]
  rhsNonContracting := [1]
  lhsBatch := []
  rhsBatch := []
  wf := dot_S256x800_S800x64_S256x64_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

abbrev win0_0 : Pipeline.Window sig grid0 :=
  Pipeline.Window.ofSpec (Memref.whole main_v54) S384x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S25x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S384x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v110) S320x800.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S800x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v111) S320x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v166) S256x800.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S800x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v167) S256x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v169) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S4096x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S256x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v170) S256x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== Proof.Spec.lean ====
/-
  The network both programs compute, as ONE function of the eleven argument arrays, index by index, over the
  extended reals: three valid 5x5 convolutions with bias and rectification (28x28x1 to 24x24x32 to 20x20x32 to
  16x16x64), the 16384 to 256 dense layer with bias and rectification on the features laid out (row, column, channel),
  the 256 to 10 dense layer with bias, and the logarithm of the softmax along the ten classes written as
  (z - max z) - log (sum of exp (z - max z)).
  A convolution weight matrix has its rows ordered (tap row, tap column, input channel), input channel fastest; the
  dense layer's rows are ordered (row, column, channel), channel fastest.
  Sums are finite sums in the additive commutative monoid of the extended reals, so their order and grouping are free.
-/
import Idealize.ShloMosaic.PureOps.Ideal
import Idealize.ShloMosaic.Lib.ValueIdx

noncomputable section

namespace Cert.Spec

open Idealize.ShloMosaic Idealize.ShloMosaic.ValueIdx

/-- Row 5*di + dj of a one-input-channel weight matrix (25 rows). -/
abbrev tap1 (di dj : Fin 5) : Fin 25 := ⟨5 * di.val + dj.val, by omega⟩
/-- Row (5*di + dj)*32 + ci of a 32-input-channel weight matrix (800 rows). -/
abbrev tap32 (di dj : Fin 5) (ci : Fin 32) : Fin 800 := ⟨(5 * di.val + dj.val) * 32 + ci.val, by omega⟩
/-- Row (16*i + j)*64 + o of the first dense layer's matrix (16384 rows). -/
abbrev feat (i j : Fin 16) (o : Fin 64) : Fin 16384 := ⟨(16 * i.val + j.val) * 64 + o.val, by omega⟩
/-- The image coordinate i + d of a valid 5-tap window: i below n, d below 5, inside n + 4. -/
abbrev sh {n : Nat} (i : Fin n) (d : Fin 5) : Fin (n + 4) := ⟨i.val + d.val, by omega⟩

/-- The first convolution, rectified: image n, output row i, column j, channel o. -/
def act1 (x : (⟨4, ![256, 1, 28, 28]⟩ : Shape).Idx → EReal) (w : (⟨2, ![25, 32]⟩ : Shape).Idx → EReal)
    (b : (⟨2, ![1, 32]⟩ : Shape).Idx → EReal) (n : Fin 256) (i j : Fin 24) (o : Fin 32) : EReal :=
  max ((∑ di : Fin 5, ∑ dj : Fin 5, x (ix4 n 0 (sh i di) (sh j dj)) * w (ix2 (tap1 di dj) o)) + b (ix2 0 o)) 0

/-- The second convolution, rectified, of a 24x24x32 activation a. -/
def act2 (a : Fin 256 → Fin 24 → Fin 24 → Fin 32 → EReal) (w : (⟨2, ![800, 32]⟩ : Shape).Idx → EReal)
    (b : (⟨2, ![1, 32]⟩ : Shape).Idx → EReal) (n : Fin 256) (i j : Fin 20) (o : Fin 32) : EReal :=
  max ((∑ di : Fin 5, ∑ dj : Fin 5, ∑ ci : Fin 32, a n (sh i di) (sh j dj) ci * w (ix2 (tap32 di dj ci) o)) + b (ix2 0 o)) 0

/-- The third convolution, rectified, of a 20x20x32 activation a. -/
def act3 (a : Fin 256 → Fin 20 → Fin 20 → Fin 32 → EReal) (w : (⟨2, ![800, 64]⟩ : Shape).Idx → EReal)
    (b : (⟨2, ![1, 64]⟩ : Shape).Idx → EReal) (n : Fin 256) (i j : Fin 16) (o : Fin 64) : EReal :=
  max ((∑ di : Fin 5, ∑ dj : Fin 5, ∑ ci : Fin 32, a n (sh i di) (sh j dj) ci * w (ix2 (tap32 di dj ci) o)) + b (ix2 0 o)) 0

/-- The first dense layer, rectified, of a 16x16x64 activation a. -/
def hid (a : Fin 256 → Fin 16 → Fin 16 → Fin 64 → EReal) (w : (⟨2, ![16384, 256]⟩ : Shape).Idx → EReal)
    (b : (⟨2, ![1, 256]⟩ : Shape).Idx → EReal) (n : Fin 256) (q : Fin 256) : EReal :=
  max ((∑ i : Fin 16, ∑ j : Fin 16, ∑ o : Fin 64, a n i j o * w (ix2 (feat i j o) q)) + b (ix2 0 q)) 0

/-- The second dense layer: the ten logits of image n. -/
def logit (h : Fin 256 → Fin 256 → EReal) (w : (⟨2, ![256, 10]⟩ : Shape).Idx → EReal)
    (b : (⟨2, ![1, 10]⟩ : Shape).Idx → EReal) (n : Fin 256) (r : Fin 10) : EReal :=
  (∑ q : Fin 256, h n q * w (ix2 q r)) + b (ix2 0 r)

/-- The logits of image n as a function of the eleven arguments. -/
def logits (x : (⟨4, ![256, 1, 28, 28]⟩ : Shape).Idx → EReal)
    (w1 : (⟨2, ![25, 32]⟩ : Shape).Idx → EReal) (b1 : (⟨2, ![1, 32]⟩ : Shape).Idx → EReal)
    (w2 : (⟨2, ![800, 32]⟩ : Shape).Idx → EReal) (b2 : (⟨2, ![1, 32]⟩ : Shape).Idx → EReal)
    (w3 : (⟨2, ![800, 64]⟩ : Shape).Idx → EReal) (b3 : (⟨2, ![1, 64]⟩ : Shape).Idx → EReal)
    (f1 : (⟨2, ![16384, 256]⟩ : Shape).Idx → EReal) (c1 : (⟨2, ![1, 256]⟩ : Shape).Idx → EReal)
    (f2 : (⟨2, ![256, 10]⟩ : Shape).Idx → EReal) (c2 : (⟨2, ![1, 10]⟩ : Shape).Idx → EReal) :
    Fin 256 → Fin 10 → EReal :=
  logit (hid (act3 (act2 (act1 x w1 b1) w2 b2) w3 b3) f1 c1) f2 c2

/-- The logarithm of the softmax of ten logits z, as both programs spell it: with M the maximum of the ten logits
    folded from minus infinity, the entry is (z r - M) - log (sum over r' of exp (z r' - M)). -/
def logSoftmax (z : Fin 10 → EReal) (r : Fin 10) : EReal :=
  let M : EReal := Finset.univ.fold max ⊥ z
  (z r - M) - Ideal.log (∑ r' : Fin 10, Ideal.exp (z r' - M))

/-- The whole network at output index (n, r). -/
def net (x : (⟨4, ![256, 1, 28, 28]⟩ : Shape).Idx → EReal)
    (w1 : (⟨2, ![25, 32]⟩ : Shape).Idx → EReal) (b1 : (⟨2, ![1, 32]⟩ : Shape).Idx → EReal)
    (w2 : (⟨2, ![800, 32]⟩ : Shape).Idx → EReal) (b2 : (⟨2, ![1, 32]⟩ : Shape).Idx → EReal)
    (w3 : (⟨2, ![800, 64]⟩ : Shape).Idx → EReal) (b3 : (⟨2, ![1, 64]⟩ : Shape).Idx → EReal)
    (f1 : (⟨2, ![16384, 256]⟩ : Shape).Idx → EReal) (c1 : (⟨2, ![1, 256]⟩ : Shape).Idx → EReal)
    (f2 : (⟨2, ![256, 10]⟩ : Shape).Idx → EReal) (c2 : (⟨2, ![1, 10]⟩ : Shape).Idx → EReal) :
    (⟨2, ![256, 10]⟩ : Shape).Idx → EReal :=
  fun i => logSoftmax (logits x w1 b1 w2 b2 w3 b3 f1 c1 f2 c2 (i 0)) (i 1)

end Cert.Spec

end
-- ==== Proof.KernelRunBlocks.lean ====
/-
  The blocks the eight grid points read. The image window moves with the point along the image axis of the re-laid
  images (block t holds images 32*t, ..., 32*t + 31); every other input window stages its whole array at every
  point; the output window moves with the point along the rows (block t holds rows 32*t, ..., 32*t + 31).
-/
import proofs.«147057_g2000302454168391_pallasbulk_317_11_alg».proof.Proof.Gen.KernelIdeal.Frame
import Idealize.ShloMosaic.Lib.Pipeline.Value
import Idealize.ShloMosaic.Lib.ValueIdx

noncomputable section

namespace Cert.KernelIdeal.NetValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps over the grid of eight points -/

/-- The image window moves along its middle axis with the point; the output window along its rows. -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

theorem idx11 : ∀ t : Fin cfg0.N, win0_11.index t (0 : Fin 2) = t.val ∧ win0_11.index t (1 : Fin 2) = 0 :=
  (by decide +kernel : ∀ t : Fin grid0.N, _)

theorem idxW1 : ∀ t : Fin cfg0.N, win0_1.index t (0 : Fin 2) = 0 ∧ win0_1.index t (1 : Fin 2) = 0 :=
  (by decide +kernel : ∀ t : Fin grid0.N, _)

theorem idxW2 : ∀ t : Fin cfg0.N, win0_2.index t (0 : Fin 2) = 0 ∧ win0_2.index t (1 : Fin 2) = 0 :=
  (by decide +kernel : ∀ t : Fin grid0.N, _)

theorem idxW3 : ∀ t : Fin cfg0.N, win0_3.index t (0 : Fin 3) = 0 ∧ win0_3.index t (1 : Fin 3) = 0 ∧ win0_3.index t (2 : Fin 3) = 0 :=
  (by decide +kernel : ∀ t : Fin grid0.N, _)

theorem idxW4 : ∀ t : Fin cfg0.N, win0_4.index t (0 : Fin 2) = 0 ∧ win0_4.index t (1 : Fin 2) = 0 :=
  (by decide +kernel : ∀ t : Fin grid0.N, _)

theorem idxW5 : ∀ t : Fin cfg0.N, win0_5.index t (0 : Fin 3) = 0 ∧ win0_5.index t (1 : Fin 3) = 0 ∧ win0_5.index t (2 : Fin 3) = 0 :=
  (by decide +kernel : ∀ t : Fin grid0.N, _)

theorem idxW6 : ∀ t : Fin cfg0.N, win0_6.index t (0 : Fin 2) = 0 ∧ win0_6.index t (1 : Fin 2) = 0 :=
  (by decide +kernel : ∀ t : Fin grid0.N, _)

theorem idxW7 : ∀ t : Fin cfg0.N, win0_7.index t (0 : Fin 3) = 0 ∧ win0_7.index t (1 : Fin 3) = 0 ∧ win0_7.index t (2 : Fin 3) = 0 :=
  (by decide +kernel : ∀ t : Fin grid0.N, _)

theorem idxW8 : ∀ t : Fin cfg0.N, win0_8.index t (0 : Fin 2) = 0 ∧ win0_8.index t (1 : Fin 2) = 0 :=
  (by decide +kernel : ∀ t : Fin grid0.N, _)

theorem idxW9 : ∀ t : Fin cfg0.N, win0_9.index t (0 : Fin 2) = 0 ∧ win0_9.index t (1 : Fin 2) = 0 :=
  (by decide +kernel : ∀ t : Fin grid0.N, _)

theorem idxW10 : ∀ t : Fin cfg0.N, win0_10.index t (0 : Fin 2) = 0 ∧ win0_10.index t (1 : Fin 2) = 0 :=
  (by decide +kernel : ∀ t : Fin grid0.N, _)

theorem t_lt (t : Fin cfg0.N) : t.val < 8 := Nat.lt_of_lt_of_eq t.isLt N_0

/-! ## The input blocks of point t -/

/-- The image window's block at point t, read through any contents f of the re-laid image array: entry (h, b, w) is
    f at (h, 32*t + b, w). -/
theorem read_blk0 (t : Fin cfg0.N) (f : S28x256x28.Idx → EReal) (h : Fin 28) (b : Fin 32) (w : Fin 28) (n : Fin 256)
    (hn : n.val = 32 * t.val + b.val) :
    (((cfg0.win 0).blk t).view.read (Elt Ideal) f : S28x32x28.Idx → EReal) (ix3 h b w) = f (ix3 h n w) := by
  obtain ⟨e0, e1, e2⟩ := idx0 t
  rw [View.read_apply]
  show f _ = f _
  refine congrArg f (funext fun a => Fin.ext ?_)
  match a with
  | ⟨0, _⟩ => show win0_0.index t (0 : Fin 3) * 28 + 1 * h.val = h.val; rw [e0]; omega
  | ⟨1, _⟩ => show win0_0.index t (1 : Fin 3) * 32 + 1 * b.val = n.val; rw [e1, hn]; omega
  | ⟨2, _⟩ => show win0_0.index t (2 : Fin 3) * 28 + 1 * w.val = w.val; rw [e2]; omega

/-- The image block of point t: entry (h, b, w) is entry (h, 32*t + b, w) of the re-laid images. -/
theorem iblk0_apply (c : Dev nD) (t : Fin cfg0.N) (h : Fin 28) (b : Fin 32) (w : Fin 28) (n : Fin 256)
    (hn : n.val = 32 * t.val + b.val) :
    (iblk m c 0 t : S28x32x28.Idx → EReal) (ix3 h b w) = (V m c main_v48 : S28x256x28.Idx → EReal) (ix3 h n w) :=
  read_blk0 t (V m c main_v48) h b w n hn

/-- Window 1 stages its whole array: read through its block at any point, contents f are f. -/
theorem read_blk1 (t : Fin cfg0.N) (f : S140x768.Idx → EReal) :
    (((cfg0.win 1).blk t).view.read (Elt Ideal) f : S140x768.Idx → EReal) = f := by
  obtain ⟨e0, e1⟩ := idxW1 t
  funext y
  rw [View.read_apply]
  show f _ = f y
  refine congrArg f (funext fun a => Fin.ext ?_)
  match a with
  | ⟨0, _⟩ => show win0_1.index t (0 : Fin 2) * 140 + 1 * (y 0).val = (y 0).val; rw [e0]; omega
  | ⟨1, _⟩ => show win0_1.index t (1 : Fin 2) * 768 + 1 * (y 1).val = (y 1).val; rw [e1]; omega

theorem iblk1_eq (c : Dev nD) (t : Fin cfg0.N) :
    (iblk m c 1 t : S140x768.Idx → EReal) = (V m c main_v11 : S140x768.Idx → EReal) :=
  read_blk1 t (V m c main_v11)

/-- Window 2 stages its whole array: read through its block at any point, contents f are f. -/
theorem read_blk2 (t : Fin cfg0.N) (f : S1x768.Idx → EReal) :
    (((cfg0.win 2).blk t).view.read (Elt Ideal) f : S1x768.Idx → EReal) = f := by
  obtain ⟨e0, e1⟩ := idxW2 t
  funext y
  rw [View.read_apply]
  show f _ = f y
  refine congrArg f (funext fun a => Fin.ext ?_)
  match a with
  | ⟨0, _⟩ => show win0_2.index t (0 : Fin 2) * 1 + 1 * (y 0).val = (y 0).val; rw [e0]; omega
  | ⟨1, _⟩ => show win0_2.index t (1 : Fin 2) * 768 + 1 * (y 1).val = (y 1).val; rw [e1]; omega

theorem iblk2_eq (c : Dev nD) (t : Fin cfg0.N) :
    (iblk m c 2 t : S1x768.Idx → EReal) = (V m c main_v36 : S1x768.Idx → EReal) :=
  read_blk2 t (V m c main_v36)

/-- Window 3 stages its whole array: read through its block at any point, contents f are f. -/
theorem read_blk3 (t : Fin cfg0.N) (f : S5x768x640.Idx → EReal) :
    (((cfg0.win 3).blk t).view.read (Elt Ideal) f : S5x768x640.Idx → EReal) = f := by
  obtain ⟨e0, e1, e2⟩ := idxW3 t
  funext y
  rw [View.read_apply]
  show f _ = f y
  refine congrArg f (funext fun a => Fin.ext ?_)
  match a with
  | ⟨0, _⟩ => show win0_3.index t (0 : Fin 3) * 5 + 1 * (y 0).val = (y 0).val; rw [e0]; omega
  | ⟨1, _⟩ => show win0_3.index t (1 : Fin 3) * 768 + 1 * (y 1).val = (y 1).val; rw [e1]; omega
  | ⟨2, _⟩ => show win0_3.index t (2 : Fin 3) * 640 + 1 * (y 2).val = (y 2).val; rw [e2]; omega

theorem iblk3_eq (c : Dev nD) (t : Fin cfg0.N) :
    (iblk m c 3 t : S5x768x640.Idx → EReal) = (V m c main_v22 : S5x768x640.Idx → EReal) :=
  read_blk3 t (V m c main_v22)

/-- Window 4 stages its whole array: read through its block at any point, contents f are f. -/
theorem read_blk4 (t : Fin cfg0.N) (f : S1x640.Idx → EReal) :
    (((cfg0.win 4).blk t).view.read (Elt Ideal) f : S1x640.Idx → EReal) = f := by
  obtain ⟨e0, e1⟩ := idxW4 t
  funext y
  rw [View.read_apply]
  show f _ = f y
  refine congrArg f (funext fun a => Fin.ext ?_)
  match a with
  | ⟨0, _⟩ => show win0_4.index t (0 : Fin 2) * 1 + 1 * (y 0).val = (y 0).val; rw [e0]; omega
  | ⟨1, _⟩ => show win0_4.index t (1 : Fin 2) * 640 + 1 * (y 1).val = (y 1).val; rw [e1]; omega

theorem iblk4_eq (c : Dev nD) (t : Fin cfg0.N) :
    (iblk m c 4 t : S1x640.Idx → EReal) = (V m c main_v39 : S1x640.Idx → EReal) :=
  read_blk4 t (V m c main_v39)

/-- Window 5 stages its whole array: read through its block at any point, contents f are f. -/
theorem read_blk5 (t : Fin cfg0.N) (f : S5x640x1024.Idx → EReal) :
    (((cfg0.win 5).blk t).view.read (Elt Ideal) f : S5x640x1024.Idx → EReal) = f := by
  obtain ⟨e0, e1, e2⟩ := idxW5 t
  funext y
  rw [View.read_apply]
  show f _ = f y
  refine congrArg f (funext fun a => Fin.ext ?_)
  match a with
  | ⟨0, _⟩ => show win0_5.index t (0 : Fin 3) * 5 + 1 * (y 0).val = (y 0).val; rw [e0]; omega
  | ⟨1, _⟩ => show win0_5.index t (1 : Fin 3) * 640 + 1 * (y 1).val = (y 1).val; rw [e1]; omega
  | ⟨2, _⟩ => show win0_5.index t (2 : Fin 3) * 1024 + 1 * (y 2).val = (y 2).val; rw [e2]; omega

theorem iblk5_eq (c : Dev nD) (t : Fin cfg0.N) :
    (iblk m c 5 t : S5x640x1024.Idx → EReal) = (V m c main_v33 : S5x640x1024.Idx → EReal) :=
  read_blk5 t (V m c main_v33)

/-- Window 6 stages its whole array: read through its block at any point, contents f are f. -/
theorem read_blk6 (t : Fin cfg0.N) (f : S1x1024.Idx → EReal) :
    (((cfg0.win 6).blk t).view.read (Elt Ideal) f : S1x1024.Idx → EReal) = f := by
  obtain ⟨e0, e1⟩ := idxW6 t
  funext y
  rw [View.read_apply]
  show f _ = f y
  refine congrArg f (funext fun a => Fin.ext ?_)
  match a with
  | ⟨0, _⟩ => show win0_6.index t (0 : Fin 2) * 1 + 1 * (y 0).val = (y 0).val; rw [e0]; omega
  | ⟨1, _⟩ => show win0_6.index t (1 : Fin 2) * 1024 + 1 * (y 1).val = (y 1).val; rw [e1]; omega

theorem iblk6_eq (c : Dev nD) (t : Fin cfg0.N) :
    (iblk m c 6 t : S1x1024.Idx → EReal) = (V m c main_v42 : S1x1024.Idx → EReal) :=
  read_blk6 t (V m c main_v42)

/-- Window 7 stages its whole array: read through its block at any point, contents f are f. -/
theorem read_blk7 (t : Fin cfg0.N) (f : S16x1024x256.Idx → EReal) :
    (((cfg0.win 7).blk t).view.read (Elt Ideal) f : S16x1024x256.Idx → EReal) = f := by
  obtain ⟨e0, e1, e2⟩ := idxW7 t
  funext y
  rw [View.read_apply]
  show f _ = f y
  refine congrArg f (funext fun a => Fin.ext ?_)
  match a with
  | ⟨0, _⟩ => show win0_7.index t (0 : Fin 3) * 16 + 1 * (y 0).val = (y 0).val; rw [e0]; omega
  | ⟨1, _⟩ => show win0_7.index t (1 : Fin 3) * 1024 + 1 * (y 1).val = (y 1).val; rw [e1]; omega
  | ⟨2, _⟩ => show win0_7.index t (2 : Fin 3) * 256 + 1 * (y 2).val = (y 2).val; rw [e2]; omega

theorem iblk7_eq (c : Dev nD) (t : Fin cfg0.N) :
    (iblk m c 7 t : S16x1024x256.Idx → EReal) = (V m c main_v44 : S16x1024x256.Idx → EReal) :=
  read_blk7 t (V m c main_v44)

/-- Window 8 stages its whole array: read through its block at any point, contents f are f. -/
theorem read_blk8 (t : Fin cfg0.N) (f : S1x256.Idx → EReal) :
    (((cfg0.win 8).blk t).view.read (Elt Ideal) f : S1x256.Idx → EReal) = f := by
  obtain ⟨e0, e1⟩ := idxW8 t
  funext y
  rw [View.read_apply]
  show f _ = f y
  refine congrArg f (funext fun a => Fin.ext ?_)
  match a with
  | ⟨0, _⟩ => show win0_8.index t (0 : Fin 2) * 1 + 1 * (y 0).val = (y 0).val; rw [e0]; omega
  | ⟨1, _⟩ => show win0_8.index t (1 : Fin 2) * 256 + 1 * (y 1).val = (y 1).val; rw [e1]; omega

theorem iblk8_eq (c : Dev nD) (t : Fin cfg0.N) :
    (iblk m c 8 t : S1x256.Idx → EReal) = (V m c main_arg8 : S1x256.Idx → EReal) :=
  read_blk8 t (V m c main_arg8)

/-- Window 9 stages its whole array: read through its block at any point, contents f are f. -/
theorem read_blk9 (t : Fin cfg0.N) (f : S256x10.Idx → EReal) :
    (((cfg0.win 9).blk t).view.read (Elt Ideal) f : S256x10.Idx → EReal) = f := by
  obtain ⟨e0, e1⟩ := idxW9 t
  funext y
  rw [View.read_apply]
  show f _ = f y
  refine congrArg f (funext fun a => Fin.ext ?_)
  match a with
  | ⟨0, _⟩ => show win0_9.index t (0 : Fin 2) * 256 + 1 * (y 0).val = (y 0).val; rw [e0]; omega
  | ⟨1, _⟩ => show win0_9.index t (1 : Fin 2) * 10 + 1 * (y 1).val = (y 1).val; rw [e1]; omega

theorem iblk9_eq (c : Dev nD) (t : Fin cfg0.N) :
    (iblk m c 9 t : S256x10.Idx → EReal) = (V m c main_v45 : S256x10.Idx → EReal) :=
  read_blk9 t (V m c main_v45)

/-- Window 10 stages its whole array: read through its block at any point, contents f are f. -/
theorem read_blk10 (t : Fin cfg0.N) (f : S1x10.Idx → EReal) :
    (((cfg0.win 10).blk t).view.read (Elt Ideal) f : S1x10.Idx → EReal) = f := by
  obtain ⟨e0, e1⟩ := idxW10 t
  funext y
  rw [View.read_apply]
  show f _ = f y
  refine congrArg f (funext fun a => Fin.ext ?_)
  match a with
  | ⟨0, _⟩ => show win0_10.index t (0 : Fin 2) * 1 + 1 * (y 0).val = (y 0).val; rw [e0]; omega
  | ⟨1, _⟩ => show win0_10.index t (1 : Fin 2) * 10 + 1 * (y 1).val = (y 1).val; rw [e1]; omega

theorem iblk10_eq (c : Dev nD) (t : Fin cfg0.N) :
    (iblk m c 10 t : S1x10.Idx → EReal) = (V m c main_arg10 : S1x10.Idx → EReal) :=
  read_blk10 t (V m c main_arg10)

end Cert.KernelIdeal.NetValue

end
-- ==== Proof.KernelBodyDefs.lean ====
/-
  The network one grid point computes, written over the point's eleven input blocks as extended-real functions.
  A block of 32 images is kept as matrices whose rows are pairs (image row h, image b) and whose columns are
  pairs (image column j, channel o), column index 32*j + o (64*j + o after the third convolution).
  Each convolution is then a sum over the five tap rows di of a matrix product with a banded weight slab:
  the first one contracts the 140 = 5*28 entries of five consecutive image rows laid side by side,
  the second and third contract a whole activation row (768 resp. 640 entries) for each tap row,
  the dense layer contracts a whole activation row (1024 entries) for each of the sixteen image rows.
-/
import Idealize.ShloMosaic.PureOps.Ideal
import Idealize.ShloMosaic.Lib.ValueIdx

noncomputable section

namespace Cert.KernelIdeal.Body

open Idealize.ShloMosaic Idealize.ShloMosaic.ValueIdx

/-- Entry l = 28*di + wi of the five image rows h .. h+4 of image b laid side by side: the image at (h + di, b, wi). -/
def rows5 (x0 : (⟨3, ![28, 32, 28]⟩ : Shape).Idx → EReal) (h : Fin 24) (b : Fin 32) (l : Fin 140) : EReal :=
  x0 (ix3 (⟨h.val + l.val / 28, by omega⟩ : Fin 28) b (⟨l.val % 28, by omega⟩ : Fin 28))

/-- The first convolution of the block, rectified: row (h, b), column c = 32*j + o. -/
def y1 (x0 : (⟨3, ![28, 32, 28]⟩ : Shape).Idx → EReal) (x1 : (⟨2, ![140, 768]⟩ : Shape).Idx → EReal)
    (x2 : (⟨2, ![1, 768]⟩ : Shape).Idx → EReal) (h : Fin 24) (b : Fin 32) (c : Fin 768) : EReal :=
  max ((∑ l : Fin 140, rows5 x0 h b l * x1 (ix2 l c)) + x2 (ix2 (0 : Fin 1) c)) 0

/-- The second convolution of the block, rectified, of a 24-row activation a: row (h, b), column c = 32*j + o. -/
def y2 (a : Fin 24 → Fin 32 → Fin 768 → EReal) (x3 : (⟨3, ![5, 768, 640]⟩ : Shape).Idx → EReal)
    (x4 : (⟨2, ![1, 640]⟩ : Shape).Idx → EReal) (h : Fin 20) (b : Fin 32) (c : Fin 640) : EReal :=
  max ((∑ di : Fin 5, ∑ l : Fin 768, a (⟨h.val + di.val, by omega⟩ : Fin 24) b l * x3 (ix3 di l c)) + x4 (ix2 (0 : Fin 1) c)) 0

/-- The third convolution of the block, rectified, of a 20-row activation a: row (h, b), column c = 64*j + o. -/
def y3 (a : Fin 20 → Fin 32 → Fin 640 → EReal) (x5 : (⟨3, ![5, 640, 1024]⟩ : Shape).Idx → EReal)
    (x6 : (⟨2, ![1, 1024]⟩ : Shape).Idx → EReal) (h : Fin 16) (b : Fin 32) (c : Fin 1024) : EReal :=
  max ((∑ di : Fin 5, ∑ l : Fin 640, a (⟨h.val + di.val, by omega⟩ : Fin 20) b l * x5 (ix3 di l c)) + x6 (ix2 (0 : Fin 1) c)) 0

/-- The first dense layer of the block, rectified, of a 16-row activation a: image b, unit q. -/
def hidB (a : Fin 16 → Fin 32 → Fin 1024 → EReal) (x7 : (⟨3, ![16, 1024, 256]⟩ : Shape).Idx → EReal)
    (x8 : (⟨2, ![1, 256]⟩ : Shape).Idx → EReal) (b : Fin 32) (q : Fin 256) : EReal :=
  max ((∑ h : Fin 16, ∑ l : Fin 1024, a h b l * x7 (ix3 h l q)) + x8 (ix2 (0 : Fin 1) q)) 0

/-- The second dense layer of the block: the ten logits of image b. -/
def logitB (a : Fin 32 → Fin 256 → EReal) (x9 : (⟨2, ![256, 10]⟩ : Shape).Idx → EReal)
    (x10 : (⟨2, ![1, 10]⟩ : Shape).Idx → EReal) (b : Fin 32) (r : Fin 10) : EReal :=
  (∑ q : Fin 256, a b q * x9 (ix2 q r)) + x10 (ix2 (0 : Fin 1) r)

/-- The logits of image b of the block as a function of the eleven input blocks. -/
def blockLogits (x0 : (⟨3, ![28, 32, 28]⟩ : Shape).Idx → EReal)
    (x1 : (⟨2, ![140, 768]⟩ : Shape).Idx → EReal) (x2 : (⟨2, ![1, 768]⟩ : Shape).Idx → EReal)
    (x3 : (⟨3, ![5, 768, 640]⟩ : Shape).Idx → EReal) (x4 : (⟨2, ![1, 640]⟩ : Shape).Idx → EReal)
    (x5 : (⟨3, ![5, 640, 1024]⟩ : Shape).Idx → EReal) (x6 : (⟨2, ![1, 1024]⟩ : Shape).Idx → EReal)
    (x7 : (⟨3, ![16, 1024, 256]⟩ : Shape).Idx → EReal) (x8 : (⟨2, ![1, 256]⟩ : Shape).Idx → EReal)
    (x9 : (⟨2, ![256, 10]⟩ : Shape).Idx → EReal) (x10 : (⟨2, ![1, 10]⟩ : Shape).Idx → EReal) :
    Fin 32 → Fin 10 → EReal :=
  logitB (hidB (y3 (y2 (y1 x0 x1 x2) x3 x4) x5 x6) x7 x8) x9 x10

end Cert.KernelIdeal.Body

end
-- ==== Proof.KernelBodyLayout.lean ====
/-
  The layout operations and the contractions the block's arithmetic is written with, read at an index given by
  coordinates: a plain matrix product into a zero accumulator as the sum over the contracted coordinate; the
  (28, 32, 28) block flattened to 896 rows (row 32*h + b); five column blocks of 28 laid side by side; a row of
  ten summed, or its maximum taken, and the resulting column cast to one column and broadcast back over the ten.
-/
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx

/-! ## A plain matrix product -/

theorem plain_lhs_0 {M K N : ℕ} (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs_1 {M K N : ℕ} (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

theorem plain_lhs_1 {M K N : ℕ} (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 {M K N : ℕ} (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- A plain M x K by K x N product into the zero accumulator, read at (p, q): the sum over the contracted coordinate. -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-! ## Layout -/

variable {α : Type}

/-- The (28, 32, 28) block flattened to 896 rows of 28: row 32*h + b is the block at (h, b). -/
theorem flat_rows_apply (x : (⟨3, ![28, 32, 28]⟩ : Shape).Idx → α)
    (hc : (⟨3, ![28, 32, 28]⟩ : Shape).ShapeCasts ⟨2, ![896, 28]⟩) (h : Fin 28) (b : Fin 32) (w : Fin 28)
    (r : Fin 896) (hr : r.val = 32 * h.val + b.val) :
    shapeCast ⟨2, ![896, 28]⟩ x hc (ix2 r w) = x (ix3 h b w) :=
  shapeCast_apply x hc _ _ (by
    rw [Shape.rowMajor_val_three, Shape.rowMajor_val_two]
    show (h.val * 32 + b.val) * 28 + w.val = r.val * 28 + w.val
    rw [hr]; ring)

/-- Five blocks of 28 columns side by side: column 28*di + w is block di at column w. -/
theorem concat5_apply (a0 a1 a2 a3 a4 : (⟨2, ![768, 28]⟩ : Shape).Idx → α)
    (hc : Shape.Concatenates [(⟨2, ![768, 28]⟩ : Shape), ⟨2, ![768, 28]⟩, ⟨2, ![768, 28]⟩, ⟨2, ![768, 28]⟩, ⟨2, ![768, 28]⟩]
      ⟨2, ![768, 140]⟩ 1)
    (r : Fin 768) (di : Fin 5) (w : Fin 28) (l : Fin 140) (hl : l.val = 28 * di.val + w.val) :
    concatenate ⟨2, ![768, 140]⟩ 1 [⟨⟨2, ![768, 28]⟩, a0⟩, ⟨⟨2, ![768, 28]⟩, a1⟩, ⟨⟨2, ![768, 28]⟩, a2⟩, ⟨⟨2, ![768, 28]⟩, a3⟩,
        ⟨⟨2, ![768, 28]⟩, a4⟩] hc (ix2 r l)
      = (![a0, a1, a2, a3, a4] di) (ix2 r w) := by
  have key : ∀ (k : ℕ) (hk : k < 5) (ak : (⟨2, ![768, 28]⟩ : Shape).Idx → α),
      ([⟨⟨2, ![768, 28]⟩, a0⟩, ⟨⟨2, ![768, 28]⟩, a1⟩, ⟨⟨2, ![768, 28]⟩, a2⟩, ⟨⟨2, ![768, 28]⟩, a3⟩,
        ⟨⟨2, ![768, 28]⟩, a4⟩] : List ((s : Shape) × (s.Idx → α)))[k]'hk = ⟨⟨2, ![768, 28]⟩, ak⟩ →
      di.val = k →
      concatenate ⟨2, ![768, 140]⟩ 1 [⟨⟨2, ![768, 28]⟩, a0⟩, ⟨⟨2, ![768, 28]⟩, a1⟩, ⟨⟨2, ![768, 28]⟩, a2⟩, ⟨⟨2, ![768, 28]⟩, a3⟩,
        ⟨⟨2, ![768, 28]⟩, a4⟩] hc (ix2 r l) = ak (ix2 r w) := by
    intro k hk ak hxk hdi
    refine concatenate_apply_piece (t := ⟨2, ![768, 140]⟩) (1 : Fin 2)
      [⟨⟨2, ![768, 28]⟩, a0⟩, ⟨⟨2, ![768, 28]⟩, a1⟩, ⟨⟨2, ![768, 28]⟩, a2⟩, ⟨⟨2, ![768, 28]⟩, a3⟩, ⟨⟨2, ![768, 28]⟩, a4⟩]
      hc (ix2 r l) k hk ⟨2, ![768, 28]⟩ ak hxk rfl (28 * k) ?_ (ix2 r w) ?_ ?_
    · interval_cases k <;> rfl
    · intro b hb
      match b with
      | ⟨0, _⟩ => rfl
      | ⟨1, _⟩ => exact absurd rfl hb
    · show 28 * k + w.val = l.val
      omega
  match di, hl with
  | ⟨0, _⟩, hl => exact key 0 (by decide) a0 rfl rfl
  | ⟨1, _⟩, hl => exact key 1 (by decide) a1 rfl rfl
  | ⟨2, _⟩, hl => exact key 2 (by decide) a2 rfl rfl
  | ⟨3, _⟩, hl => exact key 3 (by decide) a3 rfl rfl
  | ⟨4, _⟩, hl => exact key 4 (by decide) a4 rfl rfl

/-- A vector of 32 cast to one column. -/
theorem col_cast_apply (x : (⟨1, ![32]⟩ : Shape).Idx → α) (hc : (⟨1, ![32]⟩ : Shape).ShapeCasts ⟨2, ![32, 1]⟩)
    (b : Fin 32) (u : Fin 1) : shapeCast ⟨2, ![32, 1]⟩ x hc (ix2 b u) = x (ix1 b) :=
  shapeCast_apply x hc _ _ (by
    have hu : u.val = 0 := by omega
    rw [Shape.rowMajor_val_two, Shape.rowMajor_val_one]
    show b.val = b.val * 1 + u.val
    rw [hu]; ring)

/-- One column broadcast over ten. -/
theorem col_bcast_apply (x : (⟨2, ![32, 1]⟩ : Shape).Idx → α) (hb : (⟨2, ![32, 1]⟩ : Shape).Broadcasts ⟨2, ![32, 10]⟩)
    (b : Fin 32) (r : Fin 10) : broadcastTo ⟨2, ![32, 10]⟩ x hb (ix2 b r) = x (ix2 b (0 : Fin 1)) := by
  refine broadcastTo_apply x hb (ix2 b r) (ix2 b (0 : Fin 1)) fun ax => ?_
  match ax with
  | ⟨0, _⟩ => rfl
  | ⟨1, _⟩ => rfl

/-! ## Row reductions -/

/-- The sum of a row of ten. -/
theorem row_sum_apply (src : FVec Ideal ⟨2, ![32, 10]⟩ .f32) (h : Shape.Reduces ⟨2, ![32, 10]⟩ [1] ⟨1, ![32]⟩)
    (hφ : FKind.Formats .f32) (hacc : (0x00000000#32 : BitVec 32) = FKind.add.neutral .f32 hφ) (b : Fin 32) :
    multiReduction .add [1] ⟨1, ![32]⟩ src 0x00000000#32 h hφ hacc (ix1 b) = ∑ r : Fin 10, src (ix2 b r) := by
  refine (Ideal.multiReduction_add_single src 0x00000000#32 h hφ hacc (ix1 b)).trans ?_
  refine Finset.sum_congr rfl fun k _ => congrArg src (funext fun a => Fin.ext ?_)
  match a with
  | ⟨0, _⟩ => rfl
  | ⟨1, _⟩ => rfl

/-- The maximum of a row of ten, folded from minus infinity. -/
theorem row_max_apply (src : FVec Ideal ⟨2, ![32, 10]⟩ .f32) (h : Shape.Reduces ⟨2, ![32, 10]⟩ [1] ⟨1, ![32]⟩)
    (hφ : FKind.Formats .f32) (hacc : (0xFF800000#32 : BitVec 32) = FKind.maximumf.neutral .f32 hφ) (b : Fin 32) :
    multiReduction .maximumf [1] ⟨1, ![32]⟩ src 0xFF800000#32 h hφ hacc (ix1 b)
      = (Finset.univ : Finset (Fin 10)).fold max ⊥ (fun r => src (ix2 b r)) := by
  refine (Ideal.multiReduction_maximumf_single src 0xFF800000#32 h hφ hacc (ix1 b)).trans ?_
  have hbot : (FloatOps.ofBits (F := Ideal) .f32 0xFF800000#32 : EReal) = ⊥ := by
    show Ideal.ofBits .f32 0xFF800000#32 = ⊥
    simp [Ideal.ofBits, Ideal.ieee]
  rw [hbot]
  refine congrArg (fun f => (Finset.univ : Finset (Fin 10)).fold max ⊥ f) (funext fun k => ?_)
  refine congrArg src (funext fun a => Fin.ext ?_)
  match a with
  | ⟨0, _⟩ => rfl
  | ⟨1, _⟩ => rfl

/-! ## Sums written out term by term, leftmost first -/

theorem sum5_left {M : Type*} [AddCommMonoid M] (f : Fin 5 → M) :
    ∑ d, f d = f 0 + f 1 + f 2 + f 3 + f 4 := Fin.sum_univ_five f

theorem sum16_left {M : Type*} [AddCommMonoid M] (f : Fin 16 → M) :
    ∑ d, f d = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

end Cert.KernelIdeal.Body

end
-- ==== Proof.KernelBodyTaps.lean ====
/-
  The compound reads of the block's arithmetic, over abstract operands: the five row-shifted copies of the flattened
  image block laid side by side; one tap row of a convolution (a window of 32*k rows down the activation matrix times
  one weight slab); a product against a weight slab; a slab of a stacked weight array.
-/
import proofs.«147057_g2000302454168391_pallasbulk_317_11_alg».proof.Proof.KernelBodyDefs
import proofs.«147057_g2000302454168391_pallasbulk_317_11_alg».proof.Proof.KernelBodyLayout
import Idealize.ShloMosaic.Lib.Pipeline.FrameBody

noncomputable section

namespace Cert.KernelIdeal.Body

open Idealize.ShloMosaic Idealize.ShloMosaic.ValueIdx

/-- Five windows of 768 rows, 32*di rows down the flattened image block, side by side: at row 32*h + b and
    column l = 28*di + w, the image at (h + di, b, w). -/
theorem rows5_read {φ : FTy} (v0 : FVec Ideal ⟨3, ![28, 32, 28]⟩ φ)
    (hc1 : (⟨3, ![28, 32, 28]⟩ : Shape).ShapeCasts ⟨3, ![28, 32, 28]⟩)
    (hc2 : (⟨3, ![28, 32, 28]⟩ : Shape).ShapeCasts ⟨2, ![896, 28]⟩)
    (hs0 : (⟨2, ![896, 28]⟩ : Shape).Slices ![0, 0] ⟨2, ![768, 28]⟩)
    (hs1 : (⟨2, ![896, 28]⟩ : Shape).Slices ![32, 0] ⟨2, ![768, 28]⟩)
    (hs2 : (⟨2, ![896, 28]⟩ : Shape).Slices ![64, 0] ⟨2, ![768, 28]⟩)
    (hs3 : (⟨2, ![896, 28]⟩ : Shape).Slices ![96, 0] ⟨2, ![768, 28]⟩)
    (hs4 : (⟨2, ![896, 28]⟩ : Shape).Slices ![128, 0] ⟨2, ![768, 28]⟩)
    (hcat : Shape.Concatenates [(⟨2, ![768, 28]⟩ : Shape), ⟨2, ![768, 28]⟩, ⟨2, ![768, 28]⟩, ⟨2, ![768, 28]⟩, ⟨2, ![768, 28]⟩]
      ⟨2, ![768, 140]⟩ 1)
    (h : Fin 24) (b : Fin 32) (r : Fin 768) (hr : r.val = 32 * h.val + b.val) (l : Fin 140) :
    concatenate ⟨2, ![768, 140]⟩ 1
      [⟨⟨2, ![768, 28]⟩, extractStridedSlice ⟨2, ![768, 28]⟩ ![0, 0] (shapeCast ⟨2, ![896, 28]⟩ (shapeCast ⟨3, ![28, 32, 28]⟩ v0 hc1) hc2) hs0⟩,
       ⟨⟨2, ![768, 28]⟩, extractStridedSlice ⟨2, ![768, 28]⟩ ![32, 0] (shapeCast ⟨2, ![896, 28]⟩ (shapeCast ⟨3, ![28, 32, 28]⟩ v0 hc1) hc2) hs1⟩,
       ⟨⟨2, ![768, 28]⟩, extractStridedSlice ⟨2, ![768, 28]⟩ ![64, 0] (shapeCast ⟨2, ![896, 28]⟩ (shapeCast ⟨3, ![28, 32, 28]⟩ v0 hc1) hc2) hs2⟩,
       ⟨⟨2, ![768, 28]⟩, extractStridedSlice ⟨2, ![768, 28]⟩ ![96, 0] (shapeCast ⟨2, ![896, 28]⟩ (shapeCast ⟨3, ![28, 32, 28]⟩ v0 hc1) hc2) hs3⟩,
       ⟨⟨2, ![768, 28]⟩, extractStridedSlice ⟨2, ![768, 28]⟩ ![128, 0] (shapeCast ⟨2, ![896, 28]⟩ (shapeCast ⟨3, ![28, 32, 28]⟩ v0 hc1) hc2) hs4⟩]
      hcat (ix2 r l)
      = rows5 v0 h b l := by
  obtain ⟨di, w, hl⟩ : ∃ (di : Fin 5) (w : Fin 28), l.val = 28 * di.val + w.val :=
    ⟨⟨l.val / 28, by omega⟩, ⟨l.val % 28, by omega⟩, by show l.val = 28 * (l.val / 28) + l.val % 28; omega⟩
  refine (concat5_apply _ _ _ _ _ hcat r di w l hl).trans ?_
  have step : ∀ (o : ℕ) (hs : (⟨2, ![896, 28]⟩ : Shape).Slices ![o, 0] ⟨2, ![768, 28]⟩), o = 32 * di.val →
      extractStridedSlice ⟨2, ![768, 28]⟩ ![o, 0] (shapeCast ⟨2, ![896, 28]⟩ (shapeCast ⟨3, ![28, 32, 28]⟩ v0 hc1) hc2) hs (ix2 r w)
        = rows5 v0 h b l := by
    intro o hs ho
    refine (slice2_axis0_apply o _ hs r w (⟨o + r.val, by omega⟩ : Fin 896) rfl).trans ?_
    refine (flat_rows_apply _ hc2 (⟨h.val + di.val, by omega⟩ : Fin 28) b w _
      (by show o + r.val = 32 * (h.val + di.val) + b.val; omega)).trans ?_
    rw [shapeCast_self]
    unfold rows5
    refine congrArg v0 (funext fun a => ?_)
    match a with
    | ⟨0, _⟩ => exact Fin.ext (by show h.val + di.val = h.val + l.val / 28; omega)
    | ⟨1, _⟩ => rfl
    | ⟨2, _⟩ => exact Fin.ext (by show w.val = l.val % 28; omega)
  match di, hl, step with
  | ⟨0, _⟩, hl, step => exact step 0 hs0 rfl
  | ⟨1, _⟩, hl, step => exact step 32 hs1 rfl
  | ⟨2, _⟩, hl, step => exact step 64 hs2 rfl
  | ⟨3, _⟩, hl, step => exact step 96 hs3 rfl
  | ⟨4, _⟩, hl, step => exact step 128 hs4 rfl

/-- One tap row: the window of R' rows starting o rows down a matrix P, times a weight slab stored with a leading
    unit axis, into the zero accumulator, read at (r, c). -/
theorem tap_apply {R R' K N : ℕ} {φ₁ φ₂ : FTy} (o : ℕ) (P : FVec Ideal ⟨2, ![R, K]⟩ φ₁) (w : FVec Ideal ⟨3, ![1, K, N]⟩ φ₂)
    (D : DotDims ⟨2, ![R', K]⟩ ⟨2, ![K, N]⟩ ⟨2, ![R', N]⟩) (hD : D = DotDims.plain R' K N)
    (prec : Option ContractPrecision)
    (hs : (⟨2, ![R, K]⟩ : Shape).Slices ![o, 0] ⟨2, ![R', K]⟩)
    (hc : (⟨3, ![1, K, N]⟩ : Shape).ShapeCasts ⟨2, ![K, N]⟩) (r : Fin R') (c : Fin N) (r' : Fin R) (hr' : r'.val = o + r.val) :
    FloatOps.matmul D prec (extractStridedSlice ⟨2, ![R', K]⟩ ![o, 0] P hs) (shapeCast ⟨2, ![K, N]⟩ w hc)
        (constant ⟨2, ![R', N]⟩ .f32 0x00000000#32) (ix2 r c)
      = ∑ l : Fin K, P (ix2 r' l) * w (ix3 (0 : Fin 1) l c) := by
  refine (plain_matmul_zero_apply D hD prec _ _ r c).trans ?_
  refine Finset.sum_congr rfl fun l _ => ?_
  rw [slice2_axis0_apply o P hs r l r' hr', shapeCast_1ab_ab_apply w hc l c]

/-- A product against a weight slab stored with a leading unit axis, into the zero accumulator, read at (r, c). -/
theorem slab_apply {R K N : ℕ} {φ₁ φ₂ : FTy} (A : FVec Ideal ⟨2, ![R, K]⟩ φ₁) (w : FVec Ideal ⟨3, ![1, K, N]⟩ φ₂)
    (D : DotDims ⟨2, ![R, K]⟩ ⟨2, ![K, N]⟩ ⟨2, ![R, N]⟩) (hD : D = DotDims.plain R K N)
    (prec : Option ContractPrecision)
    (hc : (⟨3, ![1, K, N]⟩ : Shape).ShapeCasts ⟨2, ![K, N]⟩) (r : Fin R) (c : Fin N) :
    FloatOps.matmul D prec A (shapeCast ⟨2, ![K, N]⟩ w hc) (constant ⟨2, ![R, N]⟩ .f32 0x00000000#32) (ix2 r c)
      = ∑ l : Fin K, A (ix2 r l) * w (ix3 (0 : Fin 1) l c) := by
  refine (plain_matmul_zero_apply D hD prec _ _ r c).trans ?_
  refine Finset.sum_congr rfl fun l _ => ?_
  rw [shapeCast_1ab_ab_apply w hc l c]

/-- One tap row against a matrix P whose rows o + r are known: the sum of the known row times the slab. -/
theorem tap_rows {R R' K N : ℕ} {φ₁ φ₂ : FTy} (o : ℕ) (P : FVec Ideal ⟨2, ![R, K]⟩ φ₁) (w : FVec Ideal ⟨3, ![1, K, N]⟩ φ₂)
    (D : DotDims ⟨2, ![R', K]⟩ ⟨2, ![K, N]⟩ ⟨2, ![R', N]⟩) (hD : D = DotDims.plain R' K N)
    (prec : Option ContractPrecision)
    (hs : (⟨2, ![R, K]⟩ : Shape).Slices ![o, 0] ⟨2, ![R', K]⟩)
    (hc : (⟨3, ![1, K, N]⟩ : Shape).ShapeCasts ⟨2, ![K, N]⟩) (r : Fin R') (c : Fin N) (f : Fin K → EReal)
    (hf : ∀ r' : Fin R, r'.val = o + r.val → ∀ l, P (ix2 r' l) = f l) :
    FloatOps.matmul D prec (extractStridedSlice ⟨2, ![R', K]⟩ ![o, 0] P hs) (shapeCast ⟨2, ![K, N]⟩ w hc)
        (constant ⟨2, ![R', N]⟩ .f32 0x00000000#32) (ix2 r c)
      = ∑ l : Fin K, f l * w (ix3 (0 : Fin 1) l c) := by
  have hb : o + r.val < R := Nat.lt_of_lt_of_le (Nat.add_lt_add_left r.isLt o) (hs.2 0)
  refine (tap_apply o P w D hD prec hs hc r c ⟨o + r.val, hb⟩ rfl).trans ?_
  exact Finset.sum_congr rfl fun l _ => congrArg (· * _) (hf ⟨o + r.val, hb⟩ rfl l)

/-- A product of a known row against a slab. -/
theorem slab_rows {R K N : ℕ} {φ₁ φ₂ : FTy} (A : FVec Ideal ⟨2, ![R, K]⟩ φ₁) (w : FVec Ideal ⟨3, ![1, K, N]⟩ φ₂)
    (D : DotDims ⟨2, ![R, K]⟩ ⟨2, ![K, N]⟩ ⟨2, ![R, N]⟩) (hD : D = DotDims.plain R K N)
    (prec : Option ContractPrecision)
    (hc : (⟨3, ![1, K, N]⟩ : Shape).ShapeCasts ⟨2, ![K, N]⟩) (r : Fin R) (c : Fin N) (f : Fin K → EReal)
    (hf : ∀ l, A (ix2 r l) = f l) :
    FloatOps.matmul D prec A (shapeCast ⟨2, ![K, N]⟩ w hc) (constant ⟨2, ![R, N]⟩ .f32 0x00000000#32) (ix2 r c)
      = ∑ l : Fin K, f l * w (ix3 (0 : Fin 1) l c) := by
  refine (slab_apply A w D hD prec hc r c).trans ?_
  exact Finset.sum_congr rfl fun l _ => congrArg (· * _) (hf l)

/-- Slab d of a stack of n matrices, loaded through the rectangle of one slab at offset k = d. -/
theorem ld_slab {n K N : ℕ} {α : Type} (X : (⟨3, ![n, K, N]⟩ : Shape).Idx → α) (k : ℕ)
    (inb : ∀ a, (![k, 0, 0] : Fin 3 → ℕ) a + (⟨3, ![1, K, N]⟩ : Shape).size a ≤ (⟨3, ![n, K, N]⟩ : Shape).size a)
    (d : Fin n) (hd : d.val = k) (u : Fin 1) (l : Fin K) (c : Fin N) :
    View.ld (Val := fun _ => α) (e' := .f32) X (Rect.unit (s := ⟨3, ![n, K, N]⟩) ![k, 0, 0] (⟨3, ![1, K, N]⟩ : Shape).size inb) (ix3 u l c)
      = X (ix3 d l c) := by
  show X _ = X _
  refine congrArg X (funext fun a => Fin.ext ?_)
  have hu : u.val = 0 := by omega
  match a with
  | ⟨0, _⟩ => show k + 1 * u.val = d.val; omega
  | ⟨1, _⟩ => show 0 + 1 * l.val = l.val; omega
  | ⟨2, _⟩ => show 0 + 1 * c.val = c.val; omega

theorem zeros2 : (![0, 0] : Fin 2 → ℕ) = fun _ => 0 := by
  funext a; match a with | ⟨0, _⟩ => rfl | ⟨1, _⟩ => rfl

theorem zeros3 : (![0, 0, 0] : Fin 3 → ℕ) = fun _ => 0 := by
  funext a; match a with | ⟨0, _⟩ => rfl | ⟨1, _⟩ => rfl | ⟨2, _⟩ => rfl

end Cert.KernelIdeal.Body

end
-- ==== Proof.KernelBodyConv1.lean ====
/-
  The first convolution of one grid point's block, read at an index: the rectified sum, over the 140 entries of five
  consecutive image rows laid side by side, of image entry times banded weight, plus the tiled bias.
-/
import proofs.«147057_g2000302454168391_pallasbulk_317_11_alg».proof.Proof.KernelBodyTaps
import proofs.«147057_g2000302454168391_pallasbulk_317_11_alg».proof.Proof.Gen.KernelIdeal.Skeleton

noncomputable section

namespace Cert.KernelIdeal.Body

open Idealize.ShloMosaic Idealize.ShloMosaic.ValueIdx

open Cert.KernelIdeal Cert.KernelIdeal.Gen in
/-- The first convolution's payload at row 32*h + b and column c. -/
theorem pay2_apply (v0 : Vec Ideal S28x32x28 .bf16) (v9 : Vec Ideal S140x768 .bf16) (v12 : Vec Ideal S1x768 .f32)
    (h : Fin 24) (b : Fin 32) (c : Fin 768) (r : Fin 768) (hr : r.val = 32 * h.val + b.val) :
    Gen.k0_pay2 v0 v9 v12 (ix2 r c) = y1 v0 v9 v12 h b c := by
  unfold Gen.k0_pay2 y1
  simp only [truncf_apply, maximumf_apply, addf_apply, broadcast_apply]
  refine congrArg₂ max (congrArg₂ (· + ·) ?_ ?_) Ideal.ofBits_zero_f32
  · refine (plain_matmul_zero_apply _ rfl none _ _ r c).trans ?_
    refine Finset.sum_congr rfl fun l _ => congrArg₂ (· * ·) ?_ ?_
    · exact rows5_read v0 _ _ _ _ _ _ _ _ h b r hr l
    · exact congrFun (shapeCast_self v9 _) _
  · exact broadcastTo_1b_ab_apply v12 _ r c

end Cert.KernelIdeal.Body

end
-- ==== Proof.KernelBodyConv2.lean ====
/-
  The second convolution of one grid point's block, read at an index: the five tap rows' products of the first
  activation, 32*di rows down, with the five banded weight slabs, added in order, plus the tiled bias, rectified.
-/
import proofs.«147057_g2000302454168391_pallasbulk_317_11_alg».proof.Proof.KernelBodyConv1
import proofs.«147057_g2000302454168391_pallasbulk_317_11_alg».proof.Proof.Gen.KernelIdeal.Frame

noncomputable section

namespace Cert.KernelIdeal.Body

open Idealize.ShloMosaic Idealize.ShloMosaic.ValueIdx

open Cert.KernelIdeal Cert.KernelIdeal.Gen in
/-- The second convolution's payload, over the first one's, at row 32*h + b and column c. -/
theorem conv2_apply (v0 : Vec Ideal S28x32x28 .bf16) (v9 : Vec Ideal S140x768 .bf16) (v12 : Vec Ideal S1x768 .f32)
    (x3 : Vec Ideal S5x768x640 .bf16) (v42 : Vec Ideal S1x640 .f32)
    (h : Fin 20) (b : Fin 32) (c : Fin 640) (r : Fin 640) (hr : r.val = 32 * h.val + b.val) :
    Gen.k0_pay6 (Gen.k0_pay2 v0 v9 v12)
        (Gen.k0_pay3 v0 v9 v12 (View.ld x3 Gen.r0_3) (View.ld x3 Gen.r0_4) (View.ld x3 Gen.r0_5))
        (Gen.k0_pay4 v0 v9 v12) (Gen.k0_pay5 (View.ld x3 Gen.r0_6)) (View.ld x3 Gen.r0_7) v42 (ix2 r c)
      = y2 (y1 v0 v9 v12) x3 v42 h b c := by
  unfold Gen.k0_pay6 Gen.k0_pay3 Gen.k0_pay4 Gen.k0_pay5 y2
  simp only [truncf_apply, maximumf_apply, addf_apply, broadcast_apply]
  rw [sum5_left]
  have tap : ∀ (o : ℕ) (di : Fin 5) (ho : o = 32 * di.val) (hs : S768x768.Slices ![o, 0] S640x768)
      (hc : S1x768x640.ShapeCasts S768x640) (w : FVec Ideal S1x768x640 .bf16)
      (hw : ∀ l, w (ix3 (0 : Fin 1) l c) = x3 (ix3 di l c)),
      FloatOps.matmul dot_S640x768_S768x640_S640x640_1_0_0_1_n_n none
          (extractStridedSlice S640x768 ![o, 0] (Gen.k0_pay2 v0 v9 v12) hs) (shapeCast S768x640 w hc)
          (constant S640x640 .f32 0x00000000#32) (ix2 r c)
        = ∑ l : Fin 768, y1 v0 v9 v12 (⟨h.val + di.val, by omega⟩ : Fin 24) b l * x3 (ix3 di l c) := by
    intro o di ho hs hc w hw
    refine (tap_rows o _ w _ rfl none hs hc r c (fun l => y1 v0 v9 v12 (⟨h.val + di.val, by omega⟩ : Fin 24) b l)
      (fun r' hr' l => pay2_apply v0 v9 v12 _ b l r' (by show r'.val = 32 * (h.val + di.val) + b.val; omega))).trans ?_
    exact Finset.sum_congr rfl fun l _ => congrArg (_ * ·) (hw l)
  refine congrArg₂ max (congrArg₂ (· + ·) (congrArg₂ (· + ·) (congrArg₂ (· + ·) (congrArg₂ (· + ·) (congrArg₂ (· + ·)
    ?_ ?_) ?_) ?_) ?_) ?_) Ideal.ofBits_zero_f32
  · exact tap 0 0 rfl _ _ _ fun l => ld_slab x3 0 _ 0 rfl 0 l c
  · exact tap 32 1 rfl _ _ _ fun l => ld_slab x3 1 _ 1 rfl 0 l c
  · exact tap 64 2 rfl _ _ _ fun l => ld_slab x3 2 _ 2 rfl 0 l c
  · exact tap 96 3 rfl _ _ _ fun l => ld_slab x3 3 _ 3 rfl 0 l c
  · exact tap 128 4 rfl _ _ _ fun l => ld_slab x3 4 _ 4 rfl 0 l c
  · exact broadcastTo_1b_ab_apply v42 _ r c

end Cert.KernelIdeal.Body

end
-- ==== Proof.KernelBodyConv3.lean ====
/-
  The third convolution of one grid point's block, read at an index, over any second activation whose rows are known:
  the five tap rows' products with the five banded weight slabs, added in order, plus the tiled bias, rectified.
-/
import proofs.«147057_g2000302454168391_pallasbulk_317_11_alg».proof.Proof.KernelBodyTaps
import proofs.«147057_g2000302454168391_pallasbulk_317_11_alg».proof.Proof.Gen.KernelIdeal.Frame

noncomputable section

namespace Cert.KernelIdeal.Body

open Idealize.ShloMosaic Idealize.ShloMosaic.ValueIdx

open Cert.KernelIdeal Cert.KernelIdeal.Gen in
/-- The third convolution's payload, over a second-convolution payload whose rows are known, at row 32*h + b and column c. -/
theorem conv3_apply (v17 : FVec Ideal S768x768 .bf16) (v31 : FVec Ideal S640x640 .f32) (v32 : FVec Ideal S640x768 .bf16)
    (v34 : FVec Ideal S768x640 .bf16) (v38 : Vec Ideal S1x768x640 .bf16) (v42 : Vec Ideal S1x640 .f32)
    (a : Fin 20 → Fin 32 → Fin 640 → EReal)
    (hA : ∀ (h' : Fin 20) (b' : Fin 32) (l : Fin 640) (r' : Fin 640), r'.val = 32 * h'.val + b'.val →
      Gen.k0_pay6 v17 v31 v32 v34 v38 v42 (ix2 r' l) = a h' b' l)
    (x5 : Vec Ideal S5x640x1024 .bf16) (v72 : Vec Ideal S1x1024 .f32)
    (h : Fin 16) (b : Fin 32) (c : Fin 1024) (r : Fin 512) (hr : r.val = 32 * h.val + b.val) :
    Gen.k0_pay9
        (Gen.k0_pay7 v17 v31 v32 v34 v38 v42 (View.ld x5 Gen.r0_9) (View.ld x5 Gen.r0_10) (View.ld x5 Gen.r0_11) (View.ld x5 Gen.r0_12))
        (Gen.k0_pay8 v17 v31 v32 v34 v38 v42) (View.ld x5 Gen.r0_13) v72 (ix2 r c)
      = y3 a x5 v72 h b c := by
  unfold Gen.k0_pay9 Gen.k0_pay7 Gen.k0_pay8 y3
  simp only [truncf_apply, maximumf_apply, addf_apply, broadcast_apply]
  rw [sum5_left]
  have tap : ∀ (o : ℕ) (di : Fin 5) (ho : o = 32 * di.val) (hs : S640x640.Slices ![o, 0] S512x640)
      (hc : S1x640x1024.ShapeCasts S640x1024) (w : FVec Ideal S1x640x1024 .bf16)
      (hw : ∀ l, w (ix3 (0 : Fin 1) l c) = x5 (ix3 di l c)),
      FloatOps.matmul dot_S512x640_S640x1024_S512x1024_1_0_0_1_n_n none
          (extractStridedSlice S512x640 ![o, 0] (Gen.k0_pay6 v17 v31 v32 v34 v38 v42) hs) (shapeCast S640x1024 w hc)
          (constant S512x1024 .f32 0x00000000#32) (ix2 r c)
        = ∑ l : Fin 640, a (⟨h.val + di.val, by omega⟩ : Fin 20) b l * x5 (ix3 di l c) := by
    intro o di ho hs hc w hw
    refine (tap_rows o _ w _ rfl none hs hc r c (fun l => a (⟨h.val + di.val, by omega⟩ : Fin 20) b l)
      (fun r' hr' l => hA _ b l r' (by show r'.val = 32 * (h.val + di.val) + b.val; omega))).trans ?_
    exact Finset.sum_congr rfl fun l _ => congrArg (_ * ·) (hw l)
  refine congrArg₂ max (congrArg₂ (· + ·) (congrArg₂ (· + ·) (congrArg₂ (· + ·) (congrArg₂ (· + ·) (congrArg₂ (· + ·)
    ?_ ?_) ?_) ?_) ?_) ?_) Ideal.ofBits_zero_f32
  · exact tap 0 0 rfl _ _ _ fun l => ld_slab x5 0 _ 0 rfl 0 l c
  · exact tap 32 1 rfl _ _ _ fun l => ld_slab x5 1 _ 1 rfl 0 l c
  · exact tap 64 2 rfl _ _ _ fun l => ld_slab x5 2 _ 2 rfl 0 l c
  · exact tap 96 3 rfl _ _ _ fun l => ld_slab x5 3 _ 3 rfl 0 l c
  · exact tap 128 4 rfl _ _ _ fun l => ld_slab x5 4 _ 4 rfl 0 l c
  · exact broadcastTo_1b_ab_apply v72 _ r c

end Cert.KernelIdeal.Body

end
-- ==== Proof.KernelBodyDense.lean ====
/-
  The two dense layers of one grid point's block, read at an index, over any third activation whose rows are known:
  the sixteen image rows' products with the sixteen slabs of the first dense matrix, added in order, plus bias,
  rectified; then the product with the second dense matrix plus bias: the logit of image b, class r.
-/
import proofs.«147057_g2000302454168391_pallasbulk_317_11_alg».proof.Proof.KernelBodyTaps
import proofs.«147057_g2000302454168391_pallasbulk_317_11_alg».proof.Proof.Gen.KernelIdeal.Frame

noncomputable section

namespace Cert.KernelIdeal.Body

open Idealize.ShloMosaic Idealize.ShloMosaic.ValueIdx

open Cert.KernelIdeal Cert.KernelIdeal.Gen in
/-- The two dense layers' payload, over a third-convolution payload whose rows are known: the logit of image b, class r. -/
theorem dense_apply (v66 : FVec Ideal S512x1024 .f32) (v67 : FVec Ideal S512x640 .bf16) (v68 : Vec Ideal S1x640x1024 .bf16)
    (v72 : Vec Ideal S1x1024 .f32)
    (a : Fin 16 → Fin 32 → Fin 1024 → EReal)
    (hA : ∀ (h' : Fin 16) (b' : Fin 32) (l : Fin 1024) (r' : Fin 512), r'.val = 32 * h'.val + b'.val →
      Gen.k0_pay9 v66 v67 v68 v72 (ix2 r' l) = a h' b' l)
    (x7 : Vec Ideal S16x1024x256 .bf16) (v157 : Vec Ideal S1x256 .f32) (v163 : Vec Ideal S256x10 .bf16)
    (v166 : Vec Ideal S1x10 .f32) (b : Fin 32) (r : Fin 10) :
    Gen.k0_pay14 (Gen.k0_pay9 v66 v67 v68 v72)
        (Gen.k0_pay12 (Gen.k0_pay9 v66 v67 v68 v72)
          (Gen.k0_pay10 v66 v67 v68 v72 (View.ld x7 Gen.r0_15) (View.ld x7 Gen.r0_16) (View.ld x7 Gen.r0_17) (View.ld x7 Gen.r0_18) (View.ld x7 Gen.r0_19))
          (Gen.k0_pay11 v66 v67 v68 v72) (View.ld x7 Gen.r0_20) (View.ld x7 Gen.r0_21) (View.ld x7 Gen.r0_22) (View.ld x7 Gen.r0_23) (View.ld x7 Gen.r0_24) (View.ld x7 Gen.r0_25))
        (Gen.k0_pay13 (Gen.k0_pay9 v66 v67 v68 v72) (View.ld x7 Gen.r0_26))
        (View.ld x7 Gen.r0_27) (View.ld x7 Gen.r0_28) (View.ld x7 Gen.r0_29) (View.ld x7 Gen.r0_30) v157 v163 v166 (ix2 b r)
      = logitB (hidB a x7 v157) v163 v166 b r := by
  unfold Gen.k0_pay14 Gen.k0_pay12 Gen.k0_pay10 Gen.k0_pay11 Gen.k0_pay13 logitB
  simp only [addf_apply]
  refine congrArg₂ (· + ·) ?_ (broadcastTo_1b_ab_apply v166 _ b r)
  refine (plain_matmul_zero_apply _ rfl none _ _ b r).trans ?_
  refine Finset.sum_congr rfl fun q _ => congrArg₂ (· * ·) ?_ (congrFun (shapeCast_self v163 _) _)
  unfold hidB
  simp only [truncf_apply, maximumf_apply, addf_apply, broadcast_apply]
  rw [sum16_left]
  have tap : ∀ (o : ℕ) (hh : Fin 16) (ho : o = 32 * hh.val) (hs : S512x1024.Slices ![o, 0] S32x1024)
      (hc : S1x1024x256.ShapeCasts S1024x256) (w : FVec Ideal S1x1024x256 .bf16)
      (hw : ∀ l, w (ix3 (0 : Fin 1) l q) = x7 (ix3 hh l q)),
      FloatOps.matmul dot_S32x1024_S1024x256_S32x256_1_0_0_1_n_n none
          (extractStridedSlice S32x1024 ![o, 0] (Gen.k0_pay9 v66 v67 v68 v72) hs) (shapeCast S1024x256 w hc)
          (constant S32x256 .f32 0x00000000#32) (ix2 b q)
        = ∑ l : Fin 1024, a hh b l * x7 (ix3 hh l q) := by
    intro o hh ho hs hc w hw
    refine (tap_rows o _ w _ rfl none hs hc b q (fun l => a hh b l)
      (fun r' hr' l => hA hh b l r' (by omega))).trans ?_
    exact Finset.sum_congr rfl fun l _ => congrArg (_ * ·) (hw l)
  refine congrArg₂ max (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_) ?_) ?_) ?_) ?_) ?_) ?_) ?_) ?_) Ideal.ofBits_zero_f32
  · exact tap 0 0 rfl _ _ _ fun l => ld_slab x7 0 _ 0 rfl 0 l q
  · exact tap 32 1 rfl _ _ _ fun l => ld_slab x7 1 _ 1 rfl 0 l q
  · exact tap 64 2 rfl _ _ _ fun l => ld_slab x7 2 _ 2 rfl 0 l q
  · exact tap 96 3 rfl _ _ _ fun l => ld_slab x7 3 _ 3 rfl 0 l q
  · exact tap 128 4 rfl _ _ _ fun l => ld_slab x7 4 _ 4 rfl 0 l q
  · exact tap 160 5 rfl _ _ _ fun l => ld_slab x7 5 _ 5 rfl 0 l q
  · exact tap 192 6 rfl _ _ _ fun l => ld_slab x7 6 _ 6 rfl 0 l q
  · exact tap 224 7 rfl _ _ _ fun l => ld_slab x7 7 _ 7 rfl 0 l q
  · exact tap 256 8 rfl _ _ _ fun l => ld_slab x7 8 _ 8 rfl 0 l q
  · exact tap 288 9 rfl _ _ _ fun l => ld_slab x7 9 _ 9 rfl 0 l q
  · exact tap 320 10 rfl _ _ _ fun l => ld_slab x7 10 _ 10 rfl 0 l q
  · exact tap 352 11 rfl _ _ _ fun l => ld_slab x7 11 _ 11 rfl 0 l q
  · exact tap 384 12 rfl _ _ _ fun l => ld_slab x7 12 _ 12 rfl 0 l q
  · exact tap 416 13 rfl _ _ _ fun l => ld_slab x7 13 _ 13 rfl 0 l q
  · exact tap 448 14 rfl _ _ _ fun l => ld_slab x7 14 _ 14 rfl 0 l q
  · exact tap 480 15 rfl _ _ _ fun l => ld_slab x7 15 _ 15 rfl 0 l q
  · exact broadcastTo_1b_ab_apply v157 _ b q

end Cert.KernelIdeal.Body

end
-- ==== Proof.KernelBodySoftmax.lean ====
/-
  The last two payloads of one grid point's block: the maximum of each image's ten logits, folded from minus
  infinity, and the logarithm of the softmax written as (z - max z) - log (sum of exp (z - max z)).
-/
import proofs.«147057_g2000302454168391_pallasbulk_317_11_alg».proof.Proof.KernelBodyTaps
import proofs.«147057_g2000302454168391_pallasbulk_317_11_alg».proof.Proof.Gen.KernelIdeal.Frame
import proofs.«147057_g2000302454168391_pallasbulk_317_11_alg».proof.Proof.Spec

noncomputable section

namespace Cert.KernelIdeal.Body

open Idealize.ShloMosaic Idealize.ShloMosaic.ValueIdx

open Cert.KernelIdeal Cert.KernelIdeal.Gen in
/-- The row maxima's payload: at image b, the maximum of the ten logits folded from minus infinity. -/
theorem rowmax_apply (v77 : FVec Ideal S512x1024 .bf16) (v131 : FVec Ideal S32x256 .f32) (v135 : FVec Ideal S32x256 .f32)
    (v138 v143 v148 v153 : Vec Ideal S1x1024x256 .bf16) (v157 : Vec Ideal S1x256 .f32) (v163 : Vec Ideal S256x10 .bf16)
    (v166 : Vec Ideal S1x10 .f32) (b : Fin 32) (u : Fin 1) :
    Gen.k0_pay15 v77 v131 v135 v138 v143 v148 v153 v157 v163 v166 (ix2 b u)
      = (Finset.univ : Finset (Fin 10)).fold max ⊥
          (fun r => Gen.k0_pay14 v77 v131 v135 v138 v143 v148 v153 v157 v163 v166 (ix2 b r)) := by
  unfold Gen.k0_pay15
  exact (col_cast_apply _ _ b u).trans (row_max_apply _ _ _ _ b)

open Cert.KernelIdeal Cert.KernelIdeal.Gen in
/-- The last payload: over logits z of image b and their maximum, the logarithm of the softmax. -/
theorem softmax_apply (v168 : FVec Ideal S32x10 .f32) (v170 : FVec Ideal S32x1 .f32) (b : Fin 32) (z : Fin 10 → EReal)
    (hz : ∀ r, v168 (ix2 b r) = z r) (hM : v170 (ix2 b (0 : Fin 1)) = (Finset.univ : Finset (Fin 10)).fold max ⊥ z)
    (r : Fin 10) :
    Gen.k0_pay1 v168 v170 (ix2 b r) = Cert.Spec.logSoftmax z r := by
  unfold Gen.k0_pay1 Cert.Spec.logSoftmax
  simp only [subf_apply]
  have hsub : ∀ r' : Fin 10, v168 (ix2 b r') - broadcastTo S32x10 v170 broadcasts_S32x1_S32x10 (ix2 b r')
      = z r' - (Finset.univ : Finset (Fin 10)).fold max ⊥ z := fun r' => by
    rw [col_bcast_apply v170 _ b r', hz r', hM]
  refine congrArg₂ (· - ·) (hsub r) ?_
  refine (col_bcast_apply _ _ b r).trans ?_
  show Ideal.log (shapeCast S32x1 _ _ (ix2 b (0 : Fin 1))) = _
  refine congrArg Ideal.log ?_
  refine (col_cast_apply _ _ b 0).trans ?_
  refine (row_sum_apply _ _ _ _ b).trans ?_
  refine Finset.sum_congr rfl fun r' _ => ?_
  show Ideal.exp (v168 (ix2 b r') - broadcastTo S32x10 v170 broadcasts_S32x1_S32x10 (ix2 b r')) = _
  rw [hsub r']

end Cert.KernelIdeal.Body

end
-- ==== Proof.KernelBody.lean ====
/-
  The output block of one grid point read at (image b, class r): the logarithm of the softmax of the ten logits of
  image b computed by the block-level network (three banded convolutions, two dense layers) from the point's eleven
  input blocks. The payloads compose exactly as the body's one store lists them.
-/
import proofs.«147057_g2000302454168391_pallasbulk_317_11_alg».proof.Proof.KernelBodyConv2
import proofs.«147057_g2000302454168391_pallasbulk_317_11_alg».proof.Proof.KernelBodyConv3
import proofs.«147057_g2000302454168391_pallasbulk_317_11_alg».proof.Proof.KernelBodyDense
import proofs.«147057_g2000302454168391_pallasbulk_317_11_alg».proof.Proof.KernelBodySoftmax

noncomputable section

namespace Cert.KernelIdeal.Body

open Idealize.ShloMosaic Idealize.ShloMosaic.ValueIdx

open Cert.KernelIdeal Cert.KernelIdeal.Gen in
/-- The logits' payload, composed over the whole chain of payloads of the eleven input blocks, is the block-level
    network's logit of image b, class r. -/
theorem logits_apply (x0 : Vec Ideal S28x32x28 .bf16) (x1 : Vec Ideal S140x768 .bf16) (x2 : Vec Ideal S1x768 .f32)
    (x3 : Vec Ideal S5x768x640 .bf16) (x4 : Vec Ideal S1x640 .f32) (x5 : Vec Ideal S5x640x1024 .bf16)
    (x6 : Vec Ideal S1x1024 .f32) (x7 : Vec Ideal S16x1024x256 .bf16) (x8 : Vec Ideal S1x256 .f32)
    (x9 : Vec Ideal S256x10 .bf16) (x10 : Vec Ideal S1x10 .f32) (b : Fin 32) (r : Fin 10) :
    Gen.k0_pay14 (Gen.k0_pay9 (Gen.k0_pay7 (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4 (View.ld x5 Gen.r0_9) (View.ld x5 Gen.r0_10) (View.ld x5 Gen.r0_11) (View.ld x5 Gen.r0_12)) (Gen.k0_pay8 (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4) (View.ld x5 Gen.r0_13) x6)
        (Gen.k0_pay12 (Gen.k0_pay9 (Gen.k0_pay7 (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4 (View.ld x5 Gen.r0_9) (View.ld x5 Gen.r0_10) (View.ld x5 Gen.r0_11) (View.ld x5 Gen.r0_12)) (Gen.k0_pay8 (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4) (View.ld x5 Gen.r0_13) x6)
          (Gen.k0_pay10 (Gen.k0_pay7 (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4 (View.ld x5 Gen.r0_9) (View.ld x5 Gen.r0_10) (View.ld x5 Gen.r0_11) (View.ld x5 Gen.r0_12)) (Gen.k0_pay8 (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4) (View.ld x5 Gen.r0_13) x6 (View.ld x7 Gen.r0_15) (View.ld x7 Gen.r0_16) (View.ld x7 Gen.r0_17) (View.ld x7 Gen.r0_18) (View.ld x7 Gen.r0_19))
          (Gen.k0_pay11 (Gen.k0_pay7 (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4 (View.ld x5 Gen.r0_9) (View.ld x5 Gen.r0_10) (View.ld x5 Gen.r0_11) (View.ld x5 Gen.r0_12)) (Gen.k0_pay8 (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4) (View.ld x5 Gen.r0_13) x6) (View.ld x7 Gen.r0_20) (View.ld x7 Gen.r0_21) (View.ld x7 Gen.r0_22) (View.ld x7 Gen.r0_23) (View.ld x7 Gen.r0_24) (View.ld x7 Gen.r0_25))
        (Gen.k0_pay13 (Gen.k0_pay9 (Gen.k0_pay7 (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4 (View.ld x5 Gen.r0_9) (View.ld x5 Gen.r0_10) (View.ld x5 Gen.r0_11) (View.ld x5 Gen.r0_12)) (Gen.k0_pay8 (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4) (View.ld x5 Gen.r0_13) x6) (View.ld x7 Gen.r0_26))
        (View.ld x7 Gen.r0_27) (View.ld x7 Gen.r0_28) (View.ld x7 Gen.r0_29) (View.ld x7 Gen.r0_30) x8 x9 x10 (ix2 b r)
      = blockLogits x0 x1 x2 x3 x4 x5 x6 x7 x8 x9 x10 b r := by
  unfold blockLogits
  exact dense_apply (Gen.k0_pay7 (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4 (View.ld x5 Gen.r0_9) (View.ld x5 Gen.r0_10) (View.ld x5 Gen.r0_11) (View.ld x5 Gen.r0_12)) (Gen.k0_pay8 (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4) (View.ld x5 Gen.r0_13) x6 (y3 (y2 (y1 x0 x1 x2) x3 x4) x5 x6)
    (fun h' b' l r' hr' => conv3_apply (Gen.k0_pay2 x0 x1 x2) (Gen.k0_pay3 x0 x1 x2 (View.ld x3 Gen.r0_3) (View.ld x3 Gen.r0_4) (View.ld x3 Gen.r0_5)) (Gen.k0_pay4 x0 x1 x2) (Gen.k0_pay5 (View.ld x3 Gen.r0_6)) (View.ld x3 Gen.r0_7) x4 (y2 (y1 x0 x1 x2) x3 x4)
      (fun h'' b'' l' r'' hr'' => conv2_apply x0 x1 x2 x3 x4 h'' b'' l' r'' hr'') x5 x6 h' b' l r' hr')
    x7 x8 x9 x10 b r

open Cert.KernelIdeal Cert.KernelIdeal.Gen in
/-- The output block of one grid point, read at image b and class r: the logarithm of the softmax of the block-level
    network's ten logits of image b. -/
theorem out_block_apply (x0 : Vec Ideal S28x32x28 .bf16) (x1 : Vec Ideal S140x768 .bf16) (x2 : Vec Ideal S1x768 .f32)
    (x3 : Vec Ideal S5x768x640 .bf16) (x4 : Vec Ideal S1x640 .f32) (x5 : Vec Ideal S5x640x1024 .bf16)
    (x6 : Vec Ideal S1x1024 .f32) (x7 : Vec Ideal S16x1024x256 .bf16) (x8 : Vec Ideal S1x256 .f32)
    (x9 : Vec Ideal S256x10 .bf16) (x10 : Vec Ideal S1x10 .f32) (b : Fin 32) (r : Fin 10) :
    Gen.out0_11 x0 x1 x2 x3 x4 x5 x6 x7 x8 x9 x10 (ix2 b r)
      = Cert.Spec.logSoftmax (fun r' => blockLogits x0 x1 x2 x3 x4 x5 x6 x7 x8 x9 x10 b r') r := by
  unfold Gen.out0_11
  rw [View.canon_unit_zero zeros2]
  have e0 : View.ld x0 Gen.r0_0 = x0 := View.ld_unit_zero zeros3 _ x0
  have e1 : View.ld x1 Gen.r0_1 = x1 := View.ld_unit_zero zeros2 _ x1
  have e2 : View.ld x2 Gen.r0_2 = x2 := View.ld_unit_zero zeros2 _ x2
  have e4 : View.ld x4 Gen.r0_8 = x4 := View.ld_unit_zero zeros2 _ x4
  have e6 : View.ld x6 Gen.r0_14 = x6 := View.ld_unit_zero zeros2 _ x6
  have e8 : View.ld x8 Gen.r0_31 = x8 := View.ld_unit_zero zeros2 _ x8
  have e9 : View.ld x9 Gen.r0_32 = x9 := View.ld_unit_zero zeros2 _ x9
  have e10 : View.ld x10 Gen.r0_33 = x10 := View.ld_unit_zero zeros2 _ x10
  rw [e0, e1, e2, e4, e6, e8, e9, e10]
  refine softmax_apply _ _ b (fun r' => blockLogits x0 x1 x2 x3 x4 x5 x6 x7 x8 x9 x10 b r')
    (fun r' => logits_apply x0 x1 x2 x3 x4 x5 x6 x7 x8 x9 x10 b r') ?_ r
  refine (rowmax_apply _ _ _ _ _ _ _ _ _ _ b 0).trans ?_
  exact congrArg (fun f => (Finset.univ : Finset (Fin 10)).fold max ⊥ f)
    (funext fun r' => logits_apply x0 x1 x2 x3 x4 x5 x6 x7 x8 x9 x10 b r')

end Cert.KernelIdeal.Body

end
-- ==== Proof.KernelOperands1.lean ====
/-
  The banded matrices of convolution 1 (input row of 28 columns and 1 channel, output row of 24 columns and
  32 channels), as pure layout algebra.  The five taps of one tap row are padded with zeros to length 29; 24 copies
  of that padded row are laid end to end, the first 24*28 positions are kept and re-read in 24 rows of length 28.
  Position q = 28*j + wi of the kept stretch is entry q mod 29 of the padded row; since q = 29*j + (wi - j), inside
  the band j <= wi < j + 5 that entry is tap wi - j, and outside the band the residue is at least 5, a zero.
-/
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost
import proofs.«147057_g2000302454168391_pallasbulk_317_11_alg».proof.Proof.Spec

namespace Cert.KernelIdeal.Operands

open Idealize.ShloMosaic Idealize.ShloMosaic.ValueIdx

/-- The banded matrix read at (di, cin*wi+ci, cout*j+o) is the padded tap row at position (wi*j+wi') mod (wi+1):
    the wo copies of the padded row (length wi+1) laid end to end and re-read in rows of length wi. -/
theorem band1_row {α : Type} (row : (⟨4, ![5, 29, 1, 32]⟩ : Shape).Idx → α)
    (h16 : (⟨4, ![5, 29, 1, 32]⟩ : Shape).BroadcastsInDim (⟨5, ![5, 1, 29, 1, 32]⟩ : Shape) ![0, 2, 3, 4])
    (h17 : (⟨5, ![5, 1, 29, 1, 32]⟩ : Shape).BroadcastsInDim (⟨5, ![5, 24, 29, 1, 32]⟩ : Shape) ![0, 1, 2, 3, 4])
    (h18 : (⟨5, ![5, 24, 29, 1, 32]⟩ : Shape).ShapeCasts (⟨4, ![5, 696, 1, 32]⟩ : Shape))
    (h19 : (⟨4, ![5, 696, 1, 32]⟩ : Shape).Slices ![0, 0, 0, 0] (⟨4, ![5, 672, 1, 32]⟩ : Shape))
    (h20 : (⟨4, ![5, 672, 1, 32]⟩ : Shape).ShapeCasts (⟨5, ![5, 24, 28, 1, 32]⟩ : Shape))
    (h21 : (⟨5, ![5, 24, 28, 1, 32]⟩ : Shape).Transposes [0, 2, 3, 1, 4] (⟨5, ![5, 28, 1, 24, 32]⟩ : Shape))
    (h22 : (⟨5, ![5, 28, 1, 24, 32]⟩ : Shape).ShapeCasts (⟨3, ![5, 28, 768]⟩ : Shape))
    (di : Fin 5) (wi : Fin 28) (ci : Fin 1) (j : Fin 24) (o : Fin 32) :
    shapeCast (⟨3, ![5, 28, 768]⟩ : Shape) (transpose (⟨5, ![5, 28, 1, 24, 32]⟩ : Shape) [0, 2, 3, 1, 4] (shapeCast (⟨5, ![5, 24, 28, 1, 32]⟩ : Shape) (extractStridedSlice (⟨4, ![5, 672, 1, 32]⟩ : Shape) ![0, 0, 0, 0]
      (shapeCast (⟨4, ![5, 696, 1, 32]⟩ : Shape) (broadcastInDim (⟨5, ![5, 24, 29, 1, 32]⟩ : Shape) ![0, 1, 2, 3, 4] h17 (broadcastInDim (⟨5, ![5, 1, 29, 1, 32]⟩ : Shape) ![0, 2, 3, 4] h16 row)) h18) h19) h20) h21) h22
      (ix3 di ⟨1 * wi.val + ci.val, by omega⟩ ⟨32 * j.val + o.val, by omega⟩)
    = row (ix4 di ⟨(28 * j.val + wi.val) % 29, Nat.mod_lt _ (by decide)⟩ ci o) := by
  have hdi := di.isLt; have hwi := wi.isLt; have hci := ci.isLt; have hj := j.isLt; have ho := o.isLt
  -- the last reshape: (di, cin*wi+ci, cout*j+o) is (di, wi, ci, j, o)
  refine (shapeCast_apply _ h22 _ (ix5 di wi ci j o)
    (by rw [Shape.rowMajor_val_three, Shape.rowMajor_val_five]
        show ((((di.val * 28 + wi.val) * 1 + ci.val) * 24 + j.val) * 32 + o.val)
          = (di.val * 28 + (1 * wi.val + ci.val)) * 768 + (32 * j.val + o.val)
        omega)).trans ?_
  -- the transpose: (di, wi, ci, j, o) reads (di, j, wi, ci, o)
  refine (transpose_apply _ _ h21 _ (ix5 di j wi ci o)
    (fun b => match b with | ⟨0, _⟩ => rfl | ⟨1, _⟩ => rfl | ⟨2, _⟩ => rfl | ⟨3, _⟩ => rfl | ⟨4, _⟩ => rfl)).trans ?_
  -- the reshape of the cut rows: (di, j, wi, ci, o) is (di, wi*j + wi', ci, o)
  refine (shapeCast_apply _ h20 _ (ix4 di ⟨28 * j.val + wi.val, by omega⟩ ci o)
    (by rw [Shape.rowMajor_val_four, Shape.rowMajor_val_five]
        show (((di.val * 672 + (28 * j.val + wi.val)) * 1 + ci.val) * 32 + o.val)
          = (((di.val * 24 + j.val) * 28 + wi.val) * 1 + ci.val) * 32 + o.val
        omega)).trans ?_
  -- the cut keeps the first wo*wi positions
  refine (extractStridedSlice_apply _ _ h19 _ (ix4 di ⟨28 * j.val + wi.val, by omega⟩ ci o)
    (fun a => match a with
      | ⟨0, _⟩ => by show di.val = 0 + di.val; omega
      | ⟨1, _⟩ => by show 28 * j.val + wi.val = 0 + (28 * j.val + wi.val); omega
      | ⟨2, _⟩ => by show ci.val = 0 + ci.val; omega
      | ⟨3, _⟩ => by show o.val = 0 + o.val; omega)).trans ?_
  -- the flattening of the wo copies: position q is copy q / (wi+1), entry q mod (wi+1)
  refine (shapeCast_apply _ h18 _
    (ix5 di ⟨(28 * j.val + wi.val) / 29, by omega⟩ ⟨(28 * j.val + wi.val) % 29, Nat.mod_lt _ (by decide)⟩ ci o)
    (by rw [Shape.rowMajor_val_five, Shape.rowMajor_val_four]
        show ((((di.val * 24 + (28 * j.val + wi.val) / 29) * 29 + (28 * j.val + wi.val) % 29) * 1 + ci.val) * 32 + o.val)
          = ((di.val * 696 + (28 * j.val + wi.val)) * 1 + ci.val) * 32 + o.val
        omega)).trans ?_
  -- every copy is the same row
  refine (broadcastInDim_apply _ h17 _ _
    (ix5 di 0 ⟨(28 * j.val + wi.val) % 29, Nat.mod_lt _ (by decide)⟩ ci o)
    (fun a => match a with | ⟨0, _⟩ => rfl | ⟨1, _⟩ => rfl | ⟨2, _⟩ => rfl | ⟨3, _⟩ => (by show ci.val = 0; omega) | ⟨4, _⟩ => rfl)).trans ?_
  exact broadcastInDim_apply _ h16 _ _ _
    (fun a => match a with | ⟨0, _⟩ => rfl | ⟨1, _⟩ => rfl | ⟨2, _⟩ => (by show ci.val = 0; omega) | ⟨3, _⟩ => rfl)

/-- The padded tap row: positions below 5 hold the weight matrix's row (5*di + r)*cin + ci, the others the zero pad. -/
theorem band1_pad (w : FVec Ideal (⟨2, ![25, 32]⟩ : Shape) .f32)
    (h12 : (⟨2, ![25, 32]⟩ : Shape).ShapeCasts (⟨4, ![5, 5, 1, 32]⟩ : Shape)) (hbits : FTy.bits .bf16 < FTy.bits .f32)
    (hb : (⟨0, ![]⟩ : Shape).BroadcastsInDim (⟨4, ![5, 24, 1, 32]⟩ : Shape) ![])
    (hc : Shape.Concatenates [(⟨4, ![5, 5, 1, 32]⟩ : Shape), (⟨4, ![5, 24, 1, 32]⟩ : Shape)] (⟨4, ![5, 29, 1, 32]⟩ : Shape) 1)
    (di : Fin 5) (r : Fin 29) (ci : Fin 1) (o : Fin 32) :
    concatenate (⟨4, ![5, 29, 1, 32]⟩ : Shape) 1 [⟨(⟨4, ![5, 5, 1, 32]⟩ : Shape), truncf .bf16 (shapeCast (⟨4, ![5, 5, 1, 32]⟩ : Shape) w h12) hbits⟩,
        ⟨(⟨4, ![5, 24, 1, 32]⟩ : Shape), broadcastInDim (⟨4, ![5, 24, 1, 32]⟩ : Shape) ![] hb (constant (F := Ideal) (⟨0, ![]⟩ : Shape) .bf16 0x0000#16)⟩] hc (ix4 di r ci o)
      = if h : r.val < 5 then w (ix2 ⟨(5 * di.val + r.val) * 1 + ci.val, by have := di.isLt; have := ci.isLt; omega⟩ o) else 0 := by
  have hdi := di.isLt; have hr := r.isLt; have hci := ci.isLt; have ho := o.isLt
  by_cases h : r.val < 5
  · rw [dif_pos h]
    refine (concatenate_pair_apply_left 1 _ _ hc _ rfl (ix4 di ⟨r.val, h⟩ ci o)
      (fun b => match b with | ⟨0, _⟩ => rfl | ⟨1, _⟩ => rfl | ⟨2, _⟩ => rfl | ⟨3, _⟩ => rfl)).trans ?_
    -- the change of float format is the identity; the reshape re-reads row (5*di + r)*cin + ci
    show shapeCast (⟨4, ![5, 5, 1, 32]⟩ : Shape) w h12 (ix4 di ⟨r.val, h⟩ ci o) = _
    exact shapeCast_apply _ h12 _ _
      (by rw [Shape.rowMajor_val_two, Shape.rowMajor_val_four]
          show ((5 * di.val + r.val) * 1 + ci.val) * 32 + o.val = ((di.val * 5 + r.val) * 1 + ci.val) * 32 + o.val
          omega)
  · rw [dif_neg h]
    refine (concatenate_pair_apply_right 1 _ _ hc _ rfl rfl (ix4 di ⟨r.val - 5, by omega⟩ ci o)
      (fun b hb => match b with
        | ⟨0, _⟩ => rfl
        | ⟨1, _⟩ => absurd rfl hb
        | ⟨2, _⟩ => rfl
        | ⟨3, _⟩ => rfl)
      (by show r.val - 5 + 5 = r.val; omega)).trans ?_
    exact Ideal.ofBits_zero_bf16

/-- The banded matrix of a valid 5-tap convolution: at (di, cin*wi+ci, cout*j+o) it holds the tap (di, wi-j) of the
    weight matrix when the input column wi lies in the window j .. j+4 of output column j, and the zero pad otherwise.
    With q = wi_extent*j + wi the position in the wo copies of the padded row laid end to end, q = (wi_extent+1)*j + (wi-j)
    inside the window, and outside it the residue of q modulo wi_extent+1 is at least 5. -/
theorem band1_entry (w : FVec Ideal (⟨2, ![25, 32]⟩ : Shape) .f32)
    (h12 : (⟨2, ![25, 32]⟩ : Shape).ShapeCasts (⟨4, ![5, 5, 1, 32]⟩ : Shape)) (hbits : FTy.bits .bf16 < FTy.bits .f32)
    (hb : (⟨0, ![]⟩ : Shape).BroadcastsInDim (⟨4, ![5, 24, 1, 32]⟩ : Shape) ![])
    (hc : Shape.Concatenates [(⟨4, ![5, 5, 1, 32]⟩ : Shape), (⟨4, ![5, 24, 1, 32]⟩ : Shape)] (⟨4, ![5, 29, 1, 32]⟩ : Shape) 1)
    (h16 : (⟨4, ![5, 29, 1, 32]⟩ : Shape).BroadcastsInDim (⟨5, ![5, 1, 29, 1, 32]⟩ : Shape) ![0, 2, 3, 4])
    (h17 : (⟨5, ![5, 1, 29, 1, 32]⟩ : Shape).BroadcastsInDim (⟨5, ![5, 24, 29, 1, 32]⟩ : Shape) ![0, 1, 2, 3, 4])
    (h18 : (⟨5, ![5, 24, 29, 1, 32]⟩ : Shape).ShapeCasts (⟨4, ![5, 696, 1, 32]⟩ : Shape))
    (h19 : (⟨4, ![5, 696, 1, 32]⟩ : Shape).Slices ![0, 0, 0, 0] (⟨4, ![5, 672, 1, 32]⟩ : Shape))
    (h20 : (⟨4, ![5, 672, 1, 32]⟩ : Shape).ShapeCasts (⟨5, ![5, 24, 28, 1, 32]⟩ : Shape))
    (h21 : (⟨5, ![5, 24, 28, 1, 32]⟩ : Shape).Transposes [0, 2, 3, 1, 4] (⟨5, ![5, 28, 1, 24, 32]⟩ : Shape))
    (h22 : (⟨5, ![5, 28, 1, 24, 32]⟩ : Shape).ShapeCasts (⟨3, ![5, 28, 768]⟩ : Shape))
    (di : Fin 5) (wi : Fin 28) (ci : Fin 1) (j : Fin 24) (o : Fin 32) :
    shapeCast (⟨3, ![5, 28, 768]⟩ : Shape) (transpose (⟨5, ![5, 28, 1, 24, 32]⟩ : Shape) [0, 2, 3, 1, 4] (shapeCast (⟨5, ![5, 24, 28, 1, 32]⟩ : Shape) (extractStridedSlice (⟨4, ![5, 672, 1, 32]⟩ : Shape) ![0, 0, 0, 0]
      (shapeCast (⟨4, ![5, 696, 1, 32]⟩ : Shape) (broadcastInDim (⟨5, ![5, 24, 29, 1, 32]⟩ : Shape) ![0, 1, 2, 3, 4] h17 (broadcastInDim (⟨5, ![5, 1, 29, 1, 32]⟩ : Shape) ![0, 2, 3, 4] h16
        (concatenate (⟨4, ![5, 29, 1, 32]⟩ : Shape) 1 [⟨(⟨4, ![5, 5, 1, 32]⟩ : Shape), truncf .bf16 (shapeCast (⟨4, ![5, 5, 1, 32]⟩ : Shape) w h12) hbits⟩,
          ⟨(⟨4, ![5, 24, 1, 32]⟩ : Shape), broadcastInDim (⟨4, ![5, 24, 1, 32]⟩ : Shape) ![] hb (constant (F := Ideal) (⟨0, ![]⟩ : Shape) .bf16 0x0000#16)⟩] hc))) h18) h19) h20) h21) h22
      (ix3 di ⟨1 * wi.val + ci.val, by omega⟩ ⟨32 * j.val + o.val, by omega⟩)
    = if h : j.val ≤ wi.val ∧ wi.val < j.val + 5 then w (ix2 (Spec.tap1 di ⟨wi.val - j.val, by omega⟩) o) else 0 := by
  have hdi := di.isLt; have hwi := wi.isLt; have hci := ci.isLt; have hj := j.isLt; have ho := o.isLt
  refine (band1_row _ h16 h17 h18 h19 h20 h21 h22 di wi ci j o).trans ?_
  refine (band1_pad w h12 hbits hb hc di _ ci o).trans ?_
  by_cases h : j.val ≤ wi.val ∧ wi.val < j.val + 5
  · have hr : (28 * j.val + wi.val) % 29 = wi.val - j.val := by omega
    rw [dif_pos h, dif_pos (show (28 * j.val + wi.val) % 29 < 5 by omega)]
    refine congrArg w (congrArg (fun a => ix2 a o) (Fin.ext ?_))
    show (5 * di.val + (28 * j.val + wi.val) % 29) * 1 + ci.val = 5 * di.val + (wi.val - j.val)
    rw [hr]; omega
  · rw [dif_neg h, dif_neg (show ¬ (28 * j.val + wi.val) % 29 < 5 by omega)]

/-- The first layer's banded matrices stacked: row 28*di + wi of the 140 x 768 matrix is row wi of slab di. -/
theorem band1_stacked (w : FVec Ideal (⟨2, ![25, 32]⟩ : Shape) .f32)
    (h12 : (⟨2, ![25, 32]⟩ : Shape).ShapeCasts (⟨4, ![5, 5, 1, 32]⟩ : Shape)) (hbits : FTy.bits .bf16 < FTy.bits .f32)
    (hb : (⟨0, ![]⟩ : Shape).BroadcastsInDim (⟨4, ![5, 24, 1, 32]⟩ : Shape) ![])
    (hc : Shape.Concatenates [(⟨4, ![5, 5, 1, 32]⟩ : Shape), (⟨4, ![5, 24, 1, 32]⟩ : Shape)] (⟨4, ![5, 29, 1, 32]⟩ : Shape) 1)
    (h16 : (⟨4, ![5, 29, 1, 32]⟩ : Shape).BroadcastsInDim (⟨5, ![5, 1, 29, 1, 32]⟩ : Shape) ![0, 2, 3, 4])
    (h17 : (⟨5, ![5, 1, 29, 1, 32]⟩ : Shape).BroadcastsInDim (⟨5, ![5, 24, 29, 1, 32]⟩ : Shape) ![0, 1, 2, 3, 4])
    (h18 : (⟨5, ![5, 24, 29, 1, 32]⟩ : Shape).ShapeCasts (⟨4, ![5, 696, 1, 32]⟩ : Shape))
    (h19 : (⟨4, ![5, 696, 1, 32]⟩ : Shape).Slices ![0, 0, 0, 0] (⟨4, ![5, 672, 1, 32]⟩ : Shape))
    (h20 : (⟨4, ![5, 672, 1, 32]⟩ : Shape).ShapeCasts (⟨5, ![5, 24, 28, 1, 32]⟩ : Shape))
    (h21 : (⟨5, ![5, 24, 28, 1, 32]⟩ : Shape).Transposes [0, 2, 3, 1, 4] (⟨5, ![5, 28, 1, 24, 32]⟩ : Shape))
    (h22 : (⟨5, ![5, 28, 1, 24, 32]⟩ : Shape).ShapeCasts (⟨3, ![5, 28, 768]⟩ : Shape))
    (h23 : (⟨3, ![5, 28, 768]⟩ : Shape).ShapeCasts (⟨2, ![140, 768]⟩ : Shape))
    (di : Fin 5) (wi : Fin 28) (j : Fin 24) (o : Fin 32) :
    shapeCast (⟨2, ![140, 768]⟩ : Shape) (shapeCast (⟨3, ![5, 28, 768]⟩ : Shape) (transpose (⟨5, ![5, 28, 1, 24, 32]⟩ : Shape) [0, 2, 3, 1, 4] (shapeCast (⟨5, ![5, 24, 28, 1, 32]⟩ : Shape) (extractStridedSlice (⟨4, ![5, 672, 1, 32]⟩ : Shape) ![0, 0, 0, 0]
      (shapeCast (⟨4, ![5, 696, 1, 32]⟩ : Shape) (broadcastInDim (⟨5, ![5, 24, 29, 1, 32]⟩ : Shape) ![0, 1, 2, 3, 4] h17 (broadcastInDim (⟨5, ![5, 1, 29, 1, 32]⟩ : Shape) ![0, 2, 3, 4] h16
        (concatenate (⟨4, ![5, 29, 1, 32]⟩ : Shape) 1 [⟨(⟨4, ![5, 5, 1, 32]⟩ : Shape), truncf .bf16 (shapeCast (⟨4, ![5, 5, 1, 32]⟩ : Shape) w h12) hbits⟩,
          ⟨(⟨4, ![5, 24, 1, 32]⟩ : Shape), broadcastInDim (⟨4, ![5, 24, 1, 32]⟩ : Shape) ![] hb (constant (F := Ideal) (⟨0, ![]⟩ : Shape) .bf16 0x0000#16)⟩] hc))) h18) h19) h20) h21) h22) h23
      (ix2 ⟨28 * di.val + wi.val, by omega⟩ ⟨32 * j.val + o.val, by omega⟩)
    = if h : j.val ≤ wi.val ∧ wi.val < j.val + 5 then w (ix2 (Spec.tap1 di ⟨wi.val - j.val, by omega⟩) o) else 0 := by
  have hdi := di.isLt; have hwi := wi.isLt; have hj := j.isLt; have ho := o.isLt
  refine (shapeCast_apply _ h23 _ (ix3 di ⟨1 * wi.val + (0 : Fin 1).val, by show 1 * wi.val + 0 < 28; omega⟩ ⟨32 * j.val + o.val, by omega⟩)
    (by rw [Shape.rowMajor_val_three, Shape.rowMajor_val_two]
        show (di.val * 28 + (1 * wi.val + 0)) * 768 + (32 * j.val + o.val) = (28 * di.val + wi.val) * 768 + (32 * j.val + o.val)
        omega)).trans ?_
  exact band1_entry w h12 hbits hb hc h16 h17 h18 h19 h20 h21 h22 di wi 0 j o

end Cert.KernelIdeal.Operands
-- ==== Proof.KernelOperands2.lean ====
/-
  The banded matrices of convolution 2 (input row of 24 columns and 32 channels, output row of 20 columns and
  32 channels), as pure layout algebra.  The five taps of one tap row are padded with zeros to length 25; 20 copies
  of that padded row are laid end to end, the first 20*24 positions are kept and re-read in 20 rows of length 24.
  Position q = 24*j + wi of the kept stretch is entry q mod 25 of the padded row; since q = 25*j + (wi - j), inside
  the band j <= wi < j + 5 that entry is tap wi - j, and outside the band the residue is at least 5, a zero.
-/
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost
import proofs.«147057_g2000302454168391_pallasbulk_317_11_alg».proof.Proof.Spec

namespace Cert.KernelIdeal.Operands

open Idealize.ShloMosaic Idealize.ShloMosaic.ValueIdx

/-- The banded matrix read at (di, cin*wi+ci, cout*j+o) is the padded tap row at position (wi*j+wi') mod (wi+1):
    the wo copies of the padded row (length wi+1) laid end to end and re-read in rows of length wi. -/
theorem band2_row {α : Type} (row : (⟨4, ![5, 25, 32, 32]⟩ : Shape).Idx → α)
    (h16 : (⟨4, ![5, 25, 32, 32]⟩ : Shape).BroadcastsInDim (⟨5, ![5, 1, 25, 32, 32]⟩ : Shape) ![0, 2, 3, 4])
    (h17 : (⟨5, ![5, 1, 25, 32, 32]⟩ : Shape).BroadcastsInDim (⟨5, ![5, 20, 25, 32, 32]⟩ : Shape) ![0, 1, 2, 3, 4])
    (h18 : (⟨5, ![5, 20, 25, 32, 32]⟩ : Shape).ShapeCasts (⟨4, ![5, 500, 32, 32]⟩ : Shape))
    (h19 : (⟨4, ![5, 500, 32, 32]⟩ : Shape).Slices ![0, 0, 0, 0] (⟨4, ![5, 480, 32, 32]⟩ : Shape))
    (h20 : (⟨4, ![5, 480, 32, 32]⟩ : Shape).ShapeCasts (⟨5, ![5, 20, 24, 32, 32]⟩ : Shape))
    (h21 : (⟨5, ![5, 20, 24, 32, 32]⟩ : Shape).Transposes [0, 2, 3, 1, 4] (⟨5, ![5, 24, 32, 20, 32]⟩ : Shape))
    (h22 : (⟨5, ![5, 24, 32, 20, 32]⟩ : Shape).ShapeCasts (⟨3, ![5, 768, 640]⟩ : Shape))
    (di : Fin 5) (wi : Fin 24) (ci : Fin 32) (j : Fin 20) (o : Fin 32) :
    shapeCast (⟨3, ![5, 768, 640]⟩ : Shape) (transpose (⟨5, ![5, 24, 32, 20, 32]⟩ : Shape) [0, 2, 3, 1, 4] (shapeCast (⟨5, ![5, 20, 24, 32, 32]⟩ : Shape) (extractStridedSlice (⟨4, ![5, 480, 32, 32]⟩ : Shape) ![0, 0, 0, 0]
      (shapeCast (⟨4, ![5, 500, 32, 32]⟩ : Shape) (broadcastInDim (⟨5, ![5, 20, 25, 32, 32]⟩ : Shape) ![0, 1, 2, 3, 4] h17 (broadcastInDim (⟨5, ![5, 1, 25, 32, 32]⟩ : Shape) ![0, 2, 3, 4] h16 row)) h18) h19) h20) h21) h22
      (ix3 di ⟨32 * wi.val + ci.val, by omega⟩ ⟨32 * j.val + o.val, by omega⟩)
    = row (ix4 di ⟨(24 * j.val + wi.val) % 25, Nat.mod_lt _ (by decide)⟩ ci o) := by
  have hdi := di.isLt; have hwi := wi.isLt; have hci := ci.isLt; have hj := j.isLt; have ho := o.isLt
  -- the last reshape: (di, cin*wi+ci, cout*j+o) is (di, wi, ci, j, o)
  refine (shapeCast_apply _ h22 _ (ix5 di wi ci j o)
    (by rw [Shape.rowMajor_val_three, Shape.rowMajor_val_five]
        show ((((di.val * 24 + wi.val) * 32 + ci.val) * 20 + j.val) * 32 + o.val)
          = (di.val * 768 + (32 * wi.val + ci.val)) * 640 + (32 * j.val + o.val)
        omega)).trans ?_
  -- the transpose: (di, wi, ci, j, o) reads (di, j, wi, ci, o)
  refine (transpose_apply _ _ h21 _ (ix5 di j wi ci o)
    (fun b => match b with | ⟨0, _⟩ => rfl | ⟨1, _⟩ => rfl | ⟨2, _⟩ => rfl | ⟨3, _⟩ => rfl | ⟨4, _⟩ => rfl)).trans ?_
  -- the reshape of the cut rows: (di, j, wi, ci, o) is (di, wi*j + wi', ci, o)
  refine (shapeCast_apply _ h20 _ (ix4 di ⟨24 * j.val + wi.val, by omega⟩ ci o)
    (by rw [Shape.rowMajor_val_four, Shape.rowMajor_val_five]
        show (((di.val * 480 + (24 * j.val + wi.val)) * 32 + ci.val) * 32 + o.val)
          = (((di.val * 20 + j.val) * 24 + wi.val) * 32 + ci.val) * 32 + o.val
        omega)).trans ?_
  -- the cut keeps the first wo*wi positions
  refine (extractStridedSlice_apply _ _ h19 _ (ix4 di ⟨24 * j.val + wi.val, by omega⟩ ci o)
    (fun a => match a with
      | ⟨0, _⟩ => by show di.val = 0 + di.val; omega
      | ⟨1, _⟩ => by show 24 * j.val + wi.val = 0 + (24 * j.val + wi.val); omega
      | ⟨2, _⟩ => by show ci.val = 0 + ci.val; omega
      | ⟨3, _⟩ => by show o.val = 0 + o.val; omega)).trans ?_
  -- the flattening of the wo copies: position q is copy q / (wi+1), entry q mod (wi+1)
  refine (shapeCast_apply _ h18 _
    (ix5 di ⟨(24 * j.val + wi.val) / 25, by omega⟩ ⟨(24 * j.val + wi.val) % 25, Nat.mod_lt _ (by decide)⟩ ci o)
    (by rw [Shape.rowMajor_val_five, Shape.rowMajor_val_four]
        show ((((di.val * 20 + (24 * j.val + wi.val) / 25) * 25 + (24 * j.val + wi.val) % 25) * 32 + ci.val) * 32 + o.val)
          = ((di.val * 500 + (24 * j.val + wi.val)) * 32 + ci.val) * 32 + o.val
        omega)).trans ?_
  -- every copy is the same row
  refine (broadcastInDim_apply _ h17 _ _
    (ix5 di 0 ⟨(24 * j.val + wi.val) % 25, Nat.mod_lt _ (by decide)⟩ ci o)
    (fun a => match a with | ⟨0, _⟩ => rfl | ⟨1, _⟩ => rfl | ⟨2, _⟩ => rfl | ⟨3, _⟩ => rfl | ⟨4, _⟩ => rfl)).trans ?_
  exact broadcastInDim_apply _ h16 _ _ _
    (fun a => match a with | ⟨0, _⟩ => rfl | ⟨1, _⟩ => rfl | ⟨2, _⟩ => rfl | ⟨3, _⟩ => rfl)

/-- The padded tap row: positions below 5 hold the weight matrix's row (5*di + r)*cin + ci, the others the zero pad. -/
theorem band2_pad (w : FVec Ideal (⟨2, ![800, 32]⟩ : Shape) .f32)
    (h12 : (⟨2, ![800, 32]⟩ : Shape).ShapeCasts (⟨4, ![5, 5, 32, 32]⟩ : Shape)) (hbits : FTy.bits .bf16 < FTy.bits .f32)
    (hb : (⟨0, ![]⟩ : Shape).BroadcastsInDim (⟨4, ![5, 20, 32, 32]⟩ : Shape) ![])
    (hc : Shape.Concatenates [(⟨4, ![5, 5, 32, 32]⟩ : Shape), (⟨4, ![5, 20, 32, 32]⟩ : Shape)] (⟨4, ![5, 25, 32, 32]⟩ : Shape) 1)
    (di : Fin 5) (r : Fin 25) (ci : Fin 32) (o : Fin 32) :
    concatenate (⟨4, ![5, 25, 32, 32]⟩ : Shape) 1 [⟨(⟨4, ![5, 5, 32, 32]⟩ : Shape), truncf .bf16 (shapeCast (⟨4, ![5, 5, 32, 32]⟩ : Shape) w h12) hbits⟩,
        ⟨(⟨4, ![5, 20, 32, 32]⟩ : Shape), broadcastInDim (⟨4, ![5, 20, 32, 32]⟩ : Shape) ![] hb (constant (F := Ideal) (⟨0, ![]⟩ : Shape) .bf16 0x0000#16)⟩] hc (ix4 di r ci o)
      = if h : r.val < 5 then w (ix2 ⟨(5 * di.val + r.val) * 32 + ci.val, by have := di.isLt; have := ci.isLt; omega⟩ o) else 0 := by
  have hdi := di.isLt; have hr := r.isLt; have hci := ci.isLt; have ho := o.isLt
  by_cases h : r.val < 5
  · rw [dif_pos h]
    refine (concatenate_pair_apply_left 1 _ _ hc _ rfl (ix4 di ⟨r.val, h⟩ ci o)
      (fun b => match b with | ⟨0, _⟩ => rfl | ⟨1, _⟩ => rfl | ⟨2, _⟩ => rfl | ⟨3, _⟩ => rfl)).trans ?_
    -- the change of float format is the identity; the reshape re-reads row (5*di + r)*cin + ci
    show shapeCast (⟨4, ![5, 5, 32, 32]⟩ : Shape) w h12 (ix4 di ⟨r.val, h⟩ ci o) = _
    exact shapeCast_apply _ h12 _ _
      (by rw [Shape.rowMajor_val_two, Shape.rowMajor_val_four]
          show ((5 * di.val + r.val) * 32 + ci.val) * 32 + o.val = ((di.val * 5 + r.val) * 32 + ci.val) * 32 + o.val
          omega)
  · rw [dif_neg h]
    refine (concatenate_pair_apply_right 1 _ _ hc _ rfl rfl (ix4 di ⟨r.val - 5, by omega⟩ ci o)
      (fun b hb => match b with
        | ⟨0, _⟩ => rfl
        | ⟨1, _⟩ => absurd rfl hb
        | ⟨2, _⟩ => rfl
        | ⟨3, _⟩ => rfl)
      (by show r.val - 5 + 5 = r.val; omega)).trans ?_
    exact Ideal.ofBits_zero_bf16

/-- The banded matrix of a valid 5-tap convolution: at (di, cin*wi+ci, cout*j+o) it holds the tap (di, wi-j) of the
    weight matrix when the input column wi lies in the window j .. j+4 of output column j, and the zero pad otherwise.
    With q = wi_extent*j + wi the position in the wo copies of the padded row laid end to end, q = (wi_extent+1)*j + (wi-j)
    inside the window, and outside it the residue of q modulo wi_extent+1 is at least 5. -/
theorem band2_entry (w : FVec Ideal (⟨2, ![800, 32]⟩ : Shape) .f32)
    (h12 : (⟨2, ![800, 32]⟩ : Shape).ShapeCasts (⟨4, ![5, 5, 32, 32]⟩ : Shape)) (hbits : FTy.bits .bf16 < FTy.bits .f32)
    (hb : (⟨0, ![]⟩ : Shape).BroadcastsInDim (⟨4, ![5, 20, 32, 32]⟩ : Shape) ![])
    (hc : Shape.Concatenates [(⟨4, ![5, 5, 32, 32]⟩ : Shape), (⟨4, ![5, 20, 32, 32]⟩ : Shape)] (⟨4, ![5, 25, 32, 32]⟩ : Shape) 1)
    (h16 : (⟨4, ![5, 25, 32, 32]⟩ : Shape).BroadcastsInDim (⟨5, ![5, 1, 25, 32, 32]⟩ : Shape) ![0, 2, 3, 4])
    (h17 : (⟨5, ![5, 1, 25, 32, 32]⟩ : Shape).BroadcastsInDim (⟨5, ![5, 20, 25, 32, 32]⟩ : Shape) ![0, 1, 2, 3, 4])
    (h18 : (⟨5, ![5, 20, 25, 32, 32]⟩ : Shape).ShapeCasts (⟨4, ![5, 500, 32, 32]⟩ : Shape))
    (h19 : (⟨4, ![5, 500, 32, 32]⟩ : Shape).Slices ![0, 0, 0, 0] (⟨4, ![5, 480, 32, 32]⟩ : Shape))
    (h20 : (⟨4, ![5, 480, 32, 32]⟩ : Shape).ShapeCasts (⟨5, ![5, 20, 24, 32, 32]⟩ : Shape))
    (h21 : (⟨5, ![5, 20, 24, 32, 32]⟩ : Shape).Transposes [0, 2, 3, 1, 4] (⟨5, ![5, 24, 32, 20, 32]⟩ : Shape))
    (h22 : (⟨5, ![5, 24, 32, 20, 32]⟩ : Shape).ShapeCasts (⟨3, ![5, 768, 640]⟩ : Shape))
    (di : Fin 5) (wi : Fin 24) (ci : Fin 32) (j : Fin 20) (o : Fin 32) :
    shapeCast (⟨3, ![5, 768, 640]⟩ : Shape) (transpose (⟨5, ![5, 24, 32, 20, 32]⟩ : Shape) [0, 2, 3, 1, 4] (shapeCast (⟨5, ![5, 20, 24, 32, 32]⟩ : Shape) (extractStridedSlice (⟨4, ![5, 480, 32, 32]⟩ : Shape) ![0, 0, 0, 0]
      (shapeCast (⟨4, ![5, 500, 32, 32]⟩ : Shape) (broadcastInDim (⟨5, ![5, 20, 25, 32, 32]⟩ : Shape) ![0, 1, 2, 3, 4] h17 (broadcastInDim (⟨5, ![5, 1, 25, 32, 32]⟩ : Shape) ![0, 2, 3, 4] h16
        (concatenate (⟨4, ![5, 25, 32, 32]⟩ : Shape) 1 [⟨(⟨4, ![5, 5, 32, 32]⟩ : Shape), truncf .bf16 (shapeCast (⟨4, ![5, 5, 32, 32]⟩ : Shape) w h12) hbits⟩,
          ⟨(⟨4, ![5, 20, 32, 32]⟩ : Shape), broadcastInDim (⟨4, ![5, 20, 32, 32]⟩ : Shape) ![] hb (constant (F := Ideal) (⟨0, ![]⟩ : Shape) .bf16 0x0000#16)⟩] hc))) h18) h19) h20) h21) h22
      (ix3 di ⟨32 * wi.val + ci.val, by omega⟩ ⟨32 * j.val + o.val, by omega⟩)
    = if h : j.val ≤ wi.val ∧ wi.val < j.val + 5 then w (ix2 (Spec.tap32 di ⟨wi.val - j.val, by omega⟩ ci) o) else 0 := by
  have hdi := di.isLt; have hwi := wi.isLt; have hci := ci.isLt; have hj := j.isLt; have ho := o.isLt
  refine (band2_row _ h16 h17 h18 h19 h20 h21 h22 di wi ci j o).trans ?_
  refine (band2_pad w h12 hbits hb hc di _ ci o).trans ?_
  by_cases h : j.val ≤ wi.val ∧ wi.val < j.val + 5
  · have hr : (24 * j.val + wi.val) % 25 = wi.val - j.val := by omega
    rw [dif_pos h, dif_pos (show (24 * j.val + wi.val) % 25 < 5 by omega)]
    refine congrArg w (congrArg (fun a => ix2 a o) (Fin.ext ?_))
    show (5 * di.val + (24 * j.val + wi.val) % 25) * 32 + ci.val = (5 * di.val + (wi.val - j.val)) * 32 + ci.val
    rw [hr]
  · rw [dif_neg h, dif_neg (show ¬ (24 * j.val + wi.val) % 25 < 5 by omega)]

end Cert.KernelIdeal.Operands
-- ==== Proof.KernelOperands3.lean ====
/-
  The banded matrices of convolution 3 (input row of 20 columns and 32 channels, output row of 16 columns and
  64 channels), as pure layout algebra.  The five taps of one tap row are padded with zeros to length 21; 16 copies
  of that padded row are laid end to end, the first 16*20 positions are kept and re-read in 16 rows of length 20.
  Position q = 20*j + wi of the kept stretch is entry q mod 21 of the padded row; since q = 21*j + (wi - j), inside
  the band j <= wi < j + 5 that entry is tap wi - j, and outside the band the residue is at least 5, a zero.
-/
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost
import proofs.«147057_g2000302454168391_pallasbulk_317_11_alg».proof.Proof.Spec

namespace Cert.KernelIdeal.Operands

open Idealize.ShloMosaic Idealize.ShloMosaic.ValueIdx

/-- The banded matrix read at (di, cin*wi+ci, cout*j+o) is the padded tap row at position (wi*j+wi') mod (wi+1):
    the wo copies of the padded row (length wi+1) laid end to end and re-read in rows of length wi. -/
theorem band3_row {α : Type} (row : (⟨4, ![5, 21, 32, 64]⟩ : Shape).Idx → α)
    (h16 : (⟨4, ![5, 21, 32, 64]⟩ : Shape).BroadcastsInDim (⟨5, ![5, 1, 21, 32, 64]⟩ : Shape) ![0, 2, 3, 4])
    (h17 : (⟨5, ![5, 1, 21, 32, 64]⟩ : Shape).BroadcastsInDim (⟨5, ![5, 16, 21, 32, 64]⟩ : Shape) ![0, 1, 2, 3, 4])
    (h18 : (⟨5, ![5, 16, 21, 32, 64]⟩ : Shape).ShapeCasts (⟨4, ![5, 336, 32, 64]⟩ : Shape))
    (h19 : (⟨4, ![5, 336, 32, 64]⟩ : Shape).Slices ![0, 0, 0, 0] (⟨4, ![5, 320, 32, 64]⟩ : Shape))
    (h20 : (⟨4, ![5, 320, 32, 64]⟩ : Shape).ShapeCasts (⟨5, ![5, 16, 20, 32, 64]⟩ : Shape))
    (h21 : (⟨5, ![5, 16, 20, 32, 64]⟩ : Shape).Transposes [0, 2, 3, 1, 4] (⟨5, ![5, 20, 32, 16, 64]⟩ : Shape))
    (h22 : (⟨5, ![5, 20, 32, 16, 64]⟩ : Shape).ShapeCasts (⟨3, ![5, 640, 1024]⟩ : Shape))
    (di : Fin 5) (wi : Fin 20) (ci : Fin 32) (j : Fin 16) (o : Fin 64) :
    shapeCast (⟨3, ![5, 640, 1024]⟩ : Shape) (transpose (⟨5, ![5, 20, 32, 16, 64]⟩ : Shape) [0, 2, 3, 1, 4] (shapeCast (⟨5, ![5, 16, 20, 32, 64]⟩ : Shape) (extractStridedSlice (⟨4, ![5, 320, 32, 64]⟩ : Shape) ![0, 0, 0, 0]
      (shapeCast (⟨4, ![5, 336, 32, 64]⟩ : Shape) (broadcastInDim (⟨5, ![5, 16, 21, 32, 64]⟩ : Shape) ![0, 1, 2, 3, 4] h17 (broadcastInDim (⟨5, ![5, 1, 21, 32, 64]⟩ : Shape) ![0, 2, 3, 4] h16 row)) h18) h19) h20) h21) h22
      (ix3 di ⟨32 * wi.val + ci.val, by omega⟩ ⟨64 * j.val + o.val, by omega⟩)
    = row (ix4 di ⟨(20 * j.val + wi.val) % 21, Nat.mod_lt _ (by decide)⟩ ci o) := by
  have hdi := di.isLt; have hwi := wi.isLt; have hci := ci.isLt; have hj := j.isLt; have ho := o.isLt
  -- the last reshape: (di, cin*wi+ci, cout*j+o) is (di, wi, ci, j, o)
  refine (shapeCast_apply _ h22 _ (ix5 di wi ci j o)
    (by rw [Shape.rowMajor_val_three, Shape.rowMajor_val_five]
        show ((((di.val * 20 + wi.val) * 32 + ci.val) * 16 + j.val) * 64 + o.val)
          = (di.val * 640 + (32 * wi.val + ci.val)) * 1024 + (64 * j.val + o.val)
        omega)).trans ?_
  -- the transpose: (di, wi, ci, j, o) reads (di, j, wi, ci, o)
  refine (transpose_apply _ _ h21 _ (ix5 di j wi ci o)
    (fun b => match b with | ⟨0, _⟩ => rfl | ⟨1, _⟩ => rfl | ⟨2, _⟩ => rfl | ⟨3, _⟩ => rfl | ⟨4, _⟩ => rfl)).trans ?_
  -- the reshape of the cut rows: (di, j, wi, ci, o) is (di, wi*j + wi', ci, o)
  refine (shapeCast_apply _ h20 _ (ix4 di ⟨20 * j.val + wi.val, by omega⟩ ci o)
    (by rw [Shape.rowMajor_val_four, Shape.rowMajor_val_five]
        show (((di.val * 320 + (20 * j.val + wi.val)) * 32 + ci.val) * 64 + o.val)
          = (((di.val * 16 + j.val) * 20 + wi.val) * 32 + ci.val) * 64 + o.val
        omega)).trans ?_
  -- the cut keeps the first wo*wi positions
  refine (extractStridedSlice_apply _ _ h19 _ (ix4 di ⟨20 * j.val + wi.val, by omega⟩ ci o)
    (fun a => match a with
      | ⟨0, _⟩ => by show di.val = 0 + di.val; omega
      | ⟨1, _⟩ => by show 20 * j.val + wi.val = 0 + (20 * j.val + wi.val); omega
      | ⟨2, _⟩ => by show ci.val = 0 + ci.val; omega
      | ⟨3, _⟩ => by show o.val = 0 + o.val; omega)).trans ?_
  -- the flattening of the wo copies: position q is copy q / (wi+1), entry q mod (wi+1)
  refine (shapeCast_apply _ h18 _
    (ix5 di ⟨(20 * j.val + wi.val) / 21, by omega⟩ ⟨(20 * j.val + wi.val) % 21, Nat.mod_lt _ (by decide)⟩ ci o)
    (by rw [Shape.rowMajor_val_five, Shape.rowMajor_val_four]
        show ((((di.val * 16 + (20 * j.val + wi.val) / 21) * 21 + (20 * j.val + wi.val) % 21) * 32 + ci.val) * 64 + o.val)
          = ((di.val * 336 + (20 * j.val + wi.val)) * 32 + ci.val) * 64 + o.val
        omega)).trans ?_
  -- every copy is the same row
  refine (broadcastInDim_apply _ h17 _ _
    (ix5 di 0 ⟨(20 * j.val + wi.val) % 21, Nat.mod_lt _ (by decide)⟩ ci o)
    (fun a => match a with | ⟨0, _⟩ => rfl | ⟨1, _⟩ => rfl | ⟨2, _⟩ => rfl | ⟨3, _⟩ => rfl | ⟨4, _⟩ => rfl)).trans ?_
  exact broadcastInDim_apply _ h16 _ _ _
    (fun a => match a with | ⟨0, _⟩ => rfl | ⟨1, _⟩ => rfl | ⟨2, _⟩ => rfl | ⟨3, _⟩ => rfl)

/-- The padded tap row: positions below 5 hold the weight matrix's row (5*di + r)*cin + ci, the others the zero pad. -/
theorem band3_pad (w : FVec Ideal (⟨2, ![800, 64]⟩ : Shape) .f32)
    (h12 : (⟨2, ![800, 64]⟩ : Shape).ShapeCasts (⟨4, ![5, 5, 32, 64]⟩ : Shape)) (hbits : FTy.bits .bf16 < FTy.bits .f32)
    (hb : (⟨0, ![]⟩ : Shape).BroadcastsInDim (⟨4, ![5, 16, 32, 64]⟩ : Shape) ![])
    (hc : Shape.Concatenates [(⟨4, ![5, 5, 32, 64]⟩ : Shape), (⟨4, ![5, 16, 32, 64]⟩ : Shape)] (⟨4, ![5, 21, 32, 64]⟩ : Shape) 1)
    (di : Fin 5) (r : Fin 21) (ci : Fin 32) (o : Fin 64) :
    concatenate (⟨4, ![5, 21, 32, 64]⟩ : Shape) 1 [⟨(⟨4, ![5, 5, 32, 64]⟩ : Shape), truncf .bf16 (shapeCast (⟨4, ![5, 5, 32, 64]⟩ : Shape) w h12) hbits⟩,
        ⟨(⟨4, ![5, 16, 32, 64]⟩ : Shape), broadcastInDim (⟨4, ![5, 16, 32, 64]⟩ : Shape) ![] hb (constant (F := Ideal) (⟨0, ![]⟩ : Shape) .bf16 0x0000#16)⟩] hc (ix4 di r ci o)
      = if h : r.val < 5 then w (ix2 ⟨(5 * di.val + r.val) * 32 + ci.val, by have := di.isLt; have := ci.isLt; omega⟩ o) else 0 := by
  have hdi := di.isLt; have hr := r.isLt; have hci := ci.isLt; have ho := o.isLt
  by_cases h : r.val < 5
  · rw [dif_pos h]
    refine (concatenate_pair_apply_left 1 _ _ hc _ rfl (ix4 di ⟨r.val, h⟩ ci o)
      (fun b => match b with | ⟨0, _⟩ => rfl | ⟨1, _⟩ => rfl | ⟨2, _⟩ => rfl | ⟨3, _⟩ => rfl)).trans ?_
    -- the change of float format is the identity; the reshape re-reads row (5*di + r)*cin + ci
    show shapeCast (⟨4, ![5, 5, 32, 64]⟩ : Shape) w h12 (ix4 di ⟨r.val, h⟩ ci o) = _
    exact shapeCast_apply _ h12 _ _
      (by rw [Shape.rowMajor_val_two, Shape.rowMajor_val_four]
          show ((5 * di.val + r.val) * 32 + ci.val) * 64 + o.val = ((di.val * 5 + r.val) * 32 + ci.val) * 64 + o.val
          omega)
  · rw [dif_neg h]
    refine (concatenate_pair_apply_right 1 _ _ hc _ rfl rfl (ix4 di ⟨r.val - 5, by omega⟩ ci o)
      (fun b hb => match b with
        | ⟨0, _⟩ => rfl
        | ⟨1, _⟩ => absurd rfl hb
        | ⟨2, _⟩ => rfl
        | ⟨3, _⟩ => rfl)
      (by show r.val - 5 + 5 = r.val; omega)).trans ?_
    exact Ideal.ofBits_zero_bf16

/-- The banded matrix of a valid 5-tap convolution: at (di, cin*wi+ci, cout*j+o) it holds the tap (di, wi-j) of the
    weight matrix when the input column wi lies in the window j .. j+4 of output column j, and the zero pad otherwise.
    With q = wi_extent*j + wi the position in the wo copies of the padded row laid end to end, q = (wi_extent+1)*j + (wi-j)
    inside the window, and outside it the residue of q modulo wi_extent+1 is at least 5. -/
theorem band3_entry (w : FVec Ideal (⟨2, ![800, 64]⟩ : Shape) .f32)
    (h12 : (⟨2, ![800, 64]⟩ : Shape).ShapeCasts (⟨4, ![5, 5, 32, 64]⟩ : Shape)) (hbits : FTy.bits .bf16 < FTy.bits .f32)
    (hb : (⟨0, ![]⟩ : Shape).BroadcastsInDim (⟨4, ![5, 16, 32, 64]⟩ : Shape) ![])
    (hc : Shape.Concatenates [(⟨4, ![5, 5, 32, 64]⟩ : Shape), (⟨4, ![5, 16, 32, 64]⟩ : Shape)] (⟨4, ![5, 21, 32, 64]⟩ : Shape) 1)
    (h16 : (⟨4, ![5, 21, 32, 64]⟩ : Shape).BroadcastsInDim (⟨5, ![5, 1, 21, 32, 64]⟩ : Shape) ![0, 2, 3, 4])
    (h17 : (⟨5, ![5, 1, 21, 32, 64]⟩ : Shape).BroadcastsInDim (⟨5, ![5, 16, 21, 32, 64]⟩ : Shape) ![0, 1, 2, 3, 4])
    (h18 : (⟨5, ![5, 16, 21, 32, 64]⟩ : Shape).ShapeCasts (⟨4, ![5, 336, 32, 64]⟩ : Shape))
    (h19 : (⟨4, ![5, 336, 32, 64]⟩ : Shape).Slices ![0, 0, 0, 0] (⟨4, ![5, 320, 32, 64]⟩ : Shape))
    (h20 : (⟨4, ![5, 320, 32, 64]⟩ : Shape).ShapeCasts (⟨5, ![5, 16, 20, 32, 64]⟩ : Shape))
    (h21 : (⟨5, ![5, 16, 20, 32, 64]⟩ : Shape).Transposes [0, 2, 3, 1, 4] (⟨5, ![5, 20, 32, 16, 64]⟩ : Shape))
    (h22 : (⟨5, ![5, 20, 32, 16, 64]⟩ : Shape).ShapeCasts (⟨3, ![5, 640, 1024]⟩ : Shape))
    (di : Fin 5) (wi : Fin 20) (ci : Fin 32) (j : Fin 16) (o : Fin 64) :
    shapeCast (⟨3, ![5, 640, 1024]⟩ : Shape) (transpose (⟨5, ![5, 20, 32, 16, 64]⟩ : Shape) [0, 2, 3, 1, 4] (shapeCast (⟨5, ![5, 16, 20, 32, 64]⟩ : Shape) (extractStridedSlice (⟨4, ![5, 320, 32, 64]⟩ : Shape) ![0, 0, 0, 0]
      (shapeCast (⟨4, ![5, 336, 32, 64]⟩ : Shape) (broadcastInDim (⟨5, ![5, 16, 21, 32, 64]⟩ : Shape) ![0, 1, 2, 3, 4] h17 (broadcastInDim (⟨5, ![5, 1, 21, 32, 64]⟩ : Shape) ![0, 2, 3, 4] h16
        (concatenate (⟨4, ![5, 21, 32, 64]⟩ : Shape) 1 [⟨(⟨4, ![5, 5, 32, 64]⟩ : Shape), truncf .bf16 (shapeCast (⟨4, ![5, 5, 32, 64]⟩ : Shape) w h12) hbits⟩,
          ⟨(⟨4, ![5, 16, 32, 64]⟩ : Shape), broadcastInDim (⟨4, ![5, 16, 32, 64]⟩ : Shape) ![] hb (constant (F := Ideal) (⟨0, ![]⟩ : Shape) .bf16 0x0000#16)⟩] hc))) h18) h19) h20) h21) h22
      (ix3 di ⟨32 * wi.val + ci.val, by omega⟩ ⟨64 * j.val + o.val, by omega⟩)
    = if h : j.val ≤ wi.val ∧ wi.val < j.val + 5 then w (ix2 (Spec.tap32 di ⟨wi.val - j.val, by omega⟩ ci) o) else 0 := by
  have hdi := di.isLt; have hwi := wi.isLt; have hci := ci.isLt; have hj := j.isLt; have ho := o.isLt
  refine (band3_row _ h16 h17 h18 h19 h20 h21 h22 di wi ci j o).trans ?_
  refine (band3_pad w h12 hbits hb hc di _ ci o).trans ?_
  by_cases h : j.val ≤ wi.val ∧ wi.val < j.val + 5
  · have hr : (20 * j.val + wi.val) % 21 = wi.val - j.val := by omega
    rw [dif_pos h, dif_pos (show (20 * j.val + wi.val) % 21 < 5 by omega)]
    refine congrArg w (congrArg (fun a => ix2 a o) (Fin.ext ?_))
    show (5 * di.val + (20 * j.val + wi.val) % 21) * 32 + ci.val = (5 * di.val + (wi.val - j.val)) * 32 + ci.val
    rw [hr]
  · rw [dif_neg h, dif_neg (show ¬ (20 * j.val + wi.val) % 21 < 5 by omega)]

end Cert.KernelIdeal.Operands
-- ==== Proof.KernelOperands4.lean ====
/-
  The remaining re-layings, as pure layout algebra: a bias row tiled along the output row, the first dense layer's
  matrix cut in sixteen slabs of 1024 rows, and the images re-laid as (row, image, column).
-/
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost
import proofs.«147057_g2000302454168391_pallasbulk_317_11_alg».proof.Proof.Spec

namespace Cert.KernelIdeal.Operands

open Idealize.ShloMosaic Idealize.ShloMosaic.ValueIdx

/-- The bias row tiled: entry cout*j + o of the long row is entry o of the bias. -/
theorem bias1_row {α : Type} (b : (⟨2, ![1, 32]⟩ : Shape).Idx → α)
    (h0 : (⟨2, ![1, 32]⟩ : Shape).ShapeCasts (⟨4, ![1, 1, 1, 32]⟩ : Shape)) (h1 : (⟨4, ![1, 1, 1, 32]⟩ : Shape).BroadcastsInDim (⟨4, ![1, 1, 24, 32]⟩ : Shape) ![0, 1, 2, 3]) (h2 : (⟨4, ![1, 1, 24, 32]⟩ : Shape).ShapeCasts (⟨2, ![1, 768]⟩ : Shape))
    (j : Fin 24) (o : Fin 32) :
    shapeCast (⟨2, ![1, 768]⟩ : Shape) (broadcastInDim (⟨4, ![1, 1, 24, 32]⟩ : Shape) ![0, 1, 2, 3] h1 (shapeCast (⟨4, ![1, 1, 1, 32]⟩ : Shape) b h0)) h2
      (ix2 0 ⟨32 * j.val + o.val, by omega⟩) = b (ix2 0 o) := by
  have hj := j.isLt; have ho := o.isLt
  refine (shapeCast_apply _ h2 _ (ix4 0 0 j o)
    (by rw [Shape.rowMajor_val_four, Shape.rowMajor_val_two]
        show ((0 * 1 + 0) * 24 + j.val) * 32 + o.val = 0 * 768 + (32 * j.val + o.val)
        omega)).trans ?_
  refine (broadcastInDim_apply _ h1 _ _ (ix4 0 0 0 o)
    (fun a => match a with | ⟨0, _⟩ => rfl | ⟨1, _⟩ => rfl | ⟨2, _⟩ => rfl | ⟨3, _⟩ => rfl)).trans ?_
  exact shapeCast_apply _ h0 _ _
    (by rw [Shape.rowMajor_val_two, Shape.rowMajor_val_four]
        show 0 * 32 + o.val = ((0 * 1 + 0) * 1 + 0) * 32 + o.val
        omega)

/-- The bias row tiled: entry cout*j + o of the long row is entry o of the bias. -/
theorem bias2_row {α : Type} (b : (⟨2, ![1, 32]⟩ : Shape).Idx → α)
    (h0 : (⟨2, ![1, 32]⟩ : Shape).ShapeCasts (⟨4, ![1, 1, 1, 32]⟩ : Shape)) (h1 : (⟨4, ![1, 1, 1, 32]⟩ : Shape).BroadcastsInDim (⟨4, ![1, 1, 20, 32]⟩ : Shape) ![0, 1, 2, 3]) (h2 : (⟨4, ![1, 1, 20, 32]⟩ : Shape).ShapeCasts (⟨2, ![1, 640]⟩ : Shape))
    (j : Fin 20) (o : Fin 32) :
    shapeCast (⟨2, ![1, 640]⟩ : Shape) (broadcastInDim (⟨4, ![1, 1, 20, 32]⟩ : Shape) ![0, 1, 2, 3] h1 (shapeCast (⟨4, ![1, 1, 1, 32]⟩ : Shape) b h0)) h2
      (ix2 0 ⟨32 * j.val + o.val, by omega⟩) = b (ix2 0 o) := by
  have hj := j.isLt; have ho := o.isLt
  refine (shapeCast_apply _ h2 _ (ix4 0 0 j o)
    (by rw [Shape.rowMajor_val_four, Shape.rowMajor_val_two]
        show ((0 * 1 + 0) * 20 + j.val) * 32 + o.val = 0 * 640 + (32 * j.val + o.val)
        omega)).trans ?_
  refine (broadcastInDim_apply _ h1 _ _ (ix4 0 0 0 o)
    (fun a => match a with | ⟨0, _⟩ => rfl | ⟨1, _⟩ => rfl | ⟨2, _⟩ => rfl | ⟨3, _⟩ => rfl)).trans ?_
  exact shapeCast_apply _ h0 _ _
    (by rw [Shape.rowMajor_val_two, Shape.rowMajor_val_four]
        show 0 * 32 + o.val = ((0 * 1 + 0) * 1 + 0) * 32 + o.val
        omega)

/-- The bias row tiled: entry cout*j + o of the long row is entry o of the bias. -/
theorem bias3_row {α : Type} (b : (⟨2, ![1, 64]⟩ : Shape).Idx → α)
    (h0 : (⟨2, ![1, 64]⟩ : Shape).ShapeCasts (⟨4, ![1, 1, 1, 64]⟩ : Shape)) (h1 : (⟨4, ![1, 1, 1, 64]⟩ : Shape).BroadcastsInDim (⟨4, ![1, 1, 16, 64]⟩ : Shape) ![0, 1, 2, 3]) (h2 : (⟨4, ![1, 1, 16, 64]⟩ : Shape).ShapeCasts (⟨2, ![1, 1024]⟩ : Shape))
    (j : Fin 16) (o : Fin 64) :
    shapeCast (⟨2, ![1, 1024]⟩ : Shape) (broadcastInDim (⟨4, ![1, 1, 16, 64]⟩ : Shape) ![0, 1, 2, 3] h1 (shapeCast (⟨4, ![1, 1, 1, 64]⟩ : Shape) b h0)) h2
      (ix2 0 ⟨64 * j.val + o.val, by omega⟩) = b (ix2 0 o) := by
  have hj := j.isLt; have ho := o.isLt
  refine (shapeCast_apply _ h2 _ (ix4 0 0 j o)
    (by rw [Shape.rowMajor_val_four, Shape.rowMajor_val_two]
        show ((0 * 1 + 0) * 16 + j.val) * 64 + o.val = 0 * 1024 + (64 * j.val + o.val)
        omega)).trans ?_
  refine (broadcastInDim_apply _ h1 _ _ (ix4 0 0 0 o)
    (fun a => match a with | ⟨0, _⟩ => rfl | ⟨1, _⟩ => rfl | ⟨2, _⟩ => rfl | ⟨3, _⟩ => rfl)).trans ?_
  exact shapeCast_apply _ h0 _ _
    (by rw [Shape.rowMajor_val_two, Shape.rowMajor_val_four]
        show 0 * 64 + o.val = ((0 * 1 + 0) * 1 + 0) * 64 + o.val
        omega)

/-- The first dense layer's matrix re-read in sixteen slabs of 1024 rows: row l of slab h is row 1024*h + l. -/
theorem dense1_slab (f : FVec Ideal (⟨2, ![16384, 256]⟩ : Shape) .f32)
    (h0 : (⟨2, ![16384, 256]⟩ : Shape).ShapeCasts (⟨3, ![16, 1024, 256]⟩ : Shape)) (hbits : FTy.bits .bf16 < FTy.bits .f32)
    (h : Fin 16) (l : Fin 1024) (q : Fin 256) :
    truncf .bf16 (shapeCast (⟨3, ![16, 1024, 256]⟩ : Shape) f h0) hbits (ix3 h l q)
      = f (ix2 ⟨1024 * h.val + l.val, by omega⟩ q) := by
  have hh := h.isLt; have hl := l.isLt; have hq := q.isLt
  show shapeCast (⟨3, ![16, 1024, 256]⟩ : Shape) f h0 (ix3 h l q) = _
  exact shapeCast_apply _ h0 _ _
    (by rw [Shape.rowMajor_val_two, Shape.rowMajor_val_three]
        show (1024 * h.val + l.val) * 256 + q.val = (h.val * 1024 + l.val) * 256 + q.val
        omega)

/-- The images re-laid as (row, image, column): entry (h, n, w) is pixel (h, w) of image n. -/
theorem x_rows (x : FVec Ideal (⟨4, ![256, 1, 28, 28]⟩ : Shape) .f32)
    (h0 : (⟨4, ![256, 1, 28, 28]⟩ : Shape).ShapeCasts (⟨3, ![256, 28, 28]⟩ : Shape))
    (h1 : (⟨3, ![256, 28, 28]⟩ : Shape).Transposes [1, 0, 2] (⟨3, ![28, 256, 28]⟩ : Shape))
    (hbits : FTy.bits .bf16 < FTy.bits .f32)
    (h : Fin 28) (n : Fin 256) (w : Fin 28) :
    truncf .bf16 (transpose (⟨3, ![28, 256, 28]⟩ : Shape) [1, 0, 2] (shapeCast (⟨3, ![256, 28, 28]⟩ : Shape) x h0) h1) hbits (ix3 h n w)
      = x (ix4 n 0 h w) := by
  have hh := h.isLt; have hn := n.isLt; have hw := w.isLt
  show transpose (⟨3, ![28, 256, 28]⟩ : Shape) [1, 0, 2] (shapeCast (⟨3, ![256, 28, 28]⟩ : Shape) x h0) h1 (ix3 h n w) = _
  refine (transpose_apply _ _ h1 _ (ix3 n h w)
    (fun b => match b with | ⟨0, _⟩ => rfl | ⟨1, _⟩ => rfl | ⟨2, _⟩ => rfl)).trans ?_
  exact shapeCast_apply _ h0 _ _
    (by rw [Shape.rowMajor_val_four, Shape.rowMajor_val_three]
        show ((n.val * 1 + 0) * 28 + h.val) * 28 + w.val = (n.val * 28 + h.val) * 28 + w.val
        omega)

end Cert.KernelIdeal.Operands
-- ==== Proof.KernelOperands.lean ====
/-
  The kernel program's host operations, read at an index.  Before its one region the program re-lays its arguments:
  each convolution's weight matrix becomes five banded matrices (one per tap row) that turn a whole input row into a
  whole output row, the biases are tiled along the output row, the first dense layer's matrix is cut in sixteen slabs
  of 1024 rows, and the images are re-laid as (row, image, column).  Each lemma here reads one of those arrays, as the
  region finds it, at explicit coordinates, as an entry of the argument array it was made from.
-/
import proofs.«147057_g2000302454168391_pallasbulk_317_11_alg».proof.Proof.Gen.KernelIdeal.Frame
import proofs.«147057_g2000302454168391_pallasbulk_317_11_alg».proof.Proof.Spec
import proofs.«147057_g2000302454168391_pallasbulk_317_11_alg».proof.Proof.KernelOperands1
import proofs.«147057_g2000302454168391_pallasbulk_317_11_alg».proof.Proof.KernelOperands2
import proofs.«147057_g2000302454168391_pallasbulk_317_11_alg».proof.Proof.KernelOperands3
import proofs.«147057_g2000302454168391_pallasbulk_317_11_alg».proof.Proof.KernelOperands4

set_option maxRecDepth 16384

noncomputable section

namespace Cert.KernelIdeal.Operands

open Idealize.ShloMosaic Idealize.ShloMosaic.ValueIdx Idealize.ShloMosaic.TcCoe
open Cert.KernelIdeal Cert.KernelIdeal.Gen

variable (m : (ℓ : Loc nD τ sig) → Buf (Elt Ideal) ℓ)

/-- The array main_v11 as the region finds it: the host operations' composed term of the weight argument. -/
theorem band1_term (c : Dev nD) :
    (Gen.V m c main_v11 : S140x768.Idx → EReal) =
      shapeCast S140x768 (shapeCast S5x28x768 (transpose S5x28x1x24x32 [0, 2, 3, 1, 4] (shapeCast S5x24x28x1x32 (extractStridedSlice S5x672x1x32 ![0, 0, 0, 0]
        (shapeCast S5x696x1x32 (broadcastInDim S5x24x29x1x32 ![0, 1, 2, 3, 4] bcast_S5x1x29x1x32_S5x24x29x1x32_0_1_2_3_4 (broadcastInDim S5x1x29x1x32 ![0, 2, 3, 4] bcast_S5x29x1x32_S5x1x29x1x32_0_2_3_4
          (concatenate S5x29x1x32 1 [⟨S5x5x1x32, truncf .bf16 (shapeCast S5x5x1x32 (m ((c : Thread nD τ).loc main_arg1) : S25x32.Idx → EReal) shapeCasts_S25x32_S5x5x1x32) bitsLt_bf16_f32⟩,
            ⟨S5x24x1x32, broadcastInDim S5x24x1x32 ![] bcast_S_S5x24x1x32 (constant (F := Ideal) S_ .bf16 0x0000#16)⟩] concatenates_S5x5x1x32_S5x24x1x32_S5x29x1x32_d1))) shapeCasts_S5x24x29x1x32_S5x696x1x32) slices_S5x696x1x32_S5x672x1x32_0_0_0_0) shapeCasts_S5x672x1x32_S5x24x28x1x32) transposes_S5x24x28x1x32_S5x28x1x24x32_0_2_3_1_4) shapeCasts_S5x28x1x24x32_S5x28x768) shapeCasts_S5x28x768_S140x768 := by
    dsimp only [Gen.V, Gen.hostOps0]; after_results; rfl

/-- The banded matrix the kernel multiplies by, read at an entry: the tap (di, wi - j) of the weight matrix inside the
    band j ≤ wi < j + 5, zero outside it. -/
theorem band1 (c : Dev nD) (di : Fin 5) (wi : Fin 28) (j : Fin 24) (o : Fin 32) :
    (Gen.V m c main_v11 : S140x768.Idx → EReal) (ix2 ⟨28 * di.val + wi.val, by omega⟩ ⟨32 * j.val + o.val, by omega⟩)
      = if h : j.val ≤ wi.val ∧ wi.val < j.val + 5 then
          (m ((c : Thread nD τ).loc main_arg1) : S25x32.Idx → EReal) (ix2 (Spec.tap1 di ⟨wi.val - j.val, by omega⟩) o)
        else (0 : EReal) := by
  rw [band1_term m c]
  exact band1_stacked _ shapeCasts_S25x32_S5x5x1x32 bitsLt_bf16_f32 bcast_S_S5x24x1x32 concatenates_S5x5x1x32_S5x24x1x32_S5x29x1x32_d1 bcast_S5x29x1x32_S5x1x29x1x32_0_2_3_4 bcast_S5x1x29x1x32_S5x24x29x1x32_0_1_2_3_4 shapeCasts_S5x24x29x1x32_S5x696x1x32 slices_S5x696x1x32_S5x672x1x32_0_0_0_0 shapeCasts_S5x672x1x32_S5x24x28x1x32 transposes_S5x24x28x1x32_S5x28x1x24x32_0_2_3_1_4 shapeCasts_S5x28x1x24x32_S5x28x768 shapeCasts_S5x28x768_S140x768 di wi j o

theorem bias1_tiled_term (c : Dev nD) :
    (Gen.V m c main_v36 : S1x768.Idx → EReal) =
      shapeCast S1x768 (broadcastInDim S1x1x24x32 ![0, 1, 2, 3] bcast_S1x1x1x32_S1x1x24x32_0_1_2_3 (shapeCast S1x1x1x32 (m ((c : Thread nD τ).loc main_arg2) : S1x32.Idx → EReal) shapeCasts_S1x32_S1x1x1x32)) shapeCasts_S1x1x24x32_S1x768 := by
    dsimp only [Gen.V, Gen.hostOps0]; after_results; rfl

/-- The tiled bias row: entry 32*j + o is entry o of the bias. -/
theorem bias1_tiled (c : Dev nD) (j : Fin 24) (o : Fin 32) :
    (Gen.V m c main_v36 : S1x768.Idx → EReal) (ix2 0 ⟨32 * j.val + o.val, by omega⟩)
      = (m ((c : Thread nD τ).loc main_arg2) : S1x32.Idx → EReal) (ix2 0 o) := by
  rw [bias1_tiled_term m c]
  exact bias1_row _ shapeCasts_S1x32_S1x1x1x32 bcast_S1x1x1x32_S1x1x24x32_0_1_2_3 shapeCasts_S1x1x24x32_S1x768 j o

/-- The array main_v22 as the region finds it: the host operations' composed term of the weight argument. -/
theorem band2_term (c : Dev nD) :
    (Gen.V m c main_v22 : S5x768x640.Idx → EReal) =
      shapeCast S5x768x640 (transpose S5x24x32x20x32 [0, 2, 3, 1, 4] (shapeCast S5x20x24x32x32 (extractStridedSlice S5x480x32x32 ![0, 0, 0, 0]
        (shapeCast S5x500x32x32 (broadcastInDim S5x20x25x32x32 ![0, 1, 2, 3, 4] bcast_S5x1x25x32x32_S5x20x25x32x32_0_1_2_3_4 (broadcastInDim S5x1x25x32x32 ![0, 2, 3, 4] bcast_S5x25x32x32_S5x1x25x32x32_0_2_3_4
          (concatenate S5x25x32x32 1 [⟨S5x5x32x32, truncf .bf16 (shapeCast S5x5x32x32 (m ((c : Thread nD τ).loc main_arg3) : S800x32.Idx → EReal) shapeCasts_S800x32_S5x5x32x32) bitsLt_bf16_f32⟩,
            ⟨S5x20x32x32, broadcastInDim S5x20x32x32 ![] bcast_S_S5x20x32x32 (constant (F := Ideal) S_ .bf16 0x0000#16)⟩] concatenates_S5x5x32x32_S5x20x32x32_S5x25x32x32_d1))) shapeCasts_S5x20x25x32x32_S5x500x32x32) slices_S5x500x32x32_S5x480x32x32_0_0_0_0) shapeCasts_S5x480x32x32_S5x20x24x32x32) transposes_S5x20x24x32x32_S5x24x32x20x32_0_2_3_1_4) shapeCasts_S5x24x32x20x32_S5x768x640 := by
    dsimp only [Gen.V, Gen.hostOps0]; after_results; rfl

/-- The banded matrix the kernel multiplies by, read at an entry: the tap (di, wi - j) of the weight matrix inside the
    band j ≤ wi < j + 5, zero outside it. -/
theorem band2 (c : Dev nD) (di : Fin 5) (wi : Fin 24) (ci : Fin 32) (j : Fin 20) (o : Fin 32) :
    (Gen.V m c main_v22 : S5x768x640.Idx → EReal) (ix3 di ⟨32 * wi.val + ci.val, by omega⟩ ⟨32 * j.val + o.val, by omega⟩)
      = if h : j.val ≤ wi.val ∧ wi.val < j.val + 5 then
          (m ((c : Thread nD τ).loc main_arg3) : S800x32.Idx → EReal) (ix2 (Spec.tap32 di ⟨wi.val - j.val, by omega⟩ ci) o)
        else (0 : EReal) := by
  rw [band2_term m c]
  exact band2_entry _ shapeCasts_S800x32_S5x5x32x32 bitsLt_bf16_f32 bcast_S_S5x20x32x32 concatenates_S5x5x32x32_S5x20x32x32_S5x25x32x32_d1 bcast_S5x25x32x32_S5x1x25x32x32_0_2_3_4 bcast_S5x1x25x32x32_S5x20x25x32x32_0_1_2_3_4 shapeCasts_S5x20x25x32x32_S5x500x32x32 slices_S5x500x32x32_S5x480x32x32_0_0_0_0 shapeCasts_S5x480x32x32_S5x20x24x32x32 transposes_S5x20x24x32x32_S5x24x32x20x32_0_2_3_1_4 shapeCasts_S5x24x32x20x32_S5x768x640 di wi ci j o

theorem bias2_tiled_term (c : Dev nD) :
    (Gen.V m c main_v39 : S1x640.Idx → EReal) =
      shapeCast S1x640 (broadcastInDim S1x1x20x32 ![0, 1, 2, 3] bcast_S1x1x1x32_S1x1x20x32_0_1_2_3 (shapeCast S1x1x1x32 (m ((c : Thread nD τ).loc main_arg4) : S1x32.Idx → EReal) shapeCasts_S1x32_S1x1x1x32)) shapeCasts_S1x1x20x32_S1x640 := by
    dsimp only [Gen.V, Gen.hostOps0]; after_results; rfl

/-- The tiled bias row: entry 32*j + o is entry o of the bias. -/
theorem bias2_tiled (c : Dev nD) (j : Fin 20) (o : Fin 32) :
    (Gen.V m c main_v39 : S1x640.Idx → EReal) (ix2 0 ⟨32 * j.val + o.val, by omega⟩)
      = (m ((c : Thread nD τ).loc main_arg4) : S1x32.Idx → EReal) (ix2 0 o) := by
  rw [bias2_tiled_term m c]
  exact bias2_row _ shapeCasts_S1x32_S1x1x1x32 bcast_S1x1x1x32_S1x1x20x32_0_1_2_3 shapeCasts_S1x1x20x32_S1x640 j o

/-- The array main_v33 as the region finds it: the host operations' composed term of the weight argument. -/
theorem band3_term (c : Dev nD) :
    (Gen.V m c main_v33 : S5x640x1024.Idx → EReal) =
      shapeCast S5x640x1024 (transpose S5x20x32x16x64 [0, 2, 3, 1, 4] (shapeCast S5x16x20x32x64 (extractStridedSlice S5x320x32x64 ![0, 0, 0, 0]
        (shapeCast S5x336x32x64 (broadcastInDim S5x16x21x32x64 ![0, 1, 2, 3, 4] bcast_S5x1x21x32x64_S5x16x21x32x64_0_1_2_3_4 (broadcastInDim S5x1x21x32x64 ![0, 2, 3, 4] bcast_S5x21x32x64_S5x1x21x32x64_0_2_3_4
          (concatenate S5x21x32x64 1 [⟨S5x5x32x64, truncf .bf16 (shapeCast S5x5x32x64 (m ((c : Thread nD τ).loc main_arg5) : S800x64.Idx → EReal) shapeCasts_S800x64_S5x5x32x64) bitsLt_bf16_f32⟩,
            ⟨S5x16x32x64, broadcastInDim S5x16x32x64 ![] bcast_S_S5x16x32x64 (constant (F := Ideal) S_ .bf16 0x0000#16)⟩] concatenates_S5x5x32x64_S5x16x32x64_S5x21x32x64_d1))) shapeCasts_S5x16x21x32x64_S5x336x32x64) slices_S5x336x32x64_S5x320x32x64_0_0_0_0) shapeCasts_S5x320x32x64_S5x16x20x32x64) transposes_S5x16x20x32x64_S5x20x32x16x64_0_2_3_1_4) shapeCasts_S5x20x32x16x64_S5x640x1024 := by
    dsimp only [Gen.V, Gen.hostOps0]; after_results; rfl

/-- The banded matrix the kernel multiplies by, read at an entry: the tap (di, wi - j) of the weight matrix inside the
    band j ≤ wi < j + 5, zero outside it. -/
theorem band3 (c : Dev nD) (di : Fin 5) (wi : Fin 20) (ci : Fin 32) (j : Fin 16) (o : Fin 64) :
    (Gen.V m c main_v33 : S5x640x1024.Idx → EReal) (ix3 di ⟨32 * wi.val + ci.val, by omega⟩ ⟨64 * j.val + o.val, by omega⟩)
      = if h : j.val ≤ wi.val ∧ wi.val < j.val + 5 then
          (m ((c : Thread nD τ).loc main_arg5) : S800x64.Idx → EReal) (ix2 (Spec.tap32 di ⟨wi.val - j.val, by omega⟩ ci) o)
        else (0 : EReal) := by
  rw [band3_term m c]
  exact band3_entry _ shapeCasts_S800x64_S5x5x32x64 bitsLt_bf16_f32 bcast_S_S5x16x32x64 concatenates_S5x5x32x64_S5x16x32x64_S5x21x32x64_d1 bcast_S5x21x32x64_S5x1x21x32x64_0_2_3_4 bcast_S5x1x21x32x64_S5x16x21x32x64_0_1_2_3_4 shapeCasts_S5x16x21x32x64_S5x336x32x64 slices_S5x336x32x64_S5x320x32x64_0_0_0_0 shapeCasts_S5x320x32x64_S5x16x20x32x64 transposes_S5x16x20x32x64_S5x20x32x16x64_0_2_3_1_4 shapeCasts_S5x20x32x16x64_S5x640x1024 di wi ci j o

theorem bias3_tiled_term (c : Dev nD) :
    (Gen.V m c main_v42 : S1x1024.Idx → EReal) =
      shapeCast S1x1024 (broadcastInDim S1x1x16x64 ![0, 1, 2, 3] bcast_S1x1x1x64_S1x1x16x64_0_1_2_3 (shapeCast S1x1x1x64 (m ((c : Thread nD τ).loc main_arg6) : S1x64.Idx → EReal) shapeCasts_S1x64_S1x1x1x64)) shapeCasts_S1x1x16x64_S1x1024 := by
    dsimp only [Gen.V, Gen.hostOps0]; after_results; rfl

/-- The tiled bias row: entry 64*j + o is entry o of the bias. -/
theorem bias3_tiled (c : Dev nD) (j : Fin 16) (o : Fin 64) :
    (Gen.V m c main_v42 : S1x1024.Idx → EReal) (ix2 0 ⟨64 * j.val + o.val, by omega⟩)
      = (m ((c : Thread nD τ).loc main_arg6) : S1x64.Idx → EReal) (ix2 0 o) := by
  rw [bias3_tiled_term m c]
  exact bias3_row _ shapeCasts_S1x64_S1x1x1x64 bcast_S1x1x1x64_S1x1x16x64_0_1_2_3 shapeCasts_S1x1x16x64_S1x1024 j o

/-- The array main_v44 as the region finds it. -/
theorem dense1_rows_term (c : Dev nD) :
    (Gen.V m c main_v44 : S16x1024x256.Idx → EReal) =
      truncf (F := Ideal) .bf16 (shapeCast S16x1024x256 (m ((c : Thread nD τ).loc main_arg7) : S16384x256.Idx → EReal) shapeCasts_S16384x256_S16x1024x256) bitsLt_bf16_f32 := by
    dsimp only [Gen.V, Gen.hostOps0]; after_results; rfl

/-- The first dense layer's matrix in sixteen slabs: row l of slab h is row 1024*h + l. -/
theorem dense1_rows (c : Dev nD) (h : Fin 16) (l : Fin 1024) (q : Fin 256) :
    (Gen.V m c main_v44 : S16x1024x256.Idx → EReal) (ix3 h l q)
      = (m ((c : Thread nD τ).loc main_arg7) : S16384x256.Idx → EReal) (ix2 ⟨1024 * h.val + l.val, by omega⟩ q) := by
  rw [dense1_rows_term m c]
  exact dense1_slab _ shapeCasts_S16384x256_S16x1024x256 bitsLt_bf16_f32 h l q

/-- The second dense layer's matrix: the change of float format is the identity. -/
theorem dense2 (c : Dev nD) :
    (Gen.V m c main_v45 : S256x10.Idx → EReal) = (m ((c : Thread nD τ).loc main_arg9) : S256x10.Idx → EReal) := by
  dsimp only [Gen.V, Gen.hostOps0]; after_results; rfl

/-- The array main_v48 as the region finds it. -/
theorem x_relaid_term (c : Dev nD) :
    (Gen.V m c main_v48 : S28x256x28.Idx → EReal) =
      truncf (F := Ideal) .bf16 (transpose S28x256x28 [1, 0, 2] (shapeCast S256x28x28 (m ((c : Thread nD τ).loc main_arg0) : S256x1x28x28.Idx → EReal) shapeCasts_S256x1x28x28_S256x28x28) transposes_S256x28x28_S28x256x28_1_0_2) bitsLt_bf16_f32 := by
    dsimp only [Gen.V, Gen.hostOps0]; after_results; rfl

/-- The images as (row, image, column): entry (h, n, w) is pixel (h, w) of image n. -/
theorem x_relaid (c : Dev nD) (h : Fin 28) (n : Fin 256) (w : Fin 28) :
    (Gen.V m c main_v48 : S28x256x28.Idx → EReal) (ix3 h n w)
      = (m ((c : Thread nD τ).loc main_arg0) : S256x1x28x28.Idx → EReal) (ix4 n 0 h w) := by
  rw [x_relaid_term m c]
  exact x_rows _ shapeCasts_S256x1x28x28_S256x28x28 transposes_S256x28x28_S28x256x28_1_0_2 bitsLt_bf16_f32 h n w

end Cert.KernelIdeal.Operands

end
-- ==== Proof.LibBandedConv.lean ====
/-
  Sums in the extended reals over a row against a band of five taps, and sums over a product index taken apart.

  A valid convolution with five taps along a row can be written as a product with a banded matrix: column j of the
  band holds the five taps at rows j, j+1, ..., j+4 and zero elsewhere.  Summing a row against that column, the terms
  outside the band vanish (a product with zero is zero for every extended real, infinite ones included) and the five
  that remain are re-indexed by the tap dj = wi - j.  When the row carries several channels per column (column wi,
  channel ci at position C*wi + ci), the sum over the flat position is first taken apart into the sum over the column
  and the sum over the channel.

  Only the laws of an additive commutative monoid and of multiplication by zero are used: no distributivity and no
  finiteness hypothesis anywhere.
-/
import Idealize.ShloMosaic.PureOps.Ideal

namespace BandedConv

/-- Position q*i + l of block i, place l, lies below p*q when i is below p and l below q. -/
theorem mul_add_lt {p q i l : ℕ} (hi : i < p) (hl : l < q) : q * i + l < p * q :=
  calc q * i + l < q * i + q := Nat.add_lt_add_left hl _
    _ = q * (i + 1) := (Nat.mul_succ q i).symm
    _ ≤ q * p := Nat.mul_le_mul_left q hi
    _ = p * q := Nat.mul_comm q p

/-- The same position spelt i*q + l. -/
theorem mul_add_lt' {p q i l : ℕ} (hi : i < p) (hl : l < q) : i * q + l < p * q :=
  Nat.mul_comm q i ▸ mul_add_lt hi hl

/-- Position (q*i + j)*r + l of a three-factor index lies below p*q*r. -/
theorem mul_add_lt3 {p q r i j l : ℕ} (hi : i < p) (hj : j < q) (hl : l < r) :
    (q * i + j) * r + l < p * q * r :=
  mul_add_lt' (mul_add_lt hi hj) hl

/-- A sum over the positions below p*q is the sum over the p blocks of q consecutive positions:
    position k = q*i + l is place l of block i. -/
theorem sum_fin_mul (p q : ℕ) (f : Fin (p * q) → EReal) :
    ∑ k : Fin (p * q), f k
      = ∑ i : Fin p, ∑ l : Fin q, f ⟨q * i.val + l.val, mul_add_lt i.isLt l.isLt⟩ := by
  rw [← (finProdFinEquiv (m := p) (n := q)).sum_comp f, Fintype.sum_prod_type]
  refine Finset.sum_congr rfl fun i _ => Finset.sum_congr rfl fun l _ => ?_
  exact congrArg f (Fin.ext (Nat.add_comm _ _))

/-- The same with the position spelt k = i*q + l. -/
theorem sum_fin_mul' (p q : ℕ) (f : Fin (p * q) → EReal) :
    ∑ k : Fin (p * q), f k
      = ∑ i : Fin p, ∑ l : Fin q, f ⟨i.val * q + l.val, mul_add_lt' i.isLt l.isLt⟩ := by
  rw [sum_fin_mul p q f]
  refine Finset.sum_congr rfl fun i _ => Finset.sum_congr rfl fun l _ => ?_
  exact congrArg f (Fin.ext (congrArg (· + l.val) (Nat.mul_comm q i.val)))

/-- A sum over the positions below p*q*r taken apart in three: position k = (q*i + j)*r + l. -/
theorem sum_fin_mul3 (p q r : ℕ) (f : Fin (p * q * r) → EReal) :
    ∑ k : Fin (p * q * r), f k
      = ∑ i : Fin p, ∑ j : Fin q, ∑ l : Fin r,
          f ⟨(q * i.val + j.val) * r + l.val, mul_add_lt3 i.isLt j.isLt l.isLt⟩ := by
  rw [sum_fin_mul' (p * q) r f]
  exact sum_fin_mul p q (fun m => ∑ l : Fin r, f ⟨m.val * r + l.val, mul_add_lt' m.isLt l.isLt⟩)

/-- The tap coordinate j + dj of a valid five-tap window inside a row of n + 4 columns. -/
abbrev shift {n : ℕ} (j : Fin n) (dj : Fin 5) : Fin (n + 4) := ⟨j.val + dj.val, by omega⟩

/-- A row a against a column B that carries five taps w in the band j, ..., j+4 and zero elsewhere: the terms outside
    the band vanish and the five inside are re-indexed by the tap dj = wi - j.  The column is given by its two
    properties: its entry at j + dj is the tap w dj, and its entries outside the band are zero. -/
theorem banded_sum_of (n : ℕ) (j : Fin n) (a B : Fin (n + 4) → EReal) (w : Fin 5 → EReal)
    (hin : ∀ dj : Fin 5, B (shift j dj) = w dj)
    (hout : ∀ wi : Fin (n + 4), ¬ (j.val ≤ wi.val ∧ wi.val < j.val + 5) → B wi = 0) :
    ∑ wi : Fin (n + 4), a wi * B wi = ∑ dj : Fin 5, a (shift j dj) * w dj := by
  refine (Fintype.sum_of_injective (shift j) ?_ (fun dj => a (shift j dj) * w dj)
    (fun wi => a wi * B wi) ?_ ?_).symm
  · intro d e h
    have := congrArg Fin.val h
    exact Fin.ext (by simpa using this)
  · intro wi hwi
    by_cases hb : j.val ≤ wi.val ∧ wi.val < j.val + 5
    · exact absurd ⟨⟨wi.val - j.val, by omega⟩, Fin.ext (by simp; omega)⟩ hwi
    · rw [hout wi hb, mul_zero]
  · intro dj
    rw [hin dj]

/-- The banded sum with the band written out: the column entry at wi is the tap w (wi - j) when j ≤ wi < j + 5 and
    zero otherwise. -/
theorem banded_sum (n : ℕ) (j : Fin n) (a : Fin (n + 4) → EReal) (w : Fin 5 → EReal) :
    ∑ wi : Fin (n + 4), a wi *
        (if h : j.val ≤ wi.val ∧ wi.val < j.val + 5 then w ⟨wi.val - j.val, by omega⟩ else 0)
      = ∑ dj : Fin 5, a ⟨j.val + dj.val, by omega⟩ * w dj := by
  refine banded_sum_of n j a _ w ?_ ?_
  · intro dj
    have hb : j.val ≤ (shift j dj).val ∧ (shift j dj).val < j.val + 5 := ⟨by simp, by simp⟩
    rw [dif_pos hb]
    exact congrArg w (Fin.ext (by simp))
  · intro wi hb
    rw [dif_neg hb]

/-- The banded sum with the band on the left of each product. -/
theorem banded_sum_left (n : ℕ) (j : Fin n) (a : Fin (n + 4) → EReal) (w : Fin 5 → EReal) :
    ∑ wi : Fin (n + 4),
        (if h : j.val ≤ wi.val ∧ wi.val < j.val + 5 then w ⟨wi.val - j.val, by omega⟩ else 0) * a wi
      = ∑ dj : Fin 5, w dj * a ⟨j.val + dj.val, by omega⟩ := by
  rw [Finset.sum_congr rfl fun wi _ => mul_comm _ (a wi), banded_sum n j a w]
  exact Finset.sum_congr rfl fun dj _ => mul_comm _ _

/-- A row of n + 4 columns with C channels each (column wi, channel ci at position C*wi + ci) against a banded column
    of the same layout: the sum over the flat position is the sum over the five taps and the C channels.  The row A
    and the column B are given by how they read at position C*wi + ci: A there is a wi ci; B there is the tap
    w dj ci when wi = j + dj, and zero when wi is outside the band j, ..., j+4. -/
theorem banded_rows_of (n C : ℕ) (j : Fin n) (a : Fin (n + 4) → Fin C → EReal) (w : Fin 5 → Fin C → EReal)
    (A B : Fin ((n + 4) * C) → EReal)
    (hA : ∀ (wi : Fin (n + 4)) (ci : Fin C), A ⟨C * wi.val + ci.val, mul_add_lt wi.isLt ci.isLt⟩ = a wi ci)
    (hin : ∀ (dj : Fin 5) (ci : Fin C),
      B ⟨C * (shift j dj).val + ci.val, mul_add_lt (shift j dj).isLt ci.isLt⟩ = w dj ci)
    (hout : ∀ (wi : Fin (n + 4)) (ci : Fin C), ¬ (j.val ≤ wi.val ∧ wi.val < j.val + 5) →
      B ⟨C * wi.val + ci.val, mul_add_lt wi.isLt ci.isLt⟩ = 0) :
    ∑ l : Fin ((n + 4) * C), A l * B l = ∑ dj : Fin 5, ∑ ci : Fin C, a (shift j dj) ci * w dj ci := by
  rw [sum_fin_mul (n + 4) C (fun l => A l * B l), Finset.sum_comm,
    Finset.sum_comm (f := fun (dj : Fin 5) (ci : Fin C) => a (shift j dj) ci * w dj ci)]
  refine Finset.sum_congr rfl fun ci _ => ?_
  rw [Finset.sum_congr rfl fun wi _ => congrArg (· * _) (hA wi ci)]
  exact banded_sum_of n j (fun wi => a wi ci)
    (fun wi => B ⟨C * wi.val + ci.val, mul_add_lt wi.isLt ci.isLt⟩) (fun dj => w dj ci)
    (fun dj => hin dj ci) (fun wi hb => hout wi ci hb)

/-- The banded product of the row-and-channel layout with the band written out: B at position C*wi + ci is the tap
    w (wi - j) ci when j ≤ wi < j + 5 and zero otherwise. -/
theorem banded_rows (n C : ℕ) (j : Fin n) (a : Fin (n + 4) → Fin C → EReal) (w : Fin 5 → Fin C → EReal)
    (A B : Fin ((n + 4) * C) → EReal)
    (hA : ∀ (wi : Fin (n + 4)) (ci : Fin C), A ⟨C * wi.val + ci.val, mul_add_lt wi.isLt ci.isLt⟩ = a wi ci)
    (hB : ∀ (wi : Fin (n + 4)) (ci : Fin C), B ⟨C * wi.val + ci.val, mul_add_lt wi.isLt ci.isLt⟩
      = if h : j.val ≤ wi.val ∧ wi.val < j.val + 5 then w ⟨wi.val - j.val, by omega⟩ ci else 0) :
    ∑ l : Fin ((n + 4) * C), A l * B l
      = ∑ dj : Fin 5, ∑ ci : Fin C, a ⟨j.val + dj.val, by omega⟩ ci * w dj ci := by
  refine banded_rows_of n C j a w A B hA ?_ ?_
  · intro dj ci
    have hb : j.val ≤ (shift j dj).val ∧ (shift j dj).val < j.val + 5 := ⟨by simp, by simp⟩
    rw [hB, dif_pos hb]
    exact congrArg (fun d => w d ci) (Fin.ext (by simp))
  · intro wi ci hb
    rw [hB, dif_neg hb]

end BandedConv
-- ==== Proof.NetAlgebra.lean ====
/-
  The two arrangements of each layer of the network, each shown equal to the sum the specification writes.

  One arrangement keeps an activation as rows (image row) by lanes (column, channel), channel fastest, and computes a
  5x5 valid convolution as five products, one per tap row di, of an activation row with a banded matrix: the matrix
  column for output (column j, channel o) holds the taps (di, dj, ci) at the lanes (j + dj, ci) and zero elsewhere.
  For the first convolution the five tap rows are laid side by side in one row of 5*28 = 140 lanes.  The dense layer
  is sixteen products, one per image row, of the 1024 lanes (column, channel) with the matching 1024 rows of the
  dense matrix.

  The other arrangement gathers, for each output position, the patch of 25 (or 800) inputs in the order
  (tap row, tap column, input channel), channel fastest, and multiplies it with the weight matrix; the dense layer
  takes the 16384 features (row, column, channel) in four consecutive chunks of 4096 accumulated from zero.

  Every statement is over abstract functions with explicit coordinates.  Only re-indexing and re-grouping of finite
  sums in the extended reals and the vanishing of products with zero are used.
-/
import proofs.«147057_g2000302454168391_pallasbulk_317_11_alg».proof.Proof.Spec
import proofs.«147057_g2000302454168391_pallasbulk_317_11_alg».proof.Proof.LibBandedConv

namespace Cert.NetAlgebra

open Idealize.ShloMosaic Idealize.ShloMosaic.ValueIdx Cert.Spec BandedConv

/-! ### Sums accumulated term by term -/

/-- Five terms added one after the other are their sum over Fin 5. -/
theorem sum_five (D : Fin 5 → EReal) : D 0 + D 1 + D 2 + D 3 + D 4 = ∑ di : Fin 5, D di :=
  (Fin.sum_univ_five D).symm

/-- Four terms added one after the other onto zero are their sum over Fin 4. -/
theorem zero_add_four (c : Fin 4 → EReal) : 0 + c 0 + c 1 + c 2 + c 3 = ∑ s : Fin 4, c s := by
  rw [zero_add, Fin.sum_univ_four]

/-- Sixteen terms added one after the other are their sum over Fin 16. -/
theorem sum_sixteen (D : Fin 16 → EReal) :
    D 0 + D 1 + D 2 + D 3 + D 4 + D 5 + D 6 + D 7 + D 8 + D 9 + D 10 + D 11 + D 12 + D 13 + D 14 + D 15
      = ∑ h : Fin 16, D h := by
  simp only [Fin.sum_univ_succ, Fin.sum_univ_zero, add_zero, add_assoc]
  rfl

/-! ### The rows-by-lanes arrangement -/

/-- First convolution: a row of 140 lanes, lane 28*di + wi holding the input at (row i + di, column wi), against
    the banded column for output (column j, channel o), whose lane 28*di + (j + dj) holds the tap (di, dj) and whose
    lanes outside the band are zero. -/
theorem conv1_kernel
    (x : (⟨4, ![256, 1, 28, 28]⟩ : Shape).Idx → EReal) (w : (⟨2, ![25, 32]⟩ : Shape).Idx → EReal)
    (n : Fin 256) (i j : Fin 24) (o : Fin 32) (X T : Fin 140 → EReal)
    (hX : ∀ (di : Fin 5) (wi : Fin 28), X ⟨28 * di.val + wi.val, by omega⟩ = x (ix4 n 0 (sh i di) wi))
    (hin : ∀ (di dj : Fin 5), T ⟨28 * di.val + (j.val + dj.val), by omega⟩ = w (ix2 (tap1 di dj) o))
    (hout : ∀ (di : Fin 5) (wi : Fin 28), ¬ (j.val ≤ wi.val ∧ wi.val < j.val + 5) →
      T ⟨28 * di.val + wi.val, by omega⟩ = 0) :
    ∑ l : Fin 140, X l * T l
      = ∑ di : Fin 5, ∑ dj : Fin 5, x (ix4 n 0 (sh i di) (sh j dj)) * w (ix2 (tap1 di dj) o) := by
  refine (sum_fin_mul 5 28 (fun l => X l * T l)).trans ?_
  refine Finset.sum_congr rfl fun di _ => ?_
  refine (Finset.sum_congr rfl fun wi _ => congrArg (· * _) (hX di wi)).trans ?_
  exact banded_sum_of 24 j (fun wi => x (ix4 n 0 (sh i di) wi))
    (fun wi => T ⟨28 * di.val + wi.val, by omega⟩)
    (fun dj => w (ix2 (tap1 di dj) o)) (fun dj => hin di dj) (fun wi hb => hout di wi hb)

/-- Second convolution: for each tap row di, the activation row i + di (768 lanes, lane 32*wi + ci holding column wi,
    channel ci) against the banded column of tap row di for output (column j, channel o). -/
theorem conv2_kernel
    (a : Fin 256 → Fin 24 → Fin 24 → Fin 32 → EReal) (w : (⟨2, ![800, 32]⟩ : Shape).Idx → EReal)
    (n : Fin 256) (i j : Fin 20) (o : Fin 32) (Y : Fin 24 → Fin 768 → EReal) (T : Fin 5 → Fin 768 → EReal)
    (hY : ∀ (h wi : Fin 24) (ci : Fin 32), Y h ⟨32 * wi.val + ci.val, by omega⟩ = a n h wi ci)
    (hin : ∀ (di dj : Fin 5) (ci : Fin 32),
      T di ⟨32 * (j.val + dj.val) + ci.val, by omega⟩ = w (ix2 (tap32 di dj ci) o))
    (hout : ∀ (di : Fin 5) (wi : Fin 24) (ci : Fin 32), ¬ (j.val ≤ wi.val ∧ wi.val < j.val + 5) →
      T di ⟨32 * wi.val + ci.val, by omega⟩ = 0) :
    ∑ di : Fin 5, ∑ l : Fin 768, Y (sh i di) l * T di l
      = ∑ di : Fin 5, ∑ dj : Fin 5, ∑ ci : Fin 32,
          a n (sh i di) (sh j dj) ci * w (ix2 (tap32 di dj ci) o) := by
  refine Finset.sum_congr rfl fun di _ => ?_
  exact banded_rows_of 20 32 j (fun wi ci => a n (sh i di) wi ci) (fun dj ci => w (ix2 (tap32 di dj ci) o))
    (Y (sh i di)) (T di) (fun wi ci => hY (sh i di) wi ci) (fun dj ci => hin di dj ci)
    (fun wi ci hb => hout di wi ci hb)

/-- Third convolution: as the second, with rows of 640 lanes (20 columns of 32 channels) and 64 output channels. -/
theorem conv3_kernel
    (a : Fin 256 → Fin 20 → Fin 20 → Fin 32 → EReal) (w : (⟨2, ![800, 64]⟩ : Shape).Idx → EReal)
    (n : Fin 256) (i j : Fin 16) (o : Fin 64) (Y : Fin 20 → Fin 640 → EReal) (T : Fin 5 → Fin 640 → EReal)
    (hY : ∀ (h wi : Fin 20) (ci : Fin 32), Y h ⟨32 * wi.val + ci.val, by omega⟩ = a n h wi ci)
    (hin : ∀ (di dj : Fin 5) (ci : Fin 32),
      T di ⟨32 * (j.val + dj.val) + ci.val, by omega⟩ = w (ix2 (tap32 di dj ci) o))
    (hout : ∀ (di : Fin 5) (wi : Fin 20) (ci : Fin 32), ¬ (j.val ≤ wi.val ∧ wi.val < j.val + 5) →
      T di ⟨32 * wi.val + ci.val, by omega⟩ = 0) :
    ∑ di : Fin 5, ∑ l : Fin 640, Y (sh i di) l * T di l
      = ∑ di : Fin 5, ∑ dj : Fin 5, ∑ ci : Fin 32,
          a n (sh i di) (sh j dj) ci * w (ix2 (tap32 di dj ci) o) := by
  refine Finset.sum_congr rfl fun di _ => ?_
  exact banded_rows_of 16 32 j (fun wi ci => a n (sh i di) wi ci) (fun dj ci => w (ix2 (tap32 di dj ci) o))
    (Y (sh i di)) (T di) (fun wi ci => hY (sh i di) wi ci) (fun dj ci => hin di dj ci)
    (fun wi ci hb => hout di wi ci hb)

/-- Dense layer: for each image row h, the 1024 lanes (lane 64*j + o holding column j, channel o) against rows
    1024*h, ..., 1024*h + 1023 of the dense matrix; feature (h, j, o) is row 1024*h + 64*j + o. -/
theorem dense_kernel
    (a : Fin 256 → Fin 16 → Fin 16 → Fin 64 → EReal) (w : (⟨2, ![16384, 256]⟩ : Shape).Idx → EReal)
    (n q : Fin 256) (Y F : Fin 16 → Fin 1024 → EReal)
    (hY : ∀ (h j : Fin 16) (o : Fin 64), Y h ⟨64 * j.val + o.val, by omega⟩ = a n h j o)
    (hF : ∀ (h : Fin 16) (l : Fin 1024), F h l = w (ix2 ⟨1024 * h.val + l.val, by omega⟩ q)) :
    ∑ h : Fin 16, ∑ l : Fin 1024, Y h l * F h l
      = ∑ i : Fin 16, ∑ j : Fin 16, ∑ o : Fin 64, a n i j o * w (ix2 (feat i j o) q) := by
  refine Finset.sum_congr rfl fun h _ => ?_
  refine (sum_fin_mul 16 64 (fun l => Y h l * F h l)).trans ?_
  refine Finset.sum_congr rfl fun j _ => Finset.sum_congr rfl fun o _ => ?_
  show Y h ⟨64 * j.val + o.val, _⟩ * F h ⟨64 * j.val + o.val, _⟩ = _
  rw [hY h j o, hF h]
  exact congrArg (fun k => a n h j o * w (ix2 k q)) (Fin.ext (by simp only []; omega))

/-! ### The patch arrangement -/

/-- First convolution: the patch of 25 inputs, entry 5*di + dj holding the input at (row i + di, column j + dj),
    against column o of the weight matrix. -/
theorem conv1_ref
    (x : (⟨4, ![256, 1, 28, 28]⟩ : Shape).Idx → EReal) (w : (⟨2, ![25, 32]⟩ : Shape).Idx → EReal)
    (n : Fin 256) (i j : Fin 24) (o : Fin 32) (P : Fin 25 → EReal)
    (hP : ∀ (di dj : Fin 5), P (tap1 di dj) = x (ix4 n 0 (sh i di) (sh j dj))) :
    ∑ k : Fin 25, P k * w (ix2 k o)
      = ∑ di : Fin 5, ∑ dj : Fin 5, x (ix4 n 0 (sh i di) (sh j dj)) * w (ix2 (tap1 di dj) o) := by
  refine (sum_fin_mul 5 5 (fun k : Fin 25 => P k * w (ix2 k o))).trans ?_
  refine Finset.sum_congr rfl fun di _ => Finset.sum_congr rfl fun dj _ => ?_
  exact congrArg (· * _) (hP di dj)

/-- A patch of 800 entries, entry (5*di + dj)*32 + ci holding g di dj ci, against 800 weights: the sum over the
    entry is the sum over tap row, tap column and channel. -/
theorem patch800 (P W : Fin 800 → EReal) (g : Fin 5 → Fin 5 → Fin 32 → EReal)
    (hP : ∀ (di dj : Fin 5) (ci : Fin 32), P (tap32 di dj ci) = g di dj ci) :
    ∑ k : Fin 800, P k * W k
      = ∑ di : Fin 5, ∑ dj : Fin 5, ∑ ci : Fin 32, g di dj ci * W (tap32 di dj ci) := by
  refine (sum_fin_mul3 5 5 32 (fun k : Fin 800 => P k * W k)).trans ?_
  refine Finset.sum_congr rfl fun di _ => Finset.sum_congr rfl fun dj _ => Finset.sum_congr rfl fun ci _ => ?_
  exact congrArg (· * _) (hP di dj ci)

/-- Second convolution: the patch of 800 inputs in the order (tap row, tap column, channel) against column o of the
    weight matrix. -/
theorem conv2_ref
    (a : Fin 256 → Fin 24 → Fin 24 → Fin 32 → EReal) (w : (⟨2, ![800, 32]⟩ : Shape).Idx → EReal)
    (n : Fin 256) (i j : Fin 20) (o : Fin 32) (P : Fin 800 → EReal)
    (hP : ∀ (di dj : Fin 5) (ci : Fin 32), P (tap32 di dj ci) = a n (sh i di) (sh j dj) ci) :
    ∑ k : Fin 800, P k * w (ix2 k o)
      = ∑ di : Fin 5, ∑ dj : Fin 5, ∑ ci : Fin 32,
          a n (sh i di) (sh j dj) ci * w (ix2 (tap32 di dj ci) o) :=
  patch800 P (fun k => w (ix2 k o)) (fun di dj ci => a n (sh i di) (sh j dj) ci) hP

/-- Third convolution: as the second, for the 20x20x32 activation and 64 output channels. -/
theorem conv3_ref
    (a : Fin 256 → Fin 20 → Fin 20 → Fin 32 → EReal) (w : (⟨2, ![800, 64]⟩ : Shape).Idx → EReal)
    (n : Fin 256) (i j : Fin 16) (o : Fin 64) (P : Fin 800 → EReal)
    (hP : ∀ (di dj : Fin 5) (ci : Fin 32), P (tap32 di dj ci) = a n (sh i di) (sh j dj) ci) :
    ∑ k : Fin 800, P k * w (ix2 k o)
      = ∑ di : Fin 5, ∑ dj : Fin 5, ∑ ci : Fin 32,
          a n (sh i di) (sh j dj) ci * w (ix2 (tap32 di dj ci) o) :=
  patch800 P (fun k => w (ix2 k o)) (fun di dj ci => a n (sh i di) (sh j dj) ci) hP

/-- Dense layer over all 16384 features at once: feature (16*i + j)*64 + o holds the activation at (i, j, o). -/
theorem dense_flat
    (a : Fin 256 → Fin 16 → Fin 16 → Fin 64 → EReal) (w : (⟨2, ![16384, 256]⟩ : Shape).Idx → EReal)
    (n q : Fin 256) (Fe : Fin 16384 → EReal)
    (hFe : ∀ (i j : Fin 16) (o : Fin 64), Fe (feat i j o) = a n i j o) :
    ∑ k : Fin 16384, Fe k * w (ix2 k q)
      = ∑ i : Fin 16, ∑ j : Fin 16, ∑ o : Fin 64, a n i j o * w (ix2 (feat i j o) q) := by
  refine (sum_fin_mul3 16 16 64 (fun k : Fin 16384 => Fe k * w (ix2 k q))).trans ?_
  refine Finset.sum_congr rfl fun i _ => Finset.sum_congr rfl fun j _ => Finset.sum_congr rfl fun o _ => ?_
  exact congrArg (· * _) (hFe i j o)

/-- Dense layer in four consecutive chunks of 4096 features: chunk s takes the features 4096*s, ..., 4096*s + 4095
    against the same rows of the dense matrix. -/
theorem dense_ref_sum
    (a : Fin 256 → Fin 16 → Fin 16 → Fin 64 → EReal) (w : (⟨2, ![16384, 256]⟩ : Shape).Idx → EReal)
    (n q : Fin 256) (Fe : Fin 16384 → EReal)
    (hFe : ∀ (i j : Fin 16) (o : Fin 64), Fe (feat i j o) = a n i j o) :
    ∑ s : Fin 4, ∑ l : Fin 4096,
        Fe ⟨4096 * s.val + l.val, by omega⟩ * w (ix2 ⟨4096 * s.val + l.val, by omega⟩ q)
      = ∑ i : Fin 16, ∑ j : Fin 16, ∑ o : Fin 64, a n i j o * w (ix2 (feat i j o) q) :=
  (sum_fin_mul 4 4096 (fun k : Fin 16384 => Fe k * w (ix2 k q))).symm.trans (dense_flat a w n q Fe hFe)

/-- The four chunks accumulated one after the other from zero. -/
theorem dense_ref
    (a : Fin 256 → Fin 16 → Fin 16 → Fin 64 → EReal) (w : (⟨2, ![16384, 256]⟩ : Shape).Idx → EReal)
    (n q : Fin 256) (Fe : Fin 16384 → EReal)
    (hFe : ∀ (i j : Fin 16) (o : Fin 64), Fe (feat i j o) = a n i j o) (c : Fin 4 → EReal)
    (hc : ∀ s : Fin 4, c s = ∑ l : Fin 4096,
      Fe ⟨4096 * s.val + l.val, by omega⟩ * w (ix2 ⟨4096 * s.val + l.val, by omega⟩ q)) :
    0 + c 0 + c 1 + c 2 + c 3
      = ∑ i : Fin 16, ∑ j : Fin 16, ∑ o : Fin 64, a n i j o * w (ix2 (feat i j o) q) := by
  rw [zero_add_four c, Finset.sum_congr rfl fun s _ => hc s]
  exact dense_ref_sum a w n q Fe hFe

/-! ### Each arrangement against the specification's layer -/

/-- The first activation from the patch arrangement. -/
theorem act1_of_ref
    (x : (⟨4, ![256, 1, 28, 28]⟩ : Shape).Idx → EReal) (w : (⟨2, ![25, 32]⟩ : Shape).Idx → EReal)
    (b : (⟨2, ![1, 32]⟩ : Shape).Idx → EReal) (n : Fin 256) (i j : Fin 24) (o : Fin 32) (P : Fin 25 → EReal)
    (hP : ∀ (di dj : Fin 5), P (tap1 di dj) = x (ix4 n 0 (sh i di) (sh j dj))) :
    max ((∑ k : Fin 25, P k * w (ix2 k o)) + b (ix2 0 o)) 0 = act1 x w b n i j o := by
  rw [act1, conv1_ref x w n i j o P hP]

/-- The second activation from the patch arrangement. -/
theorem act2_of_ref
    (a : Fin 256 → Fin 24 → Fin 24 → Fin 32 → EReal) (w : (⟨2, ![800, 32]⟩ : Shape).Idx → EReal)
    (b : (⟨2, ![1, 32]⟩ : Shape).Idx → EReal) (n : Fin 256) (i j : Fin 20) (o : Fin 32) (P : Fin 800 → EReal)
    (hP : ∀ (di dj : Fin 5) (ci : Fin 32), P (tap32 di dj ci) = a n (sh i di) (sh j dj) ci) :
    max ((∑ k : Fin 800, P k * w (ix2 k o)) + b (ix2 0 o)) 0 = act2 a w b n i j o := by
  rw [act2, conv2_ref a w n i j o P hP]

/-- The third activation from the patch arrangement. -/
theorem act3_of_ref
    (a : Fin 256 → Fin 20 → Fin 20 → Fin 32 → EReal) (w : (⟨2, ![800, 64]⟩ : Shape).Idx → EReal)
    (b : (⟨2, ![1, 64]⟩ : Shape).Idx → EReal) (n : Fin 256) (i j : Fin 16) (o : Fin 64) (P : Fin 800 → EReal)
    (hP : ∀ (di dj : Fin 5) (ci : Fin 32), P (tap32 di dj ci) = a n (sh i di) (sh j dj) ci) :
    max ((∑ k : Fin 800, P k * w (ix2 k o)) + b (ix2 0 o)) 0 = act3 a w b n i j o := by
  rw [act3, conv3_ref a w n i j o P hP]

/-- The hidden layer from the four chunks accumulated from zero. -/
theorem hid_of_ref
    (a : Fin 256 → Fin 16 → Fin 16 → Fin 64 → EReal) (w : (⟨2, ![16384, 256]⟩ : Shape).Idx → EReal)
    (b : (⟨2, ![1, 256]⟩ : Shape).Idx → EReal) (n q : Fin 256) (Fe : Fin 16384 → EReal)
    (hFe : ∀ (i j : Fin 16) (o : Fin 64), Fe (feat i j o) = a n i j o) (c : Fin 4 → EReal)
    (hc : ∀ s : Fin 4, c s = ∑ l : Fin 4096,
      Fe ⟨4096 * s.val + l.val, by omega⟩ * w (ix2 ⟨4096 * s.val + l.val, by omega⟩ q)) :
    max ((0 + c 0 + c 1 + c 2 + c 3) + b (ix2 0 q)) 0 = hid a w b n q := by
  rw [hid, dense_ref a w n q Fe hFe c hc]

end Cert.NetAlgebra
-- ==== Proof.NetKernelBlock.lean ====
/-
  The network computed on one block of 32 images, with activations kept as rows (image row, image) by lanes
  (column, channel), is the specification's network on each image of the block: layer by layer, when the block's
  operands are the images of the block, the banded weight matrices, the bias rows repeated per column and the dense
  matrix cut in sixteen slabs, the block's entry for the image in place b is the specification's entry for that image.
  Each layer is its re-arranged sum (the banded products resp. the sixteen row products) plus the same bias under the
  same rectification.
-/
import proofs.«147057_g2000302454168391_pallasbulk_317_11_alg».proof.Proof.NetAlgebra
import proofs.«147057_g2000302454168391_pallasbulk_317_11_alg».proof.Proof.KernelBodyDefs

namespace Cert.NetAlgebra

open Idealize.ShloMosaic Idealize.ShloMosaic.ValueIdx Cert.Spec Cert.KernelIdeal.Body BandedConv

/-- First convolution of a block of images, for the image in place b of the block, which is image n: when the block's
    image array holds image n at place b, the 140 x 768 matrix is the band of the weights w1 and the long bias row
    is the bias b1 repeated per column, the block's entry at row (h, b), lane 32*j + o is the specification's first
    activation of image n at (h, j, o). -/
theorem y1_eq_act1
    (x : (⟨4, ![256, 1, 28, 28]⟩ : Shape).Idx → EReal) (w1 : (⟨2, ![25, 32]⟩ : Shape).Idx → EReal)
    (b1 : (⟨2, ![1, 32]⟩ : Shape).Idx → EReal)
    (X0 : (⟨3, ![28, 32, 28]⟩ : Shape).Idx → EReal) (X1 : (⟨2, ![140, 768]⟩ : Shape).Idx → EReal)
    (X2 : (⟨2, ![1, 768]⟩ : Shape).Idx → EReal) (b : Fin 32) (n : Fin 256)
    (hX0 : ∀ (h wi : Fin 28), X0 (ix3 h b wi) = x (ix4 n 0 h wi))
    (hX1 : ∀ (di : Fin 5) (wi : Fin 28) (j : Fin 24) (o : Fin 32),
      X1 (ix2 ⟨28 * di.val + wi.val, by omega⟩ ⟨32 * j.val + o.val, by omega⟩)
        = if h : j.val ≤ wi.val ∧ wi.val < j.val + 5 then w1 (ix2 (tap1 di ⟨wi.val - j.val, by omega⟩) o) else 0)
    (hX2 : ∀ (j : Fin 24) (o : Fin 32), X2 (ix2 0 ⟨32 * j.val + o.val, by omega⟩) = b1 (ix2 0 o))
    (h j : Fin 24) (o : Fin 32) :
    y1 X0 X1 X2 h b ⟨32 * j.val + o.val, by omega⟩ = act1 x w1 b1 n h j o := by
  unfold y1 act1
  rw [hX2 j o]
  refine congrArg (fun s => max (s + b1 (ix2 0 o)) 0) ?_
  refine conv1_kernel x w1 n h j o (rows5 X0 h b)
    (fun l => X1 (ix2 l ⟨32 * j.val + o.val, by omega⟩)) ?_ ?_ ?_
  · intro di wi
    have e1 : (⟨h.val + (28 * di.val + wi.val) / 28, by omega⟩ : Fin 28) = sh h di :=
      Fin.ext (by show h.val + (28 * di.val + wi.val) / 28 = h.val + di.val; omega)
    have e2 : (⟨(28 * di.val + wi.val) % 28, by omega⟩ : Fin 28) = wi :=
      Fin.ext (by show (28 * di.val + wi.val) % 28 = wi.val; omega)
    show X0 (ix3 (⟨h.val + (28 * di.val + wi.val) / 28, by omega⟩ : Fin 28) b
      (⟨(28 * di.val + wi.val) % 28, by omega⟩ : Fin 28)) = _
    rw [e1, e2]
    exact hX0 (sh h di) wi
  · intro di dj
    refine (hX1 di (sh j dj) j o).trans ?_
    rw [dif_pos (show j.val ≤ (sh j dj).val ∧ (sh j dj).val < j.val + 5 from
      ⟨by show j.val ≤ j.val + dj.val; omega, by show j.val + dj.val < j.val + 5; omega⟩)]
    exact congrArg (fun d => w1 (ix2 (tap1 di d) o))
      (Fin.ext (by show j.val + dj.val - j.val = dj.val; omega))
  · intro di wi hb
    exact (hX1 di wi j o).trans (dif_neg hb)

/-- Second convolution of the block for the image in place b: when the 24-row activation a of the block holds the
    activation a' of image n (lane 32*wi + ci holding column wi, channel ci), the five 768 x 640 matrices are the band
    of the weights w2 and the long bias row is b2 repeated per column, the block's entry at row (h, b), lane 32*j + o is
    the specification's second activation of a' at (n, h, j, o). -/
theorem y2_eq_act2
    (a : Fin 24 → Fin 32 → Fin 768 → EReal) (a' : Fin 256 → Fin 24 → Fin 24 → Fin 32 → EReal)
    (w2 : (⟨2, ![800, 32]⟩ : Shape).Idx → EReal) (b2 : (⟨2, ![1, 32]⟩ : Shape).Idx → EReal)
    (X3 : (⟨3, ![5, 768, 640]⟩ : Shape).Idx → EReal) (X4 : (⟨2, ![1, 640]⟩ : Shape).Idx → EReal)
    (b : Fin 32) (n : Fin 256)
    (ha : ∀ (h wi : Fin 24) (ci : Fin 32), a h b ⟨32 * wi.val + ci.val, by omega⟩ = a' n h wi ci)
    (hX3 : ∀ (di : Fin 5) (wi : Fin 24) (ci : Fin 32) (j : Fin 20) (o : Fin 32),
      X3 (ix3 di ⟨32 * wi.val + ci.val, by omega⟩ ⟨32 * j.val + o.val, by omega⟩)
        = if h : j.val ≤ wi.val ∧ wi.val < j.val + 5
            then w2 (ix2 (tap32 di ⟨wi.val - j.val, by omega⟩ ci) o) else 0)
    (hX4 : ∀ (j : Fin 20) (o : Fin 32), X4 (ix2 0 ⟨32 * j.val + o.val, by omega⟩) = b2 (ix2 0 o))
    (h j : Fin 20) (o : Fin 32) :
    y2 a X3 X4 h b ⟨32 * j.val + o.val, by omega⟩ = act2 a' w2 b2 n h j o := by
  unfold y2 act2
  rw [hX4 j o]
  refine congrArg (fun s => max (s + b2 (ix2 0 o)) 0) ?_
  refine conv2_kernel a' w2 n h j o (fun r l => a r b l)
    (fun di l => X3 (ix3 di l ⟨32 * j.val + o.val, by omega⟩)) ha ?_ ?_
  · intro di dj ci
    refine (hX3 di (sh j dj) ci j o).trans ?_
    rw [dif_pos (show j.val ≤ (sh j dj).val ∧ (sh j dj).val < j.val + 5 from
      ⟨by show j.val ≤ j.val + dj.val; omega, by show j.val + dj.val < j.val + 5; omega⟩)]
    exact congrArg (fun d => w2 (ix2 (tap32 di d ci) o))
      (Fin.ext (by show j.val + dj.val - j.val = dj.val; omega))
  · intro di wi ci hb
    exact (hX3 di wi ci j o).trans (dif_neg hb)

/-- Third convolution of the block for the image in place b: as the second, with 20-row activations of 640 lanes,
    five 640 x 1024 matrices and output lane 64*j + o. -/
theorem y3_eq_act3
    (a : Fin 20 → Fin 32 → Fin 640 → EReal) (a' : Fin 256 → Fin 20 → Fin 20 → Fin 32 → EReal)
    (w3 : (⟨2, ![800, 64]⟩ : Shape).Idx → EReal) (b3 : (⟨2, ![1, 64]⟩ : Shape).Idx → EReal)
    (X5 : (⟨3, ![5, 640, 1024]⟩ : Shape).Idx → EReal) (X6 : (⟨2, ![1, 1024]⟩ : Shape).Idx → EReal)
    (b : Fin 32) (n : Fin 256)
    (ha : ∀ (h wi : Fin 20) (ci : Fin 32), a h b ⟨32 * wi.val + ci.val, by omega⟩ = a' n h wi ci)
    (hX5 : ∀ (di : Fin 5) (wi : Fin 20) (ci : Fin 32) (j : Fin 16) (o : Fin 64),
      X5 (ix3 di ⟨32 * wi.val + ci.val, by omega⟩ ⟨64 * j.val + o.val, by omega⟩)
        = if h : j.val ≤ wi.val ∧ wi.val < j.val + 5
            then w3 (ix2 (tap32 di ⟨wi.val - j.val, by omega⟩ ci) o) else 0)
    (hX6 : ∀ (j : Fin 16) (o : Fin 64), X6 (ix2 0 ⟨64 * j.val + o.val, by omega⟩) = b3 (ix2 0 o))
    (h j : Fin 16) (o : Fin 64) :
    y3 a X5 X6 h b ⟨64 * j.val + o.val, by omega⟩ = act3 a' w3 b3 n h j o := by
  unfold y3 act3
  rw [hX6 j o]
  refine congrArg (fun s => max (s + b3 (ix2 0 o)) 0) ?_
  refine conv3_kernel a' w3 n h j o (fun r l => a r b l)
    (fun di l => X5 (ix3 di l ⟨64 * j.val + o.val, by omega⟩)) ha ?_ ?_
  · intro di dj ci
    refine (hX5 di (sh j dj) ci j o).trans ?_
    rw [dif_pos (show j.val ≤ (sh j dj).val ∧ (sh j dj).val < j.val + 5 from
      ⟨by show j.val ≤ j.val + dj.val; omega, by show j.val + dj.val < j.val + 5; omega⟩)]
    exact congrArg (fun d => w3 (ix2 (tap32 di d ci) o))
      (Fin.ext (by show j.val + dj.val - j.val = dj.val; omega))
  · intro di wi ci hb
    exact (hX5 di wi ci j o).trans (dif_neg hb)

/-- First dense layer of the block for the image in place b: when the 16-row activation a of the block holds the
    activation a' of image n (lane 64*j + o holding column j, channel o), slab h of the dense matrix holds rows
    1024*h, ..., 1024*h + 1023 of f1 and the bias is c1, the block's entry (b, q) is the specification's hidden unit q of
    image n. -/
theorem hidB_eq_hid
    (a : Fin 16 → Fin 32 → Fin 1024 → EReal) (a' : Fin 256 → Fin 16 → Fin 16 → Fin 64 → EReal)
    (f1 : (⟨2, ![16384, 256]⟩ : Shape).Idx → EReal) (c1 : (⟨2, ![1, 256]⟩ : Shape).Idx → EReal)
    (X7 : (⟨3, ![16, 1024, 256]⟩ : Shape).Idx → EReal) (X8 : (⟨2, ![1, 256]⟩ : Shape).Idx → EReal)
    (b : Fin 32) (n : Fin 256)
    (ha : ∀ (h j : Fin 16) (o : Fin 64), a h b ⟨64 * j.val + o.val, by omega⟩ = a' n h j o)
    (hX7 : ∀ (h : Fin 16) (l : Fin 1024) (q : Fin 256),
      X7 (ix3 h l q) = f1 (ix2 ⟨1024 * h.val + l.val, by omega⟩ q))
    (hX8 : ∀ q : Fin 256, X8 (ix2 0 q) = c1 (ix2 0 q)) (q : Fin 256) :
    hidB a X7 X8 b q = hid a' f1 c1 n q := by
  unfold hidB hid
  rw [hX8 q]
  refine congrArg (fun s => max (s + c1 (ix2 0 q)) 0) ?_
  exact dense_kernel a' f1 n q (fun h l => a h b l) (fun h l => X7 (ix3 h l q)) ha (fun h l => hX7 h l q)

/-- Second dense layer of the block for the image in place b. -/
theorem logitB_eq_logit
    (a : Fin 32 → Fin 256 → EReal) (a' : Fin 256 → Fin 256 → EReal)
    (f2 : (⟨2, ![256, 10]⟩ : Shape).Idx → EReal) (c2 : (⟨2, ![1, 10]⟩ : Shape).Idx → EReal)
    (X9 : (⟨2, ![256, 10]⟩ : Shape).Idx → EReal) (X10 : (⟨2, ![1, 10]⟩ : Shape).Idx → EReal)
    (b : Fin 32) (n : Fin 256)
    (ha : ∀ q : Fin 256, a b q = a' n q)
    (hX9 : ∀ (q : Fin 256) (r : Fin 10), X9 (ix2 q r) = f2 (ix2 q r))
    (hX10 : ∀ r : Fin 10, X10 (ix2 0 r) = c2 (ix2 0 r)) (r : Fin 10) :
    logitB a X9 X10 b r = logit a' f2 c2 n r := by
  unfold logitB logit
  rw [hX10 r]
  refine congrArg (· + c2 (ix2 0 r)) ?_
  exact Finset.sum_congr rfl fun q _ => by rw [ha q, hX9 q r]

/-- The logits of the image in place b of a block, which is image n, are the specification's logits of image n, when
    the eleven blocks are: the images with image n at place b, the three banded weight matrices, the three bias rows
    repeated per column, the dense matrix in sixteen slabs, and the remaining three arguments themselves. -/
theorem blockLogits_eq_logits
    (x : (⟨4, ![256, 1, 28, 28]⟩ : Shape).Idx → EReal)
    (w1 : (⟨2, ![25, 32]⟩ : Shape).Idx → EReal) (b1 : (⟨2, ![1, 32]⟩ : Shape).Idx → EReal)
    (w2 : (⟨2, ![800, 32]⟩ : Shape).Idx → EReal) (b2 : (⟨2, ![1, 32]⟩ : Shape).Idx → EReal)
    (w3 : (⟨2, ![800, 64]⟩ : Shape).Idx → EReal) (b3 : (⟨2, ![1, 64]⟩ : Shape).Idx → EReal)
    (f1 : (⟨2, ![16384, 256]⟩ : Shape).Idx → EReal) (c1 : (⟨2, ![1, 256]⟩ : Shape).Idx → EReal)
    (f2 : (⟨2, ![256, 10]⟩ : Shape).Idx → EReal) (c2 : (⟨2, ![1, 10]⟩ : Shape).Idx → EReal)
    (X0 : (⟨3, ![28, 32, 28]⟩ : Shape).Idx → EReal)
    (X1 : (⟨2, ![140, 768]⟩ : Shape).Idx → EReal) (X2 : (⟨2, ![1, 768]⟩ : Shape).Idx → EReal)
    (X3 : (⟨3, ![5, 768, 640]⟩ : Shape).Idx → EReal) (X4 : (⟨2, ![1, 640]⟩ : Shape).Idx → EReal)
    (X5 : (⟨3, ![5, 640, 1024]⟩ : Shape).Idx → EReal) (X6 : (⟨2, ![1, 1024]⟩ : Shape).Idx → EReal)
    (X7 : (⟨3, ![16, 1024, 256]⟩ : Shape).Idx → EReal) (X8 : (⟨2, ![1, 256]⟩ : Shape).Idx → EReal)
    (X9 : (⟨2, ![256, 10]⟩ : Shape).Idx → EReal) (X10 : (⟨2, ![1, 10]⟩ : Shape).Idx → EReal)
    (b : Fin 32) (n : Fin 256)
    (hX0 : ∀ (h wi : Fin 28), X0 (ix3 h b wi) = x (ix4 n 0 h wi))
    (hX1 : ∀ (di : Fin 5) (wi : Fin 28) (j : Fin 24) (o : Fin 32),
      X1 (ix2 ⟨28 * di.val + wi.val, by omega⟩ ⟨32 * j.val + o.val, by omega⟩)
        = if h : j.val ≤ wi.val ∧ wi.val < j.val + 5 then w1 (ix2 (tap1 di ⟨wi.val - j.val, by omega⟩) o) else 0)
    (hX2 : ∀ (j : Fin 24) (o : Fin 32), X2 (ix2 0 ⟨32 * j.val + o.val, by omega⟩) = b1 (ix2 0 o))
    (hX3 : ∀ (di : Fin 5) (wi : Fin 24) (ci : Fin 32) (j : Fin 20) (o : Fin 32),
      X3 (ix3 di ⟨32 * wi.val + ci.val, by omega⟩ ⟨32 * j.val + o.val, by omega⟩)
        = if h : j.val ≤ wi.val ∧ wi.val < j.val + 5
            then w2 (ix2 (tap32 di ⟨wi.val - j.val, by omega⟩ ci) o) else 0)
    (hX4 : ∀ (j : Fin 20) (o : Fin 32), X4 (ix2 0 ⟨32 * j.val + o.val, by omega⟩) = b2 (ix2 0 o))
    (hX5 : ∀ (di : Fin 5) (wi : Fin 20) (ci : Fin 32) (j : Fin 16) (o : Fin 64),
      X5 (ix3 di ⟨32 * wi.val + ci.val, by omega⟩ ⟨64 * j.val + o.val, by omega⟩)
        = if h : j.val ≤ wi.val ∧ wi.val < j.val + 5
            then w3 (ix2 (tap32 di ⟨wi.val - j.val, by omega⟩ ci) o) else 0)
    (hX6 : ∀ (j : Fin 16) (o : Fin 64), X6 (ix2 0 ⟨64 * j.val + o.val, by omega⟩) = b3 (ix2 0 o))
    (hX7 : ∀ (h : Fin 16) (l : Fin 1024) (q : Fin 256),
      X7 (ix3 h l q) = f1 (ix2 ⟨1024 * h.val + l.val, by omega⟩ q))
    (hX8 : ∀ q : Fin 256, X8 (ix2 0 q) = c1 (ix2 0 q))
    (hX9 : ∀ (q : Fin 256) (r : Fin 10), X9 (ix2 q r) = f2 (ix2 q r))
    (hX10 : ∀ r : Fin 10, X10 (ix2 0 r) = c2 (ix2 0 r)) (r : Fin 10) :
    blockLogits X0 X1 X2 X3 X4 X5 X6 X7 X8 X9 X10 b r
      = logits x w1 b1 w2 b2 w3 b3 f1 c1 f2 c2 n r := by
  unfold blockLogits logits
  exact logitB_eq_logit _ _ f2 c2 X9 X10 b n
    (fun q => hidB_eq_hid _ _ f1 c1 X7 X8 b n
      (fun h j o => y3_eq_act3 _ _ w3 b3 X5 X6 b n
        (fun h wi ci => y2_eq_act2 _ _ w2 b2 X3 X4 b n
          (fun h wi ci => y1_eq_act1 x w1 b1 X0 X1 X2 b n hX0 hX1 hX2 h wi ci)
          hX3 hX4 h wi ci)
        hX5 hX6 h j o)
      hX7 hX8 q)
    hX9 hX10 r

end Cert.NetAlgebra
-- ==== Proof.KernelRun.lean ====
/-
  From the blocks to the array, and the kernel's run. Point t writes back block t (rows 32*t, ..., 32*t + 31) of the
  specification's network of the eleven argument arrays: its input blocks are the images 32*t, ..., 32*t + 31, the banded
  weight matrices, the tiled biases and the dense matrices, on which the block-level network is the specification's
  network image by image. The eight blocks tile the output array (row r lies in block r / 32), so after the run the
  output array is the specification's network of the arguments, and the arguments are unchanged.
-/
import proofs.«147057_g2000302454168391_pallasbulk_317_11_alg».proof.Proof.KernelRunBlocks
import proofs.«147057_g2000302454168391_pallasbulk_317_11_alg».proof.Proof.KernelBody
import proofs.«147057_g2000302454168391_pallasbulk_317_11_alg».proof.Proof.KernelOperands
import proofs.«147057_g2000302454168391_pallasbulk_317_11_alg».proof.Proof.NetKernelBlock
import proofs.«147057_g2000302454168391_pallasbulk_317_11_alg».proof.Proof.Spec

noncomputable section

namespace Cert.KernelIdeal.NetValue

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (tap1 tap32)

variable (m : (ℓ : Loc nD τ sig) → Buf (Elt Ideal) ℓ) (ρ : Dev nD → PrngReg)

/-- The whole output array as one function of the eleven argument arrays: the specification's network. -/
abbrev netOf (c : Dev nD) : S256x10.Idx → EReal :=
  Cert.Spec.net (m ((c : Thread nD τ).loc main_arg0) : S256x1x28x28.Idx → EReal)
    (m ((c : Thread nD τ).loc main_arg1) : S25x32.Idx → EReal)
    (m ((c : Thread nD τ).loc main_arg2) : S1x32.Idx → EReal)
    (m ((c : Thread nD τ).loc main_arg3) : S800x32.Idx → EReal)
    (m ((c : Thread nD τ).loc main_arg4) : S1x32.Idx → EReal)
    (m ((c : Thread nD τ).loc main_arg5) : S800x64.Idx → EReal)
    (m ((c : Thread nD τ).loc main_arg6) : S1x64.Idx → EReal)
    (m ((c : Thread nD τ).loc main_arg7) : S16384x256.Idx → EReal)
    (m ((c : Thread nD τ).loc main_arg8) : S1x256.Idx → EReal)
    (m ((c : Thread nD τ).loc main_arg9) : S256x10.Idx → EReal)
    (m ((c : Thread nD τ).loc main_arg10) : S1x10.Idx → EReal)

/-! ## What point t writes back, the cover, the array after the run -/

/-- Over any eleven blocks that are the images of a block, the banded weights, the tiled biases and the dense
    matrices of arguments x, w1, ..., c2: the body's result read at (b, r) is the specification's network of those
    arguments at (n, r), n the image in place b. -/
theorem point_of
    (x : (⟨4, ![256, 1, 28, 28]⟩ : Shape).Idx → EReal)
    (w1 : (⟨2, ![25, 32]⟩ : Shape).Idx → EReal) (b1 : (⟨2, ![1, 32]⟩ : Shape).Idx → EReal)
    (w2 : (⟨2, ![800, 32]⟩ : Shape).Idx → EReal) (b2 : (⟨2, ![1, 32]⟩ : Shape).Idx → EReal)
    (w3 : (⟨2, ![800, 64]⟩ : Shape).Idx → EReal) (b3 : (⟨2, ![1, 64]⟩ : Shape).Idx → EReal)
    (f1 : (⟨2, ![16384, 256]⟩ : Shape).Idx → EReal) (c1 : (⟨2, ![1, 256]⟩ : Shape).Idx → EReal)
    (f2 : (⟨2, ![256, 10]⟩ : Shape).Idx → EReal) (c2 : (⟨2, ![1, 10]⟩ : Shape).Idx → EReal)
    (X0 : (⟨3, ![28, 32, 28]⟩ : Shape).Idx → EReal)
    (X1 : (⟨2, ![140, 768]⟩ : Shape).Idx → EReal) (X2 : (⟨2, ![1, 768]⟩ : Shape).Idx → EReal)
    (X3 : (⟨3, ![5, 768, 640]⟩ : Shape).Idx → EReal) (X4 : (⟨2, ![1, 640]⟩ : Shape).Idx → EReal)
    (X5 : (⟨3, ![5, 640, 1024]⟩ : Shape).Idx → EReal) (X6 : (⟨2, ![1, 1024]⟩ : Shape).Idx → EReal)
    (X7 : (⟨3, ![16, 1024, 256]⟩ : Shape).Idx → EReal) (X8 : (⟨2, ![1, 256]⟩ : Shape).Idx → EReal)
    (X9 : (⟨2, ![256, 10]⟩ : Shape).Idx → EReal) (X10 : (⟨2, ![1, 10]⟩ : Shape).Idx → EReal)
    (b : Fin 32) (n : Fin 256)
    (hX0 : ∀ (h wi : Fin 28), X0 (ix3 h b wi) = x (ix4 n 0 h wi))
    (hX1 : ∀ (di : Fin 5) (wi : Fin 28) (j : Fin 24) (o : Fin 32),
      X1 (ix2 ⟨28 * di.val + wi.val, by omega⟩ ⟨32 * j.val + o.val, by omega⟩)
        = if h : j.val ≤ wi.val ∧ wi.val < j.val + 5 then w1 (ix2 (tap1 di ⟨wi.val - j.val, by omega⟩) o) else 0)
    (hX2 : ∀ (j : Fin 24) (o : Fin 32), X2 (ix2 0 ⟨32 * j.val + o.val, by omega⟩) = b1 (ix2 0 o))
    (hX3 : ∀ (di : Fin 5) (wi : Fin 24) (ci : Fin 32) (j : Fin 20) (o : Fin 32),
      X3 (ix3 di ⟨32 * wi.val + ci.val, by omega⟩ ⟨32 * j.val + o.val, by omega⟩)
        = if h : j.val ≤ wi.val ∧ wi.val < j.val + 5
            then w2 (ix2 (tap32 di ⟨wi.val - j.val, by omega⟩ ci) o) else 0)
    (hX4 : ∀ (j : Fin 20) (o : Fin 32), X4 (ix2 0 ⟨32 * j.val + o.val, by omega⟩) = b2 (ix2 0 o))
    (hX5 : ∀ (di : Fin 5) (wi : Fin 20) (ci : Fin 32) (j : Fin 16) (o : Fin 64),
      X5 (ix3 di ⟨32 * wi.val + ci.val, by omega⟩ ⟨64 * j.val + o.val, by omega⟩)
        = if h : j.val ≤ wi.val ∧ wi.val < j.val + 5
            then w3 (ix2 (tap32 di ⟨wi.val - j.val, by omega⟩ ci) o) else 0)
    (hX6 : ∀ (j : Fin 16) (o : Fin 64), X6 (ix2 0 ⟨64 * j.val + o.val, by omega⟩) = b3 (ix2 0 o))
    (hX7 : ∀ (h : Fin 16) (l : Fin 1024) (q : Fin 256),
      X7 (ix3 h l q) = f1 (ix2 ⟨1024 * h.val + l.val, by omega⟩ q))
    (hX8 : ∀ q : Fin 256, X8 (ix2 0 q) = c1 (ix2 0 q))
    (hX9 : ∀ (q : Fin 256) (r : Fin 10), X9 (ix2 q r) = f2 (ix2 q r))
    (hX10 : ∀ r : Fin 10, X10 (ix2 0 r) = c2 (ix2 0 r)) (r : Fin 10) :
    out0_11 (F := Ideal) X0 X1 X2 X3 X4 X5 X6 X7 X8 X9 X10 (ix2 b r)
      = Cert.Spec.net x w1 b1 w2 b2 w3 b3 f1 c1 f2 c2 (ix2 n r) := by
  refine (Body.out_block_apply X0 X1 X2 X3 X4 X5 X6 X7 X8 X9 X10 b r).trans ?_
  show Cert.Spec.logSoftmax _ r = Cert.Spec.logSoftmax (Cert.Spec.logits x w1 b1 w2 b2 w3 b3 f1 c1 f2 c2 n) r
  refine congrArg (fun z => Cert.Spec.logSoftmax z r) (funext fun r' => ?_)
  exact Cert.NetAlgebra.blockLogits_eq_logits x w1 b1 w2 b2 w3 b3 f1 c1 f2 c2 X0 X1 X2 X3 X4 X5 X6 X7 X8 X9 X10 b n
    hX0 hX1 hX2 hX3 hX4 hX5 hX6 hX7 hX8 hX9 hX10 r'

/-- The body's result at point t, read at (b, r), is the specification's network at image 32*t + b, class r. -/
theorem point_apply (c : Dev nD) (t : Fin cfg0.N) (b : Fin 32) (r : Fin 10) (n : Fin 256) (hn : n.val = 32 * t.val + b.val) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 b r)
      = netOf m c (ix2 n r) :=
  point_of (m ((c : Thread nD τ).loc main_arg0) : S256x1x28x28.Idx → EReal) (m ((c : Thread nD τ).loc main_arg1) : S25x32.Idx → EReal) (m ((c : Thread nD τ).loc main_arg2) : S1x32.Idx → EReal) (m ((c : Thread nD τ).loc main_arg3) : S800x32.Idx → EReal) (m ((c : Thread nD τ).loc main_arg4) : S1x32.Idx → EReal) (m ((c : Thread nD τ).loc main_arg5) : S800x64.Idx → EReal) (m ((c : Thread nD τ).loc main_arg6) : S1x64.Idx → EReal) (m ((c : Thread nD τ).loc main_arg7) : S16384x256.Idx → EReal) (m ((c : Thread nD τ).loc main_arg8) : S1x256.Idx → EReal) (m ((c : Thread nD τ).loc main_arg9) : S256x10.Idx → EReal) (m ((c : Thread nD τ).loc main_arg10) : S1x10.Idx → EReal)
    (iblk m c 0 t) (iblk m c 1 t) (iblk m c 2 t) (iblk m c 3 t) (iblk m c 4 t) (iblk m c 5 t) (iblk m c 6 t) (iblk m c 7 t) (iblk m c 8 t) (iblk m c 9 t) (iblk m c 10 t) b n
    (fun h wi => (iblk0_apply m c t h b wi n hn).trans (Operands.x_relaid m c h n wi))
    (fun di wi j o => (congrFun (iblk1_eq m c t) (ix2 ⟨28 * di.val + wi.val, by omega⟩ ⟨32 * j.val + o.val, by omega⟩)).trans (Operands.band1 m c di wi j o))
    (fun j o => (congrFun (iblk2_eq m c t) (ix2 0 ⟨32 * j.val + o.val, by omega⟩)).trans (Operands.bias1_tiled m c j o))
    (fun di wi ci j o => (congrFun (iblk3_eq m c t) (ix3 di ⟨32 * wi.val + ci.val, by omega⟩ ⟨32 * j.val + o.val, by omega⟩)).trans (Operands.band2 m c di wi ci j o))
    (fun j o => (congrFun (iblk4_eq m c t) (ix2 0 ⟨32 * j.val + o.val, by omega⟩)).trans (Operands.bias2_tiled m c j o))
    (fun di wi ci j o => (congrFun (iblk5_eq m c t) (ix3 di ⟨32 * wi.val + ci.val, by omega⟩ ⟨64 * j.val + o.val, by omega⟩)).trans (Operands.band3 m c di wi ci j o))
    (fun j o => (congrFun (iblk6_eq m c t) (ix2 0 ⟨64 * j.val + o.val, by omega⟩)).trans (Operands.bias3_tiled m c j o))
    (fun h l q => (congrFun (iblk7_eq m c t) (ix3 h l q)).trans (Operands.dense1_rows m c h l q))
    (fun q => (congrFun (iblk8_eq m c t) (ix2 0 q)).trans (congrFun (V_main_arg8 m c) (ix2 0 q)))
    (fun q r'' => (congrFun (iblk9_eq m c t) (ix2 q r'')).trans (congrFun (Operands.dense2 m c) (ix2 q r'')))
    (fun r'' => (congrFun (iblk10_eq m c t) (ix2 0 r'')).trans (congrFun (V_main_arg10 m c) (ix2 0 r'')))
    r

/-- What point t writes back is block t of the specification's network of the argument arrays. -/
theorem flushed_eq (c : Dev nD) (t : Fin cfg0.N) :
    (dats m 0 c).flushed 11 t = ((cfg0.win 11).blk t).view.read (Elt Ideal) (netOf m c) := by
  show (cfg0.win 11).cut (grid0.coords t) ((dats m 0 c).after 11 t) = _
  rw [after0_11]
  obtain ⟨f0, f1⟩ := idx11 t
  have ht := t_lt t
  funext y
  obtain ⟨b, r, rfl⟩ : ∃ (b : Fin 32) (r : Fin 10), (y : S32x10.Idx) = ix2 b r :=
    ⟨(y : S32x10.Idx) 0, (y : S32x10.Idx) 1, eq_ix2 (n0 := 32) (n1 := 10) y⟩
  have hemb : ((cfg0.win 11).blk t).view.emb (ix2 b r) = (ix2 (⟨32 * t.val + b.val, by omega⟩ : Fin 256) r : S256x10.Idx) := by
    funext a
    apply Fin.ext
    match a with
    | ⟨0, _⟩ => show win0_11.index t (0 : Fin 2) * 32 + 1 * b.val = 32 * t.val + b.val; rw [f0]; omega
    | ⟨1, _⟩ => show win0_11.index t (1 : Fin 2) * 10 + 1 * r.val = r.val; rw [f1]; omega
  have hx : (cfg0.win 11).xinj (grid0.coords t) (ix2 b r) = (ix2 b r : S32x10.Idx) := by
    funext a
    apply Fin.ext
    match a with
    | ⟨0, _⟩ => rfl
    | ⟨1, _⟩ => rfl
  rw [View.read_apply, hemb]
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 11).xinj (grid0.coords t) (ix2 b r)) = _
  rw [hx]
  exact point_apply m c t b r (⟨32 * t.val + b.val, by omega⟩ : Fin 256) rfl
/-- An index of the output array is in point t's block iff each coordinate is in the block's range on its axis. -/
theorem mem_blk (t : Fin cfg0.N) (i : S256x10.Idx) :
    i ∈ ((cfg0.win 11).blk t).view.set ↔ ∀ a : Fin 2, win0_11.index t a * S32x10.size a ≤ (i a).val ∧ (i a).val < win0_11.index t a * S32x10.size a + S32x10.size a := by
  show i ∈ ((View.whole main_v49).slice (win0_11.rect t)).set ↔ _
  rw [View.set_slice_whole, Rect.mem_set_unit]
  exact Iff.rfl

/-- Every row of the output array is in the block of the point row / 32. -/
theorem cover (i : S256x10.Idx) :
    ∃ t : Fin cfg0.N, (cfg0.win 11).flush t = true ∧ i ∈ ((cfg0.win 11).blk t).view.set := by
  have hi0 : (i 0).val < 256 := (i 0).isLt
  have hi1 : (i 1).val < 10 := (i 1).isLt
  have hN : cfg0.N = 8 := N_0
  refine ⟨⟨(i 0).val / 32, by rw [hN]; omega⟩, flush0_11 _, ?_⟩
  obtain ⟨f0, f1⟩ := idx11 ⟨(i 0).val / 32, by rw [hN]; omega⟩
  rw [mem_blk]
  intro a
  match a with
  | ⟨0, _⟩ =>
    show win0_11.index _ (0 : Fin 2) * 32 ≤ (i 0).val ∧ (i 0).val < win0_11.index _ (0 : Fin 2) * 32 + 32
    rw [f0]; show (i 0).val / 32 * 32 ≤ (i 0).val ∧ (i 0).val < (i 0).val / 32 * 32 + 32; omega
  | ⟨1, _⟩ =>
    show win0_11.index _ (1 : Fin 2) * 10 ≤ (i 1).val ∧ (i 1).val < win0_11.index _ (1 : Fin 2) * 10 + 10
    rw [f1]; omega

/-- The output array after the run is the specification's network of the argument arrays. -/
theorem final (c : Dev nD) : (dats m 0 c).arrAt 11 cfg0.N = netOf m c :=
  (dats m 0 c).arrAt_eq_of_cover 11 (netOf m c) (fun t _ => flushed_eq m c t) cover

/-- The run, read: every weakly fair execution terminates with the output array at the specification's network of
    the argument arrays, and the eleven arguments unchanged. -/
theorem run : θ_run defs (onTc (τ := τ) (main (F := Ideal))) ⟨m, fun _ => 0, ρ⟩ fun r => ∀ c : Dev nD,
      r.2.mem ((c : Thread nD τ).loc main_v49) = netOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 11).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c),
      ((h c).1 10).trans (((dats m 0 c).arrAt_in 10 rfl _).trans ((A_eq m c 10).trans (V_main_arg10 m c)))⟩)
    (run_main m ρ)

end Cert.KernelIdeal.NetValue

end
-- ==== Proof.RefConv0.lean ====
/-
  Region 0 of the reference program: one grid point multiplies a block of patch rows by the whole weight matrix,
  adds the bias row to every row and rectifies: out = max (X * W + b, 0), for 384 of the 147456 patch rows of the first convolution (25 taps, 32 channels).
  Stated at a parameter V, the contents of the TensorCore's buffers when the region is entered: each window's block
  at a point is a read of its array through the block's view; the output buffer after the body is the one store's
  value over the three input blocks; the body's triple; the proof data (the arrays as V has them, the inputs left in
  place, the output at that value, nothing owed) and the body obligation at every point.
-/
import proofs.«147057_g2000302454168391_pallasbulk_317_11_alg».proof.Proof.Gen.ReferenceIdeal.Launch
import proofs.«147057_g2000302454168391_pallasbulk_317_11_alg».proof.Proof.Gen.ReferenceIdeal.Skeleton
import proofs.«147057_g2000302454168391_pallasbulk_317_11_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Conv0

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is V's and whose body leaves the block. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S384x25 := Rect.unit (s := S384x25) ![0, 0] S384x25.size inb_S384x25_S384x25_0_0
abbrev rW : Rect S25x32 := Rect.unit (s := S25x32) ![0, 0] S25x32.size inb_S25x32_S25x32_0_0
abbrev rB : Rect S1x32 := Rect.unit (s := S1x32) ![0, 0] S1x32.size inb_S1x32_S1x32_0_0
abbrev rO : Rect S384x32 := Rect.unit (s := S384x32) ![0, 0] S384x32.size inb_S384x32_S384x32_0_0

/-! ## What the body leaves in the output window's buffer -/

/-- The output buffer after the body: its one store, the whole buffer, of the rectified product plus bias. -/
def out (x0 : Vec F S384x25 .f32) (x1 : Vec F S25x32 .f32) (x2 : Vec F S1x32 .f32) : Vec F S384x32 .f32 :=
  View.canon [⟨rO, k0_pay1 (View.ld x0 rX) (View.ld x1 rW) (View.ld x2 rB)⟩]

/-- The one store covers the buffer. -/
theorem cover (p0 : Vec F S384x32 .f32) (y : S384x32.Idx) :
    ∃ pc ∈ ([⟨rO, p0⟩] : List (View.Piece (Elt F) S384x32 .f32)), y ∈ pc.1.set :=
  View.cover_of_tiled [⟨rO, p0⟩] S384x32.size (by rfl) y

/-! ## The body's triple -/

set_option maxHeartbeats 1000000 in
/-- The kernel body on whole staging memrefs, the inputs at contents x0, x1, x2 and the output at anything, runs to the
    continuation holding the inputs as they were and the output at out x0 x1 x2. -/
theorem sound_kernel (c : Dev nD) (E : Set ℕ) (i : grid0.Coords)
    (arg1 : Memref sig .tc .vmem S384x25 .f32) (harg1 : arg1.IsWhole) (arg2 : Memref sig .tc .vmem S25x32 .f32) (harg2 : arg2.IsWhole)
    (arg3 : Memref sig .tc .vmem S1x32 .f32) (harg3 : arg3.IsWhole) (arg4 : Memref sig .tc .vmem S384x32 .f32) (harg4 : arg4.IsWhole)
    (x0 : Vec F S384x25 .f32) (x1 : Vec F S25x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out x0 x1 x2)) -∗ K ⟨⟩))
      ⊢ wp frame (wpE (defs₀ (F := F)) Variants.none c none) E (cc0__conv_matmul_kernel i arg1 harg1 arg2 harg2 arg3 harg3 arg4 harg4) K := by
  simp only [cc0__conv_matmul_kernel_eq_skeleton]; unfold cc0__conv_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The proof data of this pipeline on core c: the arrays as the region finds them; after the body at point t each
    input's buffer at its block and the output's at out of the input blocks; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the triple applies; the invariant and the core's
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.ReferenceIdeal.Conv0

end
-- ==== Proof.RefConv1.lean ====
/-
  Region 1 of the reference program: one grid point multiplies a block of patch rows by the whole weight matrix,
  adds the bias row to every row and rectifies: out = max (X * W + b, 0), for 320 of the 102400 patch rows of the second convolution (800 taps, 32 channels).
  Stated at a parameter V, the contents of the TensorCore's buffers when the region is entered: each window's block
  at a point is a read of its array through the block's view; the output buffer after the body is the one store's
  value over the three input blocks; the body's triple; the proof data (the arrays as V has them, the inputs left in
  place, the output at that value, nothing owed) and the body obligation at every point.
-/
import proofs.«147057_g2000302454168391_pallasbulk_317_11_alg».proof.Proof.Gen.ReferenceIdeal.Launch
import proofs.«147057_g2000302454168391_pallasbulk_317_11_alg».proof.Proof.Gen.ReferenceIdeal.Skeleton
import proofs.«147057_g2000302454168391_pallasbulk_317_11_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Conv1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is V's and whose body leaves the block. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S320x800 := Rect.unit (s := S320x800) ![0, 0] S320x800.size inb_S320x800_S320x800_0_0
abbrev rW : Rect S800x32 := Rect.unit (s := S800x32) ![0, 0] S800x32.size inb_S800x32_S800x32_0_0
abbrev rB : Rect S1x32 := Rect.unit (s := S1x32) ![0, 0] S1x32.size inb_S1x32_S1x32_0_0
abbrev rO : Rect S320x32 := Rect.unit (s := S320x32) ![0, 0] S320x32.size inb_S320x32_S320x32_0_0

/-! ## What the body leaves in the output window's buffer -/

/-- The output buffer after the body: its one store, the whole buffer, of the rectified product plus bias. -/
def out (x0 : Vec F S320x800 .f32) (x1 : Vec F S800x32 .f32) (x2 : Vec F S1x32 .f32) : Vec F S320x32 .f32 :=
  View.canon [⟨rO, k1_pay1 (View.ld x0 rX) (View.ld x1 rW) (View.ld x2 rB)⟩]

/-- The one store covers the buffer. -/
theorem cover (p0 : Vec F S320x32 .f32) (y : S320x32.Idx) :
    ∃ pc ∈ ([⟨rO, p0⟩] : List (View.Piece (Elt F) S320x32 .f32)), y ∈ pc.1.set :=
  View.cover_of_tiled [⟨rO, p0⟩] S320x32.size (by rfl) y

/-! ## The body's triple -/

set_option maxHeartbeats 1000000 in
/-- The kernel body on whole staging memrefs, the inputs at contents x0, x1, x2 and the output at anything, runs to the
    continuation holding the inputs as they were and the output at out x0 x1 x2. -/
theorem sound_kernel (c : Dev nD) (E : Set ℕ) (i : grid1.Coords)
    (arg1 : Memref sig .tc .vmem S320x800 .f32) (harg1 : arg1.IsWhole) (arg2 : Memref sig .tc .vmem S800x32 .f32) (harg2 : arg2.IsWhole)
    (arg3 : Memref sig .tc .vmem S1x32 .f32) (harg3 : arg3.IsWhole) (arg4 : Memref sig .tc .vmem S320x32 .f32) (harg4 : arg4.IsWhole)
    (x0 : Vec F S320x800 .f32) (x1 : Vec F S800x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out x0 x1 x2)) -∗ K ⟨⟩))
      ⊢ wp frame (wpE (defs₀ (F := F)) Variants.none c none) E (cc1__conv_matmul_kernel i arg1 harg1 arg2 harg2 arg3 harg3 arg4 harg4) K := by
  simp only [cc1__conv_matmul_kernel_eq_skeleton]; unfold cc1__conv_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The proof data of this pipeline on core c: the arrays as the region finds them; after the body at point t each
    input's buffer at its block and the output's at out of the input blocks; the invariant the scoped rest and the
    generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = out (iblk V c 0 t) (iblk V c 1 t) (iblk V c 2 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so the triple applies; the invariant and the core's
    owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.ReferenceIdeal.Conv1

end
-- ==== Proof.RefConv2.lean ====
/-
  Region 2 of the reference program: one grid point multiplies a block of patch rows by the whole weight matrix,
  adds the bias row to every row and rectifies: out = max (X * W + b, 0), for 256 of the 65536 patch rows of the third convolution (800 taps, 64 channels).
  Stated at a parameter V, the contents of the TensorCore's buffers when the region is entered: each window's block
  at a point is a read of its array through the block's view; the output buffer after the body is the one store's
  value over the three input blocks; the body's triple; the proof data (the arrays as V has them, the inputs left in
  place, the output at that value, nothing owed) and the body obligation at every point.
-/
import proofs.«147057_g2000302454168391_pallasbulk_317_11_alg».proof.Proof.Gen.ReferenceIdeal.Launch
import proofs.«147057_g2000302454168391_pallasbulk_317_11_alg».proof.Proof.Gen.ReferenceIdeal.Skeleton
import proofs.«147057_g2000302454168391_pallasbulk_317_11_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Conv2

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched its block index has not moved), for any proof data whose array is V's and whose body leaves the block. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S256x800 := Rect.unit (s := S256x800) ![0, 0] S256x800.size inb_S256x800_S256x800_0_0
abbrev rW : Rect S800x64 := Rect.unit (s := S800x64) ![0, 0] S800x64.size inb_S800x64_S800x64_0_0
abbrev rB : Rect S1x64 := Rect.unit (s := S1x64) ![0, 0] S1x64.size inb_S1x64_S1x64_0_0
abbrev rO : Rect S256x64 := Rect.unit (s := S256x64) ![0, 0] S256x64.size inb_S256x64_S256x64_0_0

/-! ## What the body leaves in the output window's buffer -/

/-- The output buffer after the body: its one store, the whole buffer, of the rectified product plus bias. -/
def out (x0 : Vec F S256x800 .f32) (x1 : Vec F S800x64 .f32) (x2 : Vec F S1x64 .f32) : Vec F S256x64 .f32 :=
  View.canon [⟨rO, k2_pay1 (View.ld x0 rX) (View.ld x1 rW) (View.ld x2 rB)⟩]

/-- The one store covers the buffer. -/
theorem cover (p0 : Vec F S256x64 .f32) (y : S256x64.Idx) :
    ∃ pc ∈ ([⟨rO, p0⟩] : List (View.Piece (Elt F) S256x64 .f32)), y ∈ pc.1.set :=
  View.cover_of_tiled [⟨rO, p0⟩] S256x64.size (by rfl) y

/-! ## The body's triple -/

set_option maxHeartbeats 1000000 in
/-- The kernel body on whole staging memrefs, the inputs at contents x0, x1, x2 and the output at anything, runs to the
    continuation holding the inputs as they were and the output at out x0 x1 x2. -/
theorem sound_kernel (c : Dev nD) (E : Set ℕ) (i : grid2.Coords)
    (arg1 : Memref sig .tc .vmem S256x800 .f32) (harg1 : arg1.IsWhole) (arg2 : Memref sig .tc .vmem S800x64 .f32) (harg2 : arg2.IsWhole)
    (arg3 : Memref sig .tc .vmem S1x64 .f32) (harg3 : arg3.IsWhole) (arg4 : Memref sig .tc .vmem S256x64 .f32) (harg4 : arg4.IsWhole)
    (x0 : Vec F S256x800 .f32) (x1 : Vec F S800x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out x0 x1 x2)) -∗ K ⟨⟩))
      ⊢ wp frame (wpE (defs₀ (F := F)) Variants.none c none) E (cc2__conv_matmul_kernel i arg1 harg1 arg2 harg2 arg3 harg3 arg4 harg4) K := by
  simp only [cc2__conv_matmul_kernel_eq_skeleton]; unfold cc2__conv_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The proof data of this pipeline on core c: the arrays as the region finds them; after the body at point t each
    input's buffer at its block and the output's at out of the input blocks; the invariant the scoped rest and the
    generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) :
    (dat V c).after 3 t = out (iblk V c 0 t) (iblk V c 1 t) (iblk V c 2 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation, at a generic point -/

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' memrefs hold their blocks, so the triple applies; the invariant and the core's
    owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.ReferenceIdeal.Conv2

end
-- ==== Proof.RefHeadBase.lean ====
/-
  The dense head of the reference program, fourth region: four grid points, each multiplying a block of 4096 feature
  columns by the matching 4096 weight rows and adding the product into a 256 x 256 accumulator that lives in a scratch
  buffer across the points; the first point clears the accumulator before adding, the last point adds the bias row,
  rectifies, applies the second dense layer and the logarithm of the softmax, and stores the 256 x 10 result.
  This module holds what the three control cases share: each window's block at a point as a read of its array, the
  two branch conditions in closed form over the grid, where the output window is idle, and the names of the memrefs
  and whole-buffer rectangles the body is called with.
-/
import proofs.«147057_g2000302454168391_pallasbulk_317_11_alg».proof.Proof.Gen.ReferenceIdeal.Skeleton
import proofs.«147057_g2000302454168391_pallasbulk_317_11_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Head

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (where it is not
    fetched its block index has not moved), for any proof data whose array is V's and whose body leaves the block. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, over the grid -/

/-- The first conditional (clear the accumulator) is taken when the grid coordinate is 0. -/
abbrev cond0 (i : grid3.Coords) : Prop := (Scalar.cmpi .ne (Scalar.extui (Scalar.cmpi .eq (BitVec.ofNat 32 (i 0).val) 0#32)) 0#32) = 1#1
theorem hcond0 : ∀ t : Fin cfg3.N, cond0 (grid3.coords t) ↔ t.val % 4 = 0 :=
  (by decide +kernel : ∀ t : Fin grid3.N, cond0 (grid3.coords t) ↔ t.val % 4 = 0)

/-- The second conditional (finish and store the result) is taken when the grid coordinate is 3. -/
abbrev cond1 (i : grid3.Coords) : Prop := k3_cond2 i = 1#1
theorem hcond1 : ∀ t : Fin cfg3.N, cond1 (grid3.coords t) ↔ t.val % 4 = 3 :=
  (by decide +kernel : ∀ t : Fin grid3.N, cond1 (grid3.coords t) ↔ t.val % 4 = 3)

/-! ## Where the windows are idle -/

theorem liveAt_0 : ∀ t : Fin cfg3.N, cfg3.idle 0 (grid3.coords t) = false := by decide +kernel
theorem liveAt_1 : ∀ t : Fin cfg3.N, cfg3.idle 1 (grid3.coords t) = false := by decide +kernel
theorem liveAt_2 : ∀ t : Fin cfg3.N, cfg3.idle 2 (grid3.coords t) = false := by decide +kernel
theorem liveAt_3 : ∀ t : Fin cfg3.N, cfg3.idle 3 (grid3.coords t) = false := by decide +kernel
theorem liveAt_4 : ∀ t : Fin cfg3.N, cfg3.idle 4 (grid3.coords t) = false := by decide +kernel
/-- Where the result is not stored (every point but the last) the output window is idle and is not written back. -/
theorem idleAt_5_A : ∀ t : Fin cfg3.N, cond0 (grid3.coords t) → ¬cond1 (grid3.coords t) → cfg3.idle 5 (grid3.coords t) = true := by decide +kernel
theorem noFlush_5_A : ∀ t : Fin cfg3.N, cond0 (grid3.coords t) → ¬cond1 (grid3.coords t) → (cfg3.win 5).flush t = false := by decide +kernel
theorem idleAt_5_B : ∀ t : Fin cfg3.N, ¬cond0 (grid3.coords t) → ¬cond1 (grid3.coords t) → cfg3.idle 5 (grid3.coords t) = true := by decide +kernel
theorem noFlush_5_B : ∀ t : Fin cfg3.N, ¬cond0 (grid3.coords t) → ¬cond1 (grid3.coords t) → (cfg3.win 5).flush t = false := by decide +kernel
/-- At the last point it is live. -/
theorem liveAt_5_C : ∀ t : Fin cfg3.N, ¬cond0 (grid3.coords t) → cond1 (grid3.coords t) → cfg3.idle 5 (grid3.coords t) = false := by decide +kernel

/-! ## The memrefs the body is called with -/

abbrev ms_0 (t : Fin cfg3.N) : Memref sig .tc .vmem S256x4096 .f32 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S4096x256 .f32 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S1x256 .f32 := win3_2.stage (cfg3.slots t 2)
abbrev hs_2 (t : Fin cfg3.N) : (ms_2 t).IsWhole := hstage3_2 ((cfg3.slots t 2).cast nbuf3_2)
abbrev ms_3 (t : Fin cfg3.N) : Memref sig .tc .vmem S256x10 .f32 := win3_3.stage (cfg3.slots t 3)
abbrev hs_3 (t : Fin cfg3.N) : (ms_3 t).IsWhole := hstage3_3 ((cfg3.slots t 3).cast nbuf3_3)
abbrev ms_4 (t : Fin cfg3.N) : Memref sig .tc .vmem S1x10 .f32 := win3_4.stage (cfg3.slots t 4)
abbrev hs_4 (t : Fin cfg3.N) : (ms_4 t).IsWhole := hstage3_4 ((cfg3.slots t 4).cast nbuf3_4)
abbrev ms_5 (t : Fin cfg3.N) : Memref sig .tc .vmem S256x10 .f32 := win3_5.stage (cfg3.slots t 5)
abbrev hs_5 (t : Fin cfg3.N) : (ms_5 t).IsWhole := hstage3_5 ((cfg3.slots t 5).cast nbuf3_5)
/-- The accumulator: a whole scoped buffer of the kernel's own, passed after the six windows. -/
abbrev scM : Memref sig .tc .vmem S256x256 .f32 := Memref.whole cc3_scratch0
/-- The accumulator as a view: what it holds is stated through it. -/
abbrev VS : View sig .tc .vmem S256x256 .f32 := scM.view
/-- One staging buffer of the output window, through which its contents are stated. -/
abbrev VO : View sig .tc .vmem S256x10 .f32 := (Memref.whole cc3_stg5_0 : Memref sig .tc .vmem S256x10 .f32).view

/-- The whole-buffer rectangles of the body's loads and stores. -/
abbrev rS : Rect S256x256 := Rect.unit (s := S256x256) ![0, 0] S256x256.size inb_S256x256_S256x256_0_0
abbrev rX : Rect S256x4096 := Rect.unit (s := S256x4096) ![0, 0] S256x4096.size inb_S256x4096_S256x4096_0_0
abbrev rW : Rect S4096x256 := Rect.unit (s := S4096x256) ![0, 0] S4096x256.size inb_S4096x256_S4096x256_0_0
abbrev rB1 : Rect S1x256 := Rect.unit (s := S1x256) ![0, 0] S1x256.size inb_S1x256_S1x256_0_0
abbrev rW2 : Rect S256x10 := Rect.unit (s := S256x10) ![0, 0] S256x10.size inb_S256x10_S256x10_0_0
abbrev rB2 : Rect S1x10 := Rect.unit (s := S1x10) ![0, 0] S1x10.size inb_S1x10_S1x10_0_0

end Cert.ReferenceIdeal.Head

end
-- ==== Proof.RefHeadInv.lean ====
/-
  The invariant the launch hands the fourth region, opened into its parts: the scoped buffers that are no staging buffer
  of this region (the other three regions' staging buffers, each at some contents, and last the accumulator), and the
  generator register. With the accumulator at named contents it is the invariant between two grid points.
-/
import proofs.«147057_g2000302454168391_pallasbulk_317_11_alg».proof.Proof.RefHeadBase
import proofs.«147057_g2000302454168391_pallasbulk_317_11_alg».proof.Proof.Gen.ReferenceIdeal.Launch

set_option maxRecDepth 16384

noncomputable section

namespace Cert.ReferenceIdeal.Head

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's invariant, opened -/

/-- The invariant the launch hands the region: every scoped buffer that is no staging buffer of this region at some
    contents (the other regions' staging buffers, then the accumulator as a memref), and the generator register. -/
theorem PhiA_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM fullShare d)) ∗ (∃ r, prngReg c r)) := by
  unfold Pipeline.ΦA; rw [scopedRest3_eq]; simp only [scM, owns_whole]; try rfl

/-- The same with the accumulator at named contents X. -/
def PhiAt (c : Dev nD) (X : Vec F S256x256 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM fullShare X) ∗ (∃ r, prngReg c r))

/-- Forgetting the accumulator's contents gives the launch's invariant back. -/
theorem PhiAt_out (c : Dev nD) (X : Vec F S256x256 .f32) : PhiAt c X ⊢ (Pipeline.ΦA spec3 c : sProp 𝕄) := by
  rw [PhiA_eq]; unfold PhiAt
  iintro ⟨⟨HR0, HR1, HR2, HR3, HR4, HR5, HR6, HR7, HR8, HR9, HR10, HR11, HR12, HR13, HR14, HR15, HR16, HR17, HS⟩, Hg⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  iexists _; iexact HS

end Cert.ReferenceIdeal.Head

end
-- ==== Proof.RefHeadRunA.lean ====
/-
  The body of the dense head at the first grid point: the accumulator is cleared, then the product of the two blocks is
  added into it; the result is not stored. Run on whole memrefs, the five inputs at given contents, the output buffer
  at contents handed back untouched, the accumulator at anything: it ends with the accumulator written by two whole
  stores (the later one first in the list), everything else as it was.
-/
import proofs.«147057_g2000302454168391_pallasbulk_317_11_alg».proof.Proof.RefHeadBase

set_option maxRecDepth 16384

noncomputable section

namespace Cert.ReferenceIdeal.Head

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid3.Coords) (arg1 : Memref sig .tc .vmem S256x4096 .f32) (harg1 : arg1.IsWhole) (arg2 : Memref sig .tc .vmem S4096x256 .f32) (harg2 : arg2.IsWhole) (arg3 : Memref sig .tc .vmem S1x256 .f32) (harg3 : arg3.IsWhole) (arg4 : Memref sig .tc .vmem S256x10 .f32) (harg4 : arg4.IsWhole) (arg5 : Memref sig .tc .vmem S1x10 .f32) (harg5 : arg5.IsWhole) (arg6 : Memref sig .tc .vmem S256x10 .f32) (harg6 : arg6.IsWhole) (arg7 : Memref sig .tc .vmem S256x256 .f32) (harg7 : arg7.IsWhole) (hc0 : cond0 i) (hc1 : ¬cond1 i)
    (x0 : Vec F S256x4096 .f32) (x1 : Vec F S4096x256 .f32) (x2 : Vec F S1x256 .f32) (x3 : Vec F S256x10 .f32) (x4 : Vec F S1x10 .f32) :
    Σ' (L5 : List (View.Piece (Elt F) S256x10 .f32)), { LS : List (View.Piece (Elt F) S256x256 .f32) //
      ∀ (xi5 : Vec F S256x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ K ⟨⟩))
          ⊢ wp frame (wpE (defs₀ (F := F)) Variants.none c none) E (cc3__mlp_head_kernel i arg1 harg1 arg2 harg2 arg3 harg3 arg4 harg4 arg5 harg5 arg6 harg6 arg7 harg7) K } := by
  refine ⟨[], ?_, fun xi5 E K => ?run⟩
  case run =>
    simp only [cc3__mlp_head_kernel_eq_skeleton]; unfold cc3__mlp_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS

end Cert.ReferenceIdeal.Head

end
-- ==== Proof.RefHeadRunB.lean ====
/-
  The body of the dense head at a middle grid point: the product of the two blocks is added into the accumulator;
  nothing is cleared and the result is not stored. Run on whole memrefs, the five inputs and the accumulator at given
  contents, the output buffer at contents handed back untouched: it ends with the accumulator written by one whole
  store, everything else as it was.
-/
import proofs.«147057_g2000302454168391_pallasbulk_317_11_alg».proof.Proof.RefHeadBase

set_option maxRecDepth 16384

noncomputable section

namespace Cert.ReferenceIdeal.Head

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid3.Coords) (arg1 : Memref sig .tc .vmem S256x4096 .f32) (harg1 : arg1.IsWhole) (arg2 : Memref sig .tc .vmem S4096x256 .f32) (harg2 : arg2.IsWhole) (arg3 : Memref sig .tc .vmem S1x256 .f32) (harg3 : arg3.IsWhole) (arg4 : Memref sig .tc .vmem S256x10 .f32) (harg4 : arg4.IsWhole) (arg5 : Memref sig .tc .vmem S1x10 .f32) (harg5 : arg5.IsWhole) (arg6 : Memref sig .tc .vmem S256x10 .f32) (harg6 : arg6.IsWhole) (arg7 : Memref sig .tc .vmem S256x256 .f32) (harg7 : arg7.IsWhole) (hc0 : ¬cond0 i) (hc1 : ¬cond1 i)
    (x0 : Vec F S256x4096 .f32) (x1 : Vec F S4096x256 .f32) (x2 : Vec F S1x256 .f32) (x3 : Vec F S256x10 .f32) (x4 : Vec F S1x10 .f32) (xs : Vec F S256x256 .f32) :
    Σ' (L5 : List (View.Piece (Elt F) S256x10 .f32)), { LS : List (View.Piece (Elt F) S256x256 .f32) //
      ∀ (xi5 : Vec F S256x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ K ⟨⟩))
          ⊢ wp frame (wpE (defs₀ (F := F)) Variants.none c none) E (cc3__mlp_head_kernel i arg1 harg1 arg2 harg2 arg3 harg3 arg4 harg4 arg5 harg5 arg6 harg6 arg7 harg7) K } := by
  refine ⟨[], ?_, fun xi5 E K => ?run⟩
  case run =>
    simp only [cc3__mlp_head_kernel_eq_skeleton]; unfold cc3__mlp_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS

end Cert.ReferenceIdeal.Head

end
-- ==== Proof.RefHeadRunC.lean ====
/-
  The body of the dense head at the last grid point: the product of the two blocks is added into the accumulator, then
  the accumulator is read back and the closing arithmetic (bias, rectification, second dense layer, logarithm of the
  softmax) is stored over the whole output buffer. Run on whole memrefs, the five inputs and the accumulator at given
  contents, the output buffer at anything: it ends with the accumulator and the output each written by one whole store.
-/
import proofs.«147057_g2000302454168391_pallasbulk_317_11_alg».proof.Proof.RefHeadBase

set_option maxRecDepth 16384

noncomputable section

namespace Cert.ReferenceIdeal.Head

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid3.Coords) (arg1 : Memref sig .tc .vmem S256x4096 .f32) (harg1 : arg1.IsWhole) (arg2 : Memref sig .tc .vmem S4096x256 .f32) (harg2 : arg2.IsWhole) (arg3 : Memref sig .tc .vmem S1x256 .f32) (harg3 : arg3.IsWhole) (arg4 : Memref sig .tc .vmem S256x10 .f32) (harg4 : arg4.IsWhole) (arg5 : Memref sig .tc .vmem S1x10 .f32) (harg5 : arg5.IsWhole) (arg6 : Memref sig .tc .vmem S256x10 .f32) (harg6 : arg6.IsWhole) (arg7 : Memref sig .tc .vmem S256x256 .f32) (harg7 : arg7.IsWhole) (hc0 : ¬cond0 i) (hc1 : cond1 i)
    (x0 : Vec F S256x4096 .f32) (x1 : Vec F S4096x256 .f32) (x2 : Vec F S1x256 .f32) (x3 : Vec F S256x10 .f32) (x4 : Vec F S1x10 .f32) (xs : Vec F S256x256 .f32) :
    Σ' (L5 : List (View.Piece (Elt F) S256x10 .f32)), { LS : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc3__mlp_head_kernel i arg1 harg1 arg2 harg2 arg3 harg3 arg4 harg4 arg5 harg5 arg6 harg6 arg7 harg7) K } := by
  refine ⟨?_, ?_, fun E K => ?run⟩
  case run =>
    simp only [cc3__mlp_head_kernel_eq_skeleton]; unfold cc3__mlp_head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.ReferenceIdeal.Head

end
-- ==== Proof.RefHeadPieces.lean ====
/-
  What the three control cases of the dense head's body leave behind, as functions of the inputs alone. Every load and
  store of the body is through the whole buffer, so a list of stores reads back as its last payload, a load after a
  store reads that store's payload, and a load of an untouched buffer reads its contents. Hence: at the first point the
  accumulator ends at the product added to the cleared accumulator; at a later point at the product added to what it
  held; and at the last point the output buffer ends at the closing arithmetic applied to that new accumulator.
-/
import proofs.«147057_g2000302454168391_pallasbulk_317_11_alg».proof.Proof.RefHeadRunA
import proofs.«147057_g2000302454168391_pallasbulk_317_11_alg».proof.Proof.RefHeadRunB
import proofs.«147057_g2000302454168391_pallasbulk_317_11_alg».proof.Proof.RefHeadRunC
import Idealize.ShloMosaic.Lib.Pipeline.Value

set_option maxRecDepth 16384

noncomputable section

namespace Cert.ReferenceIdeal.Head

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## The first point -/

theorem scover_A (c : Dev nD) (i : grid3.Coords) (arg1 : Memref sig .tc .vmem S256x4096 .f32) (harg1 : arg1.IsWhole) (arg2 : Memref sig .tc .vmem S4096x256 .f32) (harg2 : arg2.IsWhole) (arg3 : Memref sig .tc .vmem S1x256 .f32) (harg3 : arg3.IsWhole) (arg4 : Memref sig .tc .vmem S256x10 .f32) (harg4 : arg4.IsWhole) (arg5 : Memref sig .tc .vmem S1x10 .f32) (harg5 : arg5.IsWhole) (arg6 : Memref sig .tc .vmem S256x10 .f32) (harg6 : arg6.IsWhole) (arg7 : Memref sig .tc .vmem S256x256 .f32) (harg7 : arg7.IsWhole) (hc0 : cond0 i) (hc1 : ¬cond1 i)
    (x0 : Vec F S256x4096 .f32) (x1 : Vec F S4096x256 .f32) (x2 : Vec F S1x256 .f32) (x3 : Vec F S256x10 .f32) (x4 : Vec F S1x10 .f32) (y : S256x256.Idx) :
    ∃ pc ∈ (kernelRun_A c i arg1 harg1 arg2 harg2 arg3 harg3 arg4 harg4 arg5 harg5 arg6 harg6 arg7 harg7 hc0 hc1 x0 x1 x2 x3 x4).2.1, y ∈ pc.1.set :=
  View.cover_of_tiledL (kernelRun_A c i arg1 harg1 arg2 harg2 arg3 harg3 arg4 harg4 arg5 harg5 arg6 harg6 arg7 harg7 hc0 hc1 x0 x1 x2 x3 x4).2.1 S256x256.size (by sl_kernel_rfl) y

/-- The accumulator after the first point: the product added to the cleared accumulator. -/
theorem canon_A (c : Dev nD) (i : grid3.Coords) (arg1 : Memref sig .tc .vmem S256x4096 .f32) (harg1 : arg1.IsWhole) (arg2 : Memref sig .tc .vmem S4096x256 .f32) (harg2 : arg2.IsWhole) (arg3 : Memref sig .tc .vmem S1x256 .f32) (harg3 : arg3.IsWhole) (arg4 : Memref sig .tc .vmem S256x10 .f32) (harg4 : arg4.IsWhole) (arg5 : Memref sig .tc .vmem S1x10 .f32) (harg5 : arg5.IsWhole) (arg6 : Memref sig .tc .vmem S256x10 .f32) (harg6 : arg6.IsWhole) (arg7 : Memref sig .tc .vmem S256x256 .f32) (harg7 : arg7.IsWhole) (hc0 : cond0 i) (hc1 : ¬cond1 i)
    (x0 : Vec F S256x4096 .f32) (x1 : Vec F S4096x256 .f32) (x2 : Vec F S1x256 .f32) (x3 : Vec F S256x10 .f32) (x4 : Vec F S1x10 .f32) :
    View.canon (kernelRun_A c i arg1 harg1 arg2 harg2 arg3 harg3 arg4 harg4 arg5 harg5 arg6 harg6 arg7 harg7 hc0 hc1 x0 x1 x2 x3 x4).2.1 = k3_pay2 (k3_pay1 (F := F)) x0 x1 := by
  unfold kernelRun_A
  dsimp only
  sl_unfold_words
  rw [View.canon_cons_unit_zero (S := S256x256) hz, View.readCov_unit_zero (S := S256x256) _ hz]
  simp only [View.readAt_eq_ld, harg1.read_unread, harg2.read_unread, View.ld_unit_zero (S := S256x4096) hz, View.ld_unit_zero (S := S4096x256) hz]

/-! ## A middle point -/

theorem scover_B (c : Dev nD) (i : grid3.Coords) (arg1 : Memref sig .tc .vmem S256x4096 .f32) (harg1 : arg1.IsWhole) (arg2 : Memref sig .tc .vmem S4096x256 .f32) (harg2 : arg2.IsWhole) (arg3 : Memref sig .tc .vmem S1x256 .f32) (harg3 : arg3.IsWhole) (arg4 : Memref sig .tc .vmem S256x10 .f32) (harg4 : arg4.IsWhole) (arg5 : Memref sig .tc .vmem S1x10 .f32) (harg5 : arg5.IsWhole) (arg6 : Memref sig .tc .vmem S256x10 .f32) (harg6 : arg6.IsWhole) (arg7 : Memref sig .tc .vmem S256x256 .f32) (harg7 : arg7.IsWhole) (hc0 : ¬cond0 i) (hc1 : ¬cond1 i)
    (x0 : Vec F S256x4096 .f32) (x1 : Vec F S4096x256 .f32) (x2 : Vec F S1x256 .f32) (x3 : Vec F S256x10 .f32) (x4 : Vec F S1x10 .f32) (xs : Vec F S256x256 .f32) (y : S256x256.Idx) :
    ∃ pc ∈ (kernelRun_B c i arg1 harg1 arg2 harg2 arg3 harg3 arg4 harg4 arg5 harg5 arg6 harg6 arg7 harg7 hc0 hc1 x0 x1 x2 x3 x4 xs).2.1, y ∈ pc.1.set :=
  View.cover_of_tiledL (kernelRun_B c i arg1 harg1 arg2 harg2 arg3 harg3 arg4 harg4 arg5 harg5 arg6 harg6 arg7 harg7 hc0 hc1 x0 x1 x2 x3 x4 xs).2.1 S256x256.size (by sl_kernel_rfl) y

/-- The accumulator after a middle point: the product added to what it held. -/
theorem canon_B (c : Dev nD) (i : grid3.Coords) (arg1 : Memref sig .tc .vmem S256x4096 .f32) (harg1 : arg1.IsWhole) (arg2 : Memref sig .tc .vmem S4096x256 .f32) (harg2 : arg2.IsWhole) (arg3 : Memref sig .tc .vmem S1x256 .f32) (harg3 : arg3.IsWhole) (arg4 : Memref sig .tc .vmem S256x10 .f32) (harg4 : arg4.IsWhole) (arg5 : Memref sig .tc .vmem S1x10 .f32) (harg5 : arg5.IsWhole) (arg6 : Memref sig .tc .vmem S256x10 .f32) (harg6 : arg6.IsWhole) (arg7 : Memref sig .tc .vmem S256x256 .f32) (harg7 : arg7.IsWhole) (hc0 : ¬cond0 i) (hc1 : ¬cond1 i)
    (x0 : Vec F S256x4096 .f32) (x1 : Vec F S4096x256 .f32) (x2 : Vec F S1x256 .f32) (x3 : Vec F S256x10 .f32) (x4 : Vec F S1x10 .f32) (xs : Vec F S256x256 .f32) :
    View.canon (kernelRun_B c i arg1 harg1 arg2 harg2 arg3 harg3 arg4 harg4 arg5 harg5 arg6 harg6 arg7 harg7 hc0 hc1 x0 x1 x2 x3 x4 xs).2.1 = k3_pay2 xs x0 x1 := by
  unfold kernelRun_B
  dsimp only
  sl_unfold_words
  rw [View.canon_unit_zero (S := S256x256) hz]
  simp only [View.readAt_eq_ld, harg1.read_unread, harg2.read_unread, harg7.read_unread, View.ld_unit_zero (S := S256x256) hz, View.ld_unit_zero (S := S256x4096) hz, View.ld_unit_zero (S := S4096x256) hz]

/-! ## The last point -/

theorem scover_C (c : Dev nD) (i : grid3.Coords) (arg1 : Memref sig .tc .vmem S256x4096 .f32) (harg1 : arg1.IsWhole) (arg2 : Memref sig .tc .vmem S4096x256 .f32) (harg2 : arg2.IsWhole) (arg3 : Memref sig .tc .vmem S1x256 .f32) (harg3 : arg3.IsWhole) (arg4 : Memref sig .tc .vmem S256x10 .f32) (harg4 : arg4.IsWhole) (arg5 : Memref sig .tc .vmem S1x10 .f32) (harg5 : arg5.IsWhole) (arg6 : Memref sig .tc .vmem S256x10 .f32) (harg6 : arg6.IsWhole) (arg7 : Memref sig .tc .vmem S256x256 .f32) (harg7 : arg7.IsWhole) (hc0 : ¬cond0 i) (hc1 : cond1 i)
    (x0 : Vec F S256x4096 .f32) (x1 : Vec F S4096x256 .f32) (x2 : Vec F S1x256 .f32) (x3 : Vec F S256x10 .f32) (x4 : Vec F S1x10 .f32) (xs : Vec F S256x256 .f32) (y : S256x256.Idx) :
    ∃ pc ∈ (kernelRun_C c i arg1 harg1 arg2 harg2 arg3 harg3 arg4 harg4 arg5 harg5 arg6 harg6 arg7 harg7 hc0 hc1 x0 x1 x2 x3 x4 xs).2.1, y ∈ pc.1.set :=
  View.cover_of_tiledL (kernelRun_C c i arg1 harg1 arg2 harg2 arg3 harg3 arg4 harg4 arg5 harg5 arg6 harg6 arg7 harg7 hc0 hc1 x0 x1 x2 x3 x4 xs).2.1 S256x256.size (by sl_kernel_rfl) y

theorem cover_C (c : Dev nD) (i : grid3.Coords) (arg1 : Memref sig .tc .vmem S256x4096 .f32) (harg1 : arg1.IsWhole) (arg2 : Memref sig .tc .vmem S4096x256 .f32) (harg2 : arg2.IsWhole) (arg3 : Memref sig .tc .vmem S1x256 .f32) (harg3 : arg3.IsWhole) (arg4 : Memref sig .tc .vmem S256x10 .f32) (harg4 : arg4.IsWhole) (arg5 : Memref sig .tc .vmem S1x10 .f32) (harg5 : arg5.IsWhole) (arg6 : Memref sig .tc .vmem S256x10 .f32) (harg6 : arg6.IsWhole) (arg7 : Memref sig .tc .vmem S256x256 .f32) (harg7 : arg7.IsWhole) (hc0 : ¬cond0 i) (hc1 : cond1 i)
    (x0 : Vec F S256x4096 .f32) (x1 : Vec F S4096x256 .f32) (x2 : Vec F S1x256 .f32) (x3 : Vec F S256x10 .f32) (x4 : Vec F S1x10 .f32) (xs : Vec F S256x256 .f32) (y : S256x10.Idx) :
    ∃ pc ∈ (kernelRun_C c i arg1 harg1 arg2 harg2 arg3 harg3 arg4 harg4 arg5 harg5 arg6 harg6 arg7 harg7 hc0 hc1 x0 x1 x2 x3 x4 xs).1, y ∈ pc.1.set :=
  View.cover_of_tiledL (kernelRun_C c i arg1 harg1 arg2 harg2 arg3 harg3 arg4 harg4 arg5 harg5 arg6 harg6 arg7 harg7 hc0 hc1 x0 x1 x2 x3 x4 xs).1 S256x10.size (by sl_kernel_rfl) y

/-- The accumulator after the last point: the product added to what it held. -/
theorem canon_CS (c : Dev nD) (i : grid3.Coords) (arg1 : Memref sig .tc .vmem S256x4096 .f32) (harg1 : arg1.IsWhole) (arg2 : Memref sig .tc .vmem S4096x256 .f32) (harg2 : arg2.IsWhole) (arg3 : Memref sig .tc .vmem S1x256 .f32) (harg3 : arg3.IsWhole) (arg4 : Memref sig .tc .vmem S256x10 .f32) (harg4 : arg4.IsWhole) (arg5 : Memref sig .tc .vmem S1x10 .f32) (harg5 : arg5.IsWhole) (arg6 : Memref sig .tc .vmem S256x10 .f32) (harg6 : arg6.IsWhole) (arg7 : Memref sig .tc .vmem S256x256 .f32) (harg7 : arg7.IsWhole) (hc0 : ¬cond0 i) (hc1 : cond1 i)
    (x0 : Vec F S256x4096 .f32) (x1 : Vec F S4096x256 .f32) (x2 : Vec F S1x256 .f32) (x3 : Vec F S256x10 .f32) (x4 : Vec F S1x10 .f32) (xs : Vec F S256x256 .f32) :
    View.canon (kernelRun_C c i arg1 harg1 arg2 harg2 arg3 harg3 arg4 harg4 arg5 harg5 arg6 harg6 arg7 harg7 hc0 hc1 x0 x1 x2 x3 x4 xs).2.1 = k3_pay2 xs x0 x1 := by
  unfold kernelRun_C
  dsimp only
  sl_unfold_words
  rw [View.canon_unit_zero (S := S256x256) hz]
  simp only [View.readAt_eq_ld, harg1.read_unread, harg2.read_unread, harg7.read_unread, View.ld_unit_zero (S := S256x256) hz, View.ld_unit_zero (S := S256x4096) hz, View.ld_unit_zero (S := S4096x256) hz]

/-- The output buffer after the last point: the closing arithmetic of the new accumulator and the three small blocks. -/
theorem canon_C5 (c : Dev nD) (i : grid3.Coords) (arg1 : Memref sig .tc .vmem S256x4096 .f32) (harg1 : arg1.IsWhole) (arg2 : Memref sig .tc .vmem S4096x256 .f32) (harg2 : arg2.IsWhole) (arg3 : Memref sig .tc .vmem S1x256 .f32) (harg3 : arg3.IsWhole) (arg4 : Memref sig .tc .vmem S256x10 .f32) (harg4 : arg4.IsWhole) (arg5 : Memref sig .tc .vmem S1x10 .f32) (harg5 : arg5.IsWhole) (arg6 : Memref sig .tc .vmem S256x10 .f32) (harg6 : arg6.IsWhole) (arg7 : Memref sig .tc .vmem S256x256 .f32) (harg7 : arg7.IsWhole) (hc0 : ¬cond0 i) (hc1 : cond1 i)
    (x0 : Vec F S256x4096 .f32) (x1 : Vec F S4096x256 .f32) (x2 : Vec F S1x256 .f32) (x3 : Vec F S256x10 .f32) (x4 : Vec F S1x10 .f32) (xs : Vec F S256x256 .f32) :
    View.canon (kernelRun_C c i arg1 harg1 arg2 harg2 arg3 harg3 arg4 harg4 arg5 harg5 arg6 harg6 arg7 harg7 hc0 hc1 x0 x1 x2 x3 x4 xs).1 = k3_pay3 (k3_pay2 xs x0 x1) x2 x3 x4 := by
  unfold kernelRun_C
  dsimp only
  sl_unfold_words
  rw [View.canon_unit_zero (S := S256x10) hz, View.readCov_unit_zero (S := S256x256) _ hz]
  simp only [View.readAt_eq_ld, harg1.read_unread, harg2.read_unread, harg3.read_unread, harg4.read_unread, harg5.read_unread, harg7.read_unread, View.ld_unit_zero (S := S256x256) hz, View.ld_unit_zero (S := S256x4096) hz, View.ld_unit_zero (S := S4096x256) hz, View.ld_unit_zero (S := S1x256) hz, View.ld_unit_zero (S := S256x10) hz, View.ld_unit_zero (S := S1x10) hz]

end Cert.ReferenceIdeal.Head

end
-- ==== Proof.RefHead.lean ====
/-
  The dense head of the reference program as proof data for the pipeline rule, at a parameter V (the contents of the
  core's buffers when the region is entered).
  The accumulator after point n is a function of the blocks alone: after point 0 it is the product of the first
  feature block and the first weight block added to the cleared accumulator, after point n + 1 the product of that
  point's blocks added to what point n left. The invariant before a point that is not the first holds the accumulator
  at that value; the five input windows hold their blocks at every point; the output window is idle until the last
  point, where its one store, of the whole buffer, is the head's closing arithmetic (bias, rectification, second dense
  layer, logarithm of the softmax) applied to the last accumulator and the three small input blocks.
-/
import proofs.«147057_g2000302454168391_pallasbulk_317_11_alg».proof.Proof.RefHeadInv
import proofs.«147057_g2000302454168391_pallasbulk_317_11_alg».proof.Proof.RefHeadPieces

set_option maxRecDepth 16384

noncomputable section

namespace Cert.ReferenceIdeal.Head

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- What the accumulator holds after point n. -/
def acc (c : Dev nD) : (n : ℕ) → n < cfg3.N → Vec F S256x256 .f32
  | 0, hn => k3_pay2 (k3_pay1 (F := F)) (iblk V c 0 ⟨0, hn⟩) (iblk V c 1 ⟨0, hn⟩)
  | n + 1, hn => k3_pay2 (acc c n (Nat.lt_of_succ_lt hn)) (iblk V c 0 ⟨n + 1, hn⟩) (iblk V c 1 ⟨n + 1, hn⟩)

theorem acc_zero (c : Dev nD) (hn : 0 < cfg3.N) :
    acc V c 0 hn = k3_pay2 (k3_pay1 (F := F)) (iblk V c 0 ⟨0, hn⟩) (iblk V c 1 ⟨0, hn⟩) := rfl
theorem acc_succ (c : Dev nD) (n : ℕ) (hn : n + 1 < cfg3.N) :
    acc V c (n + 1) hn = k3_pay2 (acc V c n (Nat.lt_of_succ_lt hn)) (iblk V c 0 ⟨n + 1, hn⟩) (iblk V c 1 ⟨n + 1, hn⟩) := rfl

/-- At the first point: over the cleared accumulator. -/
theorem acc_first (c : Dev nD) (t : Fin cfg3.N) (h0 : t.val = 0) :
    acc V c t.val t.isLt = k3_pay2 (k3_pay1 (F := F)) (iblk V c 0 t) (iblk V c 1 t) := by
  obtain ⟨n, hn⟩ := t
  cases n with
  | zero => rfl
  | succ n => exact absurd h0 (Nat.succ_ne_zero n)

/-- At a later point: over what the point before left. -/
theorem acc_later (c : Dev nD) (t : Fin cfg3.N) (h0 : t.val ≠ 0) :
    acc V c t.val t.isLt
      = k3_pay2 (acc V c (t.val - 1) (Nat.lt_of_le_of_lt (Nat.sub_le _ _) t.isLt)) (iblk V c 0 t) (iblk V c 1 t) := by
  obtain ⟨n, hn⟩ := t
  cases n with
  | zero => exact absurd rfl h0
  | succ n => rfl

/-! ## The invariant -/

/-- Before the first point the launch's invariant; before point n + 1 the same with the accumulator at what point n left. -/
def PhiS (c : Dev nD) : (n : ℕ) → n ≤ cfg3.N → sProp 𝕄
  | 0, _ => Pipeline.ΦA spec3 c
  | n + 1, hn => PhiAt c (acc V c n hn)

theorem PhiS_zero (c : Dev nD) (n : ℕ) (h : n ≤ cfg3.N) (hz : n = 0) : PhiS V c n h = Pipeline.ΦA spec3 c := by
  subst hz; rfl
theorem PhiS_succ (c : Dev nD) (n : ℕ) (hn : n < cfg3.N) : PhiS V c (n + 1) hn = PhiAt c (acc V c n hn) := rfl
theorem PhiS_pos (c : Dev nD) (n : ℕ) (h : n ≤ cfg3.N) (hz : n ≠ 0) :
    PhiS V c n h = PhiAt c (acc V c (n - 1) (by omega)) := by
  cases n with
  | zero => exact absurd rfl hz
  | succ n => rfl

/-! ## The pipeline's proof data -/

/-- The proof data of this pipeline on core c: the arrays as the region finds them; after the body at point t each
    input's buffer at its block, the output's at the closing arithmetic of that point's accumulator (consulted at the
    last point only: elsewhere the window is idle); the invariant above; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k3_pay3 (acc V c t.val t.isLt) (iblk V c 2 t) (iblk V c 3 t) (iblk V c 4 t)
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
/-- The output buffer after the body at point t (meaningful at the last point). -/
theorem after_5 (c : Dev nD) (t : Fin cfg3.N) :
    (dat V c).after 5 t = k3_pay3 (acc V c t.val t.isLt) (iblk V c 2 t) (iblk V c 3 t) (iblk V c 4 t) := by dsimp only [dat]

/-- THE VALUE: what the last point leaves in the output window, the accumulator's history spelled out by acc_zero / acc_succ. -/
theorem after_5_last (c : Dev nD) :
    (dat V c).after 5 t3_3 = k3_pay3 (acc V c 3 t3_3.isLt) (iblk V c 2 t3_3) (iblk V c 3 t3_3) (iblk V c 4 t3_3) :=
  after_5 V c t3_3

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d
theorem before_3 (c : Dev nD) (t : Fin cfg3.N) (d) : (dat V c).before 3 t d = iblk V c 3 t :=
  before_3_of V (dat V c) (A_eq V c 3) (after_3 V c) t d
theorem before_4 (c : Dev nD) (t : Fin cfg3.N) (d) : (dat V c).before 4 t d = iblk V c 4 t :=
  before_4_of V (dat V c) (A_eq V c 4) (after_4 V c) t d

/-! ## The body obligation, at a generic point -/

/-- What the body is called with at point t, the windows one by one, -/
def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point. The inputs' memrefs hold their blocks; the closed forms of the two conditions say which of the
    three cases the point is in. At the first point the invariant hands over the accumulator at anything and takes it back
    at the product over the cleared accumulator; at a later point it hands it over at what the point before left and takes
    it back with this point's product added; the output window passes through untouched until the last point, where it
    is left at the closing arithmetic of the new accumulator. The other scoped buffers, the generator register and the
    core's owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg3.N = 4 from N_3)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  by_cases h0 : t.val % 4 = 0
  · by_cases h1 : t.val % 4 = 3
    · exfalso; omega
    · have hc0 : cond0 (grid3.coords t) := (hcond0 t).mpr h0
      have hc1 : ¬cond1 (grid3.coords t) := fun h => h1 ((hcond1 t).mp h)
      have hz0 : t.val = 0 := by omega
      rw [Dat.leavesExact_idle (dat V c) 5 t (idleAt_5_A t hc0 hc1) (noFlush_5_A t hc0 hc1)]
      rw [acc_first V c t hz0, PhiS_castSucc V c t, PhiS_zero V c _ _ hz0, PhiA_eq]
      unfold PhiAt
      iintro ⟨⟨⟨HR0, HR1, HR2, HR3, HR4, HR5, HR6, HR7, HR8, HR9, HR10, HR11, HR12, HR13, HR14, HR15, HR16, HR17, HS⟩, Hg⟩, Ho, ⟨%d0, H0⟩, ⟨%d1, H1⟩, ⟨%d2, H2⟩, ⟨%d3, H3⟩, ⟨%d4, H4⟩, ⟨%d5, H5⟩⟩
      iapply ((kernelRun_A c (grid3.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HR0 HR1 HR2 HR3 HR4 HR5 HR6 HR7 HR8 HR9 HR10 HR11 HR12 HR13 HR14 HR15 HR16 HR17 HS Hg]
      · isplitr [Hg]
        swap; · iexact Hg
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        unfold owns; iexists _; isplitr
        swap; · iexact HS
        ipureintro
        exact (View.read_writes_eq_canon _ _ _ (scover_A c (grid3.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t))).trans
          (canon_A c (grid3.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t))
      isplitl [Ho]; · iexact Ho
      isplitl [H0]; · iexact H0
      isplitl [H1]; · iexact H1
      isplitl [H2]; · iexact H2
      isplitl [H3]; · iexact H3
      isplitl [H4]; · iexact H4
      iexists _; iexact H5
  · have hc0 : ¬cond0 (grid3.coords t) := fun h => h0 ((hcond0 t).mp h)
    have hz0 : t.val ≠ 0 := fun h => h0 (by rw [h])
    by_cases h1 : t.val % 4 = 3
    · have hc1 : cond1 (grid3.coords t) := (hcond1 t).mpr h1
      rw [show (dat V c).leavesExact 5 t = owns (c : Thread nD τ) (ms_5 t) fullShare ((dat V c).after 5 t) from by
        unfold Dat.leavesExact; rw [liveAt_5_C t hc0 hc1], after_5]
      rw [acc_later V c t hz0, PhiS_castSucc V c t, PhiS_pos V c _ _ hz0]
      unfold PhiAt
      iintro ⟨⟨⟨HR0, HR1, HR2, HR3, HR4, HR5, HR6, HR7, HR8, HR9, HR10, HR11, HR12, HR13, HR14, HR15, HR16, HR17, HS⟩, Hg⟩, Ho, ⟨%d0, H0⟩, ⟨%d1, H1⟩, ⟨%d2, H2⟩, ⟨%d3, H3⟩, ⟨%d4, H4⟩, ⟨%d5, H5⟩⟩
      iapply ((kernelRun_C c (grid3.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HR0 HR1 HR2 HR3 HR4 HR5 HR6 HR7 HR8 HR9 HR10 HR11 HR12 HR13 HR14 HR15 HR16 HR17 HS Hg]
      · isplitr [Hg]
        swap; · iexact Hg
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        unfold owns; iexists _; isplitr
        swap; · iexact HS
        ipureintro
        exact (View.read_writes_eq_canon _ _ _ (scover_C c (grid3.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) _)).trans
          (canon_CS c (grid3.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      exact (View.read_writes_eq_canon _ _ _ (cover_C c (grid3.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) _)).trans
        (canon_C5 c (grid3.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) _)
    · have hc1 : ¬cond1 (grid3.coords t) := fun h => h1 ((hcond1 t).mp h)
      rw [Dat.leavesExact_idle (dat V c) 5 t (idleAt_5_B t hc0 hc1) (noFlush_5_B t hc0 hc1)]
      rw [acc_later V c t hz0, PhiS_castSucc V c t, PhiS_pos V c _ _ hz0]
      unfold PhiAt
      iintro ⟨⟨⟨HR0, HR1, HR2, HR3, HR4, HR5, HR6, HR7, HR8, HR9, HR10, HR11, HR12, HR13, HR14, HR15, HR16, HR17, HS⟩, Hg⟩, Ho, ⟨%d0, H0⟩, ⟨%d1, H1⟩, ⟨%d2, H2⟩, ⟨%d3, H3⟩, ⟨%d4, H4⟩, ⟨%d5, H5⟩⟩
      iapply ((kernelRun_B c (grid3.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HR0 HR1 HR2 HR3 HR4 HR5 HR6 HR7 HR8 HR9 HR10 HR11 HR12 HR13 HR14 HR15 HR16 HR17 HS Hg]
      · isplitr [Hg]
        swap; · iexact Hg
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        unfold owns; iexists _; isplitr
        swap; · iexact HS
        ipureintro
        exact (View.read_writes_eq_canon _ _ _ (scover_B c (grid3.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) _)).trans
          (canon_B c (grid3.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht]
  exact PhiAt_out c _

/-- The same after the last point. -/
theorem hout (c : Dev nD) : (dat V c).Φ (Fin.last cfg3.N) ⊢ Pipeline.ΦA spec3 c :=
  Phi_out V c _ (by rw [Fin.val_last]; have : cfg3.N = 4 := N_3; omega)

end Cert.ReferenceIdeal.Head

end
-- ==== Proof.RefRun.lean ====
/-
  The reference program's run. Its entry function is four stretches of host operations, each followed by one kernel
  region. The contents of the TensorCore's buffers at the eight boundaries are a fold from the launch memory: a host
  stretch applies its operations; a region leaves its arrays at what its pipeline's write-backs leave (the proof data's
  final array contents) and every other buffer as it was. Each region is a segment between two boundaries, each host
  stretch a segment by the host operations' own rule, and the launch theorem for a list of segments gives: every weakly
  fair execution terminates, nothing faults, and the final memory holds every unscoped buffer at the last boundary's
  contents. Read at the result buffer this is the fourth region's output array; read at an argument it is the launch
  contents, because no host operation and no region writes an argument.
-/
import proofs.«147057_g2000302454168391_pallasbulk_317_11_alg».proof.Proof.RefConv0
import proofs.«147057_g2000302454168391_pallasbulk_317_11_alg».proof.Proof.RefConv1
import proofs.«147057_g2000302454168391_pallasbulk_317_11_alg».proof.Proof.RefConv2
import proofs.«147057_g2000302454168391_pallasbulk_317_11_alg».proof.Proof.RefHead
import proofs.«147057_g2000302454168391_pallasbulk_317_11_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => (s₀ m ρ).mem ((c : Dev nD), b)

/-- After the host stretch before region 0 (region 0's entry). -/
abbrev B1 : Dev nD → Valuation τ sig (Elt F) := fun c => StableHlo.after hostOps0 (B0 m ρ c)
/-- The same read at the TensorCore's references (what region 0's proof data take). -/
abbrev VB1 : (c : Dev nD) → (b : Ref sig .tc) → Buf (Elt F) ((c : Thread nD τ).loc b) := fun c b => B1 m ρ c b
/-- At region 0's exit: its arrays at what the pipeline leaves (the inputs as entered, the output's write-backs
    folded), every other buffer as entered. -/
def B2 (c : Dev nD) : Valuation τ sig (Elt F) :=
  Pipeline.withArrays spec0 c (B1 m ρ c) fun w => (Conv0.dat (VB1 m ρ) c).arrAt w cfg0.N
theorem B2_arr (c : Dev nD) (w : Fin cfg0.W) :
    B2 m ρ c (Proc.devRef .tc (Pipeline.arrRef spec0 w)) = (Conv0.dat (VB1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev VB2 : (c : Dev nD) → (b : Ref sig .tc) → Buf (Elt F) ((c : Thread nD τ).loc b) := fun c b => B2 m ρ c b
theorem hF0 (c : Dev nD) (w : Fin cfg0.W) : (Conv0.dat (VB1 m ρ) c).arrAt w cfg0.N = VB2 m ρ c (Pipeline.arrRef spec0 w) :=
  (B2_arr m ρ c w).symm
theorem hrest0 (c : Dev nD) : ∀ b, b ∉ Finset.univ.image (Pipeline.arrRef spec0) → VB2 m ρ c b = VB1 m ρ c b :=
  fun b hb => B2_of_ne m ρ c b fun w e => hb (Finset.mem_image.mpr ⟨w, Finset.mem_univ _, e⟩)

/-- After the host stretch before region 1 (region 1's entry). -/
abbrev B3 : Dev nD → Valuation τ sig (Elt F) := fun c => StableHlo.after hostOps1 (B2 m ρ c)
/-- The same read at the TensorCore's references (what region 1's proof data take). -/
abbrev VB3 : (c : Dev nD) → (b : Ref sig .tc) → Buf (Elt F) ((c : Thread nD τ).loc b) := fun c b => B3 m ρ c b
/-- At region 1's exit: its arrays at what the pipeline leaves (the inputs as entered, the output's write-backs
    folded), every other buffer as entered. -/
def B4 (c : Dev nD) : Valuation τ sig (Elt F) :=
  Pipeline.withArrays spec1 c (B3 m ρ c) fun w => (Conv1.dat (VB3 m ρ) c).arrAt w cfg1.N
theorem B4_arr (c : Dev nD) (w : Fin cfg1.W) :
    B4 m ρ c (Proc.devRef .tc (Pipeline.arrRef spec1 w)) = (Conv1.dat (VB3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev VB4 : (c : Dev nD) → (b : Ref sig .tc) → Buf (Elt F) ((c : Thread nD τ).loc b) := fun c b => B4 m ρ c b
theorem hF1 (c : Dev nD) (w : Fin cfg1.W) : (Conv1.dat (VB3 m ρ) c).arrAt w cfg1.N = VB4 m ρ c (Pipeline.arrRef spec1 w) :=
  (B4_arr m ρ c w).symm
theorem hrest1 (c : Dev nD) : ∀ b, b ∉ Finset.univ.image (Pipeline.arrRef spec1) → VB4 m ρ c b = VB3 m ρ c b :=
  fun b hb => B4_of_ne m ρ c b fun w e => hb (Finset.mem_image.mpr ⟨w, Finset.mem_univ _, e⟩)

/-- After the host stretch before region 2 (region 2's entry). -/
abbrev B5 : Dev nD → Valuation τ sig (Elt F) := fun c => StableHlo.after hostOps2 (B4 m ρ c)
/-- The same read at the TensorCore's references (what region 2's proof data take). -/
abbrev VB5 : (c : Dev nD) → (b : Ref sig .tc) → Buf (Elt F) ((c : Thread nD τ).loc b) := fun c b => B5 m ρ c b
/-- At region 2's exit: its arrays at what the pipeline leaves (the inputs as entered, the output's write-backs
    folded), every other buffer as entered. -/
def B6 (c : Dev nD) : Valuation τ sig (Elt F) :=
  Pipeline.withArrays spec2 c (B5 m ρ c) fun w => (Conv2.dat (VB5 m ρ) c).arrAt w cfg2.N
theorem B6_arr (c : Dev nD) (w : Fin cfg2.W) :
    B6 m ρ c (Proc.devRef .tc (Pipeline.arrRef spec2 w)) = (Conv2.dat (VB5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev VB6 : (c : Dev nD) → (b : Ref sig .tc) → Buf (Elt F) ((c : Thread nD τ).loc b) := fun c b => B6 m ρ c b
theorem hF2 (c : Dev nD) (w : Fin cfg2.W) : (Conv2.dat (VB5 m ρ) c).arrAt w cfg2.N = VB6 m ρ c (Pipeline.arrRef spec2 w) :=
  (B6_arr m ρ c w).symm
theorem hrest2 (c : Dev nD) : ∀ b, b ∉ Finset.univ.image (Pipeline.arrRef spec2) → VB6 m ρ c b = VB5 m ρ c b :=
  fun b hb => B6_of_ne m ρ c b fun w e => hb (Finset.mem_image.mpr ⟨w, Finset.mem_univ _, e⟩)

/-- After the host stretch before region 3 (region 3's entry). -/
abbrev B7 : Dev nD → Valuation τ sig (Elt F) := fun c => StableHlo.after hostOps3 (B6 m ρ c)
/-- The same read at the TensorCore's references (what region 3's proof data take). -/
abbrev VB7 : (c : Dev nD) → (b : Ref sig .tc) → Buf (Elt F) ((c : Thread nD τ).loc b) := fun c b => B7 m ρ c b
/-- At region 3's exit: its arrays at what the pipeline leaves (the inputs as entered, the output's write-backs
    folded), every other buffer as entered. -/
def B8 (c : Dev nD) : Valuation τ sig (Elt F) :=
  Pipeline.withArrays spec3 c (B7 m ρ c) fun w => (Head.dat (VB7 m ρ) c).arrAt w cfg3.N
theorem B8_arr (c : Dev nD) (w : Fin cfg3.W) :
    B8 m ρ c (Proc.devRef .tc (Pipeline.arrRef spec3 w)) = (Head.dat (VB7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev VB8 : (c : Dev nD) → (b : Ref sig .tc) → Buf (Elt F) ((c : Thread nD τ).loc b) := fun c b => B8 m ρ c b
theorem hF3 (c : Dev nD) (w : Fin cfg3.W) : (Head.dat (VB7 m ρ) c).arrAt w cfg3.N = VB8 m ρ c (Pipeline.arrRef spec3 w) :=
  (B8_arr m ρ c w).symm
theorem hrest3 (c : Dev nD) : ∀ b, b ∉ Finset.univ.image (Pipeline.arrRef spec3) → VB8 m ρ c b = VB7 m ρ c b :=
  fun b hb => B8_of_ne m ρ c b fun w e => hb (Finset.mem_image.mpr ⟨w, Finset.mem_univ _, e⟩)

/-! ## The arguments end as launched -/

theorem B0_main_arg0 (c : Dev nD) : B0 m ρ c (Proc.devRef .tc main_arg0) = m ((c : Thread nD τ).loc main_arg0) := rfl
theorem B1_main_arg0 (c : Dev nD) : B1 m ρ c (Proc.devRef .tc main_arg0) = m ((c : Thread nD τ).loc main_arg0) :=
  (StableHlo.after_of_writes_sub hostOps0 _ hostOps0_writes (by decide : main_arg0 ∉ hostOps0_W)).trans (B0_main_arg0 m ρ c)
theorem B2_main_arg0 (c : Dev nD) : B2 m ρ c (Proc.devRef .tc main_arg0) = m ((c : Thread nD τ).loc main_arg0) :=
  (B2_of_ne m ρ c main_arg0 (by decide)).trans (B1_main_arg0 m ρ c)
theorem B3_main_arg0 (c : Dev nD) : B3 m ρ c (Proc.devRef .tc main_arg0) = m ((c : Thread nD τ).loc main_arg0) :=
  (StableHlo.after_of_writes_sub hostOps1 _ hostOps1_writes (by decide : main_arg0 ∉ hostOps1_W)).trans (B2_main_arg0 m ρ c)
theorem B4_main_arg0 (c : Dev nD) : B4 m ρ c (Proc.devRef .tc main_arg0) = m ((c : Thread nD τ).loc main_arg0) :=
  (B4_of_ne m ρ c main_arg0 (by decide)).trans (B3_main_arg0 m ρ c)
theorem B5_main_arg0 (c : Dev nD) : B5 m ρ c (Proc.devRef .tc main_arg0) = m ((c : Thread nD τ).loc main_arg0) :=
  (StableHlo.after_of_writes_sub hostOps2 _ hostOps2_writes (by decide : main_arg0 ∉ hostOps2_W)).trans (B4_main_arg0 m ρ c)
theorem B6_main_arg0 (c : Dev nD) : B6 m ρ c (Proc.devRef .tc main_arg0) = m ((c : Thread nD τ).loc main_arg0) :=
  (B6_of_ne m ρ c main_arg0 (by decide)).trans (B5_main_arg0 m ρ c)
theorem B7_main_arg0 (c : Dev nD) : B7 m ρ c (Proc.devRef .tc main_arg0) = m ((c : Thread nD τ).loc main_arg0) :=
  (StableHlo.after_of_writes_sub hostOps3 _ hostOps3_writes (by decide : main_arg0 ∉ hostOps3_W)).trans (B6_main_arg0 m ρ c)
theorem B8_main_arg0 (c : Dev nD) : B8 m ρ c (Proc.devRef .tc main_arg0) = m ((c : Thread nD τ).loc main_arg0) :=
  (B8_of_ne m ρ c main_arg0 (by decide)).trans (B7_main_arg0 m ρ c)

theorem B0_main_arg1 (c : Dev nD) : B0 m ρ c (Proc.devRef .tc main_arg1) = m ((c : Thread nD τ).loc main_arg1) := rfl
theorem B1_main_arg1 (c : Dev nD) : B1 m ρ c (Proc.devRef .tc main_arg1) = m ((c : Thread nD τ).loc main_arg1) :=
  (StableHlo.after_of_writes_sub hostOps0 _ hostOps0_writes (by decide : main_arg1 ∉ hostOps0_W)).trans (B0_main_arg1 m ρ c)
theorem B2_main_arg1 (c : Dev nD) : B2 m ρ c (Proc.devRef .tc main_arg1) = m ((c : Thread nD τ).loc main_arg1) :=
  ((B2_arr m ρ c 1).trans (((Conv0.dat (VB1 m ρ) c).arrAt_in 1 rfl _).trans (Conv0.A_eq (VB1 m ρ) c 1))).trans (B1_main_arg1 m ρ c)
theorem B3_main_arg1 (c : Dev nD) : B3 m ρ c (Proc.devRef .tc main_arg1) = m ((c : Thread nD τ).loc main_arg1) :=
  (StableHlo.after_of_writes_sub hostOps1 _ hostOps1_writes (by decide : main_arg1 ∉ hostOps1_W)).trans (B2_main_arg1 m ρ c)
theorem B4_main_arg1 (c : Dev nD) : B4 m ρ c (Proc.devRef .tc main_arg1) = m ((c : Thread nD τ).loc main_arg1) :=
  (B4_of_ne m ρ c main_arg1 (by decide)).trans (B3_main_arg1 m ρ c)
theorem B5_main_arg1 (c : Dev nD) : B5 m ρ c (Proc.devRef .tc main_arg1) = m ((c : Thread nD τ).loc main_arg1) :=
  (StableHlo.after_of_writes_sub hostOps2 _ hostOps2_writes (by decide : main_arg1 ∉ hostOps2_W)).trans (B4_main_arg1 m ρ c)
theorem B6_main_arg1 (c : Dev nD) : B6 m ρ c (Proc.devRef .tc main_arg1) = m ((c : Thread nD τ).loc main_arg1) :=
  (B6_of_ne m ρ c main_arg1 (by decide)).trans (B5_main_arg1 m ρ c)
theorem B7_main_arg1 (c : Dev nD) : B7 m ρ c (Proc.devRef .tc main_arg1) = m ((c : Thread nD τ).loc main_arg1) :=
  (StableHlo.after_of_writes_sub hostOps3 _ hostOps3_writes (by decide : main_arg1 ∉ hostOps3_W)).trans (B6_main_arg1 m ρ c)
theorem B8_main_arg1 (c : Dev nD) : B8 m ρ c (Proc.devRef .tc main_arg1) = m ((c : Thread nD τ).loc main_arg1) :=
  (B8_of_ne m ρ c main_arg1 (by decide)).trans (B7_main_arg1 m ρ c)

theorem B0_main_arg2 (c : Dev nD) : B0 m ρ c (Proc.devRef .tc main_arg2) = m ((c : Thread nD τ).loc main_arg2) := rfl
theorem B1_main_arg2 (c : Dev nD) : B1 m ρ c (Proc.devRef .tc main_arg2) = m ((c : Thread nD τ).loc main_arg2) :=
  (StableHlo.after_of_writes_sub hostOps0 _ hostOps0_writes (by decide : main_arg2 ∉ hostOps0_W)).trans (B0_main_arg2 m ρ c)
theorem B2_main_arg2 (c : Dev nD) : B2 m ρ c (Proc.devRef .tc main_arg2) = m ((c : Thread nD τ).loc main_arg2) :=
  ((B2_arr m ρ c 2).trans (((Conv0.dat (VB1 m ρ) c).arrAt_in 2 rfl _).trans (Conv0.A_eq (VB1 m ρ) c 2))).trans (B1_main_arg2 m ρ c)
theorem B3_main_arg2 (c : Dev nD) : B3 m ρ c (Proc.devRef .tc main_arg2) = m ((c : Thread nD τ).loc main_arg2) :=
  (StableHlo.after_of_writes_sub hostOps1 _ hostOps1_writes (by decide : main_arg2 ∉ hostOps1_W)).trans (B2_main_arg2 m ρ c)
theorem B4_main_arg2 (c : Dev nD) : B4 m ρ c (Proc.devRef .tc main_arg2) = m ((c : Thread nD τ).loc main_arg2) :=
  (B4_of_ne m ρ c main_arg2 (by decide)).trans (B3_main_arg2 m ρ c)
theorem B5_main_arg2 (c : Dev nD) : B5 m ρ c (Proc.devRef .tc main_arg2) = m ((c : Thread nD τ).loc main_arg2) :=
  (StableHlo.after_of_writes_sub hostOps2 _ hostOps2_writes (by decide : main_arg2 ∉ hostOps2_W)).trans (B4_main_arg2 m ρ c)
theorem B6_main_arg2 (c : Dev nD) : B6 m ρ c (Proc.devRef .tc main_arg2) = m ((c : Thread nD τ).loc main_arg2) :=
  (B6_of_ne m ρ c main_arg2 (by decide)).trans (B5_main_arg2 m ρ c)
theorem B7_main_arg2 (c : Dev nD) : B7 m ρ c (Proc.devRef .tc main_arg2) = m ((c : Thread nD τ).loc main_arg2) :=
  (StableHlo.after_of_writes_sub hostOps3 _ hostOps3_writes (by decide : main_arg2 ∉ hostOps3_W)).trans (B6_main_arg2 m ρ c)
theorem B8_main_arg2 (c : Dev nD) : B8 m ρ c (Proc.devRef .tc main_arg2) = m ((c : Thread nD τ).loc main_arg2) :=
  (B8_of_ne m ρ c main_arg2 (by decide)).trans (B7_main_arg2 m ρ c)

theorem B0_main_arg3 (c : Dev nD) : B0 m ρ c (Proc.devRef .tc main_arg3) = m ((c : Thread nD τ).loc main_arg3) := rfl
theorem B1_main_arg3 (c : Dev nD) : B1 m ρ c (Proc.devRef .tc main_arg3) = m ((c : Thread nD τ).loc main_arg3) :=
  (StableHlo.after_of_writes_sub hostOps0 _ hostOps0_writes (by decide : main_arg3 ∉ hostOps0_W)).trans (B0_main_arg3 m ρ c)
theorem B2_main_arg3 (c : Dev nD) : B2 m ρ c (Proc.devRef .tc main_arg3) = m ((c : Thread nD τ).loc main_arg3) :=
  (B2_of_ne m ρ c main_arg3 (by decide)).trans (B1_main_arg3 m ρ c)
theorem B3_main_arg3 (c : Dev nD) : B3 m ρ c (Proc.devRef .tc main_arg3) = m ((c : Thread nD τ).loc main_arg3) :=
  (StableHlo.after_of_writes_sub hostOps1 _ hostOps1_writes (by decide : main_arg3 ∉ hostOps1_W)).trans (B2_main_arg3 m ρ c)
theorem B4_main_arg3 (c : Dev nD) : B4 m ρ c (Proc.devRef .tc main_arg3) = m ((c : Thread nD τ).loc main_arg3) :=
  ((B4_arr m ρ c 1).trans (((Conv1.dat (VB3 m ρ) c).arrAt_in 1 rfl _).trans (Conv1.A_eq (VB3 m ρ) c 1))).trans (B3_main_arg3 m ρ c)
theorem B5_main_arg3 (c : Dev nD) : B5 m ρ c (Proc.devRef .tc main_arg3) = m ((c : Thread nD τ).loc main_arg3) :=
  (StableHlo.after_of_writes_sub hostOps2 _ hostOps2_writes (by decide : main_arg3 ∉ hostOps2_W)).trans (B4_main_arg3 m ρ c)
theorem B6_main_arg3 (c : Dev nD) : B6 m ρ c (Proc.devRef .tc main_arg3) = m ((c : Thread nD τ).loc main_arg3) :=
  (B6_of_ne m ρ c main_arg3 (by decide)).trans (B5_main_arg3 m ρ c)
theorem B7_main_arg3 (c : Dev nD) : B7 m ρ c (Proc.devRef .tc main_arg3) = m ((c : Thread nD τ).loc main_arg3) :=
  (StableHlo.after_of_writes_sub hostOps3 _ hostOps3_writes (by decide : main_arg3 ∉ hostOps3_W)).trans (B6_main_arg3 m ρ c)
theorem B8_main_arg3 (c : Dev nD) : B8 m ρ c (Proc.devRef .tc main_arg3) = m ((c : Thread nD τ).loc main_arg3) :=
  (B8_of_ne m ρ c main_arg3 (by decide)).trans (B7_main_arg3 m ρ c)

theorem B0_main_arg4 (c : Dev nD) : B0 m ρ c (Proc.devRef .tc main_arg4) = m ((c : Thread nD τ).loc main_arg4) := rfl
theorem B1_main_arg4 (c : Dev nD) : B1 m ρ c (Proc.devRef .tc main_arg4) = m ((c : Thread nD τ).loc main_arg4) :=
  (StableHlo.after_of_writes_sub hostOps0 _ hostOps0_writes (by decide : main_arg4 ∉ hostOps0_W)).trans (B0_main_arg4 m ρ c)
theorem B2_main_arg4 (c : Dev nD) : B2 m ρ c (Proc.devRef .tc main_arg4) = m ((c : Thread nD τ).loc main_arg4) :=
  (B2_of_ne m ρ c main_arg4 (by decide)).trans (B1_main_arg4 m ρ c)
theorem B3_main_arg4 (c : Dev nD) : B3 m ρ c (Proc.devRef .tc main_arg4) = m ((c : Thread nD τ).loc main_arg4) :=
  (StableHlo.after_of_writes_sub hostOps1 _ hostOps1_writes (by decide : main_arg4 ∉ hostOps1_W)).trans (B2_main_arg4 m ρ c)
theorem B4_main_arg4 (c : Dev nD) : B4 m ρ c (Proc.devRef .tc main_arg4) = m ((c : Thread nD τ).loc main_arg4) :=
  ((B4_arr m ρ c 2).trans (((Conv1.dat (VB3 m ρ) c).arrAt_in 2 rfl _).trans (Conv1.A_eq (VB3 m ρ) c 2))).trans (B3_main_arg4 m ρ c)
theorem B5_main_arg4 (c : Dev nD) : B5 m ρ c (Proc.devRef .tc main_arg4) = m ((c : Thread nD τ).loc main_arg4) :=
  (StableHlo.after_of_writes_sub hostOps2 _ hostOps2_writes (by decide : main_arg4 ∉ hostOps2_W)).trans (B4_main_arg4 m ρ c)
theorem B6_main_arg4 (c : Dev nD) : B6 m ρ c (Proc.devRef .tc main_arg4) = m ((c : Thread nD τ).loc main_arg4) :=
  (B6_of_ne m ρ c main_arg4 (by decide)).trans (B5_main_arg4 m ρ c)
theorem B7_main_arg4 (c : Dev nD) : B7 m ρ c (Proc.devRef .tc main_arg4) = m ((c : Thread nD τ).loc main_arg4) :=
  (StableHlo.after_of_writes_sub hostOps3 _ hostOps3_writes (by decide : main_arg4 ∉ hostOps3_W)).trans (B6_main_arg4 m ρ c)
theorem B8_main_arg4 (c : Dev nD) : B8 m ρ c (Proc.devRef .tc main_arg4) = m ((c : Thread nD τ).loc main_arg4) :=
  (B8_of_ne m ρ c main_arg4 (by decide)).trans (B7_main_arg4 m ρ c)

theorem B0_main_arg5 (c : Dev nD) : B0 m ρ c (Proc.devRef .tc main_arg5) = m ((c : Thread nD τ).loc main_arg5) := rfl
theorem B1_main_arg5 (c : Dev nD) : B1 m ρ c (Proc.devRef .tc main_arg5) = m ((c : Thread nD τ).loc main_arg5) :=
  (StableHlo.after_of_writes_sub hostOps0 _ hostOps0_writes (by decide : main_arg5 ∉ hostOps0_W)).trans (B0_main_arg5 m ρ c)
theorem B2_main_arg5 (c : Dev nD) : B2 m ρ c (Proc.devRef .tc main_arg5) = m ((c : Thread nD τ).loc main_arg5) :=
  (B2_of_ne m ρ c main_arg5 (by decide)).trans (B1_main_arg5 m ρ c)
theorem B3_main_arg5 (c : Dev nD) : B3 m ρ c (Proc.devRef .tc main_arg5) = m ((c : Thread nD τ).loc main_arg5) :=
  (StableHlo.after_of_writes_sub hostOps1 _ hostOps1_writes (by decide : main_arg5 ∉ hostOps1_W)).trans (B2_main_arg5 m ρ c)
theorem B4_main_arg5 (c : Dev nD) : B4 m ρ c (Proc.devRef .tc main_arg5) = m ((c : Thread nD τ).loc main_arg5) :=
  (B4_of_ne m ρ c main_arg5 (by decide)).trans (B3_main_arg5 m ρ c)
theorem B5_main_arg5 (c : Dev nD) : B5 m ρ c (Proc.devRef .tc main_arg5) = m ((c : Thread nD τ).loc main_arg5) :=
  (StableHlo.after_of_writes_sub hostOps2 _ hostOps2_writes (by decide : main_arg5 ∉ hostOps2_W)).trans (B4_main_arg5 m ρ c)
theorem B6_main_arg5 (c : Dev nD) : B6 m ρ c (Proc.devRef .tc main_arg5) = m ((c : Thread nD τ).loc main_arg5) :=
  ((B6_arr m ρ c 1).trans (((Conv2.dat (VB5 m ρ) c).arrAt_in 1 rfl _).trans (Conv2.A_eq (VB5 m ρ) c 1))).trans (B5_main_arg5 m ρ c)
theorem B7_main_arg5 (c : Dev nD) : B7 m ρ c (Proc.devRef .tc main_arg5) = m ((c : Thread nD τ).loc main_arg5) :=
  (StableHlo.after_of_writes_sub hostOps3 _ hostOps3_writes (by decide : main_arg5 ∉ hostOps3_W)).trans (B6_main_arg5 m ρ c)
theorem B8_main_arg5 (c : Dev nD) : B8 m ρ c (Proc.devRef .tc main_arg5) = m ((c : Thread nD τ).loc main_arg5) :=
  (B8_of_ne m ρ c main_arg5 (by decide)).trans (B7_main_arg5 m ρ c)

theorem B0_main_arg6 (c : Dev nD) : B0 m ρ c (Proc.devRef .tc main_arg6) = m ((c : Thread nD τ).loc main_arg6) := rfl
theorem B1_main_arg6 (c : Dev nD) : B1 m ρ c (Proc.devRef .tc main_arg6) = m ((c : Thread nD τ).loc main_arg6) :=
  (StableHlo.after_of_writes_sub hostOps0 _ hostOps0_writes (by decide : main_arg6 ∉ hostOps0_W)).trans (B0_main_arg6 m ρ c)
theorem B2_main_arg6 (c : Dev nD) : B2 m ρ c (Proc.devRef .tc main_arg6) = m ((c : Thread nD τ).loc main_arg6) :=
  (B2_of_ne m ρ c main_arg6 (by decide)).trans (B1_main_arg6 m ρ c)
theorem B3_main_arg6 (c : Dev nD) : B3 m ρ c (Proc.devRef .tc main_arg6) = m ((c : Thread nD τ).loc main_arg6) :=
  (StableHlo.after_of_writes_sub hostOps1 _ hostOps1_writes (by decide : main_arg6 ∉ hostOps1_W)).trans (B2_main_arg6 m ρ c)
theorem B4_main_arg6 (c : Dev nD) : B4 m ρ c (Proc.devRef .tc main_arg6) = m ((c : Thread nD τ).loc main_arg6) :=
  (B4_of_ne m ρ c main_arg6 (by decide)).trans (B3_main_arg6 m ρ c)
theorem B5_main_arg6 (c : Dev nD) : B5 m ρ c (Proc.devRef .tc main_arg6) = m ((c : Thread nD τ).loc main_arg6) :=
  (StableHlo.after_of_writes_sub hostOps2 _ hostOps2_writes (by decide : main_arg6 ∉ hostOps2_W)).trans (B4_main_arg6 m ρ c)
theorem B6_main_arg6 (c : Dev nD) : B6 m ρ c (Proc.devRef .tc main_arg6) = m ((c : Thread nD τ).loc main_arg6) :=
  ((B6_arr m ρ c 2).trans (((Conv2.dat (VB5 m ρ) c).arrAt_in 2 rfl _).trans (Conv2.A_eq (VB5 m ρ) c 2))).trans (B5_main_arg6 m ρ c)
theorem B7_main_arg6 (c : Dev nD) : B7 m ρ c (Proc.devRef .tc main_arg6) = m ((c : Thread nD τ).loc main_arg6) :=
  (StableHlo.after_of_writes_sub hostOps3 _ hostOps3_writes (by decide : main_arg6 ∉ hostOps3_W)).trans (B6_main_arg6 m ρ c)
theorem B8_main_arg6 (c : Dev nD) : B8 m ρ c (Proc.devRef .tc main_arg6) = m ((c : Thread nD τ).loc main_arg6) :=
  (B8_of_ne m ρ c main_arg6 (by decide)).trans (B7_main_arg6 m ρ c)

theorem B0_main_arg7 (c : Dev nD) : B0 m ρ c (Proc.devRef .tc main_arg7) = m ((c : Thread nD τ).loc main_arg7) := rfl
theorem B1_main_arg7 (c : Dev nD) : B1 m ρ c (Proc.devRef .tc main_arg7) = m ((c : Thread nD τ).loc main_arg7) :=
  (StableHlo.after_of_writes_sub hostOps0 _ hostOps0_writes (by decide : main_arg7 ∉ hostOps0_W)).trans (B0_main_arg7 m ρ c)
theorem B2_main_arg7 (c : Dev nD) : B2 m ρ c (Proc.devRef .tc main_arg7) = m ((c : Thread nD τ).loc main_arg7) :=
  (B2_of_ne m ρ c main_arg7 (by decide)).trans (B1_main_arg7 m ρ c)
theorem B3_main_arg7 (c : Dev nD) : B3 m ρ c (Proc.devRef .tc main_arg7) = m ((c : Thread nD τ).loc main_arg7) :=
  (StableHlo.after_of_writes_sub hostOps1 _ hostOps1_writes (by decide : main_arg7 ∉ hostOps1_W)).trans (B2_main_arg7 m ρ c)
theorem B4_main_arg7 (c : Dev nD) : B4 m ρ c (Proc.devRef .tc main_arg7) = m ((c : Thread nD τ).loc main_arg7) :=
  (B4_of_ne m ρ c main_arg7 (by decide)).trans (B3_main_arg7 m ρ c)
theorem B5_main_arg7 (c : Dev nD) : B5 m ρ c (Proc.devRef .tc main_arg7) = m ((c : Thread nD τ).loc main_arg7) :=
  (StableHlo.after_of_writes_sub hostOps2 _ hostOps2_writes (by decide : main_arg7 ∉ hostOps2_W)).trans (B4_main_arg7 m ρ c)
theorem B6_main_arg7 (c : Dev nD) : B6 m ρ c (Proc.devRef .tc main_arg7) = m ((c : Thread nD τ).loc main_arg7) :=
  (B6_of_ne m ρ c main_arg7 (by decide)).trans (B5_main_arg7 m ρ c)
theorem B7_main_arg7 (c : Dev nD) : B7 m ρ c (Proc.devRef .tc main_arg7) = m ((c : Thread nD τ).loc main_arg7) :=
  (StableHlo.after_of_writes_sub hostOps3 _ hostOps3_writes (by decide : main_arg7 ∉ hostOps3_W)).trans (B6_main_arg7 m ρ c)
theorem B8_main_arg7 (c : Dev nD) : B8 m ρ c (Proc.devRef .tc main_arg7) = m ((c : Thread nD τ).loc main_arg7) :=
  ((B8_arr m ρ c 1).trans (((Head.dat (VB7 m ρ) c).arrAt_in 1 rfl _).trans (Head.A_eq (VB7 m ρ) c 1))).trans (B7_main_arg7 m ρ c)

theorem B0_main_arg8 (c : Dev nD) : B0 m ρ c (Proc.devRef .tc main_arg8) = m ((c : Thread nD τ).loc main_arg8) := rfl
theorem B1_main_arg8 (c : Dev nD) : B1 m ρ c (Proc.devRef .tc main_arg8) = m ((c : Thread nD τ).loc main_arg8) :=
  (StableHlo.after_of_writes_sub hostOps0 _ hostOps0_writes (by decide : main_arg8 ∉ hostOps0_W)).trans (B0_main_arg8 m ρ c)
theorem B2_main_arg8 (c : Dev nD) : B2 m ρ c (Proc.devRef .tc main_arg8) = m ((c : Thread nD τ).loc main_arg8) :=
  (B2_of_ne m ρ c main_arg8 (by decide)).trans (B1_main_arg8 m ρ c)
theorem B3_main_arg8 (c : Dev nD) : B3 m ρ c (Proc.devRef .tc main_arg8) = m ((c : Thread nD τ).loc main_arg8) :=
  (StableHlo.after_of_writes_sub hostOps1 _ hostOps1_writes (by decide : main_arg8 ∉ hostOps1_W)).trans (B2_main_arg8 m ρ c)
theorem B4_main_arg8 (c : Dev nD) : B4 m ρ c (Proc.devRef .tc main_arg8) = m ((c : Thread nD τ).loc main_arg8) :=
  (B4_of_ne m ρ c main_arg8 (by decide)).trans (B3_main_arg8 m ρ c)
theorem B5_main_arg8 (c : Dev nD) : B5 m ρ c (Proc.devRef .tc main_arg8) = m ((c : Thread nD τ).loc main_arg8) :=
  (StableHlo.after_of_writes_sub hostOps2 _ hostOps2_writes (by decide : main_arg8 ∉ hostOps2_W)).trans (B4_main_arg8 m ρ c)
theorem B6_main_arg8 (c : Dev nD) : B6 m ρ c (Proc.devRef .tc main_arg8) = m ((c : Thread nD τ).loc main_arg8) :=
  (B6_of_ne m ρ c main_arg8 (by decide)).trans (B5_main_arg8 m ρ c)
theorem B7_main_arg8 (c : Dev nD) : B7 m ρ c (Proc.devRef .tc main_arg8) = m ((c : Thread nD τ).loc main_arg8) :=
  (StableHlo.after_of_writes_sub hostOps3 _ hostOps3_writes (by decide : main_arg8 ∉ hostOps3_W)).trans (B6_main_arg8 m ρ c)
theorem B8_main_arg8 (c : Dev nD) : B8 m ρ c (Proc.devRef .tc main_arg8) = m ((c : Thread nD τ).loc main_arg8) :=
  ((B8_arr m ρ c 2).trans (((Head.dat (VB7 m ρ) c).arrAt_in 2 rfl _).trans (Head.A_eq (VB7 m ρ) c 2))).trans (B7_main_arg8 m ρ c)

theorem B0_main_arg9 (c : Dev nD) : B0 m ρ c (Proc.devRef .tc main_arg9) = m ((c : Thread nD τ).loc main_arg9) := rfl
theorem B1_main_arg9 (c : Dev nD) : B1 m ρ c (Proc.devRef .tc main_arg9) = m ((c : Thread nD τ).loc main_arg9) :=
  (StableHlo.after_of_writes_sub hostOps0 _ hostOps0_writes (by decide : main_arg9 ∉ hostOps0_W)).trans (B0_main_arg9 m ρ c)
theorem B2_main_arg9 (c : Dev nD) : B2 m ρ c (Proc.devRef .tc main_arg9) = m ((c : Thread nD τ).loc main_arg9) :=
  (B2_of_ne m ρ c main_arg9 (by decide)).trans (B1_main_arg9 m ρ c)
theorem B3_main_arg9 (c : Dev nD) : B3 m ρ c (Proc.devRef .tc main_arg9) = m ((c : Thread nD τ).loc main_arg9) :=
  (StableHlo.after_of_writes_sub hostOps1 _ hostOps1_writes (by decide : main_arg9 ∉ hostOps1_W)).trans (B2_main_arg9 m ρ c)
theorem B4_main_arg9 (c : Dev nD) : B4 m ρ c (Proc.devRef .tc main_arg9) = m ((c : Thread nD τ).loc main_arg9) :=
  (B4_of_ne m ρ c main_arg9 (by decide)).trans (B3_main_arg9 m ρ c)
theorem B5_main_arg9 (c : Dev nD) : B5 m ρ c (Proc.devRef .tc main_arg9) = m ((c : Thread nD τ).loc main_arg9) :=
  (StableHlo.after_of_writes_sub hostOps2 _ hostOps2_writes (by decide : main_arg9 ∉ hostOps2_W)).trans (B4_main_arg9 m ρ c)
theorem B6_main_arg9 (c : Dev nD) : B6 m ρ c (Proc.devRef .tc main_arg9) = m ((c : Thread nD τ).loc main_arg9) :=
  (B6_of_ne m ρ c main_arg9 (by decide)).trans (B5_main_arg9 m ρ c)
theorem B7_main_arg9 (c : Dev nD) : B7 m ρ c (Proc.devRef .tc main_arg9) = m ((c : Thread nD τ).loc main_arg9) :=
  (StableHlo.after_of_writes_sub hostOps3 _ hostOps3_writes (by decide : main_arg9 ∉ hostOps3_W)).trans (B6_main_arg9 m ρ c)
theorem B8_main_arg9 (c : Dev nD) : B8 m ρ c (Proc.devRef .tc main_arg9) = m ((c : Thread nD τ).loc main_arg9) :=
  ((B8_arr m ρ c 3).trans (((Head.dat (VB7 m ρ) c).arrAt_in 3 rfl _).trans (Head.A_eq (VB7 m ρ) c 3))).trans (B7_main_arg9 m ρ c)

theorem B0_main_arg10 (c : Dev nD) : B0 m ρ c (Proc.devRef .tc main_arg10) = m ((c : Thread nD τ).loc main_arg10) := rfl
theorem B1_main_arg10 (c : Dev nD) : B1 m ρ c (Proc.devRef .tc main_arg10) = m ((c : Thread nD τ).loc main_arg10) :=
  (StableHlo.after_of_writes_sub hostOps0 _ hostOps0_writes (by decide : main_arg10 ∉ hostOps0_W)).trans (B0_main_arg10 m ρ c)
theorem B2_main_arg10 (c : Dev nD) : B2 m ρ c (Proc.devRef .tc main_arg10) = m ((c : Thread nD τ).loc main_arg10) :=
  (B2_of_ne m ρ c main_arg10 (by decide)).trans (B1_main_arg10 m ρ c)
theorem B3_main_arg10 (c : Dev nD) : B3 m ρ c (Proc.devRef .tc main_arg10) = m ((c : Thread nD τ).loc main_arg10) :=
  (StableHlo.after_of_writes_sub hostOps1 _ hostOps1_writes (by decide : main_arg10 ∉ hostOps1_W)).trans (B2_main_arg10 m ρ c)
theorem B4_main_arg10 (c : Dev nD) : B4 m ρ c (Proc.devRef .tc main_arg10) = m ((c : Thread nD τ).loc main_arg10) :=
  (B4_of_ne m ρ c main_arg10 (by decide)).trans (B3_main_arg10 m ρ c)
theorem B5_main_arg10 (c : Dev nD) : B5 m ρ c (Proc.devRef .tc main_arg10) = m ((c : Thread nD τ).loc main_arg10) :=
  (StableHlo.after_of_writes_sub hostOps2 _ hostOps2_writes (by decide : main_arg10 ∉ hostOps2_W)).trans (B4_main_arg10 m ρ c)
theorem B6_main_arg10 (c : Dev nD) : B6 m ρ c (Proc.devRef .tc main_arg10) = m ((c : Thread nD τ).loc main_arg10) :=
  (B6_of_ne m ρ c main_arg10 (by decide)).trans (B5_main_arg10 m ρ c)
theorem B7_main_arg10 (c : Dev nD) : B7 m ρ c (Proc.devRef .tc main_arg10) = m ((c : Thread nD τ).loc main_arg10) :=
  (StableHlo.after_of_writes_sub hostOps3 _ hostOps3_writes (by decide : main_arg10 ∉ hostOps3_W)).trans (B6_main_arg10 m ρ c)
theorem B8_main_arg10 (c : Dev nD) : B8 m ρ c (Proc.devRef .tc main_arg10) = m ((c : Thread nD τ).loc main_arg10) :=
  ((B8_arr m ρ c 4).trans (((Head.dat (VB7 m ρ) c).arrAt_in 4 rfl _).trans (Head.A_eq (VB7 m ρ) c 4))).trans (B7_main_arg10 m ρ c)

/-! ## The proof data family and the thread state -/

abbrev admR : (p : Fin 4) → (pcfgs (F := F) p).Adm := fun p => (cfgs p).toPCfg_adm

/-- Every pipeline's proof data, each at its region's entry contents. -/
def pdatsR : (p : Fin 4) → (c : Dev nD) → Dat τ (Elt F) Unit ℕ (UR sig nD τ) ℕ (Pipeline.pin (pcfgs (F := F)) admR p) c
  | ⟨0, _⟩ => fun c => Conv0.dat (VB1 m ρ) c
  | ⟨1, _⟩ => fun c => Conv1.dat (VB3 m ρ) c
  | ⟨2, _⟩ => fun c => Conv2.dat (VB5 m ρ) c
  | ⟨3, _⟩ => fun c => Head.dat (VB7 m ρ) c

abbrev 𝒱R : Variants := Variants.none
abbrev LR : GSem nD τ sig → Finset Unit := fun _ => ∅
abbrev lvR : GSem nD τ sig → Unit → ℕ := fun _ _ => 0
/-- What rides beside the buffers through every segment: the generator register at some state and the core owing
    nothing. -/
abbrev RR (c : Dev nD) : sProp 𝕄 := iprop((∃ r, prngReg c r) ∗ ∃ W, owes (c : Thread nD τ) (0 : CellTallies nD τ sig Unit) W)

/-- A host stretch as a segment, from the contents W. -/
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱R LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev TnR (c : Dev nD) : sProp 𝕄 := iprop(StableHlo.held (c : Thread nD τ) (Pipeline.ucRefs τ sig) (B8 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at the exit contents; the
    generator register goes into the region's invariant and comes out; nothing is owed; the kernel has no semaphore of
    its own. -/
def reg0 : Pipeline.RegionSeg (pcfgs (F := F)) admR (pdatsR m ρ) () defs₀ 𝒱R LR lvR 0 where
  win := launch0.win.to₀
  block_pos := launch0.block_pos
  stage_whole := launch0.stage_whole
  K := PEmpty
  osem k := k.elim
  ho := Pipeline.OwnSemFacts.none _
  hbody c := (Conv0.body_obligation (VB1 m ρ) c).loose
  hwaits := Pipeline.hwaits_of_owed_zero _ _ _ _ LR lvR 0 fun _ _ => rfl
  pre c := iprop(StableHlo.held (c : Thread nD τ) (Pipeline.ucRefs τ sig) (B1 m ρ c) ∗ RR c)
  post c := iprop(StableHlo.held (c : Thread nD τ) (Pipeline.ucRefs τ sig) (B2 m ρ c) ∗ RR c)
  X c := iprop(∃ r, prngReg c r)
  Y c := iprop(∃ r, prngReg c r)
  Z c := Pipeline.unscopedRest (Ix := Unit) (Name := ℕ) (U := UR sig nD τ) (Lvl := ℕ) spec0 c (VB1 m ρ c)
  hentry c := by
    rw [Pipeline.ownSems0_none]
    have hsplit := Pipeline.arrays_of_unscopedBufs (p := 0) (pcfgs (F := F)) admR (pdatsR m ρ) launch0.win launch0.arr_whole c
      ((pdatsR m ρ 0 c).share_full fun _ => rfl) (VB1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsR m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdatsR m ρ) ((pdatsR m ρ 0 c).share_full fun _ => rfl)
      (VB1 m ρ c) (VB2 m ρ c) ((pdatsR m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at the exit contents; the
    generator register goes into the region's invariant and comes out; nothing is owed; the kernel has no semaphore of
    its own. -/
def reg1 : Pipeline.RegionSeg (pcfgs (F := F)) admR (pdatsR m ρ) () defs₀ 𝒱R LR lvR 1 where
  win := launch1.win.to₀
  block_pos := launch1.block_pos
  stage_whole := launch1.stage_whole
  K := PEmpty
  osem k := k.elim
  ho := Pipeline.OwnSemFacts.none _
  hbody c := (Conv1.body_obligation (VB3 m ρ) c).loose
  hwaits := Pipeline.hwaits_of_owed_zero _ _ _ _ LR lvR 1 fun _ _ => rfl
  pre c := iprop(StableHlo.held (c : Thread nD τ) (Pipeline.ucRefs τ sig) (B3 m ρ c) ∗ RR c)
  post c := iprop(StableHlo.held (c : Thread nD τ) (Pipeline.ucRefs τ sig) (B4 m ρ c) ∗ RR c)
  X c := iprop(∃ r, prngReg c r)
  Y c := iprop(∃ r, prngReg c r)
  Z c := Pipeline.unscopedRest (Ix := Unit) (Name := ℕ) (U := UR sig nD τ) (Lvl := ℕ) spec1 c (VB3 m ρ c)
  hentry c := by
    rw [Pipeline.ownSems0_none]
    have hsplit := Pipeline.arrays_of_unscopedBufs (p := 1) (pcfgs (F := F)) admR (pdatsR m ρ) launch1.win launch1.arr_whole c
      ((pdatsR m ρ 1 c).share_full fun _ => rfl) (VB3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsR m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdatsR m ρ) ((pdatsR m ρ 1 c).share_full fun _ => rfl)
      (VB3 m ρ c) (VB4 m ρ c) ((pdatsR m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at the exit contents; the
    generator register goes into the region's invariant and comes out; nothing is owed; the kernel has no semaphore of
    its own. -/
def reg2 : Pipeline.RegionSeg (pcfgs (F := F)) admR (pdatsR m ρ) () defs₀ 𝒱R LR lvR 2 where
  win := launch2.win.to₀
  block_pos := launch2.block_pos
  stage_whole := launch2.stage_whole
  K := PEmpty
  osem k := k.elim
  ho := Pipeline.OwnSemFacts.none _
  hbody c := (Conv2.body_obligation (VB5 m ρ) c).loose
  hwaits := Pipeline.hwaits_of_owed_zero _ _ _ _ LR lvR 2 fun _ _ => rfl
  pre c := iprop(StableHlo.held (c : Thread nD τ) (Pipeline.ucRefs τ sig) (B5 m ρ c) ∗ RR c)
  post c := iprop(StableHlo.held (c : Thread nD τ) (Pipeline.ucRefs τ sig) (B6 m ρ c) ∗ RR c)
  X c := iprop(∃ r, prngReg c r)
  Y c := iprop(∃ r, prngReg c r)
  Z c := Pipeline.unscopedRest (Ix := Unit) (Name := ℕ) (U := UR sig nD τ) (Lvl := ℕ) spec2 c (VB5 m ρ c)
  hentry c := by
    rw [Pipeline.ownSems0_none]
    have hsplit := Pipeline.arrays_of_unscopedBufs (p := 2) (pcfgs (F := F)) admR (pdatsR m ρ) launch2.win launch2.arr_whole c
      ((pdatsR m ρ 2 c).share_full fun _ => rfl) (VB5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsR m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admR (Ix := Unit) (Name := ℕ) (U := UR sig nD τ) (Lvl := ℕ)
      launch2.win launch2.arr_whole c (pdatsR m ρ) ((pdatsR m ρ 2 c).share_full fun _ => rfl)
      (VB5 m ρ c) (VB6 m ρ c) ((pdatsR m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the
    contents after it. Its arrays are split out of the unscoped buffers and put back at the exit contents; the
    generator register goes into the region's invariant and comes out; nothing is owed; the kernel has no semaphore of
    its own. -/
def reg3 : Pipeline.RegionSeg (pcfgs (F := F)) admR (pdatsR m ρ) () defs₀ 𝒱R LR lvR 3 where
  win := launch3.win.to₀
  block_pos := launch3.block_pos
  stage_whole := launch3.stage_whole
  K := PEmpty
  osem k := k.elim
  ho := Pipeline.OwnSemFacts.none _
  hbody c := (Head.body_obligation (VB7 m ρ) c).loose
  hwaits := Pipeline.hwaits_of_owed_zero _ _ _ _ LR lvR 3 fun _ _ => rfl
  pre c := iprop(StableHlo.held (c : Thread nD τ) (Pipeline.ucRefs τ sig) (B7 m ρ c) ∗ RR c)
  post c := iprop(TnR m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (VB7 m ρ c)
  hentry c := by
    rw [Pipeline.ownSems0_none]
    have hsplit := Pipeline.arrays_of_unscopedBufs (p := 3) (pcfgs (F := F)) admR (pdatsR m ρ) launch3.win launch3.arr_whole c
      ((pdatsR m ρ 3 c).share_full fun _ => rfl) (VB7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m ρ 3 c).Φ 0 = (Head.dat (VB7 m ρ) c).Φ 0 from rfl]
    iintro ⟨Hp, -, Hr⟩
    iapply (Head.hin (VB7 m ρ) c)
    unfold Pipeline.ΦA
    isplitl [Hr]; · iexact Hr
    iexact Hp
  hout c := by
    have h2 : (Head.dat (VB7 m ρ) c).Φ (Fin.last cfg3.N) ⊢ (iprop(Pipeline.scopedRest spec3 c ∗ ∃ r, prngReg c r) : sProp 𝕄) := by
      have h := Head.hout (VB7 m ρ) c
      unfold Pipeline.ΦA at h
      exact h
    have h3 : (iprop(Pipeline.scopedRest spec3 c ∗ ∃ r, prngReg c r) : sProp 𝕄)
        ⊢ iprop((∃ r, prngReg c r) ∗ emp ∗ Pipeline.scopedRest spec3 c) := by
      iintro ⟨Hr, Hp⟩
      isplitl [Hp]; · iexact Hp
      isplitr; · iempintro
      iexact Hr
    rw [Pipeline.ownSems0_none, show (pdatsR m ρ 3 c).Φ (Fin.last _) = (Head.dat (VB7 m ρ) c).Φ (Fin.last cfg3.N) from rfl]
    exact h2.trans h3
  hexit c := by
    have hjoin := Pipeline.unscopedBufs_of_arrays (p := 3) (pcfgs (F := F)) admR (Ix := Unit) (Name := ℕ) (U := UR sig nD τ) (Lvl := ℕ)
      launch3.win launch3.arr_whole c (pdatsR m ρ) ((pdatsR m ρ 3 c).share_full fun _ => rfl)
      (VB7 m ρ c) (VB8 m ρ c) ((pdatsR m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

abbrev segsR : List (Pipeline.Seg (pcfgs (F := F)) admR (pdatsR m ρ) () defs₀ 𝒱R LR lvR) :=
  [ .host (hsegR hostOps0 hostOps0_sub hostOps0_fresh (B0 m ρ)),
    .region (reg0 m ρ),
    .host (hsegR hostOps1 hostOps1_sub hostOps1_fresh (B2 m ρ)),
    .region (reg1 m ρ),
    .host (hsegR hostOps2 hostOps2_sub hostOps2_fresh (B4 m ρ)),
    .region (reg2 m ρ),
    .host (hsegR hostOps3 hostOps3_sub hostOps3_fresh (B6 m ρ)),
    .region (reg3 m ρ) ]

/-- The entry function is the run of the segments. -/
theorem main_run (c : Dev nD) : main (F := F) c = Pipeline.Seg.run (segsR m ρ) := by
  rw [main_chain c, Pipeline.Seg.run_eq_chain,
    show (segsR m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()) ] from rfl]

set_option backward.isDefEq.respectTransparency.types false in
/-- THE RUN: from any memory with zero counters every weakly fair execution of the entry function terminates, nothing
    faulting, and the final memory holds the result buffer at the fourth region's final output array and every
    argument as launched. -/
theorem run : θ_run defs (onTc (τ := τ) (main (F := F))) ⟨m, fun _ => 0, ρ⟩ (fun r => ∀ c : Dev nD,
      r.2.mem ((c.tc : Thread nD τ).loc main_v170) = (Head.dat (VB7 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) admR (pdatsR m ρ) () cellOf_inj emb₁ defs₀ 𝒱R LR lvR m ρ main (segsR m ρ)
    (fun c Q => by rw [main_run m ρ c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RR c)) (Tₙ := TnR m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach LR lvR fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c =>
      ⟨(h c _ (mem_uc main_v170 (by decide))).trans (B8_arr m ρ c 5),
        (h c _ (mem_uc main_arg0 (by decide))).trans (B8_main_arg0 m ρ c),
        (h c _ (mem_uc main_arg1 (by decide))).trans (B8_main_arg1 m ρ c),
        (h c _ (mem_uc main_arg2 (by decide))).trans (B8_main_arg2 m ρ c),
        (h c _ (mem_uc main_arg3 (by decide))).trans (B8_main_arg3 m ρ c),
        (h c _ (mem_uc main_arg4 (by decide))).trans (B8_main_arg4 m ρ c),
        (h c _ (mem_uc main_arg5 (by decide))).trans (B8_main_arg5 m ρ c),
        (h c _ (mem_uc main_arg6 (by decide))).trans (B8_main_arg6 m ρ c),
        (h c _ (mem_uc main_arg7 (by decide))).trans (B8_main_arg7 m ρ c),
        (h c _ (mem_uc main_arg8 (by decide))).trans (B8_main_arg8 m ρ c),
        (h c _ (mem_uc main_arg9 (by decide))).trans (B8_main_arg9 m ρ c),
        (h c _ (mem_uc main_arg10 (by decide))).trans (B8_main_arg10 m ρ c)⟩)

end Cert.ReferenceIdeal.Run

end
-- ==== Proof.RefChain.lean ====
/-
  The patch arrangement of the whole network, layer after layer, is the specification's network.

  The arrangement is a chain of matrices whose rows are output positions (image n, row i, column j), row number
  (H*n + i)*H + j for an H x H output: a patch matrix P1 of the images, the first activation A1 = rectified
  (P1 times w1 plus b1), a patch matrix P2 whose row (n, i, j) gathers the rows (n, i + di, j + dj) of A1, the second
  activation A2, likewise P3 and A3, the feature matrix Ft whose row n lists the rows (n, i, j) of A3, the hidden layer
  from four chunks of 4096 features accumulated from zero, the ten logits, and the logarithm of the softmax.
  Each link of the chain is a hypothesis about abstract functions; the conclusion is that the last matrix is the
  specification's network of the eleven arguments.  Each layer is the patch lemma for that layer applied to the
  previous layer's conclusion.
-/
import proofs.«147057_g2000302454168391_pallasbulk_317_11_alg».proof.Proof.NetAlgebra

noncomputable section

namespace Cert.RefChain

open Idealize.ShloMosaic Idealize.ShloMosaic.ValueIdx Cert.Spec Cert.NetAlgebra

section
variable
    (x : (⟨4, ![256, 1, 28, 28]⟩ : Shape).Idx → EReal)
    (w1 : (⟨2, ![25, 32]⟩ : Shape).Idx → EReal) (b1 : (⟨2, ![1, 32]⟩ : Shape).Idx → EReal)
    (w2 : (⟨2, ![800, 32]⟩ : Shape).Idx → EReal) (b2 : (⟨2, ![1, 32]⟩ : Shape).Idx → EReal)
    (w3 : (⟨2, ![800, 64]⟩ : Shape).Idx → EReal) (b3 : (⟨2, ![1, 64]⟩ : Shape).Idx → EReal)
    (f1 : (⟨2, ![16384, 256]⟩ : Shape).Idx → EReal) (c1 : (⟨2, ![1, 256]⟩ : Shape).Idx → EReal)
    (f2 : (⟨2, ![256, 10]⟩ : Shape).Idx → EReal) (c2 : (⟨2, ![1, 10]⟩ : Shape).Idx → EReal)

/-- First layer: when row (24 n + i) 24 + j of the patch matrix holds the 25 inputs of the window at (n, i, j) and the
    activation matrix is the rectified product plus bias, its row (24 n + i) 24 + j, column o is the specification's
    first activation at (n, i, j, o). -/
theorem layer1
    (P1 : (⟨2, ![147456, 25]⟩ : Shape).Idx → EReal) (A1 : (⟨2, ![147456, 32]⟩ : Shape).Idx → EReal)
    (hP1 : ∀ (n : Fin 256) (i j : Fin 24) (di dj : Fin 5) (r : Fin 147456),
      r.val = (24 * n.val + i.val) * 24 + j.val →
      P1 (ix2 r (tap1 di dj)) = x (ix4 n (0 : Fin 1) (sh i di) (sh j dj)))
    (hA1 : ∀ (r : Fin 147456) (o : Fin 32),
      A1 (ix2 r o) = max ((∑ k : Fin 25, P1 (ix2 r k) * w1 (ix2 k o)) + b1 (ix2 0 o)) 0)
    (n : Fin 256) (i j : Fin 24) (o : Fin 32) (r : Fin 147456)
    (hr : r.val = (24 * n.val + i.val) * 24 + j.val) :
    A1 (ix2 r o) = act1 x w1 b1 n i j o :=
  (hA1 r o).trans (act1_of_ref x w1 b1 n i j o (fun k => P1 (ix2 r k)) (fun di dj => hP1 n i j di dj r hr))

/-- Second layer: when row (20 n + i) 20 + j of the patch matrix gathers, at the entry of tap (di, dj) and channel ci,
    the previous activation matrix at row (24 n + (i + di)) 24 + (j + dj), column ci, and the previous matrix holds a
    24 x 24 x 32 activation a, the rectified product plus bias is the specification's next activation of a. -/
theorem layer2
    (a : Fin 256 → Fin 24 → Fin 24 → Fin 32 → EReal)
    (A1 : (⟨2, ![147456, 32]⟩ : Shape).Idx → EReal)
    (P2 : (⟨2, ![102400, 800]⟩ : Shape).Idx → EReal) (A2 : (⟨2, ![102400, 32]⟩ : Shape).Idx → EReal)
    (h1 : ∀ (n : Fin 256) (i j : Fin 24) (o : Fin 32) (r : Fin 147456),
      r.val = (24 * n.val + i.val) * 24 + j.val → A1 (ix2 r o) = a n i j o)
    (hP2 : ∀ (n : Fin 256) (i j : Fin 20) (di dj : Fin 5) (ci : Fin 32) (r : Fin 102400),
      r.val = (20 * n.val + i.val) * 20 + j.val → ∀ (r' : Fin 147456),
      r'.val = (24 * n.val + (i.val + di.val)) * 24 + (j.val + dj.val) →
      P2 (ix2 r (tap32 di dj ci)) = A1 (ix2 r' ci))
    (hA2 : ∀ (r : Fin 102400) (o : Fin 32),
      A2 (ix2 r o) = max ((∑ k : Fin 800, P2 (ix2 r k) * w2 (ix2 k o)) + b2 (ix2 0 o)) 0)
    (n : Fin 256) (i j : Fin 20) (o : Fin 32) (r : Fin 102400)
    (hr : r.val = (20 * n.val + i.val) * 20 + j.val) :
    A2 (ix2 r o) = act2 a w2 b2 n i j o :=
  (hA2 r o).trans (act2_of_ref a w2 b2 n i j o (fun k => P2 (ix2 r k)) (fun di dj ci =>
    (hP2 n i j di dj ci r hr ⟨(24 * n.val + (i.val + di.val)) * 24 + (j.val + dj.val), by omega⟩ rfl).trans
      (h1 n (sh i di) (sh j dj) ci _ rfl)))

/-- Third layer: as the second, from a 20 x 20 x 32 activation to the 16 x 16 x 64 one. -/
theorem layer3
    (a : Fin 256 → Fin 20 → Fin 20 → Fin 32 → EReal)
    (A2 : (⟨2, ![102400, 32]⟩ : Shape).Idx → EReal)
    (P3 : (⟨2, ![65536, 800]⟩ : Shape).Idx → EReal) (A3 : (⟨2, ![65536, 64]⟩ : Shape).Idx → EReal)
    (h2 : ∀ (n : Fin 256) (i j : Fin 20) (o : Fin 32) (r : Fin 102400),
      r.val = (20 * n.val + i.val) * 20 + j.val → A2 (ix2 r o) = a n i j o)
    (hP3 : ∀ (n : Fin 256) (i j : Fin 16) (di dj : Fin 5) (ci : Fin 32) (r : Fin 65536),
      r.val = (16 * n.val + i.val) * 16 + j.val → ∀ (r' : Fin 102400),
      r'.val = (20 * n.val + (i.val + di.val)) * 20 + (j.val + dj.val) →
      P3 (ix2 r (tap32 di dj ci)) = A2 (ix2 r' ci))
    (hA3 : ∀ (r : Fin 65536) (o : Fin 64),
      A3 (ix2 r o) = max ((∑ k : Fin 800, P3 (ix2 r k) * w3 (ix2 k o)) + b3 (ix2 0 o)) 0)
    (n : Fin 256) (i j : Fin 16) (o : Fin 64) (r : Fin 65536)
    (hr : r.val = (16 * n.val + i.val) * 16 + j.val) :
    A3 (ix2 r o) = act3 a w3 b3 n i j o :=
  (hA3 r o).trans (act3_of_ref a w3 b3 n i j o (fun k => P3 (ix2 r k)) (fun di dj ci =>
    (hP3 n i j di dj ci r hr ⟨(20 * n.val + (i.val + di.val)) * 20 + (j.val + dj.val), by omega⟩ rfl).trans
      (h2 n (sh i di) (sh j dj) ci _ rfl)))

/-- The hidden layer: when row n of the feature matrix lists the 16 x 16 x 64 activation a of image n in the order
    (row, column, channel), the four chunks accumulated from zero, plus bias, rectified, are the specification's
    hidden layer of a. -/
theorem hidden
    (a : Fin 256 → Fin 16 → Fin 16 → Fin 64 → EReal)
    (A3 : (⟨2, ![65536, 64]⟩ : Shape).Idx → EReal) (Ft : (⟨2, ![256, 16384]⟩ : Shape).Idx → EReal)
    (h3 : ∀ (n : Fin 256) (i j : Fin 16) (o : Fin 64) (r : Fin 65536),
      r.val = (16 * n.val + i.val) * 16 + j.val → A3 (ix2 r o) = a n i j o)
    (hFt : ∀ (n : Fin 256) (i j : Fin 16) (o : Fin 64) (r : Fin 65536),
      r.val = (16 * n.val + i.val) * 16 + j.val → Ft (ix2 n (feat i j o)) = A3 (ix2 r o))
    (n q : Fin 256) (c : Fin 4 → EReal)
    (hc : ∀ s : Fin 4, c s = ∑ l : Fin 4096,
      Ft (ix2 n ⟨4096 * s.val + l.val, by omega⟩) * f1 (ix2 ⟨4096 * s.val + l.val, by omega⟩ q)) :
    max ((0 + c 0 + c 1 + c 2 + c 3) + c1 (ix2 0 q)) 0 = hid a f1 c1 n q :=
  hid_of_ref a f1 c1 n q (fun k => Ft (ix2 n k))
    (fun i j o => (hFt n i j o ⟨(16 * n.val + i.val) * 16 + j.val, by omega⟩ rfl).trans (h3 n i j o _ rfl)) c hc

/-- The whole chain: the last matrix is the specification's network of the eleven arguments. -/
theorem chain
    (P1 : (⟨2, ![147456, 25]⟩ : Shape).Idx → EReal) (A1 : (⟨2, ![147456, 32]⟩ : Shape).Idx → EReal)
    (P2 : (⟨2, ![102400, 800]⟩ : Shape).Idx → EReal) (A2 : (⟨2, ![102400, 32]⟩ : Shape).Idx → EReal)
    (P3 : (⟨2, ![65536, 800]⟩ : Shape).Idx → EReal) (A3 : (⟨2, ![65536, 64]⟩ : Shape).Idx → EReal)
    (Ft : (⟨2, ![256, 16384]⟩ : Shape).Idx → EReal) (OUT : (⟨2, ![256, 10]⟩ : Shape).Idx → EReal)
    (hP1 : ∀ (n : Fin 256) (i j : Fin 24) (di dj : Fin 5) (r : Fin 147456),
      r.val = (24 * n.val + i.val) * 24 + j.val →
      P1 (ix2 r (tap1 di dj)) = x (ix4 n (0 : Fin 1) (sh i di) (sh j dj)))
    (hA1 : ∀ (r : Fin 147456) (o : Fin 32),
      A1 (ix2 r o) = max ((∑ k : Fin 25, P1 (ix2 r k) * w1 (ix2 k o)) + b1 (ix2 0 o)) 0)
    (hP2 : ∀ (n : Fin 256) (i j : Fin 20) (di dj : Fin 5) (ci : Fin 32) (r : Fin 102400),
      r.val = (20 * n.val + i.val) * 20 + j.val → ∀ (r' : Fin 147456),
      r'.val = (24 * n.val + (i.val + di.val)) * 24 + (j.val + dj.val) →
      P2 (ix2 r (tap32 di dj ci)) = A1 (ix2 r' ci))
    (hA2 : ∀ (r : Fin 102400) (o : Fin 32),
      A2 (ix2 r o) = max ((∑ k : Fin 800, P2 (ix2 r k) * w2 (ix2 k o)) + b2 (ix2 0 o)) 0)
    (hP3 : ∀ (n : Fin 256) (i j : Fin 16) (di dj : Fin 5) (ci : Fin 32) (r : Fin 65536),
      r.val = (16 * n.val + i.val) * 16 + j.val → ∀ (r' : Fin 102400),
      r'.val = (20 * n.val + (i.val + di.val)) * 20 + (j.val + dj.val) →
      P3 (ix2 r (tap32 di dj ci)) = A2 (ix2 r' ci))
    (hA3 : ∀ (r : Fin 65536) (o : Fin 64),
      A3 (ix2 r o) = max ((∑ k : Fin 800, P3 (ix2 r k) * w3 (ix2 k o)) + b3 (ix2 0 o)) 0)
    (hFt : ∀ (n : Fin 256) (i j : Fin 16) (o : Fin 64) (r : Fin 65536),
      r.val = (16 * n.val + i.val) * 16 + j.val → Ft (ix2 n (feat i j o)) = A3 (ix2 r o))
    (H : Fin 256 → Fin 256 → EReal) (C : Fin 256 → Fin 256 → Fin 4 → EReal)
    (hC : ∀ (n q : Fin 256) (s : Fin 4), C n q s = ∑ l : Fin 4096,
      Ft (ix2 n ⟨4096 * s.val + l.val, by omega⟩) * f1 (ix2 ⟨4096 * s.val + l.val, by omega⟩ q))
    (hH : ∀ (n q : Fin 256),
      H n q = max ((0 + C n q 0 + C n q 1 + C n q 2 + C n q 3) + c1 (ix2 0 q)) 0)
    (hOUT : ∀ (n : Fin 256) (r : Fin 10), OUT (ix2 n r)
      = logSoftmax (fun r' => (∑ q : Fin 256, H n q * f2 (ix2 q r')) + c2 (ix2 0 r')) r) :
    OUT = net x w1 b1 w2 b2 w3 b3 f1 c1 f2 c2 := by
  funext i
  obtain ⟨n, r, rfl⟩ : ∃ (n : Fin 256) (r : Fin 10), i = ix2 n r := ⟨i 0, i 1, eq_ix2 i⟩
  rw [hOUT n r]
  show logSoftmax _ r = logSoftmax (logits x w1 b1 w2 b2 w3 b3 f1 c1 f2 c2 n) r
  refine congrArg (fun z => logSoftmax z r) (funext fun r' => ?_)
  show _ = logit (hid (act3 (act2 (act1 x w1 b1) w2 b2) w3 b3) f1 c1) f2 c2 n r'
  unfold logit
  refine congrArg (· + c2 (ix2 0 r')) (Finset.sum_congr rfl fun q _ => congrArg (· * f2 (ix2 q r')) ?_)
  rw [hH n q]
  exact hidden f1 c1 (act3 (act2 (act1 x w1 b1) w2 b2) w3 b3) A3 Ft
    (layer3 w3 b3 (act2 (act1 x w1 b1) w2 b2) A2 P3 A3
      (layer2 w2 b2 (act1 x w1 b1) A1 P2 A2 (layer1 x w1 b1 P1 A1 hP1 hA1) hP2 hA2) hP3 hA3)
    hFt n q (C n q) (hC n q)

end

/-! ### The links of the chain as functions of typed matrices -/

/-- A patch matrix X of 25 entries per row times the weights W, plus the bias row B, rectified. -/
def conv1L (X : (⟨2, ![147456, 25]⟩ : Shape).Idx → EReal) (W : (⟨2, ![25, 32]⟩ : Shape).Idx → EReal)
    (B : (⟨2, ![1, 32]⟩ : Shape).Idx → EReal) : (⟨2, ![147456, 32]⟩ : Shape).Idx → EReal :=
  fun i => max ((∑ k : Fin 25, X (ix2 (i 0) k) * W (ix2 k (i 1))) + B (ix2 0 (i 1))) 0

theorem conv1L_apply (X : (⟨2, ![147456, 25]⟩ : Shape).Idx → EReal) (W : (⟨2, ![25, 32]⟩ : Shape).Idx → EReal)
    (B : (⟨2, ![1, 32]⟩ : Shape).Idx → EReal) (r : Fin 147456) (o : Fin 32) :
    conv1L X W B (ix2 r o) = max ((∑ k : Fin 25, X (ix2 r k) * W (ix2 k o)) + B (ix2 0 o)) 0 := rfl

/-- A patch matrix X of 800 entries per row times the weights W, plus the bias row B, rectified (second layer). -/
def conv2L (X : (⟨2, ![102400, 800]⟩ : Shape).Idx → EReal) (W : (⟨2, ![800, 32]⟩ : Shape).Idx → EReal)
    (B : (⟨2, ![1, 32]⟩ : Shape).Idx → EReal) : (⟨2, ![102400, 32]⟩ : Shape).Idx → EReal :=
  fun i => max ((∑ k : Fin 800, X (ix2 (i 0) k) * W (ix2 k (i 1))) + B (ix2 0 (i 1))) 0

theorem conv2L_apply (X : (⟨2, ![102400, 800]⟩ : Shape).Idx → EReal) (W : (⟨2, ![800, 32]⟩ : Shape).Idx → EReal)
    (B : (⟨2, ![1, 32]⟩ : Shape).Idx → EReal) (r : Fin 102400) (o : Fin 32) :
    conv2L X W B (ix2 r o) = max ((∑ k : Fin 800, X (ix2 r k) * W (ix2 k o)) + B (ix2 0 o)) 0 := rfl

/-- A patch matrix X of 800 entries per row times the weights W, plus the bias row B, rectified (third layer). -/
def conv3L (X : (⟨2, ![65536, 800]⟩ : Shape).Idx → EReal) (W : (⟨2, ![800, 64]⟩ : Shape).Idx → EReal)
    (B : (⟨2, ![1, 64]⟩ : Shape).Idx → EReal) : (⟨2, ![65536, 64]⟩ : Shape).Idx → EReal :=
  fun i => max ((∑ k : Fin 800, X (ix2 (i 0) k) * W (ix2 k (i 1))) + B (ix2 0 (i 1))) 0

theorem conv3L_apply (X : (⟨2, ![65536, 800]⟩ : Shape).Idx → EReal) (W : (⟨2, ![800, 64]⟩ : Shape).Idx → EReal)
    (B : (⟨2, ![1, 64]⟩ : Shape).Idx → EReal) (r : Fin 65536) (o : Fin 64) :
    conv3L X W B (ix2 r o) = max ((∑ k : Fin 800, X (ix2 r k) * W (ix2 k o)) + B (ix2 0 o)) 0 := rfl

/-- Chunk s of the hidden layer's sum for image n and unit q: features 4096 s, ..., 4096 s + 4095 of row n of the
    feature matrix against the same rows of the dense matrix. -/
def chunk (Ft : (⟨2, ![256, 16384]⟩ : Shape).Idx → EReal) (W1 : (⟨2, ![16384, 256]⟩ : Shape).Idx → EReal)
    (n q : Fin 256) (s : Fin 4) : EReal :=
  ∑ l : Fin 4096, Ft (ix2 n ⟨4096 * s.val + l.val, by omega⟩) * W1 (ix2 ⟨4096 * s.val + l.val, by omega⟩ q)

/-- The hidden layer from the four chunks accumulated from zero, plus bias, rectified. -/
def hidL (Ft : (⟨2, ![256, 16384]⟩ : Shape).Idx → EReal) (W1 : (⟨2, ![16384, 256]⟩ : Shape).Idx → EReal)
    (B1 : (⟨2, ![1, 256]⟩ : Shape).Idx → EReal) (n q : Fin 256) : EReal :=
  max ((0 + chunk Ft W1 n q 0 + chunk Ft W1 n q 1 + chunk Ft W1 n q 2 + chunk Ft W1 n q 3) + B1 (ix2 0 q)) 0

/-- The head: hidden layer, the ten logits, and the logarithm of the softmax. -/
def headL (Ft : (⟨2, ![256, 16384]⟩ : Shape).Idx → EReal) (W1 : (⟨2, ![16384, 256]⟩ : Shape).Idx → EReal)
    (B1 : (⟨2, ![1, 256]⟩ : Shape).Idx → EReal) (W2 : (⟨2, ![256, 10]⟩ : Shape).Idx → EReal)
    (B2 : (⟨2, ![1, 10]⟩ : Shape).Idx → EReal) : (⟨2, ![256, 10]⟩ : Shape).Idx → EReal :=
  fun i => logSoftmax (fun r => (∑ q : Fin 256, hidL Ft W1 B1 (i 0) q * W2 (ix2 q r)) + B2 (ix2 0 r)) (i 1)

theorem headL_apply (Ft : (⟨2, ![256, 16384]⟩ : Shape).Idx → EReal) (W1 : (⟨2, ![16384, 256]⟩ : Shape).Idx → EReal)
    (B1 : (⟨2, ![1, 256]⟩ : Shape).Idx → EReal) (W2 : (⟨2, ![256, 10]⟩ : Shape).Idx → EReal)
    (B2 : (⟨2, ![1, 10]⟩ : Shape).Idx → EReal) (n : Fin 256) (r : Fin 10) :
    headL Ft W1 B1 W2 B2 (ix2 n r)
      = logSoftmax (fun r' => (∑ q : Fin 256, hidL Ft W1 B1 n q * W2 (ix2 q r')) + B2 (ix2 0 r')) r := rfl

section
variable
    (x : (⟨4, ![256, 1, 28, 28]⟩ : Shape).Idx → EReal)
    (w1 : (⟨2, ![25, 32]⟩ : Shape).Idx → EReal) (b1 : (⟨2, ![1, 32]⟩ : Shape).Idx → EReal)
    (w2 : (⟨2, ![800, 32]⟩ : Shape).Idx → EReal) (b2 : (⟨2, ![1, 32]⟩ : Shape).Idx → EReal)
    (w3 : (⟨2, ![800, 64]⟩ : Shape).Idx → EReal) (b3 : (⟨2, ![1, 64]⟩ : Shape).Idx → EReal)
    (f1 : (⟨2, ![16384, 256]⟩ : Shape).Idx → EReal) (c1 : (⟨2, ![1, 256]⟩ : Shape).Idx → EReal)
    (f2 : (⟨2, ![256, 10]⟩ : Shape).Idx → EReal) (c2 : (⟨2, ![1, 10]⟩ : Shape).Idx → EReal)

/-- The whole chain with every link written as one of the functions above. -/
theorem chainL
    (P1 : (⟨2, ![147456, 25]⟩ : Shape).Idx → EReal) (A1 : (⟨2, ![147456, 32]⟩ : Shape).Idx → EReal)
    (P2 : (⟨2, ![102400, 800]⟩ : Shape).Idx → EReal) (A2 : (⟨2, ![102400, 32]⟩ : Shape).Idx → EReal)
    (P3 : (⟨2, ![65536, 800]⟩ : Shape).Idx → EReal) (A3 : (⟨2, ![65536, 64]⟩ : Shape).Idx → EReal)
    (Ft : (⟨2, ![256, 16384]⟩ : Shape).Idx → EReal) (OUT : (⟨2, ![256, 10]⟩ : Shape).Idx → EReal)
    (hP1 : ∀ (n : Fin 256) (i j : Fin 24) (di dj : Fin 5) (r : Fin 147456),
      r.val = (24 * n.val + i.val) * 24 + j.val →
      P1 (ix2 r (tap1 di dj)) = x (ix4 n (0 : Fin 1) (sh i di) (sh j dj)))
    (hA1 : A1 = conv1L P1 w1 b1)
    (hP2 : ∀ (n : Fin 256) (i j : Fin 20) (di dj : Fin 5) (ci : Fin 32) (r : Fin 102400),
      r.val = (20 * n.val + i.val) * 20 + j.val → ∀ (r' : Fin 147456),
      r'.val = (24 * n.val + (i.val + di.val)) * 24 + (j.val + dj.val) →
      P2 (ix2 r (tap32 di dj ci)) = A1 (ix2 r' ci))
    (hA2 : A2 = conv2L P2 w2 b2)
    (hP3 : ∀ (n : Fin 256) (i j : Fin 16) (di dj : Fin 5) (ci : Fin 32) (r : Fin 65536),
      r.val = (16 * n.val + i.val) * 16 + j.val → ∀ (r' : Fin 102400),
      r'.val = (20 * n.val + (i.val + di.val)) * 20 + (j.val + dj.val) →
      P3 (ix2 r (tap32 di dj ci)) = A2 (ix2 r' ci))
    (hA3 : A3 = conv3L P3 w3 b3)
    (hFt : ∀ (n : Fin 256) (i j : Fin 16) (o : Fin 64) (r : Fin 65536),
      r.val = (16 * n.val + i.val) * 16 + j.val → Ft (ix2 n (feat i j o)) = A3 (ix2 r o))
    (hOUT : OUT = headL Ft f1 c1 f2 c2) :
    OUT = net x w1 b1 w2 b2 w3 b3 f1 c1 f2 c2 :=
  chain x w1 b1 w2 b2 w3 b3 f1 c1 f2 c2 P1 A1 P2 A2 P3 A3 Ft OUT hP1
    (fun r o => (congrFun hA1 (ix2 r o)).trans (conv1L_apply P1 w1 b1 r o)) hP2
    (fun r o => (congrFun hA2 (ix2 r o)).trans (conv2L_apply P2 w2 b2 r o)) hP3
    (fun r o => (congrFun hA3 (ix2 r o)).trans (conv3L_apply P3 w3 b3 r o)) hFt
    (hidL Ft f1 c1) (chunk Ft f1) (fun _ _ _ => rfl) (fun _ _ => rfl)
    (fun n r => (congrFun hOUT (ix2 n r)).trans (headL_apply Ft f1 c1 f2 c2 n r))

end

end Cert.RefChain

end
-- ==== Proof.RefNetCore.lean ====
/-
  The reference program's value, from the contents of the buffers at its boundaries.

  The entry function is four stretches of host operations, each followed by one matrix-product region.  Take the
  buffer contents W0 at launch, W1 after the first stretch, W2 after the first region, and so on up to W7 at the
  entry of the fourth region.  When each stretch builds the next patch matrix from the previous activation matrix,
  each region leaves the rectified product plus bias of its three operands, the weights and biases are still the
  launch contents where they are read, and the fourth region leaves the head of its five operands, the result is
  the specification's network of the eleven arguments at launch.  This is the chain of layers with every matrix read
  off a buffer.
-/
import proofs.«147057_g2000302454168391_pallasbulk_317_11_alg».proof.ReferenceIdeal
import proofs.«147057_g2000302454168391_pallasbulk_317_11_alg».proof.Proof.RefChain

namespace Cert.ReferenceIdeal.RefNet

open Idealize.ShloMosaic Idealize.ShloMosaic.ValueIdx Idealize.ShloMosaic.TcCoe
open Cert.ReferenceIdeal

/-- The result array is the specification's network of the launch contents of the eleven arguments. -/
theorem net_of_boundaries
    (W0 W1 W2 W3 W4 W5 W6 W7 : Valuation τ sig (Elt Ideal)) (OUT : S256x10.Idx → EReal)
    (hP1 : ∀ (n : Fin 256) (i j : Fin 24) (di dj : Fin 5) (r : Fin 147456),
      r.val = (24 * n.val + i.val) * 24 + j.val →
      (W1 (Proc.devRef .tc main_v54) : S147456x25.Idx → EReal) (ix2 r (Spec.tap1 di dj))
        = (W0 (Proc.devRef .tc main_arg0) : S256x1x28x28.Idx → EReal)
            (ix4 n (0 : Fin 1) (Spec.sh i di) (Spec.sh j dj)))
    (hA1 : (W2 (Proc.devRef .tc main_v55) : S147456x32.Idx → EReal)
      = RefChain.conv1L (W1 (Proc.devRef .tc main_v54)) (W1 (Proc.devRef .tc main_arg1))
          (W1 (Proc.devRef .tc main_arg2)))
    (hw1 : W1 (Proc.devRef .tc main_arg1) = W0 (Proc.devRef .tc main_arg1))
    (hb1 : W1 (Proc.devRef .tc main_arg2) = W0 (Proc.devRef .tc main_arg2))
    (hP2 : ∀ (n : Fin 256) (i j : Fin 20) (di dj : Fin 5) (ci : Fin 32) (r : Fin 102400),
      r.val = (20 * n.val + i.val) * 20 + j.val → ∀ (r' : Fin 147456),
      r'.val = (24 * n.val + (i.val + di.val)) * 24 + (j.val + dj.val) →
      (W3 (Proc.devRef .tc main_v110) : S102400x800.Idx → EReal) (ix2 r (Spec.tap32 di dj ci))
        = (W2 (Proc.devRef .tc main_v55) : S147456x32.Idx → EReal) (ix2 r' ci))
    (hA2 : (W4 (Proc.devRef .tc main_v111) : S102400x32.Idx → EReal)
      = RefChain.conv2L (W3 (Proc.devRef .tc main_v110)) (W3 (Proc.devRef .tc main_arg3))
          (W3 (Proc.devRef .tc main_arg4)))
    (hw2 : W3 (Proc.devRef .tc main_arg3) = W0 (Proc.devRef .tc main_arg3))
    (hb2 : W3 (Proc.devRef .tc main_arg4) = W0 (Proc.devRef .tc main_arg4))
    (hP3 : ∀ (n : Fin 256) (i j : Fin 16) (di dj : Fin 5) (ci : Fin 32) (r : Fin 65536),
      r.val = (16 * n.val + i.val) * 16 + j.val → ∀ (r' : Fin 102400),
      r'.val = (20 * n.val + (i.val + di.val)) * 20 + (j.val + dj.val) →
      (W5 (Proc.devRef .tc main_v166) : S65536x800.Idx → EReal) (ix2 r (Spec.tap32 di dj ci))
        = (W4 (Proc.devRef .tc main_v111) : S102400x32.Idx → EReal) (ix2 r' ci))
    (hA3 : (W6 (Proc.devRef .tc main_v167) : S65536x64.Idx → EReal)
      = RefChain.conv3L (W5 (Proc.devRef .tc main_v166)) (W5 (Proc.devRef .tc main_arg5))
          (W5 (Proc.devRef .tc main_arg6)))
    (hw3 : W5 (Proc.devRef .tc main_arg5) = W0 (Proc.devRef .tc main_arg5))
    (hb3 : W5 (Proc.devRef .tc main_arg6) = W0 (Proc.devRef .tc main_arg6))
    (hFt : ∀ (n : Fin 256) (i j : Fin 16) (o : Fin 64) (r : Fin 65536),
      r.val = (16 * n.val + i.val) * 16 + j.val →
      (W7 (Proc.devRef .tc main_v169) : S256x16384.Idx → EReal) (ix2 n (Spec.feat i j o))
        = (W6 (Proc.devRef .tc main_v167) : S65536x64.Idx → EReal) (ix2 r o))
    (hOUT : OUT = RefChain.headL (W7 (Proc.devRef .tc main_v169)) (W7 (Proc.devRef .tc main_arg7))
        (W7 (Proc.devRef .tc main_arg8)) (W7 (Proc.devRef .tc main_arg9)) (W7 (Proc.devRef .tc main_arg10)))
    (hf1 : W7 (Proc.devRef .tc main_arg7) = W0 (Proc.devRef .tc main_arg7))
    (hc1 : W7 (Proc.devRef .tc main_arg8) = W0 (Proc.devRef .tc main_arg8))
    (hf2 : W7 (Proc.devRef .tc main_arg9) = W0 (Proc.devRef .tc main_arg9))
    (hc2 : W7 (Proc.devRef .tc main_arg10) = W0 (Proc.devRef .tc main_arg10)) :
    OUT = Spec.net (W0 (Proc.devRef .tc main_arg0)) (W0 (Proc.devRef .tc main_arg1))
      (W0 (Proc.devRef .tc main_arg2)) (W0 (Proc.devRef .tc main_arg3)) (W0 (Proc.devRef .tc main_arg4))
      (W0 (Proc.devRef .tc main_arg5)) (W0 (Proc.devRef .tc main_arg6)) (W0 (Proc.devRef .tc main_arg7))
      (W0 (Proc.devRef .tc main_arg8)) (W0 (Proc.devRef .tc main_arg9)) (W0 (Proc.devRef .tc main_arg10)) := by
  rw [hw1, hb1] at hA1
  rw [hw2, hb2] at hA2
  rw [hw3, hb3] at hA3
  rw [hf1, hc1, hf2, hc2] at hOUT
  exact RefChain.chainL _ _ _ _ _ _ _ _ _ _ _ _ _ _ _ _ _ _ OUT hP1 hA1 hP2 hA2 hP3 hA3 hFt hOUT

end Cert.ReferenceIdeal.RefNet
-- ==== Proof.RefPatchesCore.lean ====
/-
  Reading a patch matrix at an index.

  A valid 5x5 convolution is computed as a matrix product by first laying the input out as a PATCH MATRIX: row
  (image n, output row i, output column j), column (tap row di, tap column dj, input channel c), holding the input
  at (n, i + di, j + dj, c). The program builds that matrix from 25 windows of the input (the window at offsets
  (di, dj) is the input shifted by the tap), gives each window a new unit axis, lays the 25 windows end to end along
  that axis, and flattens (n, i, j) into the row and (tap, channel) into the column.

  This module reads each of those layout steps at an index, for any extents: a window with its new axis; the
  exchange of the channel axis of an image batch from second to last place; a run of pieces of unit extent laid end
  to end; two runs laid end to end; and the three flattenings between (n, i, j, ...) and a row number. Nothing here
  mentions a program: the statements are about functions on index sets.
-/
import Idealize.ShloMosaic.PureOps.Ideal
import Idealize.ShloMosaic.Lib.ValueIdx
import Idealize.ShloMosaic.Lib.Pipeline.Value

namespace Cert.ReferenceIdeal.Patches

open Idealize.ShloMosaic Idealize.ShloMosaic.ValueIdx

variable {α : Type}

/-- The window of an image batch at offsets (off 1, off 2), given a new unit axis before the channel axis, read at
    (n, i, j, 0, c): the batch at (n, i + off 1, j + off 2, c). -/
theorem window_apply {B H W C Ho Wo : Nat} (off : Fin 4 → Nat) (x : (⟨4, ![B, H, W, C]⟩ : Shape).Idx → α)
    (hs : (⟨4, ![B, H, W, C]⟩ : Shape).Slices off ⟨4, ![B, Ho, Wo, C]⟩)
    (hb : (⟨4, ![B, Ho, Wo, C]⟩ : Shape).BroadcastsInDim ⟨5, ![B, Ho, Wo, 1, C]⟩ ![0, 1, 2, 4])
    (n : Fin B) (i : Fin Ho) (j : Fin Wo) (c : Fin C) (i' : Fin H) (j' : Fin W)
    (h0 : off 0 = 0) (h1 : i'.val = i.val + off 1) (h2 : j'.val = j.val + off 2) (h3 : off 3 = 0) :
    broadcastInDim ⟨5, ![B, Ho, Wo, 1, C]⟩ ![0, 1, 2, 4] hb (extractStridedSlice ⟨4, ![B, Ho, Wo, C]⟩ off x hs)
        (ix5 n i j (0 : Fin 1) c)
      = x (ix4 n i' j' c) := by
  have hn := n.isLt; have hi := i.isLt; have hj := j.isLt; have hc := c.isLt
  refine (broadcastInDim_apply _ hb _ _ (ix4 n i j c) ?_).trans ?_
  · intro a
    match a with
    | ⟨0, _⟩ => show n.val = if B = 1 then 0 else n.val; split <;> omega
    | ⟨1, _⟩ => show i.val = if Ho = 1 then 0 else i.val; split <;> omega
    | ⟨2, _⟩ => show j.val = if Wo = 1 then 0 else j.val; split <;> omega
    | ⟨3, _⟩ => show c.val = if C = 1 then 0 else c.val; split <;> omega
  · refine extractStridedSlice_apply off x hs _ (ix4 n i' j' c) ?_
    intro a
    match a with
    | ⟨0, _⟩ => show n.val = off 0 + n.val; omega
    | ⟨1, _⟩ => show i'.val = off 1 + i.val; omega
    | ⟨2, _⟩ => show j'.val = off 2 + j.val; omega
    | ⟨3, _⟩ => show c.val = off 3 + c.val; omega

/-- An image batch with its one channel moved from second to last place, read at (n, i, j, 0): the batch at
    (n, 0, i, j). -/
theorem channelLast_apply {B H W : Nat} (x : (⟨4, ![B, 1, H, W]⟩ : Shape).Idx → α)
    (h : (⟨4, ![B, 1, H, W]⟩ : Shape).Transposes [0, 2, 3, 1] ⟨4, ![B, H, W, 1]⟩)
    (n : Fin B) (i : Fin H) (j : Fin W) :
    transpose ⟨4, ![B, H, W, 1]⟩ [0, 2, 3, 1] x h (ix4 n i j (0 : Fin 1)) = x (ix4 n (0 : Fin 1) i j) := by
  refine transpose_apply _ x h _ (ix4 n (0 : Fin 1) i j) ?_
  intro b
  match b with
  | ⟨0, _⟩ => rfl
  | ⟨1, _⟩ => rfl
  | ⟨2, _⟩ => rfl
  | ⟨3, _⟩ => rfl

/-- N pieces of unit extent along the fourth axis laid end to end, read at (n, i, j, k, c): piece k at
    (n, i, j, 0, c). -/
theorem run_apply {B Ho Wo C N : Nat} (f : Fin N → ((⟨5, ![B, Ho, Wo, 1, C]⟩ : Shape).Idx → α))
    (h : Shape.Concatenates ((List.ofFn fun m : Fin N =>
        (⟨⟨5, ![B, Ho, Wo, 1, C]⟩, f m⟩ : (s : Shape) × (s.Idx → α))).map (·.1)) ⟨5, ![B, Ho, Wo, N, C]⟩ 3)
    (n : Fin B) (i : Fin Ho) (j : Fin Wo) (k : Fin N) (c : Fin C) :
    concatenate ⟨5, ![B, Ho, Wo, N, C]⟩ 3 (List.ofFn fun m : Fin N =>
        (⟨⟨5, ![B, Ho, Wo, 1, C]⟩, f m⟩ : (s : Shape) × (s.Idx → α))) h (ix5 n i j k c)
      = f k (ix5 n i j (0 : Fin 1) c) := by
  refine concatenate_ofFn_unit_apply (t := ⟨5, ![B, Ho, Wo, N, C]⟩) (s₁ := ⟨5, ![B, Ho, Wo, 1, C]⟩) (3 : Fin 5) f h rfl rfl
    (ix5 n i j k c) k rfl (ix5 n i j (0 : Fin 1) c) ?_
  intro b hb
  match b with
  | ⟨0, _⟩ => rfl
  | ⟨1, _⟩ => rfl
  | ⟨2, _⟩ => rfl
  | ⟨3, _⟩ => exact absurd rfl hb
  | ⟨4, _⟩ => rfl

/-- Two runs laid end to end along the fourth axis, read at a position inside the FIRST run. -/
theorem joinLeft_apply {B Ho Wo C K1 K2 K : Nat} (x1 : (⟨5, ![B, Ho, Wo, K1, C]⟩ : Shape).Idx → α)
    (x2 : (⟨5, ![B, Ho, Wo, K2, C]⟩ : Shape).Idx → α)
    (h : Shape.Concatenates [⟨5, ![B, Ho, Wo, K1, C]⟩, ⟨5, ![B, Ho, Wo, K2, C]⟩] ⟨5, ![B, Ho, Wo, K, C]⟩ 3)
    (n : Fin B) (i : Fin Ho) (j : Fin Wo) (k : Fin K) (k1 : Fin K1) (hk : k1.val = k.val) (c : Fin C) :
    concatenate ⟨5, ![B, Ho, Wo, K, C]⟩ 3 [⟨⟨5, ![B, Ho, Wo, K1, C]⟩, x1⟩, ⟨⟨5, ![B, Ho, Wo, K2, C]⟩, x2⟩] h (ix5 n i j k c)
      = x1 (ix5 n i j k1 c) := by
  refine concatenate_pair_apply_left (t := ⟨5, ![B, Ho, Wo, K, C]⟩) (3 : Fin 5) x1 x2 h (ix5 n i j k c) rfl (ix5 n i j k1 c) ?_
  intro b
  match b with
  | ⟨0, _⟩ => rfl
  | ⟨1, _⟩ => rfl
  | ⟨2, _⟩ => rfl
  | ⟨3, _⟩ => exact hk
  | ⟨4, _⟩ => rfl

/-- Two runs laid end to end along the fourth axis, read at a position inside the SECOND run: that run at the
    position less the first run's length. -/
theorem joinRight_apply {B Ho Wo C K1 K2 K : Nat} (x1 : (⟨5, ![B, Ho, Wo, K1, C]⟩ : Shape).Idx → α)
    (x2 : (⟨5, ![B, Ho, Wo, K2, C]⟩ : Shape).Idx → α)
    (h : Shape.Concatenates [⟨5, ![B, Ho, Wo, K1, C]⟩, ⟨5, ![B, Ho, Wo, K2, C]⟩] ⟨5, ![B, Ho, Wo, K, C]⟩ 3)
    (n : Fin B) (i : Fin Ho) (j : Fin Wo) (k : Fin K) (k2 : Fin K2) (hk : k2.val + K1 = k.val) (c : Fin C) :
    concatenate ⟨5, ![B, Ho, Wo, K, C]⟩ 3 [⟨⟨5, ![B, Ho, Wo, K1, C]⟩, x1⟩, ⟨⟨5, ![B, Ho, Wo, K2, C]⟩, x2⟩] h (ix5 n i j k c)
      = x2 (ix5 n i j k2 c) := by
  refine concatenate_pair_apply_right (t := ⟨5, ![B, Ho, Wo, K, C]⟩) (3 : Fin 5) x1 x2 h (ix5 n i j k c) rfl rfl (ix5 n i j k2 c) ?_
    (show k2.val + K1 = k.val from hk)
  intro b hb
  match b with
  | ⟨0, _⟩ => rfl
  | ⟨1, _⟩ => rfl
  | ⟨2, _⟩ => rfl
  | ⟨3, _⟩ => exact absurd rfl hb
  | ⟨4, _⟩ => rfl

/-- Flattening (n, i, j) into the row and (k, c) into the column: the matrix at row (Ho n + i) Wo + j, column
    k C + c is the five-axis array at (n, i, j, k, c). -/
theorem rows_apply {B Ho Wo K C R M : Nat} (x : (⟨5, ![B, Ho, Wo, K, C]⟩ : Shape).Idx → α)
    (h : (⟨5, ![B, Ho, Wo, K, C]⟩ : Shape).ShapeCasts ⟨2, ![R, M]⟩) (hM : M = K * C)
    (n : Fin B) (i : Fin Ho) (j : Fin Wo) (k : Fin K) (c : Fin C) (r : Fin R) (m : Fin M)
    (hr : r.val = (Ho * n.val + i.val) * Wo + j.val) (hm : m.val = k.val * C + c.val) :
    shapeCast ⟨2, ![R, M]⟩ x h (ix2 r m) = x (ix5 n i j k c) := by
  refine shapeCast_apply x h _ _ ?_
  rw [Shape.rowMajor_val_five, Shape.rowMajor_val_two]
  show ((((n.val * Ho + i.val) * Wo + j.val) * K + k.val) * C + c.val) = r.val * M + m.val
  rw [hr, hm, hM]; ring

/-- Unflattening a row number into (n, i, j): the four-axis array at (n, i, j, c) is the matrix at row
    (H n + i) W + j, column c. -/
theorem grid_apply {B H W C R : Nat} (x : (⟨2, ![R, C]⟩ : Shape).Idx → α)
    (h : (⟨2, ![R, C]⟩ : Shape).ShapeCasts ⟨4, ![B, H, W, C]⟩)
    (n : Fin B) (i : Fin H) (j : Fin W) (c : Fin C) (r : Fin R) (hr : r.val = (H * n.val + i.val) * W + j.val) :
    shapeCast ⟨4, ![B, H, W, C]⟩ x h (ix4 n i j c) = x (ix2 r c) := by
  refine shapeCast_apply x h _ _ ?_
  rw [Shape.rowMajor_val_four, Shape.rowMajor_val_two]
  show r.val * C + c.val = ((n.val * H + i.val) * W + j.val) * C + c.val
  rw [hr]; ring

/-- Flattening (i, j, c) into one feature number: the matrix at row n, column (W i + j) C + c is the four-axis array
    at (n, i, j, c). -/
theorem flat_apply {B H W C M : Nat} (x : (⟨4, ![B, H, W, C]⟩ : Shape).Idx → α)
    (h : (⟨4, ![B, H, W, C]⟩ : Shape).ShapeCasts ⟨2, ![B, M]⟩) (hM : M = H * W * C)
    (n : Fin B) (i : Fin H) (j : Fin W) (c : Fin C) (m : Fin M) (hm : m.val = (W * i.val + j.val) * C + c.val) :
    shapeCast ⟨2, ![B, M]⟩ x h (ix2 n m) = x (ix4 n i j c) := by
  refine shapeCast_apply x h _ _ ?_
  rw [Shape.rowMajor_val_four, Shape.rowMajor_val_two]
  show ((n.val * H + i.val) * W + j.val) * C + c.val = n.val * M + m.val
  rw [hm, hM]; ring

end Cert.ReferenceIdeal.Patches
-- ==== Proof.RefPatches1Read.lean ====
/-
  The patch matrix of the first convolution, read at an index.

  The input is the image batch (image, channel, row, column); its one channel is first moved to last place.
  Window k (k = 5 di + dj, so di = k / 5 and dj = k % 5) is the 24x24 block of the 28x28 array at offsets (di, dj),
  with a unit tap axis inserted before the channel axis. The 25 windows are laid end to end along the tap axis as a run of
  16 (taps 0 to 15) followed by a run of 9 (taps 16 to 24), and the result is flattened to 147456 rows
  (image n, row i, column j at row (24 n + i) 24 + j) by 25 columns (tap k, channel c at column k 1 + c).

  The theorem: that matrix at row (24 n + i) 24 + j and the column of tap (di, dj) is the image batch at (n, 0, i + di, j + dj).
  The proof follows the construction backwards: the flattening, the choice of run by comparing the tap number with 16,
  the piece of the run, the window, and the rearrangement of the input; the arithmetic is (5 di + dj) / 5 = di and
  (5 di + dj) % 5 = dj for dj below 5.
-/
import proofs.«147057_g2000302454168391_pallasbulk_317_11_alg».proof.Proof.Gen.ReferenceIdeal
import proofs.«147057_g2000302454168391_pallasbulk_317_11_alg».proof.Proof.RefPatchesCore
import proofs.«147057_g2000302454168391_pallasbulk_317_11_alg».proof.Proof.Spec

noncomputable section

namespace Cert.ReferenceIdeal.Patches

open Idealize.ShloMosaic Idealize.ShloMosaic.ValueIdx
open Cert.ReferenceIdeal Cert.ReferenceIdeal.Gen

/-- Every tap's offsets (k / 5, k % 5) leave a 24x24 window inside the 28x28 array. -/
theorem window1_fits (k : Fin 25) : S256x28x28x1.Slices ![0, k.val / 5, k.val % 5, 0] S256x24x24x1 :=
  ⟨rfl, fun a => by
    have hk := k.isLt
    match a with
    | ⟨0, _⟩ => show 0 + 256 ≤ 256; omega
    | ⟨1, _⟩ => show k.val / 5 + 24 ≤ 28; omega
    | ⟨2, _⟩ => show k.val % 5 + 24 ≤ 28; omega
    | ⟨3, _⟩ => show 0 + 1 ≤ 1; omega⟩

/-- Window k of the array x, with its unit tap axis. -/
def window1 (x : S256x28x28x1.Idx → EReal) (k : Fin 25) : S256x24x24x1x1.Idx → EReal :=
  broadcastInDim S256x24x24x1x1 ![0, 1, 2, 4] bcast_S256x24x24x1_S256x24x24x1x1_0_1_2_4
    (extractStridedSlice S256x24x24x1 ![0, k.val / 5, k.val % 5, 0] x (window1_fits k))

/-- Window k at (n, i, j, 0, c) is the array at (n, i + k / 5, j + k % 5, c). -/
theorem window1_apply (x : S256x28x28x1.Idx → EReal) (k : Fin 25) (n : Fin 256) (i j : Fin 24) (c : Fin 1)
    (i' j' : Fin 28) (h1 : i'.val = i.val + k.val / 5) (h2 : j'.val = j.val + k.val % 5) :
    window1 x k (ix5 n i j (0 : Fin 1) c) = x (ix4 n i' j' c) := by
  unfold window1
  exact window_apply _ x _ _ n i j c i' j' rfl h1 h2 rfl

/-- The patch matrix as a function of the input y. -/
def patchRows1 (y : S256x1x28x28.Idx → EReal) : S147456x25.Idx → EReal :=
  shapeCast S147456x25
    (concatenate S256x24x24x25x1 3
      [⟨S256x24x24x16x1, concatenate S256x24x24x16x1 3
          (List.ofFn fun m : Fin 16 => (⟨S256x24x24x1x1, window1 (transpose S256x28x28x1 [0, 2, 3, 1] y transposes_S256x1x28x28_S256x28x28x1_0_2_3_1)
              ⟨m.val, Nat.lt_of_lt_of_le m.isLt (by decide)⟩⟩ : (s : Shape) × (s.Idx → EReal)))
          concatenates_S256x24x24x1x1_S256x24x24x1x1_S256x24x24x1x1_S256x24x24x1x1_S256x24x24x1x1_S256x24x24x1x1_S256x24x24x1x1_S256x24x24x1x1_S256x24x24x1x1_S256x24x24x1x1_S256x24x24x1x1_S256x24x24x1x1_S256x24x24x1x1_S256x24x24x1x1_S256x24x24x1x1_S256x24x24x1x1_S256x24x24x16x1_d3⟩,
       ⟨S256x24x24x9x1, concatenate S256x24x24x9x1 3
          (List.ofFn fun m : Fin 9 => (⟨S256x24x24x1x1, window1 (transpose S256x28x28x1 [0, 2, 3, 1] y transposes_S256x1x28x28_S256x28x28x1_0_2_3_1)
              ⟨16 + m.val, Nat.add_lt_add_left m.isLt 16⟩⟩ : (s : Shape) × (s.Idx → EReal)))
          concatenates_S256x24x24x1x1_S256x24x24x1x1_S256x24x24x1x1_S256x24x24x1x1_S256x24x24x1x1_S256x24x24x1x1_S256x24x24x1x1_S256x24x24x1x1_S256x24x24x1x1_S256x24x24x9x1_d3⟩]
      concatenates_S256x24x24x16x1_S256x24x24x9x1_S256x24x24x25x1_d3)
    shapeCasts_S256x24x24x25x1_S147456x25

/-- The patch matrix at row (24 n + i) 24 + j, column of tap (di, dj): the image batch at (n, 0, i + di, j + dj). -/
theorem patchRows1_apply (y : S256x1x28x28.Idx → EReal) (n : Fin 256) (i j : Fin 24) (di dj : Fin 5)
    (r : Fin 147456) (hr : r.val = (24 * n.val + i.val) * 24 + j.val) :
    patchRows1 y (ix2 r (Spec.tap1 di dj)) = y (ix4 n (0 : Fin 1) (Spec.sh i di) (Spec.sh j dj)) := by
  have hdi := di.isLt; have hdj := dj.isLt
  unfold patchRows1
  refine (rows_apply _ _ rfl n i j (Spec.tap1 di dj) (0 : Fin 1) r _ hr (by show 5 * di.val + dj.val = (5 * di.val + dj.val) * 1 + 0; omega)).trans ?_
  by_cases hk : 5 * di.val + dj.val < 16
  · refine (joinLeft_apply _ _ _ n i j (Spec.tap1 di dj) ⟨5 * di.val + dj.val, hk⟩ rfl (0 : Fin 1)).trans ?_
    refine (run_apply _ _ n i j ⟨5 * di.val + dj.val, hk⟩ (0 : Fin 1)).trans ?_
    refine (window1_apply _ _ n i j (0 : Fin 1) (Spec.sh i di) (Spec.sh j dj) ?_ ?_).trans ?_
    · show i.val + di.val = i.val + (5 * di.val + dj.val) / 5; omega
    · show j.val + dj.val = j.val + (5 * di.val + dj.val) % 5; omega
    exact channelLast_apply y _ n _ _
  · have hk' : 5 * di.val + dj.val - 16 < 9 := by omega
    refine (joinRight_apply _ _ _ n i j (Spec.tap1 di dj) ⟨5 * di.val + dj.val - 16, hk'⟩
      (by show 5 * di.val + dj.val - 16 + 16 = 5 * di.val + dj.val; omega) (0 : Fin 1)).trans ?_
    refine (run_apply _ _ n i j ⟨5 * di.val + dj.val - 16, hk'⟩ (0 : Fin 1)).trans ?_
    refine (window1_apply _ _ n i j (0 : Fin 1) (Spec.sh i di) (Spec.sh j dj) ?_ ?_).trans ?_
    · show i.val + di.val = i.val + (16 + (5 * di.val + dj.val - 16)) / 5; omega
    · show j.val + dj.val = j.val + (16 + (5 * di.val + dj.val - 16)) % 5; omega
    exact channelLast_apply y _ n _ _

end Cert.ReferenceIdeal.Patches

end
-- ==== Proof.RefPatches1.lean ====
/-
  The host operations before the first convolution's matrix product build its patch matrix.

  Whatever the buffers hold when this stretch of host operations starts, after it the patch-matrix buffer holds the
  patch matrix (the function patchRows1) of what the input buffer held: each of the stretch's operations writes one
  buffer of its own, as a function of buffers written earlier in the stretch or of the input buffer, so reading the last
  buffer composes the operations; the 25 window operations of the program are the 25 values of one window function
  of the tap number. Read at an index, the matrix at row (24 n + i) 24 + j and the column of tap (di, dj)
  is the image batch at (n, 0, i + di, j + dj).
-/
import proofs.«147057_g2000302454168391_pallasbulk_317_11_alg».proof.Proof.Gen.ReferenceIdeal.Launch
import proofs.«147057_g2000302454168391_pallasbulk_317_11_alg».proof.Proof.RefPatches1Read

noncomputable section

namespace Cert.ReferenceIdeal.Patches

open Idealize.ShloMosaic Idealize.ShloMosaic.ValueIdx Idealize.ShloMosaic.TcCoe
open Cert.ReferenceIdeal Cert.ReferenceIdeal.Gen

/-- After the stretch the patch-matrix buffer holds the patch matrix of the input buffer's contents. -/
theorem rows1_eq (W : Valuation τ sig (Elt Ideal)) :
    (StableHlo.after (hostOps0 (F := Ideal)) W (Proc.devRef .tc main_v54) : S147456x25.Idx → EReal)
      = patchRows1 (W (Proc.devRef .tc main_arg0)) := by
  dsimp only [hostOps0]
  simp (disch := decide) only [StableHlo.after_cons, StableHlo.after_nil, StableHlo.unary_result', StableHlo.binary_result',
    StableHlo.reshape_result', StableHlo.nary_result', StableHlo.unary_result_ne', StableHlo.binary_result_ne',
    StableHlo.reshape_result_ne', StableHlo.nary_result_ne', Matrix.cons_val]
  rfl

/-- The patch matrix after the stretch, at row (24 n + i) 24 + j and the column of tap (di, dj). -/
theorem patches1 (W : Valuation τ sig (Elt Ideal)) (n : Fin 256) (i j : Fin 24) (di dj : Fin 5)
    (r : Fin 147456) (hr : r.val = (24 * n.val + i.val) * 24 + j.val) :
    (StableHlo.after (hostOps0 (F := Ideal)) W (Proc.devRef .tc main_v54) : S147456x25.Idx → EReal) (ix2 r (Spec.tap1 di dj))
      = (W (Proc.devRef .tc main_arg0) : S256x1x28x28.Idx → EReal) (ix4 n (0 : Fin 1) (Spec.sh i di) (Spec.sh j dj)) :=
  (congrFun (rows1_eq W) _).trans (patchRows1_apply _ n i j di dj r hr)

end Cert.ReferenceIdeal.Patches

end
-- ==== Proof.RefPatches2Read.lean ====
/-
  The patch matrix of the second convolution, read at an index.

  The input is the first convolution's output matrix (row (24 n + i) 24 + j, channel); it is first unflattened to (image, row, column, channel).
  Window k (k = 5 di + dj, so di = k / 5 and dj = k % 5) is the 20x20 block of the 24x24 array at offsets (di, dj),
  with a unit tap axis inserted before the channel axis. The 25 windows are laid end to end along the tap axis as a run of
  16 (taps 0 to 15) followed by a run of 9 (taps 16 to 24), and the result is flattened to 102400 rows
  (image n, row i, column j at row (20 n + i) 20 + j) by 800 columns (tap k, channel c at column k 32 + c).

  The theorem: that matrix at row (20 n + i) 20 + j and the column of tap (di, dj), channel ci, is the input matrix at row (24 n + (i + di)) 24 + (j + dj), column ci.
  The proof follows the construction backwards: the flattening, the choice of run by comparing the tap number with 16,
  the piece of the run, the window, and the rearrangement of the input; the arithmetic is (5 di + dj) / 5 = di and
  (5 di + dj) % 5 = dj for dj below 5.
-/
import proofs.«147057_g2000302454168391_pallasbulk_317_11_alg».proof.Proof.Gen.ReferenceIdeal
import proofs.«147057_g2000302454168391_pallasbulk_317_11_alg».proof.Proof.RefPatchesCore
import proofs.«147057_g2000302454168391_pallasbulk_317_11_alg».proof.Proof.Spec

noncomputable section

namespace Cert.ReferenceIdeal.Patches

open Idealize.ShloMosaic Idealize.ShloMosaic.ValueIdx
open Cert.ReferenceIdeal Cert.ReferenceIdeal.Gen

/-- Every tap's offsets (k / 5, k % 5) leave a 20x20 window inside the 24x24 array. -/
theorem window2_fits (k : Fin 25) : S256x24x24x32.Slices ![0, k.val / 5, k.val % 5, 0] S256x20x20x32 :=
  ⟨rfl, fun a => by
    have hk := k.isLt
    match a with
    | ⟨0, _⟩ => show 0 + 256 ≤ 256; omega
    | ⟨1, _⟩ => show k.val / 5 + 20 ≤ 24; omega
    | ⟨2, _⟩ => show k.val % 5 + 20 ≤ 24; omega
    | ⟨3, _⟩ => show 0 + 32 ≤ 32; omega⟩

/-- Window k of the array x, with its unit tap axis. -/
def window2 (x : S256x24x24x32.Idx → EReal) (k : Fin 25) : S256x20x20x1x32.Idx → EReal :=
  broadcastInDim S256x20x20x1x32 ![0, 1, 2, 4] bcast_S256x20x20x32_S256x20x20x1x32_0_1_2_4
    (extractStridedSlice S256x20x20x32 ![0, k.val / 5, k.val % 5, 0] x (window2_fits k))

/-- Window k at (n, i, j, 0, c) is the array at (n, i + k / 5, j + k % 5, c). -/
theorem window2_apply (x : S256x24x24x32.Idx → EReal) (k : Fin 25) (n : Fin 256) (i j : Fin 20) (c : Fin 32)
    (i' j' : Fin 24) (h1 : i'.val = i.val + k.val / 5) (h2 : j'.val = j.val + k.val % 5) :
    window2 x k (ix5 n i j (0 : Fin 1) c) = x (ix4 n i' j' c) := by
  unfold window2
  exact window_apply _ x _ _ n i j c i' j' rfl h1 h2 rfl

/-- The patch matrix as a function of the input y. -/
def patchRows2 (y : S147456x32.Idx → EReal) : S102400x800.Idx → EReal :=
  shapeCast S102400x800
    (concatenate S256x20x20x25x32 3
      [⟨S256x20x20x16x32, concatenate S256x20x20x16x32 3
          (List.ofFn fun m : Fin 16 => (⟨S256x20x20x1x32, window2 (shapeCast S256x24x24x32 y shapeCasts_S147456x32_S256x24x24x32)
              ⟨m.val, Nat.lt_of_lt_of_le m.isLt (by decide)⟩⟩ : (s : Shape) × (s.Idx → EReal)))
          concatenates_S256x20x20x1x32_S256x20x20x1x32_S256x20x20x1x32_S256x20x20x1x32_S256x20x20x1x32_S256x20x20x1x32_S256x20x20x1x32_S256x20x20x1x32_S256x20x20x1x32_S256x20x20x1x32_S256x20x20x1x32_S256x20x20x1x32_S256x20x20x1x32_S256x20x20x1x32_S256x20x20x1x32_S256x20x20x1x32_S256x20x20x16x32_d3⟩,
       ⟨S256x20x20x9x32, concatenate S256x20x20x9x32 3
          (List.ofFn fun m : Fin 9 => (⟨S256x20x20x1x32, window2 (shapeCast S256x24x24x32 y shapeCasts_S147456x32_S256x24x24x32)
              ⟨16 + m.val, Nat.add_lt_add_left m.isLt 16⟩⟩ : (s : Shape) × (s.Idx → EReal)))
          concatenates_S256x20x20x1x32_S256x20x20x1x32_S256x20x20x1x32_S256x20x20x1x32_S256x20x20x1x32_S256x20x20x1x32_S256x20x20x1x32_S256x20x20x1x32_S256x20x20x1x32_S256x20x20x9x32_d3⟩]
      concatenates_S256x20x20x16x32_S256x20x20x9x32_S256x20x20x25x32_d3)
    shapeCasts_S256x20x20x25x32_S102400x800

/-- The patch matrix at row (20 n + i) 20 + j, column of tap (di, dj) and channel ci: the input matrix at row (24 n + (i + di)) 24 + (j + dj), column ci. -/
theorem patchRows2_apply (y : S147456x32.Idx → EReal) (n : Fin 256) (i j : Fin 20) (di dj : Fin 5) (ci : Fin 32)
    (r : Fin 102400) (hr : r.val = (20 * n.val + i.val) * 20 + j.val)
    (r' : Fin 147456) (hr' : r'.val = (24 * n.val + (i.val + di.val)) * 24 + (j.val + dj.val)) :
    patchRows2 y (ix2 r (Spec.tap32 di dj ci)) = y (ix2 r' ci) := by
  have hdi := di.isLt; have hdj := dj.isLt
  unfold patchRows2
  refine (rows_apply _ _ rfl n i j (Spec.tap1 di dj) ci r _ hr (by show (5 * di.val + dj.val) * 32 + ci.val = (5 * di.val + dj.val) * 32 + ci.val; rfl)).trans ?_
  by_cases hk : 5 * di.val + dj.val < 16
  · refine (joinLeft_apply _ _ _ n i j (Spec.tap1 di dj) ⟨5 * di.val + dj.val, hk⟩ rfl ci).trans ?_
    refine (run_apply _ _ n i j ⟨5 * di.val + dj.val, hk⟩ ci).trans ?_
    refine (window2_apply _ _ n i j ci (Spec.sh i di) (Spec.sh j dj) ?_ ?_).trans ?_
    · show i.val + di.val = i.val + (5 * di.val + dj.val) / 5; omega
    · show j.val + dj.val = j.val + (5 * di.val + dj.val) % 5; omega
    exact grid_apply y _ n (Spec.sh i di) (Spec.sh j dj) ci r' hr'
  · have hk' : 5 * di.val + dj.val - 16 < 9 := by omega
    refine (joinRight_apply _ _ _ n i j (Spec.tap1 di dj) ⟨5 * di.val + dj.val - 16, hk'⟩
      (by show 5 * di.val + dj.val - 16 + 16 = 5 * di.val + dj.val; omega) ci).trans ?_
    refine (run_apply _ _ n i j ⟨5 * di.val + dj.val - 16, hk'⟩ ci).trans ?_
    refine (window2_apply _ _ n i j ci (Spec.sh i di) (Spec.sh j dj) ?_ ?_).trans ?_
    · show i.val + di.val = i.val + (16 + (5 * di.val + dj.val - 16)) / 5; omega
    · show j.val + dj.val = j.val + (16 + (5 * di.val + dj.val - 16)) % 5; omega
    exact grid_apply y _ n (Spec.sh i di) (Spec.sh j dj) ci r' hr'

end Cert.ReferenceIdeal.Patches

end
-- ==== Proof.RefPatches2.lean ====
/-
  The host operations before the second convolution's matrix product build its patch matrix.

  Whatever the buffers hold when this stretch of host operations starts, after it the patch-matrix buffer holds the
  patch matrix (the function patchRows2) of what the input buffer held: each of the stretch's operations writes one
  buffer of its own, as a function of buffers written earlier in the stretch or of the input buffer, so reading the last
  buffer composes the operations; the 25 window operations of the program are the 25 values of one window function
  of the tap number. Read at an index, the matrix at row (20 n + i) 20 + j and the column of tap (di, dj), channel ci,
  is the previous layer's output matrix at row (24 n + (i + di)) 24 + (j + dj), column ci.
-/
import proofs.«147057_g2000302454168391_pallasbulk_317_11_alg».proof.Proof.Gen.ReferenceIdeal.Launch
import proofs.«147057_g2000302454168391_pallasbulk_317_11_alg».proof.Proof.RefPatches2Read

noncomputable section

namespace Cert.ReferenceIdeal.Patches

open Idealize.ShloMosaic Idealize.ShloMosaic.ValueIdx Idealize.ShloMosaic.TcCoe
open Cert.ReferenceIdeal Cert.ReferenceIdeal.Gen

/-- After the stretch the patch-matrix buffer holds the patch matrix of the input buffer's contents. -/
theorem rows2_eq (W : Valuation τ sig (Elt Ideal)) :
    (StableHlo.after (hostOps1 (F := Ideal)) W (Proc.devRef .tc main_v110) : S102400x800.Idx → EReal)
      = patchRows2 (W (Proc.devRef .tc main_v55)) := by
  dsimp only [hostOps1]
  simp (disch := decide) only [StableHlo.after_cons, StableHlo.after_nil, StableHlo.unary_result', StableHlo.binary_result',
    StableHlo.reshape_result', StableHlo.nary_result', StableHlo.unary_result_ne', StableHlo.binary_result_ne',
    StableHlo.reshape_result_ne', StableHlo.nary_result_ne', Matrix.cons_val]
  rfl

/-- The patch matrix after the stretch, at row (20 n + i) 20 + j and the column of tap (di, dj) and channel ci. -/
theorem patches2 (W : Valuation τ sig (Elt Ideal)) (n : Fin 256) (i j : Fin 20) (di dj : Fin 5) (ci : Fin 32)
    (r : Fin 102400) (hr : r.val = (20 * n.val + i.val) * 20 + j.val)
    (r' : Fin 147456) (hr' : r'.val = (24 * n.val + (i.val + di.val)) * 24 + (j.val + dj.val)) :
    (StableHlo.after (hostOps1 (F := Ideal)) W (Proc.devRef .tc main_v110) : S102400x800.Idx → EReal) (ix2 r (Spec.tap32 di dj ci))
      = (W (Proc.devRef .tc main_v55) : S147456x32.Idx → EReal) (ix2 r' ci) :=
  (congrFun (rows2_eq W) _).trans (patchRows2_apply _ n i j di dj ci r hr r' hr')

end Cert.ReferenceIdeal.Patches

end
-- ==== Proof.RefPatches3Read.lean ====
/-
  The patch matrix of the third convolution, read at an index.

  The input is the second convolution's output matrix (row (20 n + i) 20 + j, channel); it is first unflattened to (image, row, column, channel).
  Window k (k = 5 di + dj, so di = k / 5 and dj = k % 5) is the 16x16 block of the 20x20 array at offsets (di, dj),
  with a unit tap axis inserted before the channel axis. The 25 windows are laid end to end along the tap axis as a run of
  16 (taps 0 to 15) followed by a run of 9 (taps 16 to 24), and the result is flattened to 65536 rows
  (image n, row i, column j at row (16 n + i) 16 + j) by 800 columns (tap k, channel c at column k 32 + c).

  The theorem: that matrix at row (16 n + i) 16 + j and the column of tap (di, dj), channel ci, is the input matrix at row (20 n + (i + di)) 20 + (j + dj), column ci.
  The proof follows the construction backwards: the flattening, the choice of run by comparing the tap number with 16,
  the piece of the run, the window, and the rearrangement of the input; the arithmetic is (5 di + dj) / 5 = di and
  (5 di + dj) % 5 = dj for dj below 5.
-/
import proofs.«147057_g2000302454168391_pallasbulk_317_11_alg».proof.Proof.Gen.ReferenceIdeal
import proofs.«147057_g2000302454168391_pallasbulk_317_11_alg».proof.Proof.RefPatchesCore
import proofs.«147057_g2000302454168391_pallasbulk_317_11_alg».proof.Proof.Spec

noncomputable section

namespace Cert.ReferenceIdeal.Patches

open Idealize.ShloMosaic Idealize.ShloMosaic.ValueIdx
open Cert.ReferenceIdeal Cert.ReferenceIdeal.Gen

/-- Every tap's offsets (k / 5, k % 5) leave a 16x16 window inside the 20x20 array. -/
theorem window3_fits (k : Fin 25) : S256x20x20x32.Slices ![0, k.val / 5, k.val % 5, 0] S256x16x16x32 :=
  ⟨rfl, fun a => by
    have hk := k.isLt
    match a with
    | ⟨0, _⟩ => show 0 + 256 ≤ 256; omega
    | ⟨1, _⟩ => show k.val / 5 + 16 ≤ 20; omega
    | ⟨2, _⟩ => show k.val % 5 + 16 ≤ 20; omega
    | ⟨3, _⟩ => show 0 + 32 ≤ 32; omega⟩

/-- Window k of the array x, with its unit tap axis. -/
def window3 (x : S256x20x20x32.Idx → EReal) (k : Fin 25) : S256x16x16x1x32.Idx → EReal :=
  broadcastInDim S256x16x16x1x32 ![0, 1, 2, 4] bcast_S256x16x16x32_S256x16x16x1x32_0_1_2_4
    (extractStridedSlice S256x16x16x32 ![0, k.val / 5, k.val % 5, 0] x (window3_fits k))

/-- Window k at (n, i, j, 0, c) is the array at (n, i + k / 5, j + k % 5, c). -/
theorem window3_apply (x : S256x20x20x32.Idx → EReal) (k : Fin 25) (n : Fin 256) (i j : Fin 16) (c : Fin 32)
    (i' j' : Fin 20) (h1 : i'.val = i.val + k.val / 5) (h2 : j'.val = j.val + k.val % 5) :
    window3 x k (ix5 n i j (0 : Fin 1) c) = x (ix4 n i' j' c) := by
  unfold window3
  exact window_apply _ x _ _ n i j c i' j' rfl h1 h2 rfl

/-- The patch matrix as a function of the input y. -/
def patchRows3 (y : S102400x32.Idx → EReal) : S65536x800.Idx → EReal :=
  shapeCast S65536x800
    (concatenate S256x16x16x25x32 3
      [⟨S256x16x16x16x32, concatenate S256x16x16x16x32 3
          (List.ofFn fun m : Fin 16 => (⟨S256x16x16x1x32, window3 (shapeCast S256x20x20x32 y shapeCasts_S102400x32_S256x20x20x32)
              ⟨m.val, Nat.lt_of_lt_of_le m.isLt (by decide)⟩⟩ : (s : Shape) × (s.Idx → EReal)))
          concatenates_S256x16x16x1x32_S256x16x16x1x32_S256x16x16x1x32_S256x16x16x1x32_S256x16x16x1x32_S256x16x16x1x32_S256x16x16x1x32_S256x16x16x1x32_S256x16x16x1x32_S256x16x16x1x32_S256x16x16x1x32_S256x16x16x1x32_S256x16x16x1x32_S256x16x16x1x32_S256x16x16x1x32_S256x16x16x1x32_S256x16x16x16x32_d3⟩,
       ⟨S256x16x16x9x32, concatenate S256x16x16x9x32 3
          (List.ofFn fun m : Fin 9 => (⟨S256x16x16x1x32, window3 (shapeCast S256x20x20x32 y shapeCasts_S102400x32_S256x20x20x32)
              ⟨16 + m.val, Nat.add_lt_add_left m.isLt 16⟩⟩ : (s : Shape) × (s.Idx → EReal)))
          concatenates_S256x16x16x1x32_S256x16x16x1x32_S256x16x16x1x32_S256x16x16x1x32_S256x16x16x1x32_S256x16x16x1x32_S256x16x16x1x32_S256x16x16x1x32_S256x16x16x1x32_S256x16x16x9x32_d3⟩]
      concatenates_S256x16x16x16x32_S256x16x16x9x32_S256x16x16x25x32_d3)
    shapeCasts_S256x16x16x25x32_S65536x800

/-- The patch matrix at row (16 n + i) 16 + j, column of tap (di, dj) and channel ci: the input matrix at row (20 n + (i + di)) 20 + (j + dj), column ci. -/
theorem patchRows3_apply (y : S102400x32.Idx → EReal) (n : Fin 256) (i j : Fin 16) (di dj : Fin 5) (ci : Fin 32)
    (r : Fin 65536) (hr : r.val = (16 * n.val + i.val) * 16 + j.val)
    (r' : Fin 102400) (hr' : r'.val = (20 * n.val + (i.val + di.val)) * 20 + (j.val + dj.val)) :
    patchRows3 y (ix2 r (Spec.tap32 di dj ci)) = y (ix2 r' ci) := by
  have hdi := di.isLt; have hdj := dj.isLt
  unfold patchRows3
  refine (rows_apply _ _ rfl n i j (Spec.tap1 di dj) ci r _ hr (by show (5 * di.val + dj.val) * 32 + ci.val = (5 * di.val + dj.val) * 32 + ci.val; rfl)).trans ?_
  by_cases hk : 5 * di.val + dj.val < 16
  · refine (joinLeft_apply _ _ _ n i j (Spec.tap1 di dj) ⟨5 * di.val + dj.val, hk⟩ rfl ci).trans ?_
    refine (run_apply _ _ n i j ⟨5 * di.val + dj.val, hk⟩ ci).trans ?_
    refine (window3_apply _ _ n i j ci (Spec.sh i di) (Spec.sh j dj) ?_ ?_).trans ?_
    · show i.val + di.val = i.val + (5 * di.val + dj.val) / 5; omega
    · show j.val + dj.val = j.val + (5 * di.val + dj.val) % 5; omega
    exact grid_apply y _ n (Spec.sh i di) (Spec.sh j dj) ci r' hr'
  · have hk' : 5 * di.val + dj.val - 16 < 9 := by omega
    refine (joinRight_apply _ _ _ n i j (Spec.tap1 di dj) ⟨5 * di.val + dj.val - 16, hk'⟩
      (by show 5 * di.val + dj.val - 16 + 16 = 5 * di.val + dj.val; omega) ci).trans ?_
    refine (run_apply _ _ n i j ⟨5 * di.val + dj.val - 16, hk'⟩ ci).trans ?_
    refine (window3_apply _ _ n i j ci (Spec.sh i di) (Spec.sh j dj) ?_ ?_).trans ?_
    · show i.val + di.val = i.val + (16 + (5 * di.val + dj.val - 16)) / 5; omega
    · show j.val + dj.val = j.val + (16 + (5 * di.val + dj.val - 16)) % 5; omega
    exact grid_apply y _ n (Spec.sh i di) (Spec.sh j dj) ci r' hr'

end Cert.ReferenceIdeal.Patches

end
-- ==== Proof.RefPatches3.lean ====
/-
  The host operations before the third convolution's matrix product build its patch matrix.

  Whatever the buffers hold when this stretch of host operations starts, after it the patch-matrix buffer holds the
  patch matrix (the function patchRows3) of what the input buffer held: each of the stretch's operations writes one
  buffer of its own, as a function of buffers written earlier in the stretch or of the input buffer, so reading the last
  buffer composes the operations; the 25 window operations of the program are the 25 values of one window function
  of the tap number. Read at an index, the matrix at row (16 n + i) 16 + j and the column of tap (di, dj), channel ci,
  is the previous layer's output matrix at row (20 n + (i + di)) 20 + (j + dj), column ci.
-/
import proofs.«147057_g2000302454168391_pallasbulk_317_11_alg».proof.Proof.Gen.ReferenceIdeal.Launch
import proofs.«147057_g2000302454168391_pallasbulk_317_11_alg».proof.Proof.RefPatches3Read

noncomputable section

namespace Cert.ReferenceIdeal.Patches

open Idealize.ShloMosaic Idealize.ShloMosaic.ValueIdx Idealize.ShloMosaic.TcCoe
open Cert.ReferenceIdeal Cert.ReferenceIdeal.Gen

/-- After the stretch the patch-matrix buffer holds the patch matrix of the input buffer's contents. -/
theorem rows3_eq (W : Valuation τ sig (Elt Ideal)) :
    (StableHlo.after (hostOps2 (F := Ideal)) W (Proc.devRef .tc main_v166) : S65536x800.Idx → EReal)
      = patchRows3 (W (Proc.devRef .tc main_v111)) := by
  dsimp only [hostOps2]
  simp (disch := decide) only [StableHlo.after_cons, StableHlo.after_nil, StableHlo.unary_result', StableHlo.binary_result',
    StableHlo.reshape_result', StableHlo.nary_result', StableHlo.unary_result_ne', StableHlo.binary_result_ne',
    StableHlo.reshape_result_ne', StableHlo.nary_result_ne', Matrix.cons_val]
  rfl

/-- The patch matrix after the stretch, at row (16 n + i) 16 + j and the column of tap (di, dj) and channel ci. -/
theorem patches3 (W : Valuation τ sig (Elt Ideal)) (n : Fin 256) (i j : Fin 16) (di dj : Fin 5) (ci : Fin 32)
    (r : Fin 65536) (hr : r.val = (16 * n.val + i.val) * 16 + j.val)
    (r' : Fin 102400) (hr' : r'.val = (20 * n.val + (i.val + di.val)) * 20 + (j.val + dj.val)) :
    (StableHlo.after (hostOps2 (F := Ideal)) W (Proc.devRef .tc main_v166) : S65536x800.Idx → EReal) (ix2 r (Spec.tap32 di dj ci))
      = (W (Proc.devRef .tc main_v111) : S102400x32.Idx → EReal) (ix2 r' ci) :=
  (congrFun (rows3_eq W) _).trans (patchRows3_apply _ n i j di dj ci r hr r' hr')

end Cert.ReferenceIdeal.Patches

end
-- ==== Proof.RefReshapesRead.lean ====
/-
  The dense layer's input, read at an index.

  The third convolution's output is a matrix with one row per (image n, row i, column j), at row (16 n + i) 16 + j, and
  one column per channel o. It is unflattened to (image, row, column, channel) and flattened again to one row per image
  with the 16384 features (row, column, channel) in that order, channel fastest: feature (16 i + j) 64 + o.
  So the feature matrix at (n, (16 i + j) 64 + o) is the convolution's output matrix at ((16 n + i) 16 + j, o): both
  flattenings keep the row-major position, and ((16 n + i) 16 + j) 64 + o = n 16384 + ((16 i + j) 64 + o).
-/
import proofs.«147057_g2000302454168391_pallasbulk_317_11_alg».proof.Proof.Gen.ReferenceIdeal
import proofs.«147057_g2000302454168391_pallasbulk_317_11_alg».proof.Proof.RefPatchesCore
import proofs.«147057_g2000302454168391_pallasbulk_317_11_alg».proof.Proof.Spec

noncomputable section

namespace Cert.ReferenceIdeal.Patches

open Idealize.ShloMosaic Idealize.ShloMosaic.ValueIdx
open Cert.ReferenceIdeal Cert.ReferenceIdeal.Gen

/-- The feature matrix as a function of the third convolution's output matrix y. -/
def featRows (y : S65536x64.Idx → EReal) : S256x16384.Idx → EReal :=
  shapeCast S256x16384 (shapeCast S256x16x16x64 y shapeCasts_S65536x64_S256x16x16x64) shapeCasts_S256x16x16x64_S256x16384

/-- The feature matrix at image n, feature (16 i + j) 64 + o is y at row (16 n + i) 16 + j, column o. -/
theorem featRows_apply (y : S65536x64.Idx → EReal) (n : Fin 256) (i j : Fin 16) (o : Fin 64)
    (r : Fin 65536) (hr : r.val = (16 * n.val + i.val) * 16 + j.val) :
    featRows y (ix2 n (Spec.feat i j o)) = y (ix2 r o) := by
  unfold featRows
  refine (flat_apply _ _ rfl n i j o (Spec.feat i j o) rfl).trans ?_
  exact grid_apply y _ n i j o r hr

end Cert.ReferenceIdeal.Patches

end
-- ==== Proof.RefReshapes.lean ====
/-
  The host operations before the dense layers build the feature matrix.

  Whatever the buffers hold when this stretch of two reshapes starts, after it the feature buffer holds the feature matrix
  (the function featRows) of what the third convolution's output buffer held; read at an index, image n and feature
  (16 i + j) 64 + o is that output at row (16 n + i) 16 + j, column o.
-/
import proofs.«147057_g2000302454168391_pallasbulk_317_11_alg».proof.Proof.Gen.ReferenceIdeal.Launch
import proofs.«147057_g2000302454168391_pallasbulk_317_11_alg».proof.Proof.RefReshapesRead

noncomputable section

namespace Cert.ReferenceIdeal.Patches

open Idealize.ShloMosaic Idealize.ShloMosaic.ValueIdx Idealize.ShloMosaic.TcCoe
open Cert.ReferenceIdeal Cert.ReferenceIdeal.Gen

/-- After the stretch the feature buffer holds the feature matrix of the convolution output buffer's contents. -/
theorem feats_eq (W : Valuation τ sig (Elt Ideal)) :
    (StableHlo.after (hostOps3 (F := Ideal)) W (Proc.devRef .tc main_v169) : S256x16384.Idx → EReal)
      = featRows (W (Proc.devRef .tc main_v167)) := by
  dsimp only [hostOps3]
  after_results
  rfl

/-- The feature matrix after the stretch at image n, feature (16 i + j) 64 + o. -/
theorem features (W : Valuation τ sig (Elt Ideal)) (n : Fin 256) (i j : Fin 16) (o : Fin 64)
    (r : Fin 65536) (hr : r.val = (16 * n.val + i.val) * 16 + j.val) :
    (StableHlo.after (hostOps3 (F := Ideal)) W (Proc.devRef .tc main_v169) : S256x16384.Idx → EReal) (ix2 n (Spec.feat i j o))
      = (W (Proc.devRef .tc main_v167) : S65536x64.Idx → EReal) (ix2 r o) :=
  (congrFun (feats_eq W) _).trans (featRows_apply _ n i j o r hr)

end Cert.ReferenceIdeal.Patches

end
-- ==== Proof.RefConvValue0.lean ====
/-
  What region 0 of the reference program leaves in its output array: the first convolution layer as a matrix
  product. With X the 147456 x 25 patch matrix, W the 25 x 32 weight matrix and b the bias row as the region finds them,
  the output array ends holding max (X W + b, 0): entry (r, o) is the maximum of zero and the sum over the 25 taps k
  of X (r, k) W (k, o), plus b (0, o).
  One grid point t computes rows 384 t to 384 t + 383: its patch block is those rows of X, its weight and bias blocks are the
  whole of W and b, and what it writes back is those rows of the result. Row r is written by point r / 384, so the 384
  points cover the array.
-/
import proofs.«147057_g2000302454168391_pallasbulk_317_11_alg».proof.Proof.RefConv0
import Idealize.ShloMosaic.Lib.Pipeline.Value
import Idealize.ShloMosaic.PureOps.Ideal.Laws
import Idealize.ShloMosaic.Lib.ValueIdx

noncomputable section

namespace Cert.ReferenceIdeal.Conv0V

open Cert.ReferenceIdeal Cert.ReferenceIdeal.Gen
open Idealize.ShloMosaic Idealize.ShloMosaic.TcCoe Idealize.SL.Sem Idealize.ShloMosaic.ValueIdx
open Idealize.ShloMosaic.Pipeline (Dat)

/-! ## A rectified product plus bias row, read at an index

Stated once for all extents: the three convolution layers and the two dense layers are this with different sizes. -/

/-- A plain matrix product into the zero accumulator, read at row a and column b: the sum over the contracted
    coordinate of the products of the entries. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A row vector broadcast down the rows, read at row a and column b, is the row's entry b. -/
theorem broadcastTo_row_apply {M N : Nat} {α : Type} (x : (⟨2, ![1, N]⟩ : Shape).Idx → α)
    (h : (⟨2, ![1, N]⟩ : Shape).Broadcasts ⟨2, ![M, N]⟩) (a : Fin M) (b : Fin N) :
    broadcastTo ⟨2, ![M, N]⟩ x h (ix2 a b) = x (ix2 0 b) := by
  refine broadcastTo_apply x h (ix2 a b) (ix2 0 b) fun ax => ?_
  match ax with
  | ⟨0, _⟩ => simp
  | ⟨1, _⟩ =>
    show b.val = if N = 1 then 0 else b.val
    split_ifs with hN
    · have := b.isLt; omega
    · rfl

/-- The rectified product plus bias row, read at row r and column o: the maximum of zero and the row of x times the
    column of w, plus the bias entry. -/
theorem dense_relu_apply {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (b : FVec Ideal ⟨2, ![1, N]⟩ .f32)
    (hc : (⟨2, ![M, K]⟩ : Shape).ShapeCasts ⟨2, ![M, K]⟩) (hb : (⟨2, ![1, N]⟩ : Shape).Broadcasts ⟨2, ![M, N]⟩)
    (r : Fin M) (o : Fin N) :
    maximumf (addf (matmul D none (shapeCast ⟨2, ![M, K]⟩ x hc) w (constant ⟨2, ![M, N]⟩ .f32 0x00000000#32))
        (broadcastTo ⟨2, ![M, N]⟩ b hb)) (broadcast ⟨2, ![M, N]⟩ (Scalar.ofBits (F := Ideal) .f32 0x00000000#32)) (ix2 r o)
      = max ((∑ k : Fin K, x (ix2 r k) * w (ix2 k o)) + b (ix2 0 o)) 0 := by
  subst hD
  rw [shapeCast_self]
  show max (FloatOps.matmul (DotDims.plain M K N) none x w (constant ⟨2, ![M, N]⟩ .f32 0x00000000#32) (ix2 r o)
      + broadcastTo ⟨2, ![M, N]⟩ b hb (ix2 r o)) (Ideal.ofBits .f32 0x00000000#32) = _
  rw [matmul_plain_zero_apply, broadcastTo_row_apply, Ideal.ofBits_zero_f32]

/-- The zero offsets of a whole-buffer access, however spelt. -/
theorem hz : (![0, 0] : Fin 2 → Nat) = fun _ => 0 := funext fun a => by fin_cases a <;> rfl

/-! ## The body's value at an index -/

/-- The one store's value at row r and column o of the block, over any three loaded blocks. -/
theorem pay_apply (x0 : Vec Ideal S384x25 .f32) (x1 : Vec Ideal S25x32 .f32) (x2 : Vec Ideal S1x32 .f32)
    (r : Fin 384) (o : Fin 32) :
    k0_pay1 x0 x1 x2 (ix2 r o) = max ((∑ k : Fin 25, x0 (ix2 r k) * x1 (ix2 k o)) + x2 (ix2 0 o)) 0 := by
  unfold k0_pay1
  exact dense_relu_apply dot_S384x25_S25x32_S384x32_1_0_0_1_n_n rfl x0 x1 x2 _ _ r o

variable (V : (c : Dev nD) → (b : Ref sig .tc) → Buf (Elt Ideal) ((c : Thread nD τ).loc b))

/-! ## The blocks as parts of the arrays -/

/-- The windows' block indices, decided over the grid: the patch and output windows are at block row t, the weight
    and bias windows stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The patch window's block at point t is rows 384 t to 384 t + 383 of the patch matrix. -/
theorem iblk0_apply (c : Dev nD) (t : Fin cfg0.N) (r : Fin 384) (k : Fin 25) (R : Fin 147456)
    (hR : R.val = t.val * 384 + r.val) :
    (Conv0.iblk V c 0 t : Vec Ideal S384x25 .f32) (ix2 r k) = (V c main_v54 : S147456x25.Idx → EReal) (ix2 R k) := by
  obtain ⟨e0, e1, -⟩ := idx_facts t
  unfold Conv0.iblk
  rw [View.read_apply]
  show V c main_v54 _ = V c main_v54 _
  refine congrArg (V c main_v54) (funext fun a => Fin.ext ?_)
  match a with
  | ⟨0, _⟩ => show win0_0.index t (0 : Fin 2) * 384 + 1 * r.val = R.val; rw [e0, hR]; omega
  | ⟨1, _⟩ => show win0_0.index t (1 : Fin 2) * 25 + 1 * k.val = k.val; rw [e1]; omega

/-- The weight window's block at every point is the whole weight matrix. -/
theorem iblk1_apply (c : Dev nD) (t : Fin cfg0.N) (k : Fin 25) (o : Fin 32) :
    (Conv0.iblk V c 1 t : Vec Ideal S25x32 .f32) (ix2 k o) = (V c main_arg1 : S25x32.Idx → EReal) (ix2 k o) := by
  obtain ⟨-, -, e0, e1, -⟩ := idx_facts t
  unfold Conv0.iblk
  rw [View.read_apply]
  show V c main_arg1 _ = V c main_arg1 _
  refine congrArg (V c main_arg1) (funext fun a => Fin.ext ?_)
  match a with
  | ⟨0, _⟩ => show win0_1.index t (0 : Fin 2) * 25 + 1 * k.val = k.val; rw [e0]; omega
  | ⟨1, _⟩ => show win0_1.index t (1 : Fin 2) * 32 + 1 * o.val = o.val; rw [e1]; omega

/-- The bias window's block at every point is the whole bias row. -/
theorem iblk2_apply (c : Dev nD) (t : Fin cfg0.N) (z : Fin 1) (o : Fin 32) :
    (Conv0.iblk V c 2 t : Vec Ideal S1x32 .f32) (ix2 z o) = (V c main_arg2 : S1x32.Idx → EReal) (ix2 z o) := by
  obtain ⟨-, -, -, -, e0, e1, -⟩ := idx_facts t
  unfold Conv0.iblk
  rw [View.read_apply]
  show V c main_arg2 _ = V c main_arg2 _
  refine congrArg (V c main_arg2) (funext fun a => Fin.ext ?_)
  match a with
  | ⟨0, _⟩ => show win0_2.index t (0 : Fin 2) * 1 + 1 * z.val = z.val; rw [e0]; omega
  | ⟨1, _⟩ => show win0_2.index t (1 : Fin 2) * 32 + 1 * o.val = o.val; rw [e1]; omega

/-! ## The layer, and what a point writes back -/

/-- The layer as one function of the whole arrays: entry (r, o) of max (X W + b, 0). -/
def layer (X : S147456x25.Idx → EReal) (W : S25x32.Idx → EReal) (B : S1x32.Idx → EReal) : S147456x32.Idx → EReal :=
  fun i => max ((∑ k : Fin 25, X (ix2 (i 0) k) * W (ix2 k (i 1))) + B (ix2 0 (i 1))) 0

theorem layer_apply (X : S147456x25.Idx → EReal) (W : S25x32.Idx → EReal) (B : S1x32.Idx → EReal) (r : Fin 147456) (o : Fin 32) :
    layer X W B (ix2 r o) = max ((∑ k : Fin 25, X (ix2 r k) * W (ix2 k o)) + B (ix2 0 o)) 0 := rfl

/-- What point t writes back is block t of the layer of the arrays as the region finds them. -/
theorem flushed_eq (c : Dev nD) (t : Fin cfg0.N) :
    (Conv0.dat (F := Ideal) V c).flushed 3 t
      = ((cfg0.win 3).blk t).view.read (Elt Ideal) (layer (V c main_v54) (V c main_arg1) (V c main_arg2)) := by
  show (cfg0.win 3).cut (grid0.coords t) ((Conv0.dat (F := Ideal) V c).after 3 t) = _
  rw [Conv0.after_3]
  unfold Conv0.out
  rw [View.canon_unit_zero hz]
  simp only [View.ld_unit_zero (S := S384x25) hz, View.ld_unit_zero (S := S25x32) hz, View.ld_unit_zero (S := S1x32) hz]
  funext j
  obtain ⟨r, o, rfl⟩ : ∃ (r : Fin 384) (o : Fin 32), j = ix2 r o := ⟨j 0, j 1, eq_ix2 j⟩
  obtain ⟨-, -, -, -, -, -, e0, e1⟩ := idx_facts t
  have ht : t.val < 384 := Nat.lt_of_lt_of_eq t.isLt N_0
  have hR : t.val * 384 + r.val < 147456 := by have := r.isLt; omega
  have hemb : ((cfg0.win 3).blk t).view.emb (ix2 r o) = (ix2 (⟨t.val * 384 + r.val, hR⟩ : Fin 147456) o : S147456x32.Idx) := by
    funext a; apply Fin.ext
    match a with
    | ⟨0, _⟩ => show win0_3.index t (0 : Fin 2) * 384 + 1 * r.val = t.val * 384 + r.val; rw [e0]; omega
    | ⟨1, _⟩ => show win0_3.index t (1 : Fin 2) * 32 + 1 * o.val = o.val; rw [e1]; omega
  show k0_pay1 (Conv0.iblk V c 0 t) (Conv0.iblk V c 1 t) (Conv0.iblk V c 2 t) (ix2 r o)
    = layer (V c main_v54) (V c main_arg1) (V c main_arg2) (((cfg0.win 3).blk t).view.emb (ix2 r o))
  rw [hemb, layer_apply]
  refine (pay_apply (Conv0.iblk V c 0 t) (Conv0.iblk V c 1 t) (Conv0.iblk V c 2 t) r o).trans ?_
  rw [iblk2_apply V c t 0 o]
  refine congrArg (fun s => max (s + (V c main_arg2 : S1x32.Idx → EReal) (ix2 0 o)) 0) (Finset.sum_congr rfl fun k _ => ?_)
  rw [iblk0_apply V c t r k ⟨t.val * 384 + r.val, hR⟩ rfl, iblk1_apply V c t k o]

/-! ## The cover, and the array after the region -/

/-- An index of the output array is in point t's block iff each coordinate is in the block's range on its axis. -/
theorem mem_blk (t : Fin cfg0.N) (i : S147456x32.Idx) :
    i ∈ ((cfg0.win 3).blk t).view.set ↔ ∀ a : Fin 2, win0_3.index t a * S384x32.size a ≤ (i a).val
      ∧ (i a).val < win0_3.index t a * S384x32.size a + S384x32.size a := by
  show i ∈ ((View.whole main_v55).slice (win0_3.rect t)).set ↔ _
  rw [View.set_slice_whole, Rect.mem_set_unit]
  exact Iff.rfl

/-- Every index of the output array is in the block of the point its row divided by 384 names. -/
theorem cover (i : S147456x32.Idx) :
    ∃ t : Fin cfg0.N, (cfg0.win 3).flush t = true ∧ i ∈ ((cfg0.win 3).blk t).view.set := by
  have hi0 : (i 0).val < 147456 := (i 0).isLt
  have hi1 : (i 1).val < 32 := (i 1).isLt
  have hN : cfg0.N = 384 := N_0
  have hlt : (i 0).val / 384 < cfg0.N := by rw [hN]; omega
  obtain ⟨-, -, -, -, -, -, e0, e1⟩ := idx_facts ⟨(i 0).val / 384, hlt⟩
  refine ⟨⟨(i 0).val / 384, hlt⟩, flush0_3 _, ?_⟩
  rw [mem_blk]
  intro a
  match a with
  | ⟨0, _⟩ =>
    show win0_3.index ⟨(i 0).val / 384, hlt⟩ (0 : Fin 2) * 384 ≤ (i 0).val
      ∧ (i 0).val < win0_3.index ⟨(i 0).val / 384, hlt⟩ (0 : Fin 2) * 384 + 384
    rw [e0]; show (i 0).val / 384 * 384 ≤ (i 0).val ∧ (i 0).val < (i 0).val / 384 * 384 + 384; omega
  | ⟨1, _⟩ =>
    show win0_3.index ⟨(i 0).val / 384, hlt⟩ (1 : Fin 2) * 32 ≤ (i 1).val
      ∧ (i 1).val < win0_3.index ⟨(i 0).val / 384, hlt⟩ (1 : Fin 2) * 32 + 32
    rw [e1]; omega

/-- THE OUTPUT ARRAY AFTER THE REGION: the layer of the patch matrix, the weight matrix and the bias row as the
    region finds them; entry (r, o) is the maximum of zero and the sum over the 25 taps k of X (r, k) W (k, o), plus
    b (0, o) (layer_apply). -/
theorem final (c : Dev nD) :
    (Conv0.dat (F := Ideal) V c).arrAt 3 cfg0.N = layer (V c main_v54) (V c main_arg1) (V c main_arg2) :=
  (Conv0.dat (F := Ideal) V c).arrAt_eq_of_cover 3 (layer (V c main_v54) (V c main_arg1) (V c main_arg2))
    (fun t _ => flushed_eq V c t) cover

/-- The same with the entry written out: X, W, B the three arrays as the region finds them, read as functions of an
    index into the extended reals. -/
theorem final_fun (c : Dev nD) :
    let X : S147456x25.Idx → EReal := V c main_v54
    let W : S25x32.Idx → EReal := V c main_arg1
    let B : S1x32.Idx → EReal := V c main_arg2
    (Conv0.dat (F := Ideal) V c).arrAt 3 cfg0.N
      = fun i : S147456x32.Idx => max ((∑ k : Fin 25, X (ix2 (i 0) k) * W (ix2 k (i 1))) + B (ix2 0 (i 1))) 0 :=
  final V c

end Cert.ReferenceIdeal.Conv0V

end
-- ==== Proof.RefConvValue1.lean ====
/-
  What region 1 of the reference program leaves in its output array: the second convolution layer as a matrix
  product. With X the 102400 x 800 patch matrix, W the 800 x 32 weight matrix and b the bias row as the region finds them,
  the output array ends holding max (X W + b, 0): entry (r, o) is the maximum of zero and the sum over the 800 taps k
  of X (r, k) W (k, o), plus b (0, o).
  One grid point t computes rows 320 t to 320 t + 319: its patch block is those rows of X, its weight and bias blocks are the
  whole of W and b, and what it writes back is those rows of the result. Row r is written by point r / 320, so the 320
  points cover the array.
-/
import proofs.«147057_g2000302454168391_pallasbulk_317_11_alg».proof.Proof.RefConv1
import proofs.«147057_g2000302454168391_pallasbulk_317_11_alg».proof.Proof.RefConvValue0
import Idealize.ShloMosaic.Lib.Pipeline.Value
import Idealize.ShloMosaic.PureOps.Ideal.Laws
import Idealize.ShloMosaic.Lib.ValueIdx

noncomputable section

namespace Cert.ReferenceIdeal.Conv1V

open Cert.ReferenceIdeal Cert.ReferenceIdeal.Gen
open Idealize.ShloMosaic Idealize.ShloMosaic.TcCoe Idealize.SL.Sem Idealize.ShloMosaic.ValueIdx
open Idealize.ShloMosaic.Pipeline (Dat)
open Cert.ReferenceIdeal.Conv0V (dense_relu_apply hz)

/-! ## The body's value at an index -/

/-- The one store's value at row r and column o of the block, over any three loaded blocks. -/
theorem pay_apply (x0 : Vec Ideal S320x800 .f32) (x1 : Vec Ideal S800x32 .f32) (x2 : Vec Ideal S1x32 .f32)
    (r : Fin 320) (o : Fin 32) :
    k1_pay1 x0 x1 x2 (ix2 r o) = max ((∑ k : Fin 800, x0 (ix2 r k) * x1 (ix2 k o)) + x2 (ix2 0 o)) 0 := by
  unfold k1_pay1
  exact dense_relu_apply dot_S320x800_S800x32_S320x32_1_0_0_1_n_n rfl x0 x1 x2 _ _ r o

variable (V : (c : Dev nD) → (b : Ref sig .tc) → Buf (Elt Ideal) ((c : Thread nD τ).loc b))

/-! ## The blocks as parts of the arrays -/

/-- The windows' block indices, decided over the grid: the patch and output windows are at block row t, the weight
    and bias windows stay at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The patch window's block at point t is rows 320 t to 320 t + 319 of the patch matrix. -/
theorem iblk0_apply (c : Dev nD) (t : Fin cfg1.N) (r : Fin 320) (k : Fin 800) (R : Fin 102400)
    (hR : R.val = t.val * 320 + r.val) :
    (Conv1.iblk V c 0 t : Vec Ideal S320x800 .f32) (ix2 r k) = (V c main_v110 : S102400x800.Idx → EReal) (ix2 R k) := by
  obtain ⟨e0, e1, -⟩ := idx_facts t
  unfold Conv1.iblk
  rw [View.read_apply]
  show V c main_v110 _ = V c main_v110 _
  refine congrArg (V c main_v110) (funext fun a => Fin.ext ?_)
  match a with
  | ⟨0, _⟩ => show win1_0.index t (0 : Fin 2) * 320 + 1 * r.val = R.val; rw [e0, hR]; omega
  | ⟨1, _⟩ => show win1_0.index t (1 : Fin 2) * 800 + 1 * k.val = k.val; rw [e1]; omega

/-- The weight window's block at every point is the whole weight matrix. -/
theorem iblk1_apply (c : Dev nD) (t : Fin cfg1.N) (k : Fin 800) (o : Fin 32) :
    (Conv1.iblk V c 1 t : Vec Ideal S800x32 .f32) (ix2 k o) = (V c main_arg3 : S800x32.Idx → EReal) (ix2 k o) := by
  obtain ⟨-, -, e0, e1, -⟩ := idx_facts t
  unfold Conv1.iblk
  rw [View.read_apply]
  show V c main_arg3 _ = V c main_arg3 _
  refine congrArg (V c main_arg3) (funext fun a => Fin.ext ?_)
  match a with
  | ⟨0, _⟩ => show win1_1.index t (0 : Fin 2) * 800 + 1 * k.val = k.val; rw [e0]; omega
  | ⟨1, _⟩ => show win1_1.index t (1 : Fin 2) * 32 + 1 * o.val = o.val; rw [e1]; omega

/-- The bias window's block at every point is the whole bias row. -/
theorem iblk2_apply (c : Dev nD) (t : Fin cfg1.N) (z : Fin 1) (o : Fin 32) :
    (Conv1.iblk V c 2 t : Vec Ideal S1x32 .f32) (ix2 z o) = (V c main_arg4 : S1x32.Idx → EReal) (ix2 z o) := by
  obtain ⟨-, -, -, -, e0, e1, -⟩ := idx_facts t
  unfold Conv1.iblk
  rw [View.read_apply]
  show V c main_arg4 _ = V c main_arg4 _
  refine congrArg (V c main_arg4) (funext fun a => Fin.ext ?_)
  match a with
  | ⟨0, _⟩ => show win1_2.index t (0 : Fin 2) * 1 + 1 * z.val = z.val; rw [e0]; omega
  | ⟨1, _⟩ => show win1_2.index t (1 : Fin 2) * 32 + 1 * o.val = o.val; rw [e1]; omega

/-! ## The layer, and what a point writes back -/

/-- The layer as one function of the whole arrays: entry (r, o) of max (X W + b, 0). -/
def layer (X : S102400x800.Idx → EReal) (W : S800x32.Idx → EReal) (B : S1x32.Idx → EReal) : S102400x32.Idx → EReal :=
  fun i => max ((∑ k : Fin 800, X (ix2 (i 0) k) * W (ix2 k (i 1))) + B (ix2 0 (i 1))) 0

theorem layer_apply (X : S102400x800.Idx → EReal) (W : S800x32.Idx → EReal) (B : S1x32.Idx → EReal) (r : Fin 102400) (o : Fin 32) :
    layer X W B (ix2 r o) = max ((∑ k : Fin 800, X (ix2 r k) * W (ix2 k o)) + B (ix2 0 o)) 0 := rfl

/-- What point t writes back is block t of the layer of the arrays as the region finds them. -/
theorem flushed_eq (c : Dev nD) (t : Fin cfg1.N) :
    (Conv1.dat (F := Ideal) V c).flushed 3 t
      = ((cfg1.win 3).blk t).view.read (Elt Ideal) (layer (V c main_v110) (V c main_arg3) (V c main_arg4)) := by
  show (cfg1.win 3).cut (grid1.coords t) ((Conv1.dat (F := Ideal) V c).after 3 t) = _
  rw [Conv1.after_3]
  unfold Conv1.out
  rw [View.canon_unit_zero hz]
  simp only [View.ld_unit_zero (S := S320x800) hz, View.ld_unit_zero (S := S800x32) hz, View.ld_unit_zero (S := S1x32) hz]
  funext j
  obtain ⟨r, o, rfl⟩ : ∃ (r : Fin 320) (o : Fin 32), j = ix2 r o := ⟨j 0, j 1, eq_ix2 j⟩
  obtain ⟨-, -, -, -, -, -, e0, e1⟩ := idx_facts t
  have ht : t.val < 320 := Nat.lt_of_lt_of_eq t.isLt N_1
  have hR : t.val * 320 + r.val < 102400 := by have := r.isLt; omega
  have hemb : ((cfg1.win 3).blk t).view.emb (ix2 r o) = (ix2 (⟨t.val * 320 + r.val, hR⟩ : Fin 102400) o : S102400x32.Idx) := by
    funext a; apply Fin.ext
    match a with
    | ⟨0, _⟩ => show win1_3.index t (0 : Fin 2) * 320 + 1 * r.val = t.val * 320 + r.val; rw [e0]; omega
    | ⟨1, _⟩ => show win1_3.index t (1 : Fin 2) * 32 + 1 * o.val = o.val; rw [e1]; omega
  show k1_pay1 (Conv1.iblk V c 0 t) (Conv1.iblk V c 1 t) (Conv1.iblk V c 2 t) (ix2 r o)
    = layer (V c main_v110) (V c main_arg3) (V c main_arg4) (((cfg1.win 3).blk t).view.emb (ix2 r o))
  rw [hemb, layer_apply]
  refine (pay_apply (Conv1.iblk V c 0 t) (Conv1.iblk V c 1 t) (Conv1.iblk V c 2 t) r o).trans ?_
  rw [iblk2_apply V c t 0 o]
  refine congrArg (fun s => max (s + (V c main_arg4 : S1x32.Idx → EReal) (ix2 0 o)) 0) (Finset.sum_congr rfl fun k _ => ?_)
  rw [iblk0_apply V c t r k ⟨t.val * 320 + r.val, hR⟩ rfl, iblk1_apply V c t k o]

/-! ## The cover, and the array after the region -/

/-- An index of the output array is in point t's block iff each coordinate is in the block's range on its axis. -/
theorem mem_blk (t : Fin cfg1.N) (i : S102400x32.Idx) :
    i ∈ ((cfg1.win 3).blk t).view.set ↔ ∀ a : Fin 2, win1_3.index t a * S320x32.size a ≤ (i a).val
      ∧ (i a).val < win1_3.index t a * S320x32.size a + S320x32.size a := by
  show i ∈ ((View.whole main_v111).slice (win1_3.rect t)).set ↔ _
  rw [View.set_slice_whole, Rect.mem_set_unit]
  exact Iff.rfl

/-- Every index of the output array is in the block of the point its row divided by 320 names. -/
theorem cover (i : S102400x32.Idx) :
    ∃ t : Fin cfg1.N, (cfg1.win 3).flush t = true ∧ i ∈ ((cfg1.win 3).blk t).view.set := by
  have hi0 : (i 0).val < 102400 := (i 0).isLt
  have hi1 : (i 1).val < 32 := (i 1).isLt
  have hN : cfg1.N = 320 := N_1
  have hlt : (i 0).val / 320 < cfg1.N := by rw [hN]; omega
  obtain ⟨-, -, -, -, -, -, e0, e1⟩ := idx_facts ⟨(i 0).val / 320, hlt⟩
  refine ⟨⟨(i 0).val / 320, hlt⟩, flush1_3 _, ?_⟩
  rw [mem_blk]
  intro a
  match a with
  | ⟨0, _⟩ =>
    show win1_3.index ⟨(i 0).val / 320, hlt⟩ (0 : Fin 2) * 320 ≤ (i 0).val
      ∧ (i 0).val < win1_3.index ⟨(i 0).val / 320, hlt⟩ (0 : Fin 2) * 320 + 320
    rw [e0]; show (i 0).val / 320 * 320 ≤ (i 0).val ∧ (i 0).val < (i 0).val / 320 * 320 + 320; omega
  | ⟨1, _⟩ =>
    show win1_3.index ⟨(i 0).val / 320, hlt⟩ (1 : Fin 2) * 32 ≤ (i 1).val
      ∧ (i 1).val < win1_3.index ⟨(i 0).val / 320, hlt⟩ (1 : Fin 2) * 32 + 32
    rw [e1]; omega

/-- THE OUTPUT ARRAY AFTER THE REGION: the layer of the patch matrix, the weight matrix and the bias row as the
    region finds them; entry (r, o) is the maximum of zero and the sum over the 800 taps k of X (r, k) W (k, o), plus
    b (0, o) (layer_apply). -/
theorem final (c : Dev nD) :
    (Conv1.dat (F := Ideal) V c).arrAt 3 cfg1.N = layer (V c main_v110) (V c main_arg3) (V c main_arg4) :=
  (Conv1.dat (F := Ideal) V c).arrAt_eq_of_cover 3 (layer (V c main_v110) (V c main_arg3) (V c main_arg4))
    (fun t _ => flushed_eq V c t) cover

/-- The same with the entry written out: X, W, B the three arrays as the region finds them, read as functions of an
    index into the extended reals. -/
theorem final_fun (c : Dev nD) :
    let X : S102400x800.Idx → EReal := V c main_v110
    let W : S800x32.Idx → EReal := V c main_arg3
    let B : S1x32.Idx → EReal := V c main_arg4
    (Conv1.dat (F := Ideal) V c).arrAt 3 cfg1.N
      = fun i : S102400x32.Idx => max ((∑ k : Fin 800, X (ix2 (i 0) k) * W (ix2 k (i 1))) + B (ix2 0 (i 1))) 0 :=
  final V c

end Cert.ReferenceIdeal.Conv1V

end
-- ==== Proof.RefConvValue2.lean ====
/-
  What region 2 of the reference program leaves in its output array: the third convolution layer as a matrix
  product. With X the 65536 x 800 patch matrix, W the 800 x 64 weight matrix and b the bias row as the region finds them,
  the output array ends holding max (X W + b, 0): entry (r, o) is the maximum of zero and the sum over the 800 taps k
  of X (r, k) W (k, o), plus b (0, o).
  One grid point t computes rows 256 t to 256 t + 255: its patch block is those rows of X, its weight and bias blocks are the
  whole of W and b, and what it writes back is those rows of the result. Row r is written by point r / 256, so the 256
  points cover the array.
-/
import proofs.«147057_g2000302454168391_pallasbulk_317_11_alg».proof.Proof.RefConv2
import proofs.«147057_g2000302454168391_pallasbulk_317_11_alg».proof.Proof.RefConvValue0
import Idealize.ShloMosaic.Lib.Pipeline.Value
import Idealize.ShloMosaic.PureOps.Ideal.Laws
import Idealize.ShloMosaic.Lib.ValueIdx

noncomputable section

namespace Cert.ReferenceIdeal.Conv2V

open Cert.ReferenceIdeal Cert.ReferenceIdeal.Gen
open Idealize.ShloMosaic Idealize.ShloMosaic.TcCoe Idealize.SL.Sem Idealize.ShloMosaic.ValueIdx
open Idealize.ShloMosaic.Pipeline (Dat)
open Cert.ReferenceIdeal.Conv0V (dense_relu_apply hz)

/-! ## The body's value at an index -/

/-- The one store's value at row r and column o of the block, over any three loaded blocks. -/
theorem pay_apply (x0 : Vec Ideal S256x800 .f32) (x1 : Vec Ideal S800x64 .f32) (x2 : Vec Ideal S1x64 .f32)
    (r : Fin 256) (o : Fin 64) :
    k2_pay1 x0 x1 x2 (ix2 r o) = max ((∑ k : Fin 800, x0 (ix2 r k) * x1 (ix2 k o)) + x2 (ix2 0 o)) 0 := by
  unfold k2_pay1
  exact dense_relu_apply dot_S256x800_S800x64_S256x64_1_0_0_1_n_n rfl x0 x1 x2 _ _ r o

variable (V : (c : Dev nD) → (b : Ref sig .tc) → Buf (Elt Ideal) ((c : Thread nD τ).loc b))

/-! ## The blocks as parts of the arrays -/

/-- The windows' block indices, decided over the grid: the patch and output windows are at block row t, the weight
    and bias windows stay at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The patch window's block at point t is rows 256 t to 256 t + 255 of the patch matrix. -/
theorem iblk0_apply (c : Dev nD) (t : Fin cfg2.N) (r : Fin 256) (k : Fin 800) (R : Fin 65536)
    (hR : R.val = t.val * 256 + r.val) :
    (Conv2.iblk V c 0 t : Vec Ideal S256x800 .f32) (ix2 r k) = (V c main_v166 : S65536x800.Idx → EReal) (ix2 R k) := by
  obtain ⟨e0, e1, -⟩ := idx_facts t
  unfold Conv2.iblk
  rw [View.read_apply]
  show V c main_v166 _ = V c main_v166 _
  refine congrArg (V c main_v166) (funext fun a => Fin.ext ?_)
  match a with
  | ⟨0, _⟩ => show win2_0.index t (0 : Fin 2) * 256 + 1 * r.val = R.val; rw [e0, hR]; omega
  | ⟨1, _⟩ => show win2_0.index t (1 : Fin 2) * 800 + 1 * k.val = k.val; rw [e1]; omega

/-- The weight window's block at every point is the whole weight matrix. -/
theorem iblk1_apply (c : Dev nD) (t : Fin cfg2.N) (k : Fin 800) (o : Fin 64) :
    (Conv2.iblk V c 1 t : Vec Ideal S800x64 .f32) (ix2 k o) = (V c main_arg5 : S800x64.Idx → EReal) (ix2 k o) := by
  obtain ⟨-, -, e0, e1, -⟩ := idx_facts t
  unfold Conv2.iblk
  rw [View.read_apply]
  show V c main_arg5 _ = V c main_arg5 _
  refine congrArg (V c main_arg5) (funext fun a => Fin.ext ?_)
  match a with
  | ⟨0, _⟩ => show win2_1.index t (0 : Fin 2) * 800 + 1 * k.val = k.val; rw [e0]; omega
  | ⟨1, _⟩ => show win2_1.index t (1 : Fin 2) * 64 + 1 * o.val = o.val; rw [e1]; omega

/-- The bias window's block at every point is the whole bias row. -/
theorem iblk2_apply (c : Dev nD) (t : Fin cfg2.N) (z : Fin 1) (o : Fin 64) :
    (Conv2.iblk V c 2 t : Vec Ideal S1x64 .f32) (ix2 z o) = (V c main_arg6 : S1x64.Idx → EReal) (ix2 z o) := by
  obtain ⟨-, -, -, -, e0, e1, -⟩ := idx_facts t
  unfold Conv2.iblk
  rw [View.read_apply]
  show V c main_arg6 _ = V c main_arg6 _
  refine congrArg (V c main_arg6) (funext fun a => Fin.ext ?_)
  match a with
  | ⟨0, _⟩ => show win2_2.index t (0 : Fin 2) * 1 + 1 * z.val = z.val; rw [e0]; omega
  | ⟨1, _⟩ => show win2_2.index t (1 : Fin 2) * 64 + 1 * o.val = o.val; rw [e1]; omega

/-! ## The layer, and what a point writes back -/

/-- The layer as one function of the whole arrays: entry (r, o) of max (X W + b, 0). -/
def layer (X : S65536x800.Idx → EReal) (W : S800x64.Idx → EReal) (B : S1x64.Idx → EReal) : S65536x64.Idx → EReal :=
  fun i => max ((∑ k : Fin 800, X (ix2 (i 0) k) * W (ix2 k (i 1))) + B (ix2 0 (i 1))) 0

theorem layer_apply (X : S65536x800.Idx → EReal) (W : S800x64.Idx → EReal) (B : S1x64.Idx → EReal) (r : Fin 65536) (o : Fin 64) :
    layer X W B (ix2 r o) = max ((∑ k : Fin 800, X (ix2 r k) * W (ix2 k o)) + B (ix2 0 o)) 0 := rfl

/-- What point t writes back is block t of the layer of the arrays as the region finds them. -/
theorem flushed_eq (c : Dev nD) (t : Fin cfg2.N) :
    (Conv2.dat (F := Ideal) V c).flushed 3 t
      = ((cfg2.win 3).blk t).view.read (Elt Ideal) (layer (V c main_v166) (V c main_arg5) (V c main_arg6)) := by
  show (cfg2.win 3).cut (grid2.coords t) ((Conv2.dat (F := Ideal) V c).after 3 t) = _
  rw [Conv2.after_3]
  unfold Conv2.out
  rw [View.canon_unit_zero hz]
  simp only [View.ld_unit_zero (S := S256x800) hz, View.ld_unit_zero (S := S800x64) hz, View.ld_unit_zero (S := S1x64) hz]
  funext j
  obtain ⟨r, o, rfl⟩ : ∃ (r : Fin 256) (o : Fin 64), j = ix2 r o := ⟨j 0, j 1, eq_ix2 j⟩
  obtain ⟨-, -, -, -, -, -, e0, e1⟩ := idx_facts t
  have ht : t.val < 256 := Nat.lt_of_lt_of_eq t.isLt N_2
  have hR : t.val * 256 + r.val < 65536 := by have := r.isLt; omega
  have hemb : ((cfg2.win 3).blk t).view.emb (ix2 r o) = (ix2 (⟨t.val * 256 + r.val, hR⟩ : Fin 65536) o : S65536x64.Idx) := by
    funext a; apply Fin.ext
    match a with
    | ⟨0, _⟩ => show win2_3.index t (0 : Fin 2) * 256 + 1 * r.val = t.val * 256 + r.val; rw [e0]; omega
    | ⟨1, _⟩ => show win2_3.index t (1 : Fin 2) * 64 + 1 * o.val = o.val; rw [e1]; omega
  show k2_pay1 (Conv2.iblk V c 0 t) (Conv2.iblk V c 1 t) (Conv2.iblk V c 2 t) (ix2 r o)
    = layer (V c main_v166) (V c main_arg5) (V c main_arg6) (((cfg2.win 3).blk t).view.emb (ix2 r o))
  rw [hemb, layer_apply]
  refine (pay_apply (Conv2.iblk V c 0 t) (Conv2.iblk V c 1 t) (Conv2.iblk V c 2 t) r o).trans ?_
  rw [iblk2_apply V c t 0 o]
  refine congrArg (fun s => max (s + (V c main_arg6 : S1x64.Idx → EReal) (ix2 0 o)) 0) (Finset.sum_congr rfl fun k _ => ?_)
  rw [iblk0_apply V c t r k ⟨t.val * 256 + r.val, hR⟩ rfl, iblk1_apply V c t k o]

/-! ## The cover, and the array after the region -/

/-- An index of the output array is in point t's block iff each coordinate is in the block's range on its axis. -/
theorem mem_blk (t : Fin cfg2.N) (i : S65536x64.Idx) :
    i ∈ ((cfg2.win 3).blk t).view.set ↔ ∀ a : Fin 2, win2_3.index t a * S256x64.size a ≤ (i a).val
      ∧ (i a).val < win2_3.index t a * S256x64.size a + S256x64.size a := by
  show i ∈ ((View.whole main_v167).slice (win2_3.rect t)).set ↔ _
  rw [View.set_slice_whole, Rect.mem_set_unit]
  exact Iff.rfl

/-- Every index of the output array is in the block of the point its row divided by 256 names. -/
theorem cover (i : S65536x64.Idx) :
    ∃ t : Fin cfg2.N, (cfg2.win 3).flush t = true ∧ i ∈ ((cfg2.win 3).blk t).view.set := by
  have hi0 : (i 0).val < 65536 := (i 0).isLt
  have hi1 : (i 1).val < 64 := (i 1).isLt
  have hN : cfg2.N = 256 := N_2
  have hlt : (i 0).val / 256 < cfg2.N := by rw [hN]; omega
  obtain ⟨-, -, -, -, -, -, e0, e1⟩ := idx_facts ⟨(i 0).val / 256, hlt⟩
  refine ⟨⟨(i 0).val / 256, hlt⟩, flush2_3 _, ?_⟩
  rw [mem_blk]
  intro a
  match a with
  | ⟨0, _⟩ =>
    show win2_3.index ⟨(i 0).val / 256, hlt⟩ (0 : Fin 2) * 256 ≤ (i 0).val
      ∧ (i 0).val < win2_3.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win2_3.index ⟨(i 0).val / 256, hlt⟩ (1 : Fin 2) * 64 ≤ (i 1).val
      ∧ (i 1).val < win2_3.index ⟨(i 0).val / 256, hlt⟩ (1 : Fin 2) * 64 + 64
    rw [e1]; omega

/-- THE OUTPUT ARRAY AFTER THE REGION: the layer of the patch matrix, the weight matrix and the bias row as the
    region finds them; entry (r, o) is the maximum of zero and the sum over the 800 taps k of X (r, k) W (k, o), plus
    b (0, o) (layer_apply). -/
theorem final (c : Dev nD) :
    (Conv2.dat (F := Ideal) V c).arrAt 3 cfg2.N = layer (V c main_v166) (V c main_arg5) (V c main_arg6) :=
  (Conv2.dat (F := Ideal) V c).arrAt_eq_of_cover 3 (layer (V c main_v166) (V c main_arg5) (V c main_arg6))
    (fun t _ => flushed_eq V c t) cover

/-- The same with the entry written out: X, W, B the three arrays as the region finds them, read as functions of an
    index into the extended reals. -/
theorem final_fun (c : Dev nD) :
    let X : S65536x800.Idx → EReal := V c main_v166
    let W : S800x64.Idx → EReal := V c main_arg5
    let B : S1x64.Idx → EReal := V c main_arg6
    (Conv2.dat (F := Ideal) V c).arrAt 3 cfg2.N
      = fun i : S65536x64.Idx => max ((∑ k : Fin 800, X (ix2 (i 0) k) * W (ix2 k (i 1))) + B (ix2 0 (i 1))) 0 :=
  final V c

end Cert.ReferenceIdeal.Conv2V

end
-- ==== Proof.RefHeadValue.lean ====
/-
  What the fourth region of the reference program, the dense head, leaves in its output array.
  With Ft the 256 x 16384 feature matrix, W1 the 16384 x 256 and W2 the 256 x 10 weight matrices and b1, b2 the two bias
  rows as the region finds them, the output array ends holding, at (n, r), the logarithm of the softmax of image n's ten
  logits at class r, where logit r' is the sum over the 256 hidden units q of H (n, q) W2 (q, r'), plus b2 (0, r'), and
  H (n, q) is the maximum of zero and the accumulated first layer plus b1 (0, q).
  The first layer is accumulated over the four grid points: point t multiplies columns 4096 t to 4096 t + 4095 of Ft by
  the same rows of W1 and adds the product onto what the accumulator held, which the first point cleared to zero; so
  after the last point it holds (((0 + chunk 0) + chunk 1) + chunk 2) + chunk 3, the additions in the grid's order.
  Only the last point writes the output back, and its one block is the whole array.
  The row maximum inside the softmax is a fold of max from minus infinity, the bottom of the extended reals, over the
  ten classes; the exponential, logarithm, sum and subtraction are read entry by entry.
-/
import proofs.«147057_g2000302454168391_pallasbulk_317_11_alg».proof.Proof.RefHead
import proofs.«147057_g2000302454168391_pallasbulk_317_11_alg».proof.Proof.RefChain
import proofs.«147057_g2000302454168391_pallasbulk_317_11_alg».proof.Proof.RefConvValue0
import proofs.«147057_g2000302454168391_pallasbulk_317_11_alg».proof.Proof.Spec
import Idealize.ShloMosaic.Lib.Pipeline.Value
import Idealize.ShloMosaic.PureOps.Ideal.Laws
import Idealize.ShloMosaic.Lib.ValueIdx

noncomputable section

namespace Cert.ReferenceIdeal.HeadV

open Cert.ReferenceIdeal Cert.ReferenceIdeal.Gen
open Idealize.ShloMosaic Idealize.ShloMosaic.TcCoe Idealize.SL.Sem Idealize.ShloMosaic.ValueIdx
open Idealize.ShloMosaic.Pipeline (Dat)
open Cert.ReferenceIdeal.Conv0V (matmul_plain_zero_apply broadcastTo_row_apply hz)

/-! ## The three stores' values at an index -/

/-- The word of minus infinity is the bottom of the extended reals. -/
theorem ofBits_neg_inf_f32 : Ideal.ofBits .f32 0xFF800000#32 = ⊥ := by
  simp [Ideal.ofBits, Ideal.ieee]

/-- The reduced index n with the class coordinate r inserted is (n, r). -/
theorem lift_eq (h : S256x10.Reduces [1] S256) (n : Fin 256) (r : Fin 10) : h.lift (ix1 n) r = ix2 n r := by
  funext c; apply Fin.ext
  match c with
  | ⟨0, _⟩ => rfl
  | ⟨1, _⟩ => rfl

/-- A vector of 256 entries cast to a column reads its entry n at (n, 0). -/
theorem cast_col_apply {α : Type} (v : S256.Idx → α) (h : S256.ShapeCasts S256x1) (n : Fin 256) (z : Fin 1) :
    shapeCast S256x1 v h (ix2 n z) = v (ix1 n) := by
  refine shapeCast_apply v h (ix2 n z) (ix1 n) ?_
  rw [Shape.rowMajor_val_one, Shape.rowMajor_val_two]
  show n.val = n.val * 1 + z.val
  have := z.isLt; omega

/-- A column broadcast along the ten classes reads its entry (n, 0) at (n, r). -/
theorem bcast_col_apply {α : Type} (v : S256x1.Idx → α) (h : S256x1.Broadcasts S256x10) (n : Fin 256) (r : Fin 10) :
    broadcastTo S256x10 v h (ix2 n r) = v (ix2 n 0) := by
  refine broadcastTo_apply v h (ix2 n r) (ix2 n 0) fun a => ?_
  match a with
  | ⟨0, _⟩ => rfl
  | ⟨1, _⟩ => rfl

/-- The tail of the head's payload on any 256 x 10 logits y: with M n the maximum of row n folded from minus infinity,
    entry (n, r) of (y - M) - log (sum over the row of exp (y - M)) is the logarithm of the softmax of row n at r. -/
theorem logsoftmax_rows (y : FVec Ideal S256x10 .f32) (n : Fin 256) (r : Fin 10)
    (hr : S256x10.Reduces [1] S256) (hc : S256.ShapeCasts S256x1) (hb : S256x1.Broadcasts S256x10)
    (hφ : FKind.Formats .f32) (hm : (0xFF800000#32 : BitVec 32) = FKind.maximumf.neutral .f32 hφ)
    (ha : (0x00000000#32 : BitVec 32) = FKind.add.neutral .f32 hφ) :
    subf (subf y (broadcastTo S256x10 (shapeCast S256x1 (multiReduction .maximumf [1] S256 y 0xFF800000#32 hr hφ hm) hc) hb))
      (broadcastTo S256x10 (log (shapeCast S256x1 (multiReduction .add [1] S256
        (exp (subf y (broadcastTo S256x10 (shapeCast S256x1 (multiReduction .maximumf [1] S256 y 0xFF800000#32 hr hφ hm) hc) hb)))
        0x00000000#32 hr hφ ha) hc)) hb) (ix2 n r)
      = Spec.logSoftmax (fun r' => y (ix2 n r')) r := by
  have hM : ∀ r' : Fin 10,
      broadcastTo S256x10 (shapeCast S256x1 (multiReduction .maximumf [1] S256 y 0xFF800000#32 hr hφ hm) hc) hb (ix2 n r')
        = Finset.univ.fold max ⊥ (fun r'' : Fin 10 => y (ix2 n r'')) := by
    intro r'
    rw [bcast_col_apply, cast_col_apply]
    refine (Ideal.multiReduction_maximumf_single y 0xFF800000#32 hr hφ hm (ix1 n)).trans ?_
    show (Finset.univ : Finset (Fin 10)).fold max (Ideal.ofBits .f32 0xFF800000#32) (y ∘ hr.lift (ix1 n)) = _
    rw [ofBits_neg_inf_f32]
    exact congrArg (Finset.univ.fold max ⊥) (funext fun r'' => congrArg y (lift_eq hr n r''))
  have hs : ∀ r' : Fin 10,
      subf y (broadcastTo S256x10 (shapeCast S256x1 (multiReduction .maximumf [1] S256 y 0xFF800000#32 hr hφ hm) hc) hb) (ix2 n r')
        = y (ix2 n r') - Finset.univ.fold max ⊥ (fun r'' : Fin 10 => y (ix2 n r'')) := fun r' => by
    show y (ix2 n r') - broadcastTo S256x10 (shapeCast S256x1 (multiReduction .maximumf [1] S256 y 0xFF800000#32 hr hφ hm) hc) hb (ix2 n r') = _
    rw [hM r']
  show subf y (broadcastTo S256x10 (shapeCast S256x1 (multiReduction .maximumf [1] S256 y 0xFF800000#32 hr hφ hm) hc) hb) (ix2 n r)
      - broadcastTo S256x10 (log (shapeCast S256x1 (multiReduction .add [1] S256
        (exp (subf y (broadcastTo S256x10 (shapeCast S256x1 (multiReduction .maximumf [1] S256 y 0xFF800000#32 hr hφ hm) hc) hb)))
        0x00000000#32 hr hφ ha) hc)) hb (ix2 n r) = _
  rw [hs r, bcast_col_apply]
  show y (ix2 n r) - Finset.univ.fold max ⊥ (fun r'' : Fin 10 => y (ix2 n r''))
      - Ideal.log (shapeCast S256x1 (multiReduction .add [1] S256
        (exp (subf y (broadcastTo S256x10 (shapeCast S256x1 (multiReduction .maximumf [1] S256 y 0xFF800000#32 hr hφ hm) hc) hb)))
        0x00000000#32 hr hφ ha) hc (ix2 n 0)) = _
  rw [cast_col_apply]
  unfold Spec.logSoftmax
  refine congrArg (fun t => y (ix2 n r) - Finset.univ.fold max ⊥ (fun r'' : Fin 10 => y (ix2 n r'')) - Ideal.log t) ?_
  refine (Ideal.multiReduction_add_single _ 0x00000000#32 hr hφ ha (ix1 n)).trans ?_
  show ∑ k : Fin 10, exp (subf y (broadcastTo S256x10 (shapeCast S256x1 (multiReduction .maximumf [1] S256 y 0xFF800000#32 hr hφ hm) hc) hb)) (hr.lift (ix1 n) k)
      = ∑ r' : Fin 10, Ideal.exp (y (ix2 n r') - Finset.univ.fold max ⊥ (fun r'' : Fin 10 => y (ix2 n r'')))
  refine Finset.sum_congr rfl fun k _ => ?_
  rw [lift_eq hr n k]
  show Ideal.exp (subf y (broadcastTo S256x10 (shapeCast S256x1 (multiReduction .maximumf [1] S256 y 0xFF800000#32 hr hφ hm) hc) hb) (ix2 n k)) = _
  rw [hs k]

/-- The reset store's value is zero everywhere. -/
theorem pay1_apply (i : S256x256.Idx) : k3_pay1 (F := Ideal) i = 0 := by
  unfold k3_pay1
  show shapeCast S256x256 (broadcast S256x256 (Scalar.ofBits (F := Ideal) .f32 0x00000000#32)) shapeCasts_S256x256_S256x256 i = 0
  rw [shapeCast_self]
  exact Ideal.ofBits_zero_f32

/-- An accumulating step, at any extents: what was there plus the chunk's product, read at (n, q). -/
theorem acc_step_generic {M K N : Nat} (D : DotDims ⟨2, ![M, K]⟩ ⟨2, ![K, N]⟩ ⟨2, ![M, N]⟩) (hD : D = DotDims.plain M K N)
    (a : FVec Ideal ⟨2, ![M, N]⟩ .f32) (x : FVec Ideal ⟨2, ![M, K]⟩ .f32) (w : FVec Ideal ⟨2, ![K, N]⟩ .f32)
    (hc1 : (⟨2, ![M, K]⟩ : Shape).ShapeCasts ⟨2, ![M, K]⟩) (hc2 : (⟨2, ![M, N]⟩ : Shape).ShapeCasts ⟨2, ![M, N]⟩)
    (n : Fin M) (q : Fin N) :
    shapeCast ⟨2, ![M, N]⟩ (addf a (matmul D none (shapeCast ⟨2, ![M, K]⟩ x hc1) w (constant ⟨2, ![M, N]⟩ .f32 0x00000000#32))) hc2 (ix2 n q)
      = a (ix2 n q) + ∑ l : Fin K, x (ix2 n l) * w (ix2 l q) := by
  subst hD
  rw [shapeCast_self, shapeCast_self]
  show a (ix2 n q) + FloatOps.matmul (DotDims.plain M K N) none x w (constant ⟨2, ![M, N]⟩ .f32 0x00000000#32) (ix2 n q) = _
  rw [matmul_plain_zero_apply]

/-- The accumulating store's value at (n, q): what the accumulator held plus the chunk's 4096 products. -/
theorem pay2_apply (v3 : Vec Ideal S256x256 .f32) (v4 : Vec Ideal S256x4096 .f32) (v6 : Vec Ideal S4096x256 .f32)
    (n q : Fin 256) :
    k3_pay2 v3 v4 v6 (ix2 n q) = v3 (ix2 n q) + ∑ l : Fin 4096, v4 (ix2 n l) * v6 (ix2 l q) := by
  unfold k3_pay2
  exact acc_step_generic dot_S256x4096_S4096x256_S256x256_1_0_0_1_n_n rfl v3 v4 v6 _ _ n q

/-- The logits inside the last store's value, at (n, r): the rectified accumulator plus bias, times the second
    weight matrix, plus the second bias. -/
theorem logits_generic (D : DotDims S256x256 S256x10 S256x10) (hD : D = DotDims.plain 256 256 10)
    (v15 : FVec Ideal S256x256 .f32) (v16 : FVec Ideal S1x256 .f32) (v21 : FVec Ideal S256x10 .f32) (v23 : FVec Ideal S1x10 .f32)
    (hb1 : S1x256.Broadcasts S256x256) (hb2 : S1x10.Broadcasts S256x10) (n : Fin 256) (r : Fin 10) :
    addf (matmul D none (maximumf (addf v15 (broadcastTo S256x256 v16 hb1))
        (broadcast S256x256 (Scalar.ofBits (F := Ideal) .f32 0x00000000#32))) v21 (constant S256x10 .f32 0x00000000#32))
      (broadcastTo S256x10 v23 hb2) (ix2 n r)
      = (∑ q : Fin 256, max (v15 (ix2 n q) + v16 (ix2 0 q)) 0 * v21 (ix2 q r)) + v23 (ix2 0 r) := by
  subst hD
  show FloatOps.matmul (DotDims.plain 256 256 10) none (maximumf (addf v15 (broadcastTo S256x256 v16 hb1))
        (broadcast S256x256 (Scalar.ofBits (F := Ideal) .f32 0x00000000#32))) v21 (constant S256x10 .f32 0x00000000#32) (ix2 n r)
      + broadcastTo S256x10 v23 hb2 (ix2 n r) = _
  rw [matmul_plain_zero_apply, broadcastTo_row_apply]
  refine congrArg (· + v23 (ix2 0 r)) (Finset.sum_congr rfl fun q _ => ?_)
  show max (v15 (ix2 n q) + broadcastTo S256x256 v16 hb1 (ix2 n q)) (Ideal.ofBits .f32 0x00000000#32) * v21 (ix2 q r) = _
  rw [broadcastTo_row_apply, Ideal.ofBits_zero_f32]

/-- The last store's value at (n, r): the logarithm of the softmax of image n's ten logits, at class r. -/
theorem pay3_apply (v15 : Vec Ideal S256x256 .f32) (v16 : Vec Ideal S1x256 .f32) (v21 : Vec Ideal S256x10 .f32)
    (v23 : Vec Ideal S1x10 .f32) (n : Fin 256) (r : Fin 10) :
    k3_pay3 v15 v16 v21 v23 (ix2 n r)
      = Spec.logSoftmax (fun r' => (∑ q : Fin 256, max (v15 (ix2 n q) + v16 (ix2 0 q)) 0 * v21 (ix2 q r')) + v23 (ix2 0 r')) r := by
  unfold k3_pay3
  refine (logsoftmax_rows (addf (matmul dot_S256x256_S256x10_S256x10_1_0_0_1_n_n none
      (maximumf (addf v15 (broadcastTo S256x256 v16 broadcasts_S1x256_S256x256))
        (broadcast S256x256 (Scalar.ofBits (F := Ideal) .f32 0x00000000#32))) v21 (constant S256x10 .f32 0x00000000#32))
      (broadcastTo S256x10 v23 broadcasts_S1x10_S256x10)) n r _ _ _ _ _ _).trans ?_
  exact congrArg (fun z => Spec.logSoftmax z r)
    (funext fun r' => logits_generic _ rfl v15 v16 v21 v23 _ _ n r')

/-! ## The head as one function of the whole arrays

The head is Cert.RefChain.headL: the logarithm of the softmax, along the ten classes, of the second dense layer of the
hidden layer hidL, which is the four chunks of 4096 features (chunk) added in the grid's order onto zero, plus the
bias, rectified. -/

variable (V : (c : Dev nD) → (b : Ref sig .tc) → Buf (Elt Ideal) ((c : Thread nD τ).loc b))

/-! ## The blocks as parts of the arrays -/

/-- The windows' block indices, decided over the four points: the feature window moves along its columns and the
    first weight window along its rows with the point; the other four windows stay at their one block. -/
theorem idx_facts : ∀ t : Fin cfg3.N,
    win3_0.index t (0 : Fin 2) = 0 ∧ win3_0.index t (1 : Fin 2) = t.val
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The feature window's block at point t is columns 4096 t to 4096 t + 4095 of the feature matrix. -/
theorem iblk0_apply (c : Dev nD) (t : Fin cfg3.N) (n : Fin 256) (l : Fin 4096) (L : Fin 16384)
    (hL : L.val = 4096 * t.val + l.val) :
    (Head.iblk V c 0 t : Vec Ideal S256x4096 .f32) (ix2 n l) = (V c main_v169 : S256x16384.Idx → EReal) (ix2 n L) := by
  obtain ⟨e0, e1, -⟩ := idx_facts t
  unfold Head.iblk
  rw [View.read_apply]
  show V c main_v169 _ = V c main_v169 _
  refine congrArg (V c main_v169) (funext fun a => Fin.ext ?_)
  match a with
  | ⟨0, _⟩ => show win3_0.index t (0 : Fin 2) * 256 + 1 * n.val = n.val; rw [e0]; omega
  | ⟨1, _⟩ => show win3_0.index t (1 : Fin 2) * 4096 + 1 * l.val = L.val; rw [e1, hL]; omega

/-- The first weight window's block at point t is rows 4096 t to 4096 t + 4095 of the first weight matrix. -/
theorem iblk1_apply (c : Dev nD) (t : Fin cfg3.N) (l : Fin 4096) (q : Fin 256) (L : Fin 16384)
    (hL : L.val = 4096 * t.val + l.val) :
    (Head.iblk V c 1 t : Vec Ideal S4096x256 .f32) (ix2 l q) = (V c main_arg7 : S16384x256.Idx → EReal) (ix2 L q) := by
  obtain ⟨-, -, e0, e1, -⟩ := idx_facts t
  unfold Head.iblk
  rw [View.read_apply]
  show V c main_arg7 _ = V c main_arg7 _
  refine congrArg (V c main_arg7) (funext fun a => Fin.ext ?_)
  match a with
  | ⟨0, _⟩ => show win3_1.index t (0 : Fin 2) * 4096 + 1 * l.val = L.val; rw [e0, hL]; omega
  | ⟨1, _⟩ => show win3_1.index t (1 : Fin 2) * 256 + 1 * q.val = q.val; rw [e1]; omega

/-- The first bias window's block at every point is the whole bias row. -/
theorem iblk2_apply (c : Dev nD) (t : Fin cfg3.N) (z : Fin 1) (q : Fin 256) :
    (Head.iblk V c 2 t : Vec Ideal S1x256 .f32) (ix2 z q) = (V c main_arg8 : S1x256.Idx → EReal) (ix2 z q) := by
  obtain ⟨-, -, -, -, e0, e1, -⟩ := idx_facts t
  unfold Head.iblk
  rw [View.read_apply]
  show V c main_arg8 _ = V c main_arg8 _
  refine congrArg (V c main_arg8) (funext fun a => Fin.ext ?_)
  match a with
  | ⟨0, _⟩ => show win3_2.index t (0 : Fin 2) * 1 + 1 * z.val = z.val; rw [e0]; omega
  | ⟨1, _⟩ => show win3_2.index t (1 : Fin 2) * 256 + 1 * q.val = q.val; rw [e1]; omega

/-- The second weight window's block at every point is the whole second weight matrix. -/
theorem iblk3_apply (c : Dev nD) (t : Fin cfg3.N) (q : Fin 256) (r : Fin 10) :
    (Head.iblk V c 3 t : Vec Ideal S256x10 .f32) (ix2 q r) = (V c main_arg9 : S256x10.Idx → EReal) (ix2 q r) := by
  obtain ⟨-, -, -, -, -, -, e0, e1, -⟩ := idx_facts t
  unfold Head.iblk
  rw [View.read_apply]
  show V c main_arg9 _ = V c main_arg9 _
  refine congrArg (V c main_arg9) (funext fun a => Fin.ext ?_)
  match a with
  | ⟨0, _⟩ => show win3_3.index t (0 : Fin 2) * 256 + 1 * q.val = q.val; rw [e0]; omega
  | ⟨1, _⟩ => show win3_3.index t (1 : Fin 2) * 10 + 1 * r.val = r.val; rw [e1]; omega

/-- The second bias window's block at every point is the whole second bias row. -/
theorem iblk4_apply (c : Dev nD) (t : Fin cfg3.N) (z : Fin 1) (r : Fin 10) :
    (Head.iblk V c 4 t : Vec Ideal S1x10 .f32) (ix2 z r) = (V c main_arg10 : S1x10.Idx → EReal) (ix2 z r) := by
  obtain ⟨-, -, -, -, -, -, -, -, e0, e1, -⟩ := idx_facts t
  unfold Head.iblk
  rw [View.read_apply]
  show V c main_arg10 _ = V c main_arg10 _
  refine congrArg (V c main_arg10) (funext fun a => Fin.ext ?_)
  match a with
  | ⟨0, _⟩ => show win3_4.index t (0 : Fin 2) * 1 + 1 * z.val = z.val; rw [e0]; omega
  | ⟨1, _⟩ => show win3_4.index t (1 : Fin 2) * 10 + 1 * r.val = r.val; rw [e1]; omega

/-! ## The accumulator after each point -/

/-- Point t's product of its two blocks, at (n, q), is chunk t of the first dense layer. -/
theorem chunk_eq (c : Dev nD) (t : Fin cfg3.N) (s : Fin 4) (hs : t.val = s.val) (n q : Fin 256)
    (x0 : Vec Ideal S256x4096 .f32) (x1 : Vec Ideal S4096x256 .f32)
    (h0 : x0 = Head.iblk V c 0 t) (h1 : x1 = Head.iblk V c 1 t) :
    ∑ l : Fin 4096, x0 (ix2 n l) * x1 (ix2 l q) = Cert.RefChain.chunk (V c main_v169) (V c main_arg7) n q s := by
  subst h0; subst h1
  unfold Cert.RefChain.chunk
  refine Finset.sum_congr rfl fun l _ => ?_
  exact congrArg₂ (· * ·)
    (iblk0_apply V c t n l ⟨4096 * s.val + l.val, by have := s.isLt; have := l.isLt; omega⟩ (by rw [hs]))
    (iblk1_apply V c t l q ⟨4096 * s.val + l.val, by have := s.isLt; have := l.isLt; omega⟩ (by rw [hs]))

/-- After point 0 the accumulator holds zero plus chunk 0. -/
theorem acc0_apply (c : Dev nD) (h : 0 < cfg3.N) (n q : Fin 256) :
    (Head.acc V c 0 h : Vec Ideal S256x256 .f32) (ix2 n q) = 0 + Cert.RefChain.chunk (V c main_v169) (V c main_arg7) n q 0 := by
  rw [Head.acc_zero]
  refine (pay2_apply _ (Head.iblk V c 0 ⟨0, h⟩) (Head.iblk V c 1 ⟨0, h⟩) n q).trans ?_
  exact congrArg₂ (· + ·) (pay1_apply (ix2 n q)) (chunk_eq V c ⟨0, h⟩ 0 rfl n q _ _ rfl rfl)

/-- After point 1: chunk 1 added. -/
theorem acc1_apply (c : Dev nD) (h : 1 < cfg3.N) (n q : Fin 256) :
    (Head.acc V c 1 h : Vec Ideal S256x256 .f32) (ix2 n q)
      = (0 + Cert.RefChain.chunk (V c main_v169) (V c main_arg7) n q 0) + Cert.RefChain.chunk (V c main_v169) (V c main_arg7) n q 1 := by
  rw [Head.acc_succ]
  refine (pay2_apply _ (Head.iblk V c 0 ⟨1, h⟩) (Head.iblk V c 1 ⟨1, h⟩) n q).trans ?_
  exact congrArg₂ (· + ·) (acc0_apply V c _ n q) (chunk_eq V c ⟨1, h⟩ 1 rfl n q _ _ rfl rfl)

/-- After point 2: chunk 2 added. -/
theorem acc2_apply (c : Dev nD) (h : 2 < cfg3.N) (n q : Fin 256) :
    (Head.acc V c 2 h : Vec Ideal S256x256 .f32) (ix2 n q)
      = ((0 + Cert.RefChain.chunk (V c main_v169) (V c main_arg7) n q 0) + Cert.RefChain.chunk (V c main_v169) (V c main_arg7) n q 1)
        + Cert.RefChain.chunk (V c main_v169) (V c main_arg7) n q 2 := by
  rw [Head.acc_succ]
  refine (pay2_apply _ (Head.iblk V c 0 ⟨2, h⟩) (Head.iblk V c 1 ⟨2, h⟩) n q).trans ?_
  exact congrArg₂ (· + ·) (acc1_apply V c _ n q) (chunk_eq V c ⟨2, h⟩ 2 rfl n q _ _ rfl rfl)

/-- After the last point: all four chunks, added in the grid's order. -/
theorem acc3_apply (c : Dev nD) (h : 3 < cfg3.N) (n q : Fin 256) :
    (Head.acc V c 3 h : Vec Ideal S256x256 .f32) (ix2 n q)
      = (((0 + Cert.RefChain.chunk (V c main_v169) (V c main_arg7) n q 0) + Cert.RefChain.chunk (V c main_v169) (V c main_arg7) n q 1)
        + Cert.RefChain.chunk (V c main_v169) (V c main_arg7) n q 2) + Cert.RefChain.chunk (V c main_v169) (V c main_arg7) n q 3 := by
  rw [Head.acc_succ]
  refine (pay2_apply _ (Head.iblk V c 0 ⟨3, h⟩) (Head.iblk V c 1 ⟨3, h⟩) n q).trans ?_
  exact congrArg₂ (· + ·) (acc2_apply V c _ n q) (chunk_eq V c ⟨3, h⟩ 3 rfl n q _ _ rfl rfl)

/-! ## What the last point writes back, the cover, and the array after the region -/

/-- The one write-back, at the last point, writes the head of the arrays as the region finds them: the output
    window's one block is the whole array. -/
theorem flushed_eq (c : Dev nD) (t : Fin cfg3.N) (hf : (cfg3.win 5).flush t = true) :
    (Head.dat (F := Ideal) V c).flushed 5 t
      = ((cfg3.win 5).blk t).view.read (Elt Ideal)
          (Cert.RefChain.headL (V c main_v169) (V c main_arg7) (V c main_arg8) (V c main_arg9) (V c main_arg10)) := by
  have hlt : t.val < 4 := Nat.lt_of_lt_of_eq t.isLt N_3
  have h3 : t.val = 3 := by have := (flush3_5 t).mp hf; omega
  obtain rfl : t = t3_3 := Fin.ext h3
  show (cfg3.win 5).cut (grid3.coords t3_3) ((Head.dat (F := Ideal) V c).after 5 t3_3) = _
  rw [Head.after_5_last]
  funext j
  obtain ⟨n, r, rfl⟩ : ∃ (n : Fin 256) (r : Fin 10), j = ix2 n r := ⟨j 0, j 1, eq_ix2 j⟩
  obtain ⟨-, -, -, -, -, -, -, -, -, -, e0, e1⟩ := idx_facts t3_3
  have hemb : ((cfg3.win 5).blk t3_3).view.emb (ix2 n r) = (ix2 n r : S256x10.Idx) := by
    funext a; apply Fin.ext
    match a with
    | ⟨0, _⟩ => show win3_5.index t3_3 (0 : Fin 2) * 256 + 1 * n.val = n.val; rw [e0]; omega
    | ⟨1, _⟩ => show win3_5.index t3_3 (1 : Fin 2) * 10 + 1 * r.val = r.val; rw [e1]; omega
  show k3_pay3 (Head.acc V c 3 t3_3.isLt) (Head.iblk V c 2 t3_3) (Head.iblk V c 3 t3_3) (Head.iblk V c 4 t3_3) (ix2 n r)
    = Cert.RefChain.headL (V c main_v169) (V c main_arg7) (V c main_arg8) (V c main_arg9) (V c main_arg10)
        (((cfg3.win 5).blk t3_3).view.emb (ix2 n r))
  rw [hemb, Cert.RefChain.headL_apply]
  refine (pay3_apply (Head.acc V c 3 t3_3.isLt) (Head.iblk V c 2 t3_3) (Head.iblk V c 3 t3_3) (Head.iblk V c 4 t3_3) n r).trans ?_
  refine congrArg (fun z => Spec.logSoftmax z r) (funext fun r' => ?_)
  rw [iblk4_apply V c t3_3 0 r']
  refine congrArg (fun s => s + (V c main_arg10 : S1x10.Idx → EReal) (ix2 0 r')) (Finset.sum_congr rfl fun q _ => ?_)
  rw [acc3_apply V c t3_3.isLt n q, iblk2_apply V c t3_3 0 q, iblk3_apply V c t3_3 q r']
  rfl

/-- An index of the output array is in point t's block iff each coordinate is in the block's range on its axis. -/
theorem mem_blk (t : Fin cfg3.N) (i : S256x10.Idx) :
    i ∈ ((cfg3.win 5).blk t).view.set ↔ ∀ a : Fin 2, win3_5.index t a * S256x10.size a ≤ (i a).val
      ∧ (i a).val < win3_5.index t a * S256x10.size a + S256x10.size a := by
  show i ∈ ((View.whole main_v170).slice (win3_5.rect t)).set ↔ _
  rw [View.set_slice_whole, Rect.mem_set_unit]
  exact Iff.rfl

/-- Every index of the output array is in the last point's block. -/
theorem cover (i : S256x10.Idx) :
    ∃ t : Fin cfg3.N, (cfg3.win 5).flush t = true ∧ i ∈ ((cfg3.win 5).blk t).view.set := by
  have hi0 : (i 0).val < 256 := (i 0).isLt
  have hi1 : (i 1).val < 10 := (i 1).isLt
  obtain ⟨-, -, -, -, -, -, -, -, -, -, e0, e1⟩ := idx_facts t3_3
  refine ⟨t3_3, (flush3_5 t3_3).mpr rfl, ?_⟩
  rw [mem_blk]
  intro a
  match a with
  | ⟨0, _⟩ =>
    show win3_5.index t3_3 (0 : Fin 2) * 256 ≤ (i 0).val ∧ (i 0).val < win3_5.index t3_3 (0 : Fin 2) * 256 + 256
    rw [e0]; omega
  | ⟨1, _⟩ =>
    show win3_5.index t3_3 (1 : Fin 2) * 10 ≤ (i 1).val ∧ (i 1).val < win3_5.index t3_3 (1 : Fin 2) * 10 + 10
    rw [e1]; omega

/-- THE OUTPUT ARRAY AFTER THE REGION: the head of the feature matrix, the two weight matrices and the two bias rows
    as the region finds them; entry (n, r) is headL_apply's. -/
theorem final (c : Dev nD) :
    (Head.dat (F := Ideal) V c).arrAt 5 cfg3.N
      = Cert.RefChain.headL (V c main_v169) (V c main_arg7) (V c main_arg8) (V c main_arg9) (V c main_arg10) :=
  (Head.dat (F := Ideal) V c).arrAt_eq_of_cover 5
    (Cert.RefChain.headL (V c main_v169) (V c main_arg7) (V c main_arg8) (V c main_arg9) (V c main_arg10))
    (fun t hf => flushed_eq V c t hf) cover

end Cert.ReferenceIdeal.HeadV

end
-- ==== Proof.RefNet.lean ====
/-
  The value of the reference program's result: the fourth region's final output array is the specification's network
  of the eleven arguments as launched.

  The buffer contents at the boundaries of the entry function are a fold from the launch memory.  Each host stretch
  builds the next patch matrix (or the feature matrix) from the previous region's output; each of the first three
  regions leaves the rectified product of its patch matrix with its weights plus its bias row; the fourth leaves the
  head of its five operands; no host operation and no region writes an argument.  These facts, read at the boundaries
  of this run, are exactly the links of the chain of layers.
-/
import proofs.«147057_g2000302454168391_pallasbulk_317_11_alg».proof.Proof.RefNetCore
import proofs.«147057_g2000302454168391_pallasbulk_317_11_alg».proof.Proof.RefRun
import proofs.«147057_g2000302454168391_pallasbulk_317_11_alg».proof.Proof.RefPatches1
import proofs.«147057_g2000302454168391_pallasbulk_317_11_alg».proof.Proof.RefPatches2
import proofs.«147057_g2000302454168391_pallasbulk_317_11_alg».proof.Proof.RefPatches3
import proofs.«147057_g2000302454168391_pallasbulk_317_11_alg».proof.Proof.RefReshapes
import proofs.«147057_g2000302454168391_pallasbulk_317_11_alg».proof.Proof.RefConvValue0
import proofs.«147057_g2000302454168391_pallasbulk_317_11_alg».proof.Proof.RefConvValue1
import proofs.«147057_g2000302454168391_pallasbulk_317_11_alg».proof.Proof.RefConvValue2
import proofs.«147057_g2000302454168391_pallasbulk_317_11_alg».proof.Proof.RefHeadValue

namespace Cert.ReferenceIdeal.RefNet

open Idealize.ShloMosaic Idealize.ShloMosaic.ValueIdx Idealize.ShloMosaic.TcCoe
open Cert.ReferenceIdeal Cert.ReferenceIdeal.Gen

/-- The result array after the run is the specification's network of the arguments as launched. -/
theorem final (m : (ℓ : Loc nD τ sig) → Buf (Elt Ideal) ℓ) (ρ : Dev nD → PrngReg) (c : Dev nD) :
    ((Head.dat (F := Ideal) (Run.VB7 m ρ) c).arrAt 5 cfg3.N : S256x10.Idx → EReal)
      = Spec.net (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) :=
  net_of_boundaries (Run.B0 m ρ c) (Run.B1 m ρ c) (Run.B2 m ρ c) (Run.B3 m ρ c) (Run.B4 m ρ c) (Run.B5 m ρ c)
    (Run.B6 m ρ c) (Run.B7 m ρ c) ((Head.dat (F := Ideal) (Run.VB7 m ρ) c).arrAt 5 cfg3.N)
    (fun n i j di dj r hr => Patches.patches1 (Run.B0 m ρ c) n i j di dj r hr)
    ((Run.B2_arr m ρ c 3).trans (Conv0V.final (Run.VB1 m ρ) c))
    ((Run.B1_main_arg1 m ρ c).trans (Run.B0_main_arg1 m ρ c).symm)
    ((Run.B1_main_arg2 m ρ c).trans (Run.B0_main_arg2 m ρ c).symm)
    (fun n i j di dj ci r hr r' hr' => Patches.patches2 (Run.B2 m ρ c) n i j di dj ci r hr r' hr')
    ((Run.B4_arr m ρ c 3).trans (Conv1V.final (Run.VB3 m ρ) c))
    ((Run.B3_main_arg3 m ρ c).trans (Run.B0_main_arg3 m ρ c).symm)
    ((Run.B3_main_arg4 m ρ c).trans (Run.B0_main_arg4 m ρ c).symm)
    (fun n i j di dj ci r hr r' hr' => Patches.patches3 (Run.B4 m ρ c) n i j di dj ci r hr r' hr')
    ((Run.B6_arr m ρ c 3).trans (Conv2V.final (Run.VB5 m ρ) c))
    ((Run.B5_main_arg5 m ρ c).trans (Run.B0_main_arg5 m ρ c).symm)
    ((Run.B5_main_arg6 m ρ c).trans (Run.B0_main_arg6 m ρ c).symm)
    (fun n i j o r hr => Patches.features (Run.B6 m ρ c) n i j o r hr)
    (HeadV.final (Run.VB7 m ρ) c)
    ((Run.B7_main_arg7 m ρ c).trans (Run.B0_main_arg7 m ρ c).symm)
    ((Run.B7_main_arg8 m ρ c).trans (Run.B0_main_arg8 m ρ c).symm)
    ((Run.B7_main_arg9 m ρ c).trans (Run.B0_main_arg9 m ρ c).symm)
    ((Run.B7_main_arg10 m ρ c).trans (Run.B0_main_arg10 m ρ c).symm)

end Cert.ReferenceIdeal.RefNet
-- ==== Proof.lean ====
/-
  The certificate of a small convolutional classifier computed two ways.
  The kernel program computes the whole network (three valid 5x5 convolutions with bias and rectification, a dense
  layer with bias and rectification, a dense layer with bias, the logarithm of the softmax) in one grid of eight
  points, thirty-two images each, as products with banded weight matrices built by the host: the band of layer k
  holds, at row (input column wi, input channel) and column (output column j, output channel), the tap wi - j of the
  weight matrix when j is at most wi and wi is below j + 5, and zero elsewhere. The reference program gathers the
  5x5 patches of each layer on the host and multiplies the patch matrix by the weight matrix in a grid of row blocks,
  and computes the dense head in four chunks of 4096 features accumulated in a scratch array.
  Over the extended reals both are the function Cert.Spec.net of the eleven argument arrays: a product with a zero
  entry of a band is zero for every extended real, finite sums may be regrouped and reordered freely, and a change of
  float format is the identity, so no finiteness of the inputs is used.
  The two kernel frames are the generated ones; the reference's frame is its run (Proof/RefRun.lean) with the value
  dropped; the ledger of the ideal pass is empty.
-/
import proofs.«147057_g2000302454168391_pallasbulk_317_11_alg».proof.Defs
import proofs.«147057_g2000302454168391_pallasbulk_317_11_alg».proof.Proof.Gen.Kernel
import proofs.«147057_g2000302454168391_pallasbulk_317_11_alg».proof.Proof.Gen.Kernel.Frame
import proofs.«147057_g2000302454168391_pallasbulk_317_11_alg».proof.Proof.Gen.KernelIdeal
import proofs.«147057_g2000302454168391_pallasbulk_317_11_alg».proof.Proof.Gen.KernelIdeal.Frame
import proofs.«147057_g2000302454168391_pallasbulk_317_11_alg».proof.Proof.Gen.ReferenceIdeal
import proofs.«147057_g2000302454168391_pallasbulk_317_11_alg».proof.Proof.Gen.Pre_finite_inputs
import proofs.«147057_g2000302454168391_pallasbulk_317_11_alg».proof.Proof.Spec
import proofs.«147057_g2000302454168391_pallasbulk_317_11_alg».proof.Proof.KernelRun
import proofs.«147057_g2000302454168391_pallasbulk_317_11_alg».proof.Proof.RefRun
import proofs.«147057_g2000302454168391_pallasbulk_317_11_alg».proof.Proof.RefNet
import Idealize.ShloMosaic.Adequacy
import Idealize.ShloMosaic.Init

noncomputable section

namespace Cert.Proof

open Idealize.ShloMosaic Idealize.SL.Sem

theorem frame_k : Cert.frame_Kernel :=
  fun m ρ _ => Cert.Kernel.Gen.frame m ρ

theorem frame_ki : Cert.frame_KernelIdeal :=
  fun m ρ _ => Cert.KernelIdeal.Gen.frame m ρ

/-- The reference's frame: its run with the value of the result dropped. -/
theorem frame_ri : Cert.frame_ReferenceIdeal :=
  fun m ρ _ => (θ_run (Cert.ReferenceIdeal.defs (F := Ideal)) _ _).mono (fun _ h c => (h c).2)
    (Cert.ReferenceIdeal.Run.run (F := Ideal) m ρ)

/-- Both idealized programs end with the result array at the network of the arguments. -/
theorem algebraic : Cert.algebraic_KernelIdeal_ReferenceIdeal := by
  intro m ρ m' ρ' _ hagree
  refine ⟨_, Cert.KernelIdeal.NetValue.run m ρ, ?_⟩
  refine (θ_run (Cert.ReferenceIdeal.defs (F := Ideal)) _ _).mono (fun _ h c => ⟨(h c).1.trans ?_, (h c).2⟩)
    (Cert.ReferenceIdeal.Run.run (F := Ideal) m' ρ')
  rw [Cert.ReferenceIdeal.RefNet.final m' ρ' c]
  obtain ⟨h0, h1, h2, h3, h4, h5, h6, h7, h8, h9, h10⟩ := hagree c
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
